-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x36 : Shape := ⟨2, ![20000, 36]⟩
abbrev S20000x5 : Shape := ⟨2, ![20000, 5]⟩
abbrev S20000x2048 : Shape := ⟨2, ![20000, 2048]⟩
abbrev S20000 : Shape := ⟨1, ![20000]⟩
abbrev S36x200 : Shape := ⟨2, ![36, 200]⟩
abbrev S4 : Shape := ⟨1, ![4]⟩
abbrev S128x4 : Shape := ⟨2, ![128, 4]⟩
abbrev S128 : Shape := ⟨1, ![128]⟩
abbrev S1024x2376 : Shape := ⟨2, ![1024, 2376]⟩
abbrev S1024 : Shape := ⟨1, ![1024]⟩
abbrev S37x1024 : Shape := ⟨2, ![37, 1024]⟩
abbrev S37 : Shape := ⟨1, ![37]⟩
abbrev S_ : Shape := ⟨0, ![]⟩

class Facts : Prop where
  bcast_S_S20000x36 : S_.BroadcastsInDim S20000x36 (![] : Fin 0 → Fin S20000x36.rank)
  reducesTo_S20000x36_S_d0_1 : S20000x36.ReducesTo [0, 1] S_
  h_S_ : 0 < S_.numel
  bcast_S_S20000x5 : S_.BroadcastsInDim S20000x5 (![] : Fin 0 → Fin S20000x5.rank)
  reducesTo_S20000x5_S_d0_1 : S20000x5.ReducesTo [0, 1] S_
  bcast_S_S20000x2048 : S_.BroadcastsInDim S20000x2048 (![] : Fin 0 → Fin S20000x2048.rank)
  reducesTo_S20000x2048_S_d0_1 : S20000x2048.ReducesTo [0, 1] S_
  bcast_S_S36x200 : S_.BroadcastsInDim S36x200 (![] : Fin 0 → Fin S36x200.rank)
  reducesTo_S36x200_S_d0_1 : S36x200.ReducesTo [0, 1] S_
  bcast_S_S4 : S_.BroadcastsInDim S4 (![] : Fin 0 → Fin S4.rank)
  reducesTo_S4_S_d0 : S4.ReducesTo [0] S_
  bcast_S_S128x4 : S_.BroadcastsInDim S128x4 (![] : Fin 0 → Fin S128x4.rank)
  reducesTo_S128x4_S_d0_1 : S128x4.ReducesTo [0, 1] S_
  bcast_S_S128 : S_.BroadcastsInDim S128 (![] : Fin 0 → Fin S128.rank)
  reducesTo_S128_S_d0 : S128.ReducesTo [0] S_
  bcast_S_S1024x2376 : S_.BroadcastsInDim S1024x2376 (![] : Fin 0 → Fin S1024x2376.rank)
  reducesTo_S1024x2376_S_d0_1 : S1024x2376.ReducesTo [0, 1] S_
  bcast_S_S1024 : S_.BroadcastsInDim S1024 (![] : Fin 0 → Fin S1024.rank)
  reducesTo_S1024_S_d0 : S1024.ReducesTo [0] S_
  bcast_S_S37x1024 : S_.BroadcastsInDim S37x1024 (![] : Fin 0 → Fin S37x1024.rank)
  reducesTo_S37x1024_S_d0_1 : S37x1024.ReducesTo [0, 1] S_
  bcast_S_S37 : S_.BroadcastsInDim S37 (![] : Fin 0 → Fin S37.rank)
  reducesTo_S37_S_d0 : S37.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S1024 .f32) (main_arg13 : FVec F S37x1024 .f32) (main_arg14 : FVec F S37 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg12
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S37x1024 .f32 := Host.absf main_arg13
  let main_cst_22 : FVec F S_ .f32 := constant S_ .f32 0x7F800000#32
  let main_v60 : FVec F S37x1024 .f32 := broadcastInDim S37x1024 ![] bcast_S_S37x1024 main_cst_22
  let main_v61 : IVec S37x1024 1 := cmpf .olt main_v59 main_v60
  let main_c_23 : IVec S_ 1 := constantI S_ 1 1#1
  let main_v62 : IVec S_ 1 := (fun x v => Host.reduce IntOp.andi x v reducesTo_S37x1024_S_d0_1 h_S_) main_v61 main_c_23
  let main_v63 : IVec S_ 1 := andi main_v58 main_v62
  let main_v64 : FVec F S37 .f32 := Host.absf main_arg14
  let main_cst_24 : FVec F S_ .f32 := constant S_ .f32 0x7F800000#32
  let main_v65 : FVec F S37 .f32 := broadcastInDim S37 ![] bcast_S_S37 main_cst_24
  let main_v66 : IVec S37 1 := cmpf .olt main_v64 main_v65
  let main_c_25 : IVec S_ 1 := constantI S_ 1 1#1
  let main_v67 : IVec S_ 1 := (fun x v => Host.reduce IntOp.andi x v reducesTo_S37_S_d0 h_S_) main_v66 main_c_25
  fn_part4 (F := F) main_v63 main_v67

def fn_part2 {F : FTy → Type} [FloatOps F] (main_arg8 : FVec F S128 .f32) (main_arg9 : FVec F S1024x2376 .f32) (main_arg10 : FVec F S1024 .f32) (main_arg11 : FVec F S1024 .f32) (main_arg12 : FVec F S1024 .f32) (main_arg13 : FVec F S37x1024 .f32) (main_arg14 : FVec F S37 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1024x2376 .f32 := Host.absf main_arg9
  let main_cst_14 : FVec F S_ .f32 := constant S_ .f32 0x7F800000#32
  let main_v40 : FVec F S1024x2376 .f32 := broadcastInDim S1024x2376 ![] bcast_S_S1024x2376 main_cst_14
  let main_v41 : IVec S1024x2376 1 := cmpf .olt main_v39 main_v40
  let main_c_15 : IVec S_ 1 := constantI S_ 1 1#1
  let main_v42 : IVec S_ 1 := (fun x v => Host.reduce IntOp.andi x v reducesTo_S1024x2376_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_arg12 main_arg13 main_arg14 main_v48 main_v49 main_v50

def fn_part1 {F : FTy → Type} [FloatOps F] (main_arg5 : FVec F S4 .f32) (main_arg6 : FVec F S4 .f32) (main_arg7 : FVec F S128x4 .f32) (main_arg8 : FVec F S128 .f32) (main_arg9 : FVec F S1024x2376 .f32) (main_arg10 : FVec F S1024 .f32) (main_arg11 : FVec F S1024 .f32) (main_arg12 : FVec F S1024 .f32) (main_arg13 : FVec F S37x1024 .f32) (main_arg14 : FVec F S37 .f32) (main_v13 : IVec S_ 1) (main_v16 : IVec S36x200 1) : IVec S_ 1 :=
  let main_c_5 : IVec S_ 1 := constantI S_ 1 1#1
  let main_v17 : IVec S_ 1 := (fun x v => Host.reduce IntOp.andi x v reducesTo_S36x200_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S128x4 .f32 := Host.absf main_arg7
  let main_cst_10 : FVec F S_ .f32 := constant S_ .f32 0x7F800000#32
  let main_v30 : FVec F S128x4 .f32 := broadcastInDim S128x4 ![] bcast_S_S128x4 main_cst_10
  let main_v31 : IVec S128x4 1 := cmpf .olt main_v29 main_v30
  let main_c_11 : IVec S_ 1 := constantI S_ 1 1#1
  let main_v32 : IVec S_ 1 := (fun x v => Host.reduce IntOp.andi x v reducesTo_S128x4_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S20000x36 .f32) (main_arg1 : FVec F S20000x5 .f32) (main_arg2 : FVec F S20000x2048 .f32) (main_arg3 : IVec S20000 32) (main_arg4 : FVec F S36x200 .f32) (main_arg5 : FVec F S4 .f32) (main_arg6 : FVec F S4 .f32) (main_arg7 : FVec F S128x4 .f32) (main_arg8 : FVec F S128 .f32) (main_arg9 : FVec F S1024x2376 .f32) (main_arg10 : FVec F S1024 .f32) (main_arg11 : FVec F S1024 .f32) (main_arg12 : FVec F S1024 .f32) (main_arg13 : FVec F S37x1024 .f32) (main_arg14 : FVec F S37 .f32) : IVec S_ 1 :=
  let main_v0 : FVec F S20000x36 .f32 := Host.absf main_arg0
  let main_cst : FVec F S_ .f32 := constant S_ .f32 0x7F800000#32
  let main_v1 : FVec F S20000x36 .f32 := broadcastInDim S20000x36 ![] bcast_S_S20000x36 main_cst
  let main_v2 : IVec S20000x36 1 := cmpf .olt main_v0 main_v1
  let main_c : IVec S_ 1 := constantI S_ 1 1#1
  let main_v3 : IVec S_ 1 := (fun x v => Host.reduce IntOp.andi x v reducesTo_S20000x36_S_d0_1 h_S_) main_v2 main_c
  let main_v4 : FVec F S20000x5 .f32 := Host.absf main_arg1
  let main_cst_0 : FVec F S_ .f32 := constant S_ .f32 0x7F800000#32
  let main_v5 : FVec F S20000x5 .f32 := broadcastInDim S20000x5 ![] bcast_S_S20000x5 main_cst_0
  let main_v6 : IVec S20000x5 1 := cmpf .olt main_v4 main_v5
  let main_c_1 : IVec S_ 1 := constantI S_ 1 1#1
  let main_v7 : IVec S_ 1 := (fun x v => Host.reduce IntOp.andi x v reducesTo_S20000x5_S_d0_1 h_S_) main_v6 main_c_1
  let main_v8 : IVec S_ 1 := andi main_v3 main_v7
  let main_v9 : FVec F S20000x2048 .f32 := Host.absf main_arg2
  let main_cst_2 : FVec F S_ .f32 := constant S_ .f32 0x7F800000#32
  let main_v10 : FVec F S20000x2048 .f32 := broadcastInDim S20000x2048 ![] bcast_S_S20000x2048 main_cst_2
  let main_v11 : IVec S20000x2048 1 := cmpf .olt main_v9 main_v10
  let main_c_3 : IVec S_ 1 := constantI S_ 1 1#1
  let main_v12 : IVec S_ 1 := (fun x v => Host.reduce IntOp.andi x v reducesTo_S20000x2048_S_d0_1 h_S_) main_v11 main_c_3
  let main_v13 : IVec S_ 1 := andi main_v8 main_v12
  let main_v14 : FVec F S36x200 .f32 := Host.absf main_arg4
  let main_cst_4 : FVec F S_ .f32 := constant S_ .f32 0x7F800000#32
  let main_v15 : FVec F S36x200 .f32 := broadcastInDim S36x200 ![] bcast_S_S36x200 main_cst_4
  let main_v16 : IVec S36x200 1 := cmpf .olt main_v14 main_v15
  fn_part1 (F := F) main_arg5 main_arg6 main_arg7 main_arg8 main_arg9 main_arg10 main_arg11 main_arg12 main_arg13 main_arg14 main_v13 main_v16
-- ==== Kernel.lean ====
abbrev S20000x36 : Shape := ⟨2, ![20000, 36]⟩
abbrev S20000x5 : Shape := ⟨2, ![20000, 5]⟩
abbrev S20000x2048 : Shape := ⟨2, ![20000, 2048]⟩
abbrev S20000 : Shape := ⟨1, ![20000]⟩
abbrev S36x200 : Shape := ⟨2, ![36, 200]⟩
abbrev S4 : Shape := ⟨1, ![4]⟩
abbrev S128x4 : Shape := ⟨2, ![128, 4]⟩
abbrev S128 : Shape := ⟨1, ![128]⟩
abbrev S1024x2376 : Shape := ⟨2, ![1024, 2376]⟩
abbrev S1024 : Shape := ⟨1, ![1024]⟩
abbrev S37x1024 : Shape := ⟨2, ![37, 1024]⟩
abbrev S37 : Shape := ⟨1, ![37]⟩
abbrev S625x160 : Shape := ⟨2, ![625, 160]⟩
abbrev S1x128 : Shape := ⟨2, ![1, 128]⟩
abbrev S1x4 : Shape := ⟨2, ![1, 4]⟩
abbrev S5x128 : Shape := ⟨2, ![5, 128]⟩
abbrev S625x158 : Shape := ⟨2, ![625, 158]⟩
abbrev S625x2 : Shape := ⟨2, ![625, 2]⟩
abbrev S160 : Shape := ⟨1, ![160]⟩
abbrev S1x160 : Shape := ⟨2, ![1, 160]⟩
abbrev S1x155 : Shape := ⟨2, ![1, 155]⟩
abbrev S1x5 : Shape := ⟨2, ![1, 5]⟩
abbrev S1x150 : Shape := ⟨2, ![1, 150]⟩
abbrev S1x10 : Shape := ⟨2, ![1, 10]⟩
abbrev S1x140 : Shape := ⟨2, ![1, 140]⟩
abbrev S1x20 : Shape := ⟨2, ![1, 20]⟩
abbrev S1x120 : Shape := ⟨2, ![1, 120]⟩
abbrev S1x40 : Shape := ⟨2, ![1, 40]⟩
abbrev S1x80 : Shape := ⟨2, ![1, 80]⟩
abbrev S1x2 : Shape := ⟨2, ![1, 2]⟩
abbrev S4x128 : Shape := ⟨2, ![4, 128]⟩
abbrev S1024x2048 : Shape := ⟨2, ![1024, 2048]⟩
abbrev S1024x128 : Shape := ⟨2, ![1024, 128]⟩
abbrev S1024x200 : Shape := ⟨2, ![1024, 200]⟩
abbrev S200x1024 : Shape := ⟨2, ![200, 1024]⟩
abbrev S36x1024 : Shape := ⟨2, ![36, 1024]⟩
abbrev S1x1024 : Shape := ⟨2, ![1, 1024]⟩
abbrev S20000x1024 : Shape := ⟨2, ![20000, 1024]⟩
abbrev S20x1x1024 : Shape := ⟨3, ![20, 1, 1024]⟩
abbrev S1000x5 : Shape := ⟨2, ![1000, 5]⟩
abbrev S1000x36 : Shape := ⟨2, ![1000, 36]⟩
abbrev S1000x2048 : Shape := ⟨2, ![1000, 2048]⟩
abbrev S1000x1024 : Shape := ⟨2, ![1000, 1024]⟩
abbrev S1x1x1024 : Shape := ⟨3, ![1, 1, 1024]⟩
abbrev S1000x128 : Shape := ⟨2, ![1000, 128]⟩
abbrev S1x37 : Shape := ⟨2, ![1, 37]⟩
abbrev S20000x37 : Shape := ⟨2, ![20000, 37]⟩
abbrev S2000x1024 : Shape := ⟨2, ![2000, 1024]⟩
abbrev S2000x37 : Shape := ⟨2, ![2000, 37]⟩

abbrev nBuf : Space → Nat
  | .hbm => 38
  | .vmem => 35
  | .smem => 0
  | _ => 0

abbrev bufTy : (tb : Table) → Fin (tcTables nBuf tb) → BufTy
  | .hbm, ⟨0, _⟩ => ⟨S20000x36, .f32⟩
  | .hbm, ⟨1, _⟩ => ⟨S20000x5, .f32⟩
  | .hbm, ⟨2, _⟩ => ⟨S20000x2048, .f32⟩
  | .hbm, ⟨3, _⟩ => ⟨S20000, .i32⟩
  | .hbm, ⟨4, _⟩ => ⟨S36x200, .f32⟩
  | .hbm, ⟨5, _⟩ => ⟨S4, .f32⟩
  | .hbm, ⟨6, _⟩ => ⟨S4, .f32⟩
  | .hbm, ⟨7, _⟩ => ⟨S128x4, .f32⟩
  | .hbm, ⟨8, _⟩ => ⟨S128, .f32⟩
  | .hbm, ⟨9, _⟩ => ⟨S1024x2376, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S37x1024, .f32⟩
  | .hbm, ⟨14, _⟩ => ⟨S37, .f32⟩
  | .hbm, ⟨15, _⟩ => ⟨S625x160, .f32⟩
  | .hbm, ⟨16, _⟩ => ⟨S1x128, .f32⟩
  | .hbm, ⟨17, _⟩ => ⟨S1x4, .f32⟩
  | .hbm, ⟨18, _⟩ => ⟨S1x4, .f32⟩
  | .hbm, ⟨19, _⟩ => ⟨S5x128, .f32⟩
  | .hbm, ⟨20, _⟩ => ⟨S1x128, .f32⟩
  | .hbm, ⟨21, _⟩ => ⟨S1024x2048, .f32⟩
  | .hbm, ⟨22, _⟩ => ⟨S1024x2048, .bf16⟩
  | .hbm, ⟨23, _⟩ => ⟨S1024x128, .f32⟩
  | .hbm, ⟨24, _⟩ => ⟨S1024x128, .bf16⟩
  | .hbm, ⟨25, _⟩ => ⟨S1024x200, .f32⟩
  | .hbm, ⟨26, _⟩ => ⟨S200x1024, .f32⟩
  | .hbm, ⟨27, _⟩ => ⟨S36x1024, .f32⟩
  | .hbm, ⟨28, _⟩ => ⟨S36x1024, .bf16⟩
  | .hbm, ⟨29, _⟩ => ⟨S37x1024, .bf16⟩
  | .hbm, ⟨30, _⟩ => ⟨S1x1024, .f32⟩
  | .hbm, ⟨31, _⟩ => ⟨S20000x1024, .bf16⟩
  | .hbm, ⟨32, _⟩ => ⟨S20x1x1024, .f32⟩
  | .hbm, ⟨33, _⟩ => ⟨S20x1x1024, .f32⟩
  | .hbm, ⟨34, _⟩ => ⟨S1x1024, .f32⟩
  | .hbm, ⟨35, _⟩ => ⟨S1x1024, .f32⟩
  | .hbm, ⟨36, _⟩ => ⟨S1x37, .f32⟩
  | .hbm, ⟨37, _⟩ => ⟨S20000x37, .f32⟩
  | .local _ .vmem, ⟨0, _⟩ => ⟨S625x160, .f32⟩
  | .local _ .vmem, ⟨1, _⟩ => ⟨S128x4, .f32⟩
  | .local _ .vmem, ⟨2, _⟩ => ⟨S1x128, .f32⟩
  | .local _ .vmem, ⟨3, _⟩ => ⟨S1x4, .f32⟩
  | .local _ .vmem, ⟨4, _⟩ => ⟨S1x4, .f32⟩
  | .local _ .vmem, ⟨5, _⟩ => ⟨S5x128, .f32⟩
  | .local _ .vmem, ⟨6, _⟩ => ⟨S1x128, .f32⟩
  | .local _ .vmem, ⟨7, _⟩ => ⟨S1000x5, .f32⟩
  | .local _ .vmem, ⟨8, _⟩ => ⟨S1000x5, .f32⟩
  | .local _ .vmem, ⟨9, _⟩ => ⟨S1000x36, .f32⟩
  | .local _ .vmem, ⟨10, _⟩ => ⟨S1000x36, .f32⟩
  | .local _ .vmem, ⟨11, _⟩ => ⟨S1000x2048, .f32⟩
  | .local _ .vmem, ⟨12, _⟩ => ⟨S1000x2048, .f32⟩
  | .local _ .vmem, ⟨13, _⟩ => ⟨S5x128, .f32⟩
  | .local _ .vmem, ⟨14, _⟩ => ⟨S1x128, .f32⟩
  | .local _ .vmem, ⟨15, _⟩ => ⟨S36x1024, .bf16⟩
  | .local _ .vmem, ⟨16, _⟩ => ⟨S1024x128, .bf16⟩
  | .local _ .vmem, ⟨17, _⟩ => ⟨S1024x2048, .bf16⟩
  | .local _ .vmem, ⟨18, _⟩ => ⟨S1x1024, .f32⟩
  | .local _ .vmem, ⟨19, _⟩ => ⟨S1000x1024, .bf16⟩
  | .local _ .vmem, ⟨20, _⟩ => ⟨S1000x1024, .bf16⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S2000x1024, .bf16⟩
  | .local _ .vmem, ⟨26, _⟩ => ⟨S2000x1024, .bf16⟩
  | .local _ .vmem, ⟨27, _⟩ => ⟨S20x1x1024, .f32⟩
  | .local _ .vmem, ⟨28, _⟩ => ⟨S20x1x1024, .f32⟩
  | .local _ .vmem, ⟨29, _⟩ => ⟨S1x1024, .f32⟩
  | .local _ .vmem, ⟨30, _⟩ => ⟨S1x1024, .f32⟩
  | .local _ .vmem, ⟨31, _⟩ => ⟨S37x1024, .bf16⟩
  | .local _ .vmem, ⟨32, _⟩ => ⟨S1x37, .f32⟩
  | .local _ .vmem, ⟨33, _⟩ => ⟨S2000x37, .f32⟩
  | .local _ .vmem, ⟨34, _⟩ => ⟨S2000x37, .f32⟩
  | _, _ => ⟨S20000x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg7_1 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc1_sem10_0 : DmaSem sig := 21
abbrev cc1_sem10_1 : DmaSem sig := 22
abbrev cc1_sem11_0 : DmaSem sig := 23
abbrev cc1_sem11_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem7_1 : DmaSem sig := 34

abbrev nD : Nat := 1
abbrev τ : Topo := Topo.v7x

variable {F : FTy → Type} [FloatOps F]

abbrev grid0 : Pipeline.Grid := .none

abbrev stage0_0 : Fin 1 → Memref sig .tc .vmem S625x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x36 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S5x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S36x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x1x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S20x1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S20x1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S37x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x37 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x37 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S20000x5_S625x160 : S20000x5.ShapeCasts S625x160
  bcast_S128_S1x128_1 : S128.BroadcastsInDim S1x128 (![1] : Fin 1 → Fin S1x128.rank)
  bcast_S4_S1x4_1 : S4.BroadcastsInDim S1x4 (![1] : Fin 1 → Fin S1x4.rank)
  inb_S625x160_S625x160_0_0 : ∀ a, (![0, 0] : Fin 2 → Nat) a + S625x160.size a ≤ S625x160.size a
  h_S625x160 : 0 < S625x160.numel
  shapeCasts_S625x160_S625x160 : S625x160.ShapeCasts S625x160
  slices_S625x160_o0_2_S625x158 : S625x160.Slices ![0, 2] S625x158
  slices_S625x160_o0_0_S625x2 : S625x160.Slices ![0, 0] S625x2
  concatenates_S625x158_S625x2_S625x160_d1 : Shape.Concatenates [S625x158, S625x2] S625x160 1
  reduces_S625x160_S160 : S625x160.Reduces [0] S160
  shapeCasts_S160_S1x160 : S160.ShapeCasts S1x160
  slices_S1x160_o0_5_S1x155 : S1x160.Slices ![0, 5] S1x155
  slices_S1x160_o0_0_S1x5 : S1x160.Slices ![0, 0] S1x5
  concatenates_S1x155_S1x5_S1x160_d1 : Shape.Concatenates [S1x155, S1x5] S1x160 1
  slices_S1x160_o0_10_S1x150 : S1x160.Slices ![0, 10] S1x150
  slices_S1x160_o0_0_S1x10 : S1x160.Slices ![0, 0] S1x10
  concatenates_S1x150_S1x10_S1x160_d1 : Shape.Concatenates [S1x150, S1x10] S1x160 1
  slices_S1x160_o0_20_S1x140 : S1x160.Slices ![0, 20] S1x140
  slices_S1x160_o0_0_S1x20 : S1x160.Slices ![0, 0] S1x20
  concatenates_S1x140_S1x20_S1x160_d1 : Shape.Concatenates [S1x140, S1x20] S1x160 1
  slices_S1x160_o0_40_S1x120 : S1x160.Slices ![0, 40] S1x120
  slices_S1x160_o0_0_S1x40 : S1x160.Slices ![0, 0] S1x40
  concatenates_S1x120_S1x40_S1x160_d1 : Shape.Concatenates [S1x120, S1x40] S1x160 1
  slices_S1x160_o0_80_S1x80 : S1x160.Slices ![0, 80] S1x80
  slices_S1x160_o0_0_S1x80 : S1x160.Slices ![0, 0] S1x80
  concatenates_S1x80_S1x80_S1x160_d1 : Shape.Concatenates [S1x80, S1x80] S1x160 1
  slices_S1x160_o0_1_S1x2 : S1x160.Slices ![0, 1] S1x2
  concatenates_S1x2_S1x2_S1x4_d1 : Shape.Concatenates [S1x2, S1x2] S1x4 1
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S128x4_S128x4_0_0 : ∀ a, (![0, 0] : Fin 2 → Nat) a + S128x4.size a ≤ S128x4.size a
  h_S128x4 : 0 < S128x4.numel
  broadcasts_S1x4_S128x4 : S1x4.Broadcasts S128x4
  transposes_S128x4_p1_0_S4x128 : S128x4.Transposes [1, 0] S4x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S128x4_S128 : S128x4.Reduces [1] S128
  shapeCasts_S128_S1x128 : S128.ShapeCasts S1x128
  slices_S4x128_o0_0_S1x128 : S4x128.Slices ![0, 0] S1x128
  slices_S4x128_o2_0_S1x128 : S4x128.Slices ![2, 0] S1x128
  slices_S4x128_o1_0_S1x128 : S4x128.Slices ![1, 0] S1x128
  slices_S4x128_o3_0_S1x128 : S4x128.Slices ![3, 0] S1x128
  concatenates_S1x128_S1x128_S1x128_S1x128_S1x128_S5x128_d0 : Shape.Concatenates [S1x128, S1x128, S1x128, S1x128, S1x128] S5x128 0
  inb_S5x128_S5x128_0_0 : ∀ a, (![0, 0] : Fin 2 → Nat) a + S5x128.size a ≤ S5x128.size a
  h_S5x128 : 0 < S5x128.numel
  slices_S1024x2376_S1024x2048_0_0 : S1024x2376.Slices ![0, 0] S1024x2048
  bitsLt_bf16_f32 : FTy.bits .bf16 < FTy.bits .f32
  slices_S1024x2376_S1024x128_0_2248 : S1024x2376.Slices ![0, 2248] S1024x128
  slices_S1024x2376_S1024x200_0_2048 : S1024x2376.Slices ![0, 2048] S1024x200
  transposes_S1024x200_S200x1024_1_0 : S1024x200.Transposes [1, 0] S200x1024
  bcast_S1024_S1x1024_1 : S1024.BroadcastsInDim S1x1024 (![1] : Fin 1 → Fin S1x1024.rank)
  inb_S1000x5_S1000x5_0_0 : ∀ a, (![0, 0] : Fin 2 → Nat) a + S1000x5.size a ≤ S1000x5.size a
  h_S1000x5 : 0 < S1000x5.numel
  shapeCasts_S5x128_S5x128 : S5x128.ShapeCasts S5x128
  broadcasts_S1x128_S1000x128 : S1x128.Broadcasts S1000x128
  inb_S1000x2048_S1000x2048_0_0 : ∀ a, (![0, 0] : Fin 2 → Nat) a + S1000x2048.size a ≤ S1000x2048.size a
  h_S1000x2048 : 0 < S1000x2048.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1000x36_S1000x36_0_0 : ∀ a, (![0, 0] : Fin 2 → Nat) a + S1000x36.size a ≤ S1000x36.size a
  h_S1000x36 : 0 < S1000x36.numel
  inb_S36x1024_S36x1024_0_0 : ∀ a, (![0, 0] : Fin 2 → Nat) a + S36x1024.size a ≤ S36x1024.size a
  h_S36x1024 : 0 < S36x1024.numel
  shapeCasts_S36x1024_S36x1024 : S36x1024.ShapeCasts S36x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  packedbf16_S1000x1024_S1000x1024_0_0 : (Rect.unit (s := S1000x1024) ![0, 0] S1000x1024.size inb_S1000x1024_S1000x1024_0_0).PackedRows (EltTy.packing .bf16)
  reduces_S1000x1024_S1024 : S1000x1024.Reduces [0] S1024
  shapeCasts_S1024_S1x1024 : S1024.ShapeCasts S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  bcast_S37_S1x37_1 : S37.BroadcastsInDim S1x37 (![1] : Fin 1 → Fin S1x37.rank)
  inb_S20x1x1024_S20x1x1024_0_0_0 : ∀ a, (![0, 0, 0] : Fin 3 → Nat) a + S20x1x1024.size a ≤ S20x1x1024.size a
  h_S20x1x1024 : 0 < S20x1x1024.numel
  shapeCasts_S20x1x1024_S20x1x1024 : S20x1x1024.ShapeCasts S20x1x1024
  reduces_S20x1x1024_S1x1024 : S20x1x1024.Reduces [0] S1x1024
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  broadcasts_S1x1024_S2000x1024 : S1x1024.Broadcasts S2000x1024
  inb_S37x1024_S37x1024_0_0 : ∀ a, (![0, 0] : Fin 2 → Nat) a + S37x1024.size a ≤ S37x1024.size a
  h_S37x1024 : 0 < S37x1024.numel
  shapeCasts_S37x1024_S37x1024 : S37x1024.ShapeCasts S37x1024
  inb_S1x37_S1x37_0_0 : ∀ a, (![0, 0] : Fin 2 → Nat) a + S1x37.size a ≤ S1x37.size a
  h_S1x37 : 0 < S1x37.numel
  shapeCasts_S1x37_S1x37 : S1x37.ShapeCasts S1x37
  broadcasts_S1x37_S2000x37 : S1x37.Broadcasts S2000x37
  inb_S2000x37_S2000x37_0_0 : ∀ a, (![0, 0] : Fin 2 → Nat) a + S2000x37.size a ≤ S2000x37.size a
  h_S2000x37 : 0 < S2000x37.numel
  dot_S36x200_S200x1024_S36x1024_1_0_0_1_n_n_wf : DotDims.WF S36x200 S200x1024 S36x1024 [1] [0] [0] [1] [] []
  dot_S1000x5_S5x128_S1000x128_1_0_0_1_n_n_wf : DotDims.WF S1000x5 S5x128 S1000x128 [1] [0] [0] [1] [] []
  dot_S1000x2048_S1024x2048_S1000x1024_1_1_0_0_n_n_wf : DotDims.WF S1000x2048 S1024x2048 S1000x1024 [1] [1] [0] [0] [] []
  dot_S1000x36_S36x1024_S1000x1024_1_0_0_1_n_n_wf : DotDims.WF S1000x36 S36x1024 S1000x1024 [1] [0] [0] [1] [] []
  dot_S1000x128_S1024x128_S1000x1024_1_1_0_0_n_n_wf : DotDims.WF S1000x128 S1024x128 S1000x1024 [1] [1] [0] [0] [] []
  dot_S2000x1024_S37x1024_S2000x37_1_1_0_0_n_n_wf : DotDims.WF S2000x1024 S37x1024 S2000x37 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x5.size a ≤ S20000x5.size a
  hwx1_0 : ∀ i : grid1.Coords, EltTy.bits .f32 = 32 ∨ (Rect.block (s := S20000x5) S1000x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x36.size a ≤ S20000x36.size a
  hwx1_1 : ∀ i : grid1.Coords, EltTy.bits .f32 = 32 ∨ (Rect.block (s := S20000x36) S1000x36.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x2048.size a ≤ S20000x2048.size a
  hwx1_2 : ∀ i : grid1.Coords, EltTy.bits .f32 = 32 ∨ (Rect.block (s := S20000x2048) S1000x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x128.size a ≤ S5x128.size a
  hwx1_3 : ∀ i : grid1.Coords, EltTy.bits .f32 = 32 ∨ (Rect.block (s := S5x128) S5x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S36x1024.size a ≤ S36x1024.size a
  hwx1_5 : ∀ i : grid1.Coords, EltTy.bits .bf16 = 32 ∨ (Rect.block (s := S36x1024) S36x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S1024x128.size a
  hwx1_6 : ∀ i : grid1.Coords, EltTy.bits .bf16 = 32 ∨ (Rect.block (s := S1024x128) S1024x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x2048.size a ≤ S1024x2048.size a
  hwx1_7 : ∀ i : grid1.Coords, EltTy.bits .bf16 = 32 ∨ (Rect.block (s := S1024x2048) S1024x2048.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x1024.size a
  hwx1_8 : ∀ i : grid1.Coords, EltTy.bits .f32 = 32 ∨ (Rect.block (s := S1x1024) S1x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x1024.size a ≤ S20000x1024.size a
  hwx1_9 : ∀ i : grid1.Coords, EltTy.bits .bf16 = 32 ∨ (Rect.block (s := S20000x1024) S1000x1024.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x1024.size a ≤ S20x1x1024.size a
  hwx1_10 : ∀ i : grid1.Coords, EltTy.bits .f32 = 32 ∨ (Rect.block (s := S20x1x1024) S1x1x1024.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x1x1024.size a ≤ S20x1x1024.size a
  hwx1_11 : ∀ i : grid1.Coords, EltTy.bits .f32 = 32 ∨ (Rect.block (s := S20x1x1024) S1x1x1024.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1024.size a ≤ S20000x1024.size a
  hwx2_0 : ∀ i : grid2.Coords, EltTy.bits .bf16 = 32 ∨ (Rect.block (s := S20000x1024) S2000x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S20x1x1024.size a ≤ S20x1x1024.size a
  hwx2_1 : ∀ i : grid2.Coords, EltTy.bits .f32 = 32 ∨ (Rect.block (s := S20x1x1024) S20x1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S20x1x1024.size a ≤ S20x1x1024.size a
  hwx2_2 : ∀ i : grid2.Coords, EltTy.bits .f32 = 32 ∨ (Rect.block (s := S20x1x1024) S20x1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S37x1024.size a ≤ S37x1024.size a
  hwx2_5 : ∀ i : grid2.Coords, EltTy.bits .bf16 = 32 ∨ (Rect.block (s := S37x1024) S37x1024.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x37.size a ≤ S1x37.size a
  hwx2_6 : ∀ i : grid2.Coords, EltTy.bits .f32 = 32 ∨ (Rect.block (s := S1x37) S1x37.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x37.size a ≤ S20000x37.size a
  hwx2_7 : ∀ i : grid2.Coords, EltTy.bits .f32 = 32 ∨ (Rect.block (s := S20000x37) S2000x37.size (cc2_transform_7 i) (hinb2_7 i)).WholeWords (EltTy.packing .f32)

variable [Facts₀]

def dot_S36x200_S200x1024_S36x1024_1_0_0_1_n_n : DotDims S36x200 S200x1024 S36x1024 where
  lhsContracting := [1]
  rhsContracting := [0]
  lhsNonContracting := [0]
  rhsNonContracting := [1]
  lhsBatch := []
  rhsBatch := []
  wf := dot_S36x200_S200x1024_S36x1024_1_0_0_1_n_n_wf
def dot_S1000x5_S5x128_S1000x128_1_0_0_1_n_n : DotDims S1000x5 S5x128 S1000x128 where
  lhsContracting := [1]
  rhsContracting := [0]
  lhsNonContracting := [0]
  rhsNonContracting := [1]
  lhsBatch := []
  rhsBatch := []
  wf := dot_S1000x5_S5x128_S1000x128_1_0_0_1_n_n_wf
def dot_S1000x2048_S1024x2048_S1000x1024_1_1_0_0_n_n : DotDims S1000x2048 S1024x2048 S1000x1024 where
  lhsContracting := [1]
  rhsContracting := [1]
  lhsNonContracting := [0]
  rhsNonContracting := [0]
  lhsBatch := []
  rhsBatch := []
  wf := dot_S1000x2048_S1024x2048_S1000x1024_1_1_0_0_n_n_wf
def dot_S1000x36_S36x1024_S1000x1024_1_0_0_1_n_n : DotDims S1000x36 S36x1024 S1000x1024 where
  lhsContracting := [1]
  rhsContracting := [0]
  lhsNonContracting := [0]
  rhsNonContracting := [1]
  lhsBatch := []
  rhsBatch := []
  wf := dot_S1000x36_S36x1024_S1000x1024_1_0_0_1_n_n_wf
def dot_S1000x128_S1024x128_S1000x1024_1_1_0_0_n_n : DotDims S1000x128 S1024x128 S1000x1024 where
  lhsContracting := [1]
  rhsContracting := [1]
  lhsNonContracting := [0]
  rhsNonContracting := [0]
  lhsBatch := []
  rhsBatch := []
  wf := dot_S1000x128_S1024x128_S1000x1024_1_1_0_0_n_n_wf
def dot_S2000x1024_S37x1024_S2000x37_1_1_0_0_n_n : DotDims S2000x1024 S37x1024 S2000x37 where
  lhsContracting := [1]
  rhsContracting := [1]
  lhsNonContracting := [0]
  rhsNonContracting := [0]
  lhsBatch := []
  rhsBatch := []
  wf := dot_S2000x1024_S37x1024_S2000x37_1_1_0_0_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg7) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v2) false false (stage0_3 0) (sem0_3 0) (Memref.isWhole_whole _) (hstage0_3 0)

abbrev win0_4 : Pipeline.Window sig grid0 :=
  Pipeline.Window.whole (Memref.whole main_v3) false false (stage0_4 0) (sem0_4 0) (Memref.isWhole_whole _) (hstage0_4 0)

abbrev win0_5 : Pipeline.Window sig grid0 :=
  Pipeline.Window.whole (Memref.whole main_v4_0) true false (stage0_5 0) (sem0_5 0) (Memref.isWhole_whole _) (hstage0_5 0)

abbrev win0_6 : Pipeline.Window sig grid0 :=
  Pipeline.Window.whole (Memref.whole main_v4_1) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S1000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x36.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1000x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S5x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S36x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1024x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S1024x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14) S1x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15_0) S1000x1024.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v15_1) S1x1x1024.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v15_2) S1x1x1024.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v15_0) S2000x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15_1) S20x1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15_2) S20x1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S37x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v18) S1x37.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v19) S2000x37.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S20000x36 : Shape := ⟨2, ![20000, 36]⟩
abbrev S20000x5 : Shape := ⟨2, ![20000, 5]⟩
abbrev S20000x2048 : Shape := ⟨2, ![20000, 2048]⟩
abbrev S20000 : Shape := ⟨1, ![20000]⟩
abbrev S36x200 : Shape := ⟨2, ![36, 200]⟩
abbrev S4 : Shape := ⟨1, ![4]⟩
abbrev S128x4 : Shape := ⟨2, ![128, 4]⟩
abbrev S128 : Shape := ⟨1, ![128]⟩
abbrev S1024x2376 : Shape := ⟨2, ![1024, 2376]⟩
abbrev S1024 : Shape := ⟨1, ![1024]⟩
abbrev S37x1024 : Shape := ⟨2, ![37, 1024]⟩
abbrev S37 : Shape := ⟨1, ![37]⟩
abbrev S20000x200 : Shape := ⟨2, ![20000, 200]⟩
abbrev S20000x4 : Shape := ⟨2, ![20000, 4]⟩
abbrev S20000x2 : Shape := ⟨2, ![20000, 2]⟩
abbrev S_ : Shape := ⟨0, ![]⟩
abbrev S1x4 : Shape := ⟨2, ![1, 4]⟩
abbrev S4x128 : Shape := ⟨2, ![4, 128]⟩
abbrev S20000x128 : Shape := ⟨2, ![20000, 128]⟩
abbrev S1x128 : Shape := ⟨2, ![1, 128]⟩
abbrev S20000x2376 : Shape := ⟨2, ![20000, 2376]⟩
abbrev S2376x1024 : Shape := ⟨2, ![2376, 1024]⟩
abbrev S20000x1024 : Shape := ⟨2, ![20000, 1024]⟩
abbrev S1x1024 : Shape := ⟨2, ![1, 1024]⟩
abbrev S1024x37 : Shape := ⟨2, ![1024, 37]⟩
abbrev S20000x37 : Shape := ⟨2, ![20000, 37]⟩
abbrev S1x37 : Shape := ⟨2, ![1, 37]⟩

abbrev nBuf : Space → Nat
  | .hbm => 139
  | .vmem => 0
  | .smem => 0
  | _ => 0

abbrev hbmTy0_0 (i : Nat) : BufTy := match i % 128 with
  | 0 => ⟨S20000x36, .f32⟩
  | 1 => ⟨S20000x5, .f32⟩
  | 2 => ⟨S20000x2048, .f32⟩
  | 3 => ⟨S20000, .i32⟩
  | 4 => ⟨S36x200, .f32⟩
  | 5 => ⟨S4, .f32⟩
  | 6 => ⟨S4, .f32⟩
  | 7 => ⟨S128x4, .f32⟩
  | 8 => ⟨S128, .f32⟩
  | 9 => ⟨S1024x2376, .f32⟩
  | 10 => ⟨S1024, .f32⟩
  | 11 => ⟨S1024, .f32⟩
  | 12 => ⟨S1024, .f32⟩
  | 13 => ⟨S37x1024, .f32⟩
  | 14 => ⟨S37, .f32⟩
  | 15 => ⟨S20000x200, .f32⟩
  | 16 => ⟨S20000x4, .f32⟩
  | 17 => ⟨S20000x2, .f32⟩
  | 18 => ⟨S20000x2, .f32⟩
  | 19 => ⟨S20000x2, .f32⟩
  | 20 => ⟨S_, .f32⟩
  | 21 => ⟨S20000x2, .f32⟩
  | 22 => ⟨S20000x2, .f32⟩
  | 23 => ⟨S20000x2, .f32⟩
  | 24 => ⟨S_, .f32⟩
  | 25 => ⟨S20000x2, .f32⟩
  | 26 => ⟨S20000x2, .f32⟩
  | 27 => ⟨S20000x2, .f32⟩
  | 28 => ⟨S20000x4, .f32⟩
  | 29 => ⟨S_, .f32⟩
  | 30 => ⟨S4, .f32⟩
  | 31 => ⟨S_, .f32⟩
  | 32 => ⟨S4, .f32⟩
  | 33 => ⟨S4, .f32⟩
  | 34 => ⟨S_, .i32⟩
  | 35 => ⟨S_, .f32⟩
  | 36 => ⟨S4, .f32⟩
  | 37 => ⟨S1x4, .f32⟩
  | 38 => ⟨S_, .f32⟩
  | 39 => ⟨S1x4, .f32⟩
  | 40 => ⟨S1x4, .f32⟩
  | 41 => ⟨S20000x4, .f32⟩
  | 42 => ⟨S20000x4, .f32⟩
  | 43 => ⟨S20000x4, .f32⟩
  | 44 => ⟨S_, .f32⟩
  | 45 => ⟨S_, .f32⟩
  | 46 => ⟨S_, .f32⟩
  | 47 => ⟨S_, .f32⟩
  | 48 => ⟨S4, .f32⟩
  | 49 => ⟨S4, .f32⟩
  | 50 => ⟨S4, .f32⟩
  | 51 => ⟨S_, .f32⟩
  | 52 => ⟨S_, .i1⟩
  | 53 => ⟨S_, .f32⟩
  | 54 => ⟨S_, .f32⟩
  | 55 => ⟨S4, .f32⟩
  | 56 => ⟨S4, .f32⟩
  | 57 => ⟨S1x4, .f32⟩
  | 58 => ⟨S20000x4, .f32⟩
  | 59 => ⟨S20000x4, .f32⟩
  | 60 => ⟨S_, .f32⟩
  | 61 => ⟨S4, .f32⟩
  | 62 => ⟨S4, .f32⟩
  | 63 => ⟨S4, .f32⟩
  | 64 => ⟨S1x4, .f32⟩
  | 65 => ⟨S20000x4, .f32⟩
  | 66 => ⟨S20000x4, .f32⟩
  | 67 => ⟨S1x4, .f32⟩
  | 68 => ⟨S20000x4, .f32⟩
  | 69 => ⟨S20000x4, .f32⟩
  | 70 => ⟨S1x4, .f32⟩
  | 71 => ⟨S20000x4, .f32⟩
  | 72 => ⟨S20000x4, .f32⟩
  | 73 => ⟨S4x128, .f32⟩
  | 74 => ⟨S20000x128, .f32⟩
  | 75 => ⟨S1x128, .f32⟩
  | 76 => ⟨S20000x128, .f32⟩
  | 77 => ⟨S20000x128, .f32⟩
  | 78 => ⟨S_, .f32⟩
  | 79 => ⟨S20000x128, .f32⟩
  | 80 => ⟨S20000x128, .f32⟩
  | 81 => ⟨S20000x2376, .f32⟩
  | 82 => ⟨S2376x1024, .f32⟩
  | 83 => ⟨S20000x1024, .f32⟩
  | 84 => ⟨S1x1024, .f32⟩
  | 85 => ⟨S20000x1024, .f32⟩
  | 86 => ⟨S20000x1024, .f32⟩
  | 87 => ⟨S_, .f32⟩
  | 88 => ⟨S1024, .f32⟩
  | 89 => ⟨S_, .f32⟩
  | 90 => ⟨S1024, .f32⟩
  | 91 => ⟨S1024, .f32⟩
  | 92 => ⟨S_, .i32⟩
  | 93 => ⟨S_, .f32⟩
  | 94 => ⟨S1024, .f32⟩
  | 95 => ⟨S1x1024, .f32⟩
  | 96 => ⟨S_, .f32⟩
  | 97 => ⟨S1x1024, .f32⟩
  | 98 => ⟨S1x1024, .f32⟩
  | 99 => ⟨S20000x1024, .f32⟩
  | 100 => ⟨S20000x1024, .f32⟩
  | 101 => ⟨S20000x1024, .f32⟩
  | 102 => ⟨S_, .f32⟩
  | 103 => ⟨S_, .f32⟩
  | 104 => ⟨S_, .f32⟩
  | 105 => ⟨S_, .f32⟩
  | 106 => ⟨S1024, .f32⟩
  | 107 => ⟨S1024, .f32⟩
  | 108 => ⟨S1024, .f32⟩
  | 109 => ⟨S_, .f32⟩
  | 110 => ⟨S_, .i1⟩
  | 111 => ⟨S_, .f32⟩
  | 112 => ⟨S_, .f32⟩
  | 113 => ⟨S1024, .f32⟩
  | 114 => ⟨S1024, .f32⟩
  | 115 => ⟨S1x1024, .f32⟩
  | 116 => ⟨S20000x1024, .f32⟩
  | 117 => ⟨S20000x1024, .f32⟩
  | 118 => ⟨S_, .f32⟩
  | 119 => ⟨S1024, .f32⟩
  | 120 => ⟨S1024, .f32⟩
  | 121 => ⟨S1024, .f32⟩
  | 122 => ⟨S1x1024, .f32⟩
  | 123 => ⟨S20000x1024, .f32⟩
  | 124 => ⟨S20000x1024, .f32⟩
  | 125 => ⟨S1x1024, .f32⟩
  | 126 => ⟨S20000x1024, .f32⟩
  | 127 => ⟨S20000x1024, .f32⟩
  | _ => ⟨S20000x36, .f32⟩

abbrev hbmTy0_1 (i : Nat) : BufTy := match i % 128 with
  | 0 => ⟨S1x1024, .f32⟩
  | 1 => ⟨S20000x1024, .f32⟩
  | 2 => ⟨S20000x1024, .f32⟩
  | 3 => ⟨S_, .f32⟩
  | 4 => ⟨S20000x1024, .f32⟩
  | 5 => ⟨S20000x1024, .f32⟩
  | 6 => ⟨S1024x37, .f32⟩
  | 7 => ⟨S20000x37, .f32⟩
  | 8 => ⟨S1x37, .f32⟩
  | 9 => ⟨S20000x37, .f32⟩
  | 10 => ⟨S20000x37, .f32⟩
  | _ => ⟨S20000x36, .f32⟩

abbrev hbmTy (i : Nat) : BufTy := match i / 128 with
  | 0 => hbmTy0_0 i
  | 1 => hbmTy0_1 i
  | _ => ⟨S20000x36, .f32⟩

abbrev bufTy : (tb : Table) → Fin (tcTables nBuf tb) → BufTy
  | .hbm, ⟨i, _⟩ => hbmTy i
  | _, _ => ⟨S20000x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_cst_3 : Ref sig .tc := ⟨.hbm, 51, rfl⟩
abbrev main_call0_v12 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_cst_3 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_call1_cst : Ref sig .tc := ⟨.hbm, 78, rfl⟩
abbrev main_call1_v0 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_4 : Ref sig .tc := ⟨.hbm, 87, rfl⟩
abbrev main_v43 : Ref sig .tc := ⟨.hbm, 88, rfl⟩
abbrev main_cst_5 : Ref sig .tc := ⟨.hbm, 89, rfl⟩
abbrev main_v44 : Ref sig .tc := ⟨.hbm, 90, rfl⟩
abbrev main_v45 : Ref sig .tc := ⟨.hbm, 91, rfl⟩
abbrev main_c_6 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_cst_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_cst_1 : Ref sig .tc := ⟨.hbm, 103, rfl⟩
abbrev main_call2_v8 : Ref sig .tc := ⟨.hbm, 104, rfl⟩
abbrev main_call2_cst_2 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_cst_3 : Ref sig .tc := ⟨.hbm, 109, rfl⟩
abbrev main_call2_v12 : Ref sig .tc := ⟨.hbm, 110, rfl⟩
abbrev main_call2_cst_4 : Ref sig .tc := ⟨.hbm, 111, rfl⟩
abbrev main_call2_call0_v0 : Ref sig .tc := ⟨.hbm, 112, rfl⟩
abbrev main_call2_call0_v1 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_cst_7 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_call3_cst : Ref sig .tc := ⟨.hbm, 131, rfl⟩
abbrev main_call3_v0 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩

abbrev nD : Nat := 1
abbrev τ : Topo := Topo.v7x

variable {F : FTy → Type} [FloatOps F]

class Facts₀ : Prop where
  slices_S20000x5_S20000x4_0_1 : S20000x5.Slices ![0, 1] S20000x4
  slices_S20000x4_S20000x2_0_2 : S20000x4.Slices ![0, 2] S20000x2
  slices_S20000x4_S20000x2_0_0 : S20000x4.Slices ![0, 0] S20000x2
  bcast_S_S20000x2 : S_.BroadcastsInDim S20000x2 (![] : Fin 0 → Fin S20000x2.rank)
  concatenates_S20000x2_S20000x2_S20000x4_d1 : Shape.Concatenates [S20000x2, S20000x2] S20000x4 1
  reducesTo_S20000x4_S4_d0 : S20000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S_S1x4 : S_.BroadcastsInDim S1x4 (![] : Fin 0 → Fin S1x4.rank)
  bcast_S1x4_S20000x4_0_1 : S1x4.BroadcastsInDim S20000x4 (![0, 1] : Fin 2 → Fin S20000x4.rank)
  transposes_S128x4_S4x128_1_0 : S128x4.Transposes [1, 0] S4x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  concatenates_S20000x2048_S20000x200_S20000x128_S20000x2376_d1 : Shape.Concatenates [S20000x2048, S20000x200, S20000x128] S20000x2376 1
  transposes_S1024x2376_S2376x1024_1_0 : S1024x2376.Transposes [1, 0] S2376x1024
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  reducesTo_S20000x1024_S1024_d0 : S20000x1024.ReducesTo [0] S1024
  bcast_S_S1024 : S_.BroadcastsInDim S1024 (![] : Fin 0 → Fin S1024.rank)
  bcast_S_S1x1024 : S_.BroadcastsInDim S1x1024 (![] : Fin 0 → Fin S1x1024.rank)
  bcast_S_S20000x1024 : S_.BroadcastsInDim S20000x1024 (![] : Fin 0 → Fin S20000x1024.rank)
  transposes_S37x1024_S1024x37_1_0 : S37x1024.Transposes [1, 0] S1024x37
  bcast_S37_S1x37_1 : S37.BroadcastsInDim S1x37 (![1] : Fin 1 → Fin S1x37.rank)
  bcast_S1x37_S20000x37_0_1 : S1x37.BroadcastsInDim S20000x37 (![0, 1] : Fin 2 → Fin S20000x37.rank)
  dot_S20000x36_S36x200_S20000x200_1_0_0_1_n_n_wf : DotDims.WF S20000x36 S36x200 S20000x200 [1] [0] [0] [1] [] []
  dot_S20000x4_S4x128_S20000x128_1_0_0_1_n_n_wf : DotDims.WF S20000x4 S4x128 S20000x128 [1] [0] [0] [1] [] []
  dot_S20000x2376_S2376x1024_S20000x1024_1_0_0_1_n_n_wf : DotDims.WF S20000x2376 S2376x1024 S20000x1024 [1] [0] [0] [1] [] []
  dot_S20000x1024_S1024x37_S20000x37_1_0_0_1_n_n_wf : DotDims.WF S20000x1024 S1024x37 S20000x37 [1] [0] [0] [1] [] []

variable [Facts₀]

def dot_S20000x36_S36x200_S20000x200_1_0_0_1_n_n : DotDims S20000x36 S36x200 S20000x200 where
  lhsContracting := [1]
  rhsContracting := [0]
  lhsNonContracting := [0]
  rhsNonContracting := [1]
  lhsBatch := []
  rhsBatch := []
  wf := dot_S20000x36_S36x200_S20000x200_1_0_0_1_n_n_wf
def dot_S20000x4_S4x128_S20000x128_1_0_0_1_n_n : DotDims S20000x4 S4x128 S20000x128 where
  lhsContracting := [1]
  rhsContracting := [0]
  lhsNonContracting := [0]
  rhsNonContracting := [1]
  lhsBatch := []
  rhsBatch := []
  wf := dot_S20000x4_S4x128_S20000x128_1_0_0_1_n_n_wf
def dot_S20000x2376_S2376x1024_S20000x1024_1_0_0_1_n_n : DotDims S20000x2376 S2376x1024 S20000x1024 where
  lhsContracting := [1]
  rhsContracting := [0]
  lhsNonContracting := [0]
  rhsNonContracting := [1]
  lhsBatch := []
  rhsBatch := []
  wf := dot_S20000x2376_S2376x1024_S20000x1024_1_0_0_1_n_n_wf
def dot_S20000x1024_S1024x37_S20000x37_1_0_0_1_n_n : DotDims S20000x1024 S1024x37 S20000x37 where
  lhsContracting := [1]
  rhsContracting := [0]
  lhsNonContracting := [0]
  rhsNonContracting := [1]
  lhsBatch := []
  rhsBatch := []
  wf := dot_S20000x1024_S1024x37_S20000x37_1_0_0_1_n_n_wf

class Facts : Prop extends Facts₀ where

variable [Facts]
-- ==== Proof.KRun.lean ====
/-
  The idealized kernel program's run with its result named: every weakly fair execution of @main terminates without a
  fault, the argument arrays end as launched, and the result buffer ends at the contents the last region's
  write-backs leave (the last boundary's valuation at that buffer).
-/
import proofs.«144968_g33105607918058_cont_8to1_b_384_44_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's six segments, the last thread state read against the final state; the
    result buffer is among the unscoped buffers that state holds at the last boundary's contents. -/
theorem run : θ_run defs (onTc (τ := τ) (main (F := F))) ⟨m, fun _ => 0, ρ⟩ (fun r => ∀ c : Dev nD,
      r.2.mem ((c.tc : Thread nD τ).loc main_v19) = W6 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v19 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.KRun

end
-- ==== Proof.Spec.lean ====
/-
  The two formulas this certificate joins, written once over plain families of extended reals indexed by
  literal `Fin` types, so that no program is imported here.

  An object classifier's training forward path on N = 20000 boxes:
    cs      = center_size(boxes[:, 1:])                      (centre x, y and width, height of each box)
    pos     = relu(batchnorm(cs) · posWᵀ + posb)
    z       = [feat | dist · objw | pos] · W1ᵀ + b1
    out     = relu(batchnorm(z)) · W2ᵀ + b2
  with batchnorm taken over the 20000 rows (mean and biased variance of each column).

  `R.*` spells the formula as the reference computes it: variance as the mean of squared deviations, the
  normalisation as a quotient by a square root, one product over the concatenated 2376 columns.
  `K.*` spells it as the kernel computes it: variance as mean of squares minus squared mean, the
  normalisation as a product with a reciprocal square root folded, for the box branch, into a 5 x 128 matrix
  and a bias row acting on the raw box coordinates; the 2376 columns split into three products, the
  middle one re-associated through a 36 x 1024 matrix; the column sums of z taken block by block over 20
  blocks of 1000 rows.
-/
import Idealize.ShloMosaic.PureOps.Ideal
import Idealize.ShloMosaic.Lib.ValueIdx

noncomputable section

open scoped BigOperators
open Idealize.ShloMosaic

namespace Cert.Spec

/-- The number of rows, 20000, as the f32 word both programs divide by. -/
abbrev cN : EReal := Ideal.ofBits .f32 0x469C4000#32
/-- The batchnorm epsilon, the f32 nearest 1e-5, the same word in both programs. -/
abbrev cEps : EReal := Ideal.ofBits .f32 0x3727C5AC#32
/-- One half. -/
abbrev cHalf : EReal := Ideal.ofBits .f32 0x3F000000#32
/-- One. -/
abbrev cOne : EReal := Ideal.ofBits .f32 0x3F800000#32

/-- Column 1 + k of a box row: the low corner's coordinate k (k = 0 for x, 1 for y). -/
abbrev lo (k : Fin 2) : Fin 5 := ⟨k.val + 1, by omega⟩
/-- Column 3 + k of a box row: the high corner's coordinate k. -/
abbrev hi (k : Fin 2) : Fin 5 := ⟨k.val + 3, by omega⟩
/-- Column 2048 + e of W1: the columns that meet the object embedding. -/
abbrev colObj (e : Fin 200) : Fin 2376 := ⟨2048 + e.val, by omega⟩
/-- Column 2248 + j of W1: the columns that meet the position embedding. -/
abbrev colPos (j : Fin 128) : Fin 2376 := ⟨2248 + j.val, by omega⟩
/-- Column q < 2048 of W1: the columns that meet the visual features. -/
abbrev colFeat (q : Fin 2048) : Fin 2376 := ⟨q.val, by omega⟩
/-- Row 1000 * b + r of the 20000: row r of block b. -/
abbrev rowOf (b : Fin 20) (r : Fin 1000) : Fin 20000 := ⟨1000 * b.val + r.val, by omega⟩

section
variable (dist : Fin 20000 → Fin 36 → EReal) (boxes : Fin 20000 → Fin 5 → EReal) (feat : Fin 20000 → Fin 2048 → EReal)
  (objw : Fin 36 → Fin 200 → EReal) (g4 be4 : Fin 4 → EReal) (posW : Fin 128 → Fin 4 → EReal) (posb : Fin 128 → EReal)
  (W1 : Fin 1024 → Fin 2376 → EReal) (b1 g2 be2 : Fin 1024 → EReal) (W2 : Fin 37 → Fin 1024 → EReal) (b2 : Fin 37 → EReal)

/-! ## What both sides share: the centre-size features and their column means -/

/-- Width (k = 0) or height (k = 1) of box n: high minus low plus one. -/
def wh (n : Fin 20000) (k : Fin 2) : EReal := (boxes n (hi k) - boxes n (lo k)) + cOne
/-- Centre coordinate k of box n: low corner plus half the extent. -/
def ctr (n : Fin 20000) (k : Fin 2) : EReal := boxes n (lo k) + cHalf * wh boxes n k
/-- The four centre-size features of box n: (centre x, centre y, width, height). -/
def cs (n : Fin 20000) (k : Fin 4) : EReal :=
  if h : k.val < 2 then ctr boxes n ⟨k.val, h⟩ else wh boxes n ⟨k.val - 2, by omega⟩
/-- The mean of feature k over the 20000 boxes. -/
def mu4 (k : Fin 4) : EReal := Ideal.div (∑ n : Fin 20000, cs boxes n k) cN

/-! ## The reference's spelling -/
namespace R

/-- Biased variance of feature k: the mean of the squared deviations from the mean. -/
def var4 (k : Fin 4) : EReal :=
  Ideal.div (∑ n : Fin 20000, (cs boxes n k - mu4 boxes k) * (cs boxes n k - mu4 boxes k)) cN
/-- Feature k of box n, normalised over the boxes, scaled and shifted. -/
def bn4 (n : Fin 20000) (k : Fin 4) : EReal :=
  Ideal.div (cs boxes n k - mu4 boxes k) (Ideal.sqrt (var4 boxes k + cEps)) * g4 k + be4 k
/-- The position embedding: a 4 → 128 affine layer on the normalised features, then relu. -/
def pos (n : Fin 20000) (j : Fin 128) : EReal :=
  max ((∑ k : Fin 4, bn4 boxes g4 be4 n k * posW j k) + posb j) 0
/-- The object embedding: the class distribution times the embedding table. -/
def obj (n : Fin 20000) (e : Fin 200) : EReal := ∑ d : Fin 36, dist n d * objw d e
/-- The concatenated 2376 features of box n: 2048 visual, 200 object, 128 position. -/
def cat (n : Fin 20000) (q : Fin 2376) : EReal :=
  if h : q.val < 2048 then feat n ⟨q.val, h⟩
  else if h' : q.val < 2248 then obj dist objw n ⟨q.val - 2048, by omega⟩
  else pos boxes g4 be4 posW posb n ⟨q.val - 2248, by omega⟩
/-- The hidden pre-activation: one 2376 → 1024 affine layer. -/
def z (n : Fin 20000) (c : Fin 1024) : EReal :=
  (∑ q : Fin 2376, cat dist boxes feat objw g4 be4 posW posb n q * W1 c q) + b1 c
/-- Column mean of z. -/
def mu2 (c : Fin 1024) : EReal :=
  Ideal.div (∑ n : Fin 20000, z dist boxes feat objw g4 be4 posW posb W1 b1 n c) cN
/-- Biased column variance of z: mean of squared deviations. -/
def var2 (c : Fin 1024) : EReal :=
  Ideal.div (∑ n : Fin 20000,
    (z dist boxes feat objw g4 be4 posW posb W1 b1 n c - mu2 dist boxes feat objw g4 be4 posW posb W1 b1 c)
    * (z dist boxes feat objw g4 be4 posW posb W1 b1 n c - mu2 dist boxes feat objw g4 be4 posW posb W1 b1 c)) cN
/-- z normalised over the boxes, scaled and shifted. -/
def h (n : Fin 20000) (c : Fin 1024) : EReal :=
  Ideal.div (z dist boxes feat objw g4 be4 posW posb W1 b1 n c - mu2 dist boxes feat objw g4 be4 posW posb W1 b1 c)
    (Ideal.sqrt (var2 dist boxes feat objw g4 be4 posW posb W1 b1 c + cEps)) * g2 c + be2 c
/-- The class scores: relu, then a 1024 → 37 affine layer. -/
def out (n : Fin 20000) (o : Fin 37) : EReal :=
  (∑ c : Fin 1024, max (h dist boxes feat objw g4 be4 posW posb W1 b1 g2 be2 n c) 0 * W2 o c) + b2 o

end R

/-! ## The kernel's spelling -/
namespace K

/-- Mean of the squares of feature k. -/
def ex2 (k : Fin 4) : EReal := Ideal.div (∑ n : Fin 20000, cs boxes n k * cs boxes n k) cN
/-- Biased variance of feature k as mean of squares minus squared mean. -/
def var4 (k : Fin 4) : EReal := ex2 boxes k - mu4 boxes k * mu4 boxes k
/-- The normalisation's scale for feature k: gain times reciprocal standard deviation. -/
def scale4 (k : Fin 4) : EReal := g4 k * Ideal.rsqrt (var4 boxes k + cEps)
/-- The normalisation's shift for feature k. -/
def shift4 (k : Fin 4) : EReal := be4 k - mu4 boxes k * scale4 boxes g4 k
/-- The position layer's weight with the scale folded in, transposed: entry (k, j). -/
def a4t (k : Fin 4) (j : Fin 128) : EReal := posW j k * scale4 boxes g4 k
/-- The position layer's bias with the shift folded in. -/
def beff (j : Fin 128) : EReal := posb j + ∑ k : Fin 4, posW j k * shift4 boxes g4 be4 k
/-- The 5 x 128 matrix that sends a raw box row (image id, x1, y1, x2, y2) to the normalised position
    pre-activation's linear part: centre = (p1 + p2 + 1) / 2 and extent = p2 - p1 + 1 folded in. -/
def B5 (r : Fin 5) (j : Fin 128) : EReal :=
  if r.val = 0 then 0
  else if r.val = 1 then cHalf * a4t boxes g4 posW 0 j - a4t boxes g4 posW 2 j
  else if r.val = 2 then cHalf * a4t boxes g4 posW 1 j - a4t boxes g4 posW 3 j
  else if r.val = 3 then cHalf * a4t boxes g4 posW 0 j + a4t boxes g4 posW 2 j
  else cHalf * a4t boxes g4 posW 1 j + a4t boxes g4 posW 3 j
/-- The bias row that goes with `B5`: the folded bias plus the constant parts of centre and extent. -/
def cvec (j : Fin 128) : EReal :=
  (((beff boxes g4 be4 posW posb j + cHalf * a4t boxes g4 posW 0 j) + cHalf * a4t boxes g4 posW 1 j)
    + a4t boxes g4 posW 2 j) + a4t boxes g4 posW 3 j
/-- The position embedding from the raw box row. -/
def pe (n : Fin 20000) (j : Fin 128) : EReal :=
  max ((∑ r : Fin 5, boxes n r * B5 boxes g4 posW r j) + cvec boxes g4 be4 posW posb j) 0
/-- The embedding table pushed through W1's object columns: a 36 x 1024 matrix. -/
def wdt (d : Fin 36) (c : Fin 1024) : EReal := ∑ e : Fin 200, objw d e * W1 c (colObj e)
/-- The hidden pre-activation as three products and the bias. -/
def z (n : Fin 20000) (c : Fin 1024) : EReal :=
  (((∑ q : Fin 2048, feat n q * W1 c (colFeat q)) + (∑ d : Fin 36, dist n d * wdt objw W1 d c))
    + (∑ j : Fin 128, pe boxes g4 be4 posW posb n j * W1 c (colPos j))) + b1 c
/-- Column sum of z over block b's 1000 rows. -/
def s (b : Fin 20) (c : Fin 1024) : EReal :=
  ∑ r : Fin 1000, z dist boxes feat objw g4 be4 posW posb W1 b1 (rowOf b r) c
/-- Column sum of z squared over block b's 1000 rows. -/
def ss (b : Fin 20) (c : Fin 1024) : EReal :=
  ∑ r : Fin 1000, z dist boxes feat objw g4 be4 posW posb W1 b1 (rowOf b r) c
    * z dist boxes feat objw g4 be4 posW posb W1 b1 (rowOf b r) c
/-- Column mean of z from the block sums. -/
def mu2 (c : Fin 1024) : EReal :=
  Ideal.div (∑ b : Fin 20, s dist boxes feat objw g4 be4 posW posb W1 b1 b c) cN
/-- Biased column variance of z as mean of squares minus squared mean. -/
def var2 (c : Fin 1024) : EReal :=
  Ideal.div (∑ b : Fin 20, ss dist boxes feat objw g4 be4 posW posb W1 b1 b c) cN
    - mu2 dist boxes feat objw g4 be4 posW posb W1 b1 c * mu2 dist boxes feat objw g4 be4 posW posb W1 b1 c
/-- Scale of the second normalisation. -/
def scale2 (c : Fin 1024) : EReal :=
  g2 c * Ideal.rsqrt (var2 dist boxes feat objw g4 be4 posW posb W1 b1 c + cEps)
/-- Shift of the second normalisation. -/
def shift2 (c : Fin 1024) : EReal :=
  be2 c - mu2 dist boxes feat objw g4 be4 posW posb W1 b1 c * scale2 dist boxes feat objw g4 be4 posW posb W1 b1 g2 c
/-- The hidden activation: scale, shift, relu. -/
def h (n : Fin 20000) (c : Fin 1024) : EReal :=
  max (z dist boxes feat objw g4 be4 posW posb W1 b1 n c * scale2 dist boxes feat objw g4 be4 posW posb W1 b1 g2 c
    + shift2 dist boxes feat objw g4 be4 posW posb W1 b1 g2 be2 c) 0
/-- The class scores. -/
def out (n : Fin 20000) (o : Fin 37) : EReal :=
  (∑ c : Fin 1024, h dist boxes feat objw g4 be4 posW posb W1 b1 g2 be2 n c * W2 o c) + b2 o

end K

end

/-- Every entry of a two-index family is a real number. -/
def Fin2 {a b : Nat} (x : Fin a → Fin b → EReal) : Prop := ∀ i j, ∃ r : ℝ, x i j = (r : EReal)
/-- Every entry of a one-index family is a real number. -/
def Fin1 {a : Nat} (x : Fin a → EReal) : Prop := ∀ i, ∃ r : ℝ, x i = (r : EReal)

end Cert.Spec

end
-- ==== Proof.BlockSpec.lean ====
/-
  What each of the kernel's three bodies writes, as a function of the data it loads, over plain families of
  extended reals: the per-block forms of `Spec.K`.
    stage 1, on one block of 1000 rows: the position embedding from the raw box rows through a 5 x 128 matrix and
      a bias row, the hidden pre-activation as three products plus a bias, and its column sums and column sums of squares;
    stage 2, on one block of 2000 rows: the column mean and variance from the 20 partial sums, the scale and
      shift of the normalisation, relu, and the last product.
-/
import proofs.«144968_g33105607918058_cont_8to1_b_384_44_alg».proof.Proof.Spec

noncomputable section

open scoped BigOperators
open Idealize.ShloMosaic

namespace Cert.Spec.Blk

section Stage1
variable {R : Nat} (bx : Fin R → Fin 5 → EReal) (ds : Fin R → Fin 36 → EReal) (ft : Fin R → Fin 2048 → EReal)
  (B5 : Fin 5 → Fin 128 → EReal) (cv : Fin 128 → EReal) (wdt : Fin 36 → Fin 1024 → EReal)
  (w1p : Fin 1024 → Fin 128 → EReal) (w1f : Fin 1024 → Fin 2048 → EReal) (b1 : Fin 1024 → EReal)

/-- The position embedding of row r from its raw box row. -/
def pe (r : Fin R) (j : Fin 128) : EReal := max ((∑ i : Fin 5, bx r i * B5 i j) + cv j) 0
/-- The hidden pre-activation of row r, column c: three products and the bias. -/
def z (r : Fin R) (c : Fin 1024) : EReal :=
  (((∑ q : Fin 2048, ft r q * w1f c q) + (∑ d : Fin 36, ds r d * wdt d c))
    + (∑ j : Fin 128, pe bx B5 cv r j * w1p c j)) + b1 c
/-- Column sum of the block's z. -/
def s (c : Fin 1024) : EReal := ∑ r : Fin R, z bx ds ft B5 cv wdt w1p w1f b1 r c
/-- Column sum of the block's z squared. -/
def ss (c : Fin 1024) : EReal := ∑ r : Fin R, z bx ds ft B5 cv wdt w1p w1f b1 r c * z bx ds ft B5 cv wdt w1p w1f b1 r c
end Stage1

section Stage2
variable {R : Nat} (zb : Fin R → Fin 1024 → EReal) (ps pss : Fin 20 → Fin 1024 → EReal)
  (g2 be2 : Fin 1024 → EReal) (w2 : Fin 37 → Fin 1024 → EReal) (b2 : Fin 37 → EReal)

/-- Column mean from the partial sums. -/
def mu (c : Fin 1024) : EReal := Ideal.div (∑ b : Fin 20, ps b c) cN
/-- Column variance from the partial sums of squares. -/
def var (c : Fin 1024) : EReal := Ideal.div (∑ b : Fin 20, pss b c) cN - mu ps c * mu ps c
/-- Scale of the normalisation. -/
def scale (c : Fin 1024) : EReal := g2 c * Ideal.rsqrt (var ps pss c + cEps)
/-- Shift of the normalisation. -/
def shift (c : Fin 1024) : EReal := be2 c - mu ps c * scale ps pss g2 c
/-- The hidden activation of row r. -/
def h (r : Fin R) (c : Fin 1024) : EReal := max (zb r c * scale ps pss g2 c + shift ps pss g2 be2 c) 0
/-- The class scores of row r. -/
def out (r : Fin R) (o : Fin 37) : EReal := (∑ c : Fin 1024, h zb ps pss g2 be2 r c * w2 o c) + b2 o
end Stage2

end Cert.Spec.Blk

end
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.KReg0.lean ====
/-
  The first region's two result arrays as functions of the arrays the region finds: the region has one grid point and
  every window is its whole array, so each block is the array itself, and the 5 x 128 matrix and the bias row the body
  writes are the folded first normalisation of the boxes read off the row-major [625, 160] arrangement of the
  [20000, 5] box array.
-/
import proofs.«144968_g33105607918058_cont_8to1_b_384_44_alg».proof.Proof.Gen.KernelIdeal.Frame
import proofs.«144968_g33105607918058_cont_8to1_b_384_44_alg».proof.Proof.BlockSpec
import Idealize.ShloMosaic.Lib.Pipeline.Value
import Idealize.ShloMosaic.Lib.ValueIdx

set_option maxRecDepth 16384

noncomputable section

namespace Cert.KernelIdeal.KVal0

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- Box n, column q of the [20000, 5] array whose row-major rearrangement to [625, 160] is x0. -/
def bxOf (x0 : Vec Ideal S625x160 .f32) : Fin 20000 → Fin 5 → EReal :=
  fun n q => x0 (ix2 ⟨(5 * n.val + q.val) / 160, by omega⟩ ⟨(5 * n.val + q.val) % 160, by omega⟩)

theorem blk0_0 (c : Dev nD) (t : Fin cfg0.N) : (iblk0 V c 0 t : S625x160.Idx → EReal) = V c main_v0 := by
  funext y
  show V c main_v0 (((cfg0.win 0).blk t).view.emb y) = _
  refine congrArg _ ?_
  funext a; apply Fin.ext
  match a with
  | ⟨0, _⟩ => show 0 * 625 + 1 * (y 0).val = (y 0).val; omega
  | ⟨1, _⟩ => show 0 * 160 + 1 * (y 1).val = (y 1).val; omega

theorem blk0_1 (c : Dev nD) (t : Fin cfg0.N) : (iblk0 V c 1 t : S128x4.Idx → EReal) = V c main_arg7 := by
  funext y
  show V c main_arg7 (((cfg0.win 1).blk t).view.emb y) = _
  refine congrArg _ ?_
  funext a; apply Fin.ext
  match a with
  | ⟨0, _⟩ => show 0 * 128 + 1 * (y 0).val = (y 0).val; omega
  | ⟨1, _⟩ => show 0 * 4 + 1 * (y 1).val = (y 1).val; omega

theorem blk0_2 (c : Dev nD) (t : Fin cfg0.N) : (iblk0 V c 2 t : S1x128.Idx → EReal) = V c main_v1 := by
  funext y
  show V c main_v1 (((cfg0.win 2).blk t).view.emb y) = _
  refine congrArg _ ?_
  funext a; apply Fin.ext
  match a with
  | ⟨0, _⟩ => show 0 * 1 + 1 * (y 0).val = (y 0).val; omega
  | ⟨1, _⟩ => show 0 * 128 + 1 * (y 1).val = (y 1).val; omega

theorem blk0_3 (c : Dev nD) (t : Fin cfg0.N) : (iblk0 V c 3 t : S1x4.Idx → EReal) = V c main_v2 := by
  funext y
  show V c main_v2 (((cfg0.win 3).blk t).view.emb y) = _
  refine congrArg _ ?_
  funext a; apply Fin.ext
  match a with
  | ⟨0, _⟩ => show 0 * 1 + 1 * (y 0).val = (y 0).val; omega
  | ⟨1, _⟩ => show 0 * 4 + 1 * (y 1).val = (y 1).val; omega

theorem blk0_4 (c : Dev nD) (t : Fin cfg0.N) : (iblk0 V c 4 t : S1x4.Idx → EReal) = V c main_v3 := by
  funext y
  show V c main_v3 (((cfg0.win 4).blk t).view.emb y) = _
  refine congrArg _ ?_
  funext a; apply Fin.ext
  match a with
  | ⟨0, _⟩ => show 0 * 1 + 1 * (y 0).val = (y 0).val; omega
  | ⟨1, _⟩ => show 0 * 4 + 1 * (y 1).val = (y 1).val; omega

/-- The folded 5 x 128 matrix. -/
def G0_5 (c : Dev nD) : S5x128.Idx → EReal := fun i =>
  Cert.Spec.K.B5 (bxOf (V c main_v0)) (fun k => V c main_v2 (ix2 0 k)) (fun j k => V c main_arg7 (ix2 j k)) (i 0) (i 1)
/-- The folded bias row. -/
def G0_6 (c : Dev nD) : S1x128.Idx → EReal := fun i =>
  Cert.Spec.K.cvec (bxOf (V c main_v0)) (fun k => V c main_v2 (ix2 0 k)) (fun k => V c main_v3 (ix2 0 k))
    (fun j k => V c main_arg7 (ix2 j k)) (fun j => V c main_v1 (ix2 0 j)) (i 1)

theorem flushed0_5 (h5 : ∀ (x0 : Vec Ideal S625x160 .f32) (x1 : Vec Ideal S128x4 .f32) (x2 : Vec Ideal S1x128 .f32) (x3 x4 : Vec Ideal S1x4 .f32) (r : Fin 5) (j : Fin 128),
      out0_5 (F := Ideal) x0 x1 x2 x3 x4 (ix2 r j) = Cert.Spec.K.B5 (bxOf x0) (fun k => x3 (ix2 0 k)) (fun j k => x1 (ix2 j k)) r j) (c : Dev nD) (t : Fin cfg0.N) :
    (dat0 V c).flushed 5 t = ((cfg0.win 5).blk t).view.read (Elt Ideal) (G0_5 V c) := by
  show (cfg0.win 5).cut (grid0.coords t) ((dat0 V c).after 5 t) = _
  rw [after0_5]
  funext y
  show out0_5 (iblk0 V c 0 t) (iblk0 V c 1 t) (iblk0 V c 2 t) (iblk0 V c 3 t) (iblk0 V c 4 t) y = G0_5 V c (((cfg0.win 5).blk t).view.emb y)
  obtain ⟨r, j, rfl⟩ : ∃ (r : Fin 5) (j : Fin 128), y = ix2 r j := ⟨y 0, y 1, eq_ix2 y⟩
  refine (h5 (iblk0 V c 0 t) (iblk0 V c 1 t) (iblk0 V c 2 t) (iblk0 V c 3 t) (iblk0 V c 4 t) r j).trans ?_
  rw [blk0_0 V c t, blk0_1 V c t, blk0_3 V c t]
  have hi0 : r = (((cfg0.win 5).blk t).view.emb (ix2 r j)) 0 := Fin.ext (by show r.val = 0 * 5 + 1 * r.val; omega)
  have hi1 : j = (((cfg0.win 5).blk t).view.emb (ix2 r j)) 1 := Fin.ext (by show j.val = 0 * 128 + 1 * j.val; omega)
  exact congrArg₂ _ hi0 hi1

theorem flushed0_6 (h6 : ∀ (x0 : Vec Ideal S625x160 .f32) (x1 : Vec Ideal S128x4 .f32) (x2 : Vec Ideal S1x128 .f32) (x3 x4 : Vec Ideal S1x4 .f32) (j : Fin 128),
      out0_6 (F := Ideal) x0 x1 x2 x3 x4 (ix2 0 j) = Cert.Spec.K.cvec (bxOf x0) (fun k => x3 (ix2 0 k)) (fun k => x4 (ix2 0 k)) (fun j k => x1 (ix2 j k)) (fun j => x2 (ix2 0 j)) j) (c : Dev nD) (t : Fin cfg0.N) :
    (dat0 V c).flushed 6 t = ((cfg0.win 6).blk t).view.read (Elt Ideal) (G0_6 V c) := by
  show (cfg0.win 6).cut (grid0.coords t) ((dat0 V c).after 6 t) = _
  rw [after0_6]
  funext y
  show out0_6 (iblk0 V c 0 t) (iblk0 V c 1 t) (iblk0 V c 2 t) (iblk0 V c 3 t) (iblk0 V c 4 t) y = G0_6 V c (((cfg0.win 6).blk t).view.emb y)
  obtain ⟨a, j, rfl⟩ : ∃ (a : Fin 1) (j : Fin 128), y = ix2 a j := ⟨y 0, y 1, eq_ix2 y⟩
  obtain rfl : a = 0 := Subsingleton.elim _ _
  refine (h6 (iblk0 V c 0 t) (iblk0 V c 1 t) (iblk0 V c 2 t) (iblk0 V c 3 t) (iblk0 V c 4 t) j).trans ?_
  rw [blk0_0 V c t, blk0_1 V c t, blk0_2 V c t, blk0_3 V c t, blk0_4 V c t]
  have hi1 : j = (((cfg0.win 6).blk t).view.emb (ix2 0 j)) 1 := Fin.ext (by show j.val = 0 * 128 + 1 * j.val; omega)
  exact congrArg (fun j => Cert.Spec.K.cvec (bxOf (V c main_v0)) (fun k => V c main_v2 (ix2 0 k)) (fun k => V c main_v3 (ix2 0 k))
    (fun j k => V c main_arg7 (ix2 j k)) (fun j => V c main_v1 (ix2 0 j)) j) hi1

theorem cover0_5' (i : S5x128.Idx) :
    ∃ t : Fin cfg0.N, (cfg0.win 5).flush t = true ∧ i ∈ ((cfg0.win 5).blk t).view.set := by
  have hi0 : (i 0).val < 5 := (i 0).isLt
  have hi1 : (i 1).val < 128 := (i 1).isLt
  refine ⟨t0_0, flush0_5 t0_0, ?_⟩
  show i ∈ ((View.whole main_v4_0).slice (win0_5.rect t0_0)).set
  rw [View.set_slice_whole, Rect.mem_set_unit]
  intro a
  match a with
  | ⟨0, _⟩ => show 0 * 5 ≤ (i 0).val ∧ (i 0).val < 0 * 5 + 5; omega
  | ⟨1, _⟩ => show 0 * 128 ≤ (i 1).val ∧ (i 1).val < 0 * 128 + 128; omega

theorem cover0_6' (i : S1x128.Idx) :
    ∃ t : Fin cfg0.N, (cfg0.win 6).flush t = true ∧ i ∈ ((cfg0.win 6).blk t).view.set := by
  have hi0 : (i 0).val < 1 := (i 0).isLt
  have hi1 : (i 1).val < 128 := (i 1).isLt
  refine ⟨t0_0, flush0_6 t0_0, ?_⟩
  show i ∈ ((View.whole main_v4_1).slice (win0_6.rect t0_0)).set
  rw [View.set_slice_whole, Rect.mem_set_unit]
  intro a
  match a with
  | ⟨0, _⟩ => show 0 * 1 ≤ (i 0).val ∧ (i 0).val < 0 * 1 + 1; omega
  | ⟨1, _⟩ => show 0 * 128 ≤ (i 1).val ∧ (i 1).val < 0 * 128 + 128; omega

theorem final0_5 (h5 : ∀ (x0 : Vec Ideal S625x160 .f32) (x1 : Vec Ideal S128x4 .f32) (x2 : Vec Ideal S1x128 .f32) (x3 x4 : Vec Ideal S1x4 .f32) (r : Fin 5) (j : Fin 128),
      out0_5 (F := Ideal) x0 x1 x2 x3 x4 (ix2 r j) = Cert.Spec.K.B5 (bxOf x0) (fun k => x3 (ix2 0 k)) (fun j k => x1 (ix2 j k)) r j) (c : Dev nD) : (dat0 V c).arrAt 5 cfg0.N = G0_5 V c :=
  (dat0 V c).arrAt_eq_of_cover 5 (G0_5 V c) (fun t _ => flushed0_5 V h5 c t) cover0_5'
theorem final0_6 (h6 : ∀ (x0 : Vec Ideal S625x160 .f32) (x1 : Vec Ideal S128x4 .f32) (x2 : Vec Ideal S1x128 .f32) (x3 x4 : Vec Ideal S1x4 .f32) (j : Fin 128),
      out0_6 (F := Ideal) x0 x1 x2 x3 x4 (ix2 0 j) = Cert.Spec.K.cvec (bxOf x0) (fun k => x3 (ix2 0 k)) (fun k => x4 (ix2 0 k)) (fun j k => x1 (ix2 j k)) (fun j => x2 (ix2 0 j)) j) (c : Dev nD) : (dat0 V c).arrAt 6 cfg0.N = G0_6 V c :=
  (dat0 V c).arrAt_eq_of_cover 6 (G0_6 V c) (fun t _ => flushed0_6 V h6 c t) cover0_6'

end Cert.KernelIdeal.KVal0
end
-- ==== Proof.KReg1.lean ====
/-
  The middle region's three result arrays as functions of the arrays the region finds. A block of 1000 rows of the
  hidden pre-activation is, row by row, the same function of that row's box, class distribution and visual
  features and of the whole folded matrices and rows; the twenty blocks tile the 20000 rows. Block b of the two
  partial-sum arrays is the column sum, and the column sum of squares, of rows 1000 b … 1000 b + 999.
-/
import proofs.«144968_g33105607918058_cont_8to1_b_384_44_alg».proof.Proof.Gen.KernelIdeal.Frame
import proofs.«144968_g33105607918058_cont_8to1_b_384_44_alg».proof.Proof.BlockSpec
import Idealize.ShloMosaic.Lib.Pipeline.Value
import Idealize.ShloMosaic.Lib.ValueIdx

set_option maxRecDepth 16384

noncomputable section

namespace Cert.KernelIdeal.KVal1

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0
    ∧ win1_10.index t (0 : Fin 3) = t.val ∧ win1_10.index t (1 : Fin 3) = 0 ∧ win1_10.index t (2 : Fin 3) = 0
    ∧ win1_11.index t (0 : Fin 3) = t.val ∧ win1_11.index t (1 : Fin 3) = 0 ∧ win1_11.index t (2 : Fin 3) = 0 :=
  (by decide +kernel : ∀ t : Fin grid1.N, _)

theorem blk1_0 (c : Dev nD) (t : Fin cfg1.N) (ht : t.val < 20) (r : Fin 1000) (q : Fin 5) :
    iblk1 V c 0 t (ix2 r q) = V c main_arg1 (ix2 (Cert.Spec.rowOf ⟨t.val, ht⟩ r) q) := by
  obtain ⟨e00, e01, e10, e11, e20, e21, e30, e31, e40, e41, e50, e51, e60, e61, e70, e71, e80, e81, e90, e91, eA0, eA1, eA2, eB0, eB1, eB2⟩ := idx1 t
  show V c main_arg1 (((cfg1.win 0).blk t).view.emb (ix2 r q)) = _
  refine congrArg _ ?_
  funext a; apply Fin.ext
  match a with
  | ⟨0, _⟩ => show win1_0.index t (0 : Fin 2) * 1000 + 1 * r.val = 1000 * t.val + r.val; rw [e00]; omega
  | ⟨1, _⟩ => show win1_0.index t (1 : Fin 2) * 5 + 1 * q.val = q.val; rw [e01]; omega

theorem blk1_1 (c : Dev nD) (t : Fin cfg1.N) (ht : t.val < 20) (r : Fin 1000) (q : Fin 36) :
    iblk1 V c 1 t (ix2 r q) = V c main_arg0 (ix2 (Cert.Spec.rowOf ⟨t.val, ht⟩ r) q) := by
  obtain ⟨e00, e01, e10, e11, e20, e21, e30, e31, e40, e41, e50, e51, e60, e61, e70, e71, e80, e81, e90, e91, eA0, eA1, eA2, eB0, eB1, eB2⟩ := idx1 t
  show V c main_arg0 (((cfg1.win 1).blk t).view.emb (ix2 r q)) = _
  refine congrArg _ ?_
  funext a; apply Fin.ext
  match a with
  | ⟨0, _⟩ => show win1_1.index t (0 : Fin 2) * 1000 + 1 * r.val = 1000 * t.val + r.val; rw [e10]; omega
  | ⟨1, _⟩ => show win1_1.index t (1 : Fin 2) * 36 + 1 * q.val = q.val; rw [e11]; omega

theorem blk1_2 (c : Dev nD) (t : Fin cfg1.N) (ht : t.val < 20) (r : Fin 1000) (q : Fin 2048) :
    iblk1 V c 2 t (ix2 r q) = V c main_arg2 (ix2 (Cert.Spec.rowOf ⟨t.val, ht⟩ r) q) := by
  obtain ⟨e00, e01, e10, e11, e20, e21, e30, e31, e40, e41, e50, e51, e60, e61, e70, e71, e80, e81, e90, e91, eA0, eA1, eA2, eB0, eB1, eB2⟩ := idx1 t
  show V c main_arg2 (((cfg1.win 2).blk t).view.emb (ix2 r q)) = _
  refine congrArg _ ?_
  funext a; apply Fin.ext
  match a with
  | ⟨0, _⟩ => show win1_2.index t (0 : Fin 2) * 1000 + 1 * r.val = 1000 * t.val + r.val; rw [e20]; omega
  | ⟨1, _⟩ => show win1_2.index t (1 : Fin 2) * 2048 + 1 * q.val = q.val; rw [e21]; omega

theorem blk1_3 (c : Dev nD) (t : Fin cfg1.N) (i : Fin 5) (j : Fin 128) :
    iblk1 V c 3 t (ix2 i j) = V c main_v4_0 (ix2 i j) := by
  obtain ⟨e00, e01, e10, e11, e20, e21, e30, e31, e40, e41, e50, e51, e60, e61, e70, e71, e80, e81, e90, e91, eA0, eA1, eA2, eB0, eB1, eB2⟩ := idx1 t
  show V c main_v4_0 (((cfg1.win 3).blk t).view.emb (ix2 i j)) = _
  refine congrArg _ ?_
  funext a; apply Fin.ext
  match a with
  | ⟨0, _⟩ => show win1_3.index t (0 : Fin 2) * 5 + 1 * i.val = i.val; rw [e30]; omega
  | ⟨1, _⟩ => show win1_3.index t (1 : Fin 2) * 128 + 1 * j.val = j.val; rw [e31]; omega

theorem blk1_4 (c : Dev nD) (t : Fin cfg1.N) (j : Fin 128) :
    iblk1 V c 4 t (ix2 0 j) = V c main_v4_1 (ix2 0 j) := by
  obtain ⟨e00, e01, e10, e11, e20, e21, e30, e31, e40, e41, e50, e51, e60, e61, e70, e71, e80, e81, e90, e91, eA0, eA1, eA2, eB0, eB1, eB2⟩ := idx1 t
  show V c main_v4_1 (((cfg1.win 4).blk t).view.emb (ix2 0 j)) = _
  refine congrArg _ ?_
  funext a; apply Fin.ext
  match a with
  | ⟨0, _⟩ => show win1_4.index t (0 : Fin 2) * 1 + 1 * 0 = 0; rw [e40]
  | ⟨1, _⟩ => show win1_4.index t (1 : Fin 2) * 128 + 1 * j.val = j.val; rw [e41]; omega

theorem blk1_5 (c : Dev nD) (t : Fin cfg1.N) (d : Fin 36) (k : Fin 1024) :
    iblk1 V c 5 t (ix2 d k) = V c main_v12 (ix2 d k) := by
  obtain ⟨e00, e01, e10, e11, e20, e21, e30, e31, e40, e41, e50, e51, e60, e61, e70, e71, e80, e81, e90, e91, eA0, eA1, eA2, eB0, eB1, eB2⟩ := idx1 t
  show V c main_v12 (((cfg1.win 5).blk t).view.emb (ix2 d k)) = _
  refine congrArg _ ?_
  funext a; apply Fin.ext
  match a with
  | ⟨0, _⟩ => show win1_5.index t (0 : Fin 2) * 36 + 1 * d.val = d.val; rw [e50]; omega
  | ⟨1, _⟩ => show win1_5.index t (1 : Fin 2) * 1024 + 1 * k.val = k.val; rw [e51]; omega

theorem blk1_6 (c : Dev nD) (t : Fin cfg1.N) (k : Fin 1024) (j : Fin 128) :
    iblk1 V c 6 t (ix2 k j) = V c main_v8 (ix2 k j) := by
  obtain ⟨e00, e01, e10, e11, e20, e21, e30, e31, e40, e41, e50, e51, e60, e61, e70, e71, e80, e81, e90, e91, eA0, eA1, eA2, eB0, eB1, eB2⟩ := idx1 t
  show V c main_v8 (((cfg1.win 6).blk t).view.emb (ix2 k j)) = _
  refine congrArg _ ?_
  funext a; apply Fin.ext
  match a with
  | ⟨0, _⟩ => show win1_6.index t (0 : Fin 2) * 1024 + 1 * k.val = k.val; rw [e60]; omega
  | ⟨1, _⟩ => show win1_6.index t (1 : Fin 2) * 128 + 1 * j.val = j.val; rw [e61]; omega

theorem blk1_7 (c : Dev nD) (t : Fin cfg1.N) (k : Fin 1024) (q : Fin 2048) :
    iblk1 V c 7 t (ix2 k q) = V c main_v6 (ix2 k q) := by
  obtain ⟨e00, e01, e10, e11, e20, e21, e30, e31, e40, e41, e50, e51, e60, e61, e70, e71, e80, e81, e90, e91, eA0, eA1, eA2, eB0, eB1, eB2⟩ := idx1 t
  show V c main_v6 (((cfg1.win 7).blk t).view.emb (ix2 k q)) = _
  refine congrArg _ ?_
  funext a; apply Fin.ext
  match a with
  | ⟨0, _⟩ => show win1_7.index t (0 : Fin 2) * 1024 + 1 * k.val = k.val; rw [e70]; omega
  | ⟨1, _⟩ => show win1_7.index t (1 : Fin 2) * 2048 + 1 * q.val = q.val; rw [e71]; omega

theorem blk1_8 (c : Dev nD) (t : Fin cfg1.N) (k : Fin 1024) :
    iblk1 V c 8 t (ix2 0 k) = V c main_v14 (ix2 0 k) := by
  obtain ⟨e00, e01, e10, e11, e20, e21, e30, e31, e40, e41, e50, e51, e60, e61, e70, e71, e80, e81, e90, e91, eA0, eA1, eA2, eB0, eB1, eB2⟩ := idx1 t
  show V c main_v14 (((cfg1.win 8).blk t).view.emb (ix2 0 k)) = _
  refine congrArg _ ?_
  funext a; apply Fin.ext
  match a with
  | ⟨0, _⟩ => show win1_8.index t (0 : Fin 2) * 1 + 1 * 0 = 0; rw [e80]
  | ⟨1, _⟩ => show win1_8.index t (1 : Fin 2) * 1024 + 1 * k.val = k.val; rw [e81]; omega

/-- The hidden pre-activation of a row depends on the block's per-row data only through that row. -/
theorem z_congr {R R' : Nat} (bx : Fin R → Fin 5 → EReal) (bx' : Fin R' → Fin 5 → EReal) (ds : Fin R → Fin 36 → EReal) (ds' : Fin R' → Fin 36 → EReal)
    (ft : Fin R → Fin 2048 → EReal) (ft' : Fin R' → Fin 2048 → EReal) (B5 : Fin 5 → Fin 128 → EReal) (cv : Fin 128 → EReal) (wdt : Fin 36 → Fin 1024 → EReal)
    (w1p : Fin 1024 → Fin 128 → EReal) (w1f : Fin 1024 → Fin 2048 → EReal) (b1 : Fin 1024 → EReal) (r : Fin R) (r' : Fin R')
    (h0 : ∀ i, bx r i = bx' r' i) (h1 : ∀ d, ds r d = ds' r' d) (h2 : ∀ q, ft r q = ft' r' q) (k : Fin 1024) :
    Cert.Spec.Blk.z bx ds ft B5 cv wdt w1p w1f b1 r k = Cert.Spec.Blk.z bx' ds' ft' B5 cv wdt w1p w1f b1 r' k := by
  unfold Cert.Spec.Blk.z Cert.Spec.Blk.pe; simp only [h0, h1, h2]

/-- The hidden pre-activation over all 20000 rows. -/
def G1_9 (c : Dev nD) : S20000x1024.Idx → EReal := fun i =>
  Cert.Spec.Blk.z (R := 20000) (fun n i => V c main_arg1 (ix2 n i)) (fun n d => V c main_arg0 (ix2 n d)) (fun n q => V c main_arg2 (ix2 n q))
    (fun i j => V c main_v4_0 (ix2 i j)) (fun j => V c main_v4_1 (ix2 0 j)) (fun d k => V c main_v12 (ix2 d k))
    (fun k j => V c main_v8 (ix2 k j)) (fun k q => V c main_v6 (ix2 k q)) (fun k => V c main_v14 (ix2 0 k)) (i 0) (i 1)
/-- Block b's column sums of the hidden pre-activation. -/
def G1_10 (c : Dev nD) : S20x1x1024.Idx → EReal := fun i =>
  ∑ r : Fin 1000, Cert.Spec.Blk.z (R := 20000) (fun n i => V c main_arg1 (ix2 n i)) (fun n d => V c main_arg0 (ix2 n d)) (fun n q => V c main_arg2 (ix2 n q))
    (fun i j => V c main_v4_0 (ix2 i j)) (fun j => V c main_v4_1 (ix2 0 j)) (fun d k => V c main_v12 (ix2 d k))
    (fun k j => V c main_v8 (ix2 k j)) (fun k q => V c main_v6 (ix2 k q)) (fun k => V c main_v14 (ix2 0 k)) (Cert.Spec.rowOf (i 0) r) (i 2)
/-- Block b's column sums of the squared hidden pre-activation. -/
def G1_11 (c : Dev nD) : S20x1x1024.Idx → EReal := fun i =>
  ∑ r : Fin 1000, Cert.Spec.Blk.z (R := 20000) (fun n i => V c main_arg1 (ix2 n i)) (fun n d => V c main_arg0 (ix2 n d)) (fun n q => V c main_arg2 (ix2 n q))
    (fun i j => V c main_v4_0 (ix2 i j)) (fun j => V c main_v4_1 (ix2 0 j)) (fun d k => V c main_v12 (ix2 d k))
    (fun k j => V c main_v8 (ix2 k j)) (fun k q => V c main_v6 (ix2 k q)) (fun k => V c main_v14 (ix2 0 k)) (Cert.Spec.rowOf (i 0) r) (i 2)
    * Cert.Spec.Blk.z (R := 20000) (fun n i => V c main_arg1 (ix2 n i)) (fun n d => V c main_arg0 (ix2 n d)) (fun n q => V c main_arg2 (ix2 n q))
    (fun i j => V c main_v4_0 (ix2 i j)) (fun j => V c main_v4_1 (ix2 0 j)) (fun d k => V c main_v12 (ix2 d k))
    (fun k j => V c main_v8 (ix2 k j)) (fun k q => V c main_v6 (ix2 k q)) (fun k => V c main_v14 (ix2 0 k)) (Cert.Spec.rowOf (i 0) r) (i 2)

theorem flushed1_9 (hz : ∀ (x0 : Vec Ideal S1000x5 .f32) (x1 : Vec Ideal S1000x36 .f32) (x2 : Vec Ideal S1000x2048 .f32) (x3 : Vec Ideal S5x128 .f32) (x4 : Vec Ideal S1x128 .f32) (x5 : Vec Ideal S36x1024 .bf16) (x6 : Vec Ideal S1024x128 .bf16) (x7 : Vec Ideal S1024x2048 .bf16) (x8 : Vec Ideal S1x1024 .f32) (r : Fin 1000) (k : Fin 1024),
      out1_9 (F := Ideal) x0 x1 x2 x3 x4 x5 x6 x7 x8 (ix2 r k)
        = Cert.Spec.Blk.z (fun r i => x0 (ix2 r i)) (fun r d => x1 (ix2 r d)) (fun r q => x2 (ix2 r q)) (fun i j => x3 (ix2 i j)) (fun j => x4 (ix2 0 j)) (fun d c => x5 (ix2 d c)) (fun c j => x6 (ix2 c j)) (fun c q => x7 (ix2 c q)) (fun c => x8 (ix2 0 c)) r k) (c : Dev nD) (t : Fin cfg1.N) :
    (dat1 V c).flushed 9 t = ((cfg1.win 9).blk t).view.read (Elt Ideal) (G1_9 V c) := by
  obtain ⟨e00, e01, e10, e11, e20, e21, e30, e31, e40, e41, e50, e51, e60, e61, e70, e71, e80, e81, e90, e91, eA0, eA1, eA2, eB0, eB1, eB2⟩ := idx1 t
  have ht : t.val < 20 := lt_of_lt_of_eq t.isLt N_1
  show (cfg1.win 9).cut (grid1.coords t) ((dat1 V c).after 9 t) = _
  rw [after1_9]
  funext y
  show out1_9 (iblk1 V c 0 t) (iblk1 V c 1 t) (iblk1 V c 2 t) (iblk1 V c 3 t) (iblk1 V c 4 t) (iblk1 V c 5 t) (iblk1 V c 6 t) (iblk1 V c 7 t) (iblk1 V c 8 t) y = G1_9 V c (((cfg1.win 9).blk t).view.emb y)
  obtain ⟨r, k, rfl⟩ : ∃ (r : Fin 1000) (k : Fin 1024), y = ix2 r k := ⟨y 0, y 1, eq_ix2 y⟩
  refine (hz (iblk1 V c 0 t) (iblk1 V c 1 t) (iblk1 V c 2 t) (iblk1 V c 3 t) (iblk1 V c 4 t) (iblk1 V c 5 t) (iblk1 V c 6 t) (iblk1 V c 7 t) (iblk1 V c 8 t) r k).trans ?_
  have f3 : (fun (i : Fin 5) (j : Fin 128) => iblk1 V c 3 t (ix2 i j)) = fun i j => V c main_v4_0 (ix2 i j) := funext fun i => funext fun j => blk1_3 V c t i j
  have f4 : (fun (j : Fin 128) => iblk1 V c 4 t (ix2 0 j)) = fun j => V c main_v4_1 (ix2 0 j) := funext fun j => blk1_4 V c t j
  have f5 : (fun (d : Fin 36) (k : Fin 1024) => iblk1 V c 5 t (ix2 d k)) = fun d k => V c main_v12 (ix2 d k) := funext fun d => funext fun k => blk1_5 V c t d k
  have f6 : (fun (k : Fin 1024) (j : Fin 128) => iblk1 V c 6 t (ix2 k j)) = fun k j => V c main_v8 (ix2 k j) := funext fun k => funext fun j => blk1_6 V c t k j
  have f7 : (fun (k : Fin 1024) (q : Fin 2048) => iblk1 V c 7 t (ix2 k q)) = fun k q => V c main_v6 (ix2 k q) := funext fun k => funext fun q => blk1_7 V c t k q
  have f8 : (fun (k : Fin 1024) => iblk1 V c 8 t (ix2 0 k)) = fun k => V c main_v14 (ix2 0 k) := funext fun k => blk1_8 V c t k
  rw [f3, f4, f5, f6, f7, f8]
  refine (z_congr _ (fun n i => V c main_arg1 (ix2 n i)) _ (fun n d => V c main_arg0 (ix2 n d)) _ (fun n q => V c main_arg2 (ix2 n q)) _ _ _ _ _ _ r (Cert.Spec.rowOf ⟨t.val, ht⟩ r)
      (fun i => blk1_0 V c t ht r i) (fun d => blk1_1 V c t ht r d) (fun q => blk1_2 V c t ht r q) k).trans ?_
  have hi0 : Cert.Spec.rowOf ⟨t.val, ht⟩ r = (((cfg1.win 9).blk t).view.emb (ix2 r k)) 0 :=
    Fin.ext (by show 1000 * t.val + r.val = win1_9.index t (0 : Fin 2) * 1000 + 1 * r.val; rw [e90]; omega)
  have hi1 : k = (((cfg1.win 9).blk t).view.emb (ix2 r k)) 1 :=
    Fin.ext (by show k.val = win1_9.index t (1 : Fin 2) * 1024 + 1 * k.val; rw [e91]; omega)
  exact congrArg₂ _ hi0 hi1

theorem flushed1_10 (hs : ∀ (x0 : Vec Ideal S1000x5 .f32) (x1 : Vec Ideal S1000x36 .f32) (x2 : Vec Ideal S1000x2048 .f32) (x3 : Vec Ideal S5x128 .f32) (x4 : Vec Ideal S1x128 .f32) (x5 : Vec Ideal S36x1024 .bf16) (x6 : Vec Ideal S1024x128 .bf16) (x7 : Vec Ideal S1024x2048 .bf16) (x8 : Vec Ideal S1x1024 .f32) (k : Fin 1024),
      out1_10 (F := Ideal) x0 x1 x2 x3 x4 x5 x6 x7 x8 (ix3 0 0 k)
        = Cert.Spec.Blk.s (fun r i => x0 (ix2 r i)) (fun r d => x1 (ix2 r d)) (fun r q => x2 (ix2 r q)) (fun i j => x3 (ix2 i j)) (fun j => x4 (ix2 0 j)) (fun d c => x5 (ix2 d c)) (fun c j => x6 (ix2 c j)) (fun c q => x7 (ix2 c q)) (fun c => x8 (ix2 0 c)) k) (c : Dev nD) (t : Fin cfg1.N) :
    (dat1 V c).flushed 10 t = ((cfg1.win 10).blk t).view.read (Elt Ideal) (G1_10 V c) := by
  obtain ⟨e00, e01, e10, e11, e20, e21, e30, e31, e40, e41, e50, e51, e60, e61, e70, e71, e80, e81, e90, e91, eA0, eA1, eA2, eB0, eB1, eB2⟩ := idx1 t
  have ht : t.val < 20 := lt_of_lt_of_eq t.isLt N_1
  show (cfg1.win 10).cut (grid1.coords t) ((dat1 V c).after 10 t) = _
  rw [after1_10]
  funext y
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) y = G1_10 V c (((cfg1.win 10).blk t).view.emb y)
  obtain ⟨a, b, k, rfl⟩ : ∃ (a : Fin 1) (b : Fin 1) (k : Fin 1024), y = ix3 a b k := ⟨y 0, y 1, y 2, eq_ix3 y⟩
  obtain rfl : a = 0 := Subsingleton.elim _ _
  obtain rfl : b = 0 := Subsingleton.elim _ _
  refine (hs (iblk1 V c 0 t) (iblk1 V c 1 t) (iblk1 V c 2 t) (iblk1 V c 3 t) (iblk1 V c 4 t) (iblk1 V c 5 t) (iblk1 V c 6 t) (iblk1 V c 7 t) (iblk1 V c 8 t) k).trans ?_
  have f3 : (fun (i : Fin 5) (j : Fin 128) => iblk1 V c 3 t (ix2 i j)) = fun i j => V c main_v4_0 (ix2 i j) := funext fun i => funext fun j => blk1_3 V c t i j
  have f4 : (fun (j : Fin 128) => iblk1 V c 4 t (ix2 0 j)) = fun j => V c main_v4_1 (ix2 0 j) := funext fun j => blk1_4 V c t j
  have f5 : (fun (d : Fin 36) (k : Fin 1024) => iblk1 V c 5 t (ix2 d k)) = fun d k => V c main_v12 (ix2 d k) := funext fun d => funext fun k => blk1_5 V c t d k
  have f6 : (fun (k : Fin 1024) (j : Fin 128) => iblk1 V c 6 t (ix2 k j)) = fun k j => V c main_v8 (ix2 k j) := funext fun k => funext fun j => blk1_6 V c t k j
  have f7 : (fun (k : Fin 1024) (q : Fin 2048) => iblk1 V c 7 t (ix2 k q)) = fun k q => V c main_v6 (ix2 k q) := funext fun k => funext fun q => blk1_7 V c t k q
  have f8 : (fun (k : Fin 1024) => iblk1 V c 8 t (ix2 0 k)) = fun k => V c main_v14 (ix2 0 k) := funext fun k => blk1_8 V c t k
  rw [f3, f4, f5, f6, f7, f8]
  have hi0 : (⟨t.val, ht⟩ : Fin 20) = (((cfg1.win 10).blk t).view.emb (ix3 0 0 k)) 0 :=
    Fin.ext (by show t.val = win1_10.index t (0 : Fin 3) * 1 + 1 * 0; rw [eA0]; omega)
  have hi2 : k = (((cfg1.win 10).blk t).view.emb (ix3 0 0 k)) 2 :=
    Fin.ext (by show k.val = win1_10.index t (2 : Fin 3) * 1024 + 1 * k.val; rw [eA2]; omega)
  refine Eq.trans ?_ (congrArg₂ (fun (b : Fin 20) (k : Fin 1024) => ∑ r : Fin 1000,
      Cert.Spec.Blk.z (fun n i => V c main_arg1 (ix2 n i)) (fun n d => V c main_arg0 (ix2 n d)) (fun n q => V c main_arg2 (ix2 n q))
    (fun i j => V c main_v4_0 (ix2 i j)) (fun j => V c main_v4_1 (ix2 0 j)) (fun d k => V c main_v12 (ix2 d k))
    (fun k j => V c main_v8 (ix2 k j)) (fun k q => V c main_v6 (ix2 k q)) (fun k => V c main_v14 (ix2 0 k)) (Cert.Spec.rowOf b r) k) hi0 hi2)
  unfold Cert.Spec.Blk.s
  refine Finset.sum_congr rfl fun r _ => ?_
  exact (z_congr _ (fun n i => V c main_arg1 (ix2 n i)) _ (fun n d => V c main_arg0 (ix2 n d)) _ (fun n q => V c main_arg2 (ix2 n q)) _ _ _ _ _ _ r (Cert.Spec.rowOf ⟨t.val, ht⟩ r)
      (fun i => blk1_0 V c t ht r i) (fun d => blk1_1 V c t ht r d) (fun q => blk1_2 V c t ht r q) k)

theorem flushed1_11 (hss : ∀ (x0 : Vec Ideal S1000x5 .f32) (x1 : Vec Ideal S1000x36 .f32) (x2 : Vec Ideal S1000x2048 .f32) (x3 : Vec Ideal S5x128 .f32) (x4 : Vec Ideal S1x128 .f32) (x5 : Vec Ideal S36x1024 .bf16) (x6 : Vec Ideal S1024x128 .bf16) (x7 : Vec Ideal S1024x2048 .bf16) (x8 : Vec Ideal S1x1024 .f32) (k : Fin 1024),
      out1_11 (F := Ideal) x0 x1 x2 x3 x4 x5 x6 x7 x8 (ix3 0 0 k)
        = Cert.Spec.Blk.ss (fun r i => x0 (ix2 r i)) (fun r d => x1 (ix2 r d)) (fun r q => x2 (ix2 r q)) (fun i j => x3 (ix2 i j)) (fun j => x4 (ix2 0 j)) (fun d c => x5 (ix2 d c)) (fun c j => x6 (ix2 c j)) (fun c q => x7 (ix2 c q)) (fun c => x8 (ix2 0 c)) k) (c : Dev nD) (t : Fin cfg1.N) :
    (dat1 V c).flushed 11 t = ((cfg1.win 11).blk t).view.read (Elt Ideal) (G1_11 V c) := by
  obtain ⟨e00, e01, e10, e11, e20, e21, e30, e31, e40, e41, e50, e51, e60, e61, e70, e71, e80, e81, e90, e91, eA0, eA1, eA2, eB0, eB1, eB2⟩ := idx1 t
  have ht : t.val < 20 := lt_of_lt_of_eq t.isLt N_1
  show (cfg1.win 11).cut (grid1.coords t) ((dat1 V c).after 11 t) = _
  rw [after1_11]
  funext y
  show out1_11 (iblk1 V c 0 t) (iblk1 V c 1 t) (iblk1 V c 2 t) (iblk1 V c 3 t) (iblk1 V c 4 t) (iblk1 V c 5 t) (iblk1 V c 6 t) (iblk1 V c 7 t) (iblk1 V c 8 t) y = G1_11 V c (((cfg1.win 11).blk t).view.emb y)
  obtain ⟨a, b, k, rfl⟩ : ∃ (a : Fin 1) (b : Fin 1) (k : Fin 1024), y = ix3 a b k := ⟨y 0, y 1, y 2, eq_ix3 y⟩
  obtain rfl : a = 0 := Subsingleton.elim _ _
  obtain rfl : b = 0 := Subsingleton.elim _ _
  refine (hss (iblk1 V c 0 t) (iblk1 V c 1 t) (iblk1 V c 2 t) (iblk1 V c 3 t) (iblk1 V c 4 t) (iblk1 V c 5 t) (iblk1 V c 6 t) (iblk1 V c 7 t) (iblk1 V c 8 t) k).trans ?_
  have f3 : (fun (i : Fin 5) (j : Fin 128) => iblk1 V c 3 t (ix2 i j)) = fun i j => V c main_v4_0 (ix2 i j) := funext fun i => funext fun j => blk1_3 V c t i j
  have f4 : (fun (j : Fin 128) => iblk1 V c 4 t (ix2 0 j)) = fun j => V c main_v4_1 (ix2 0 j) := funext fun j => blk1_4 V c t j
  have f5 : (fun (d : Fin 36) (k : Fin 1024) => iblk1 V c 5 t (ix2 d k)) = fun d k => V c main_v12 (ix2 d k) := funext fun d => funext fun k => blk1_5 V c t d k
  have f6 : (fun (k : Fin 1024) (j : Fin 128) => iblk1 V c 6 t (ix2 k j)) = fun k j => V c main_v8 (ix2 k j) := funext fun k => funext fun j => blk1_6 V c t k j
  have f7 : (fun (k : Fin 1024) (q : Fin 2048) => iblk1 V c 7 t (ix2 k q)) = fun k q => V c main_v6 (ix2 k q) := funext fun k => funext fun q => blk1_7 V c t k q
  have f8 : (fun (k : Fin 1024) => iblk1 V c 8 t (ix2 0 k)) = fun k => V c main_v14 (ix2 0 k) := funext fun k => blk1_8 V c t k
  rw [f3, f4, f5, f6, f7, f8]
  have hi0 : (⟨t.val, ht⟩ : Fin 20) = (((cfg1.win 11).blk t).view.emb (ix3 0 0 k)) 0 :=
    Fin.ext (by show t.val = win1_11.index t (0 : Fin 3) * 1 + 1 * 0; rw [eB0]; omega)
  have hi2 : k = (((cfg1.win 11).blk t).view.emb (ix3 0 0 k)) 2 :=
    Fin.ext (by show k.val = win1_11.index t (2 : Fin 3) * 1024 + 1 * k.val; rw [eB2]; omega)
  refine Eq.trans ?_ (congrArg₂ (fun (b : Fin 20) (k : Fin 1024) => ∑ r : Fin 1000,
      Cert.Spec.Blk.z (fun n i => V c main_arg1 (ix2 n i)) (fun n d => V c main_arg0 (ix2 n d)) (fun n q => V c main_arg2 (ix2 n q))
    (fun i j => V c main_v4_0 (ix2 i j)) (fun j => V c main_v4_1 (ix2 0 j)) (fun d k => V c main_v12 (ix2 d k))
    (fun k j => V c main_v8 (ix2 k j)) (fun k q => V c main_v6 (ix2 k q)) (fun k => V c main_v14 (ix2 0 k)) (Cert.Spec.rowOf b r) k * Cert.Spec.Blk.z (fun n i => V c main_arg1 (ix2 n i)) (fun n d => V c main_arg0 (ix2 n d)) (fun n q => V c main_arg2 (ix2 n q))
    (fun i j => V c main_v4_0 (ix2 i j)) (fun j => V c main_v4_1 (ix2 0 j)) (fun d k => V c main_v12 (ix2 d k))
    (fun k j => V c main_v8 (ix2 k j)) (fun k q => V c main_v6 (ix2 k q)) (fun k => V c main_v14 (ix2 0 k)) (Cert.Spec.rowOf b r) k) hi0 hi2)
  unfold Cert.Spec.Blk.ss
  refine Finset.sum_congr rfl fun r _ => ?_
  rw [(z_congr _ (fun n i => V c main_arg1 (ix2 n i)) _ (fun n d => V c main_arg0 (ix2 n d)) _ (fun n q => V c main_arg2 (ix2 n q)) _ _ _ _ _ _ r (Cert.Spec.rowOf ⟨t.val, ht⟩ r)
      (fun i => blk1_0 V c t ht r i) (fun d => blk1_1 V c t ht r d) (fun q => blk1_2 V c t ht r q) k)]

theorem cover1_9' (i : S20000x1024.Idx) :
    ∃ t : Fin cfg1.N, (cfg1.win 9).flush t = true ∧ i ∈ ((cfg1.win 9).blk t).view.set := by
  have hi0 : (i 0).val < 20000 := (i 0).isLt
  have hi1 : (i 1).val < 1024 := (i 1).isLt
  let t : Fin cfg1.N := ⟨(i 0).val / 1000, by show (i 0).val / 1000 < grid1.N; rw [N_1]; omega⟩
  obtain ⟨e00, e01, e10, e11, e20, e21, e30, e31, e40, e41, e50, e51, e60, e61, e70, e71, e80, e81, e90, e91, eA0, eA1, eA2, eB0, eB1, eB2⟩ := idx1 t
  refine ⟨t, flush1_9 t, ?_⟩
  show i ∈ ((View.whole main_v15_0).slice (win1_9.rect t)).set
  rw [View.set_slice_whole, Rect.mem_set_unit]
  intro a
  match a with
  | ⟨0, _⟩ => show win1_9.index t (0 : Fin 2) * 1000 ≤ (i 0).val ∧ (i 0).val < win1_9.index t (0 : Fin 2) * 1000 + 1000; rw [e90]; show (i 0).val / 1000 * 1000 ≤ (i 0).val ∧ (i 0).val < (i 0).val / 1000 * 1000 + 1000; omega
  | ⟨1, _⟩ => show win1_9.index t (1 : Fin 2) * 1024 ≤ (i 1).val ∧ (i 1).val < win1_9.index t (1 : Fin 2) * 1024 + 1024; rw [e91]; omega

theorem cover1_10' (i : S20x1x1024.Idx) :
    ∃ t : Fin cfg1.N, (cfg1.win 10).flush t = true ∧ i ∈ ((cfg1.win 10).blk t).view.set := by
  have hi0 : (i 0).val < 20 := (i 0).isLt
  have hi1 : (i 1).val < 1 := (i 1).isLt
  have hi2 : (i 2).val < 1024 := (i 2).isLt
  let t : Fin cfg1.N := ⟨(i 0).val, by show (i 0).val < grid1.N; rw [N_1]; omega⟩
  obtain ⟨e00, e01, e10, e11, e20, e21, e30, e31, e40, e41, e50, e51, e60, e61, e70, e71, e80, e81, e90, e91, eA0, eA1, eA2, eB0, eB1, eB2⟩ := idx1 t
  refine ⟨t, flush1_10 t, ?_⟩
  show i ∈ ((View.whole main_v15_1).slice (win1_10.rect t)).set
  rw [View.set_slice_whole, Rect.mem_set_unit]
  intro a
  match a with
  | ⟨0, _⟩ => show win1_10.index t (0 : Fin 3) * 1 ≤ (i 0).val ∧ (i 0).val < win1_10.index t (0 : Fin 3) * 1 + 1; rw [eA0]; show (i 0).val * 1 ≤ (i 0).val ∧ (i 0).val < (i 0).val * 1 + 1; omega
  | ⟨1, _⟩ => show win1_10.index t (1 : Fin 3) * 1 ≤ (i 1).val ∧ (i 1).val < win1_10.index t (1 : Fin 3) * 1 + 1; rw [eA1]; omega
  | ⟨2, _⟩ => show win1_10.index t (2 : Fin 3) * 1024 ≤ (i 2).val ∧ (i 2).val < win1_10.index t (2 : Fin 3) * 1024 + 1024; rw [eA2]; omega

theorem cover1_11' (i : S20x1x1024.Idx) :
    ∃ t : Fin cfg1.N, (cfg1.win 11).flush t = true ∧ i ∈ ((cfg1.win 11).blk t).view.set := by
  have hi0 : (i 0).val < 20 := (i 0).isLt
  have hi1 : (i 1).val < 1 := (i 1).isLt
  have hi2 : (i 2).val < 1024 := (i 2).isLt
  let t : Fin cfg1.N := ⟨(i 0).val, by show (i 0).val < grid1.N; rw [N_1]; omega⟩
  obtain ⟨e00, e01, e10, e11, e20, e21, e30, e31, e40, e41, e50, e51, e60, e61, e70, e71, e80, e81, e90, e91, eA0, eA1, eA2, eB0, eB1, eB2⟩ := idx1 t
  refine ⟨t, flush1_11 t, ?_⟩
  show i ∈ ((View.whole main_v15_2).slice (win1_11.rect t)).set
  rw [View.set_slice_whole, Rect.mem_set_unit]
  intro a
  match a with
  | ⟨0, _⟩ => show win1_11.index t (0 : Fin 3) * 1 ≤ (i 0).val ∧ (i 0).val < win1_11.index t (0 : Fin 3) * 1 + 1; rw [eB0]; show (i 0).val * 1 ≤ (i 0).val ∧ (i 0).val < (i 0).val * 1 + 1; omega
  | ⟨1, _⟩ => show win1_11.index t (1 : Fin 3) * 1 ≤ (i 1).val ∧ (i 1).val < win1_11.index t (1 : Fin 3) * 1 + 1; rw [eB1]; omega
  | ⟨2, _⟩ => show win1_11.index t (2 : Fin 3) * 1024 ≤ (i 2).val ∧ (i 2).val < win1_11.index t (2 : Fin 3) * 1024 + 1024; rw [eB2]; omega

theorem final1_9 (hz : ∀ (x0 : Vec Ideal S1000x5 .f32) (x1 : Vec Ideal S1000x36 .f32) (x2 : Vec Ideal S1000x2048 .f32) (x3 : Vec Ideal S5x128 .f32) (x4 : Vec Ideal S1x128 .f32) (x5 : Vec Ideal S36x1024 .bf16) (x6 : Vec Ideal S1024x128 .bf16) (x7 : Vec Ideal S1024x2048 .bf16) (x8 : Vec Ideal S1x1024 .f32) (r : Fin 1000) (k : Fin 1024),
      out1_9 (F := Ideal) x0 x1 x2 x3 x4 x5 x6 x7 x8 (ix2 r k)
        = Cert.Spec.Blk.z (fun r i => x0 (ix2 r i)) (fun r d => x1 (ix2 r d)) (fun r q => x2 (ix2 r q)) (fun i j => x3 (ix2 i j)) (fun j => x4 (ix2 0 j)) (fun d c => x5 (ix2 d c)) (fun c j => x6 (ix2 c j)) (fun c q => x7 (ix2 c q)) (fun c => x8 (ix2 0 c)) r k) (c : Dev nD) : (dat1 V c).arrAt 9 cfg1.N = G1_9 V c :=
  (dat1 V c).arrAt_eq_of_cover 9 (G1_9 V c) (fun t _ => flushed1_9 V hz c t) cover1_9'
theorem final1_10 (hs : ∀ (x0 : Vec Ideal S1000x5 .f32) (x1 : Vec Ideal S1000x36 .f32) (x2 : Vec Ideal S1000x2048 .f32) (x3 : Vec Ideal S5x128 .f32) (x4 : Vec Ideal S1x128 .f32) (x5 : Vec Ideal S36x1024 .bf16) (x6 : Vec Ideal S1024x128 .bf16) (x7 : Vec Ideal S1024x2048 .bf16) (x8 : Vec Ideal S1x1024 .f32) (k : Fin 1024),
      out1_10 (F := Ideal) x0 x1 x2 x3 x4 x5 x6 x7 x8 (ix3 0 0 k)
        = Cert.Spec.Blk.s (fun r i => x0 (ix2 r i)) (fun r d => x1 (ix2 r d)) (fun r q => x2 (ix2 r q)) (fun i j => x3 (ix2 i j)) (fun j => x4 (ix2 0 j)) (fun d c => x5 (ix2 d c)) (fun c j => x6 (ix2 c j)) (fun c q => x7 (ix2 c q)) (fun c => x8 (ix2 0 c)) k) (c : Dev nD) : (dat1 V c).arrAt 10 cfg1.N = G1_10 V c :=
  (dat1 V c).arrAt_eq_of_cover 10 (G1_10 V c) (fun t _ => flushed1_10 V hs c t) cover1_10'
theorem final1_11 (hss : ∀ (x0 : Vec Ideal S1000x5 .f32) (x1 : Vec Ideal S1000x36 .f32) (x2 : Vec Ideal S1000x2048 .f32) (x3 : Vec Ideal S5x128 .f32) (x4 : Vec Ideal S1x128 .f32) (x5 : Vec Ideal S36x1024 .bf16) (x6 : Vec Ideal S1024x128 .bf16) (x7 : Vec Ideal S1024x2048 .bf16) (x8 : Vec Ideal S1x1024 .f32) (k : Fin 1024),
      out1_11 (F := Ideal) x0 x1 x2 x3 x4 x5 x6 x7 x8 (ix3 0 0 k)
        = Cert.Spec.Blk.ss (fun r i => x0 (ix2 r i)) (fun r d => x1 (ix2 r d)) (fun r q => x2 (ix2 r q)) (fun i j => x3 (ix2 i j)) (fun j => x4 (ix2 0 j)) (fun d c => x5 (ix2 d c)) (fun c j => x6 (ix2 c j)) (fun c q => x7 (ix2 c q)) (fun c => x8 (ix2 0 c)) k) (c : Dev nD) : (dat1 V c).arrAt 11 cfg1.N = G1_11 V c :=
  (dat1 V c).arrAt_eq_of_cover 11 (G1_11 V c) (fun t _ => flushed1_11 V hss c t) cover1_11'

end Cert.KernelIdeal.KVal1
end
-- ==== Proof.KReg2.lean ====
/-
  The last region's result array as one function of the arrays the region finds: each block of 2000 rows the
  body writes back is the restriction of the per-row class scores computed from that row of the hidden
  pre-activations, the twenty partial column sums and sums of squares, the gain and bias rows and the last layer's
  weights; the ten blocks tile the 20000 rows, so the array ends holding that function everywhere.
-/
import proofs.«144968_g33105607918058_cont_8to1_b_384_44_alg».proof.Proof.Gen.KernelIdeal.Frame
import proofs.«144968_g33105607918058_cont_8to1_b_384_44_alg».proof.Proof.BlockSpec
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem idx2 : ∀ t : Fin cfg2.N, win2_0.index t (0 : Fin 2) = t.val ∧ win2_0.index t (1 : Fin 2) = 0
    ∧ win2_7.index t (0 : Fin 2) = t.val ∧ win2_7.index t (1 : Fin 2) = 0
    ∧ win2_1.index t (0 : Fin 3) = 0 ∧ win2_1.index t (1 : Fin 3) = 0 ∧ win2_1.index t (2 : Fin 3) = 0
    ∧ win2_2.index t (0 : Fin 3) = 0 ∧ win2_2.index t (1 : Fin 3) = 0 ∧ win2_2.index t (2 : Fin 3) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem blk2_0 (c : Dev nD) (t : Fin cfg2.N) (r : Fin 2000) (k : Fin 1024) (h : t.val * 2000 + r.val < 20000) :
    iblk2 V c 0 t (ix2 r k) = V c main_v15_0 (ix2 ⟨t.val * 2000 + r.val, h⟩ k) := by
  show V c main_v15_0 (((cfg2.win 0).blk t).view.emb (ix2 r k)) = _
  refine congrArg _ ?_
  funext a; apply Fin.ext
  match a with
  | ⟨0, _⟩ => show win2_0.index t (0 : Fin 2) * 2000 + 1 * r.val = t.val * 2000 + r.val; rw [(idx2 t).1]; omega
  | ⟨1, _⟩ => show win2_0.index t (1 : Fin 2) * 1024 + 1 * k.val = k.val; rw [(idx2 t).2.1]; omega

theorem blk2_1 (c : Dev nD) (t : Fin cfg2.N) (b : Fin 20) (k : Fin 1024) :
    iblk2 V c 1 t (ix3 b 0 k) = V c main_v15_1 (ix3 b 0 k) := by
  obtain ⟨e00, e01, e70, e71, e10, e11, e12, e20, e21, e22, e30, e31, e40, e41, e50, e51, e60, e61⟩ := idx2 t
  show V c main_v15_1 (((cfg2.win 1).blk t).view.emb (ix3 b 0 k)) = _
  refine congrArg _ ?_
  funext a; apply Fin.ext
  match a with
  | ⟨0, _⟩ => show win2_1.index t (0 : Fin 3) * 20 + 1 * b.val = b.val; rw [e10]; omega
  | ⟨1, _⟩ => show win2_1.index t (1 : Fin 3) * 1 + 1 * 0 = 0; rw [e11]
  | ⟨2, _⟩ => show win2_1.index t (2 : Fin 3) * 1024 + 1 * k.val = k.val; rw [e12]; omega

theorem blk2_2 (c : Dev nD) (t : Fin cfg2.N) (b : Fin 20) (k : Fin 1024) :
    iblk2 V c 2 t (ix3 b 0 k) = V c main_v15_2 (ix3 b 0 k) := by
  obtain ⟨e00, e01, e70, e71, e10, e11, e12, e20, e21, e22, e30, e31, e40, e41, e50, e51, e60, e61⟩ := idx2 t
  show V c main_v15_2 (((cfg2.win 2).blk t).view.emb (ix3 b 0 k)) = _
  refine congrArg _ ?_
  funext a; apply Fin.ext
  match a with
  | ⟨0, _⟩ => show win2_2.index t (0 : Fin 3) * 20 + 1 * b.val = b.val; rw [e20]; omega
  | ⟨1, _⟩ => show win2_2.index t (1 : Fin 3) * 1 + 1 * 0 = 0; rw [e21]
  | ⟨2, _⟩ => show win2_2.index t (2 : Fin 3) * 1024 + 1 * k.val = k.val; rw [e22]; omega

theorem blk2_3 (c : Dev nD) (t : Fin cfg2.N) (k : Fin 1024) :
    iblk2 V c 3 t (ix2 0 k) = V c main_v16 (ix2 0 k) := by
  obtain ⟨e00, e01, e70, e71, e10, e11, e12, e20, e21, e22, e30, e31, e40, e41, e50, e51, e60, e61⟩ := idx2 t
  show V c main_v16 (((cfg2.win 3).blk t).view.emb (ix2 0 k)) = _
  refine congrArg _ ?_
  funext a; apply Fin.ext
  match a with
  | ⟨0, _⟩ => show win2_3.index t (0 : Fin 2) * 1 + 1 * 0 = 0; rw [e30]
  | ⟨1, _⟩ => show win2_3.index t (1 : Fin 2) * 1024 + 1 * k.val = k.val; rw [e31]; omega

theorem blk2_4 (c : Dev nD) (t : Fin cfg2.N) (k : Fin 1024) :
    iblk2 V c 4 t (ix2 0 k) = V c main_v17 (ix2 0 k) := by
  obtain ⟨e00, e01, e70, e71, e10, e11, e12, e20, e21, e22, e30, e31, e40, e41, e50, e51, e60, e61⟩ := idx2 t
  show V c main_v17 (((cfg2.win 4).blk t).view.emb (ix2 0 k)) = _
  refine congrArg _ ?_
  funext a; apply Fin.ext
  match a with
  | ⟨0, _⟩ => show win2_4.index t (0 : Fin 2) * 1 + 1 * 0 = 0; rw [e40]
  | ⟨1, _⟩ => show win2_4.index t (1 : Fin 2) * 1024 + 1 * k.val = k.val; rw [e41]; omega

theorem blk2_5 (c : Dev nD) (t : Fin cfg2.N) (o : Fin 37) (k : Fin 1024) :
    iblk2 V c 5 t (ix2 o k) = V c main_v13 (ix2 o k) := by
  obtain ⟨e00, e01, e70, e71, e10, e11, e12, e20, e21, e22, e30, e31, e40, e41, e50, e51, e60, e61⟩ := idx2 t
  show V c main_v13 (((cfg2.win 5).blk t).view.emb (ix2 o k)) = _
  refine congrArg _ ?_
  funext a; apply Fin.ext
  match a with
  | ⟨0, _⟩ => show win2_5.index t (0 : Fin 2) * 37 + 1 * o.val = o.val; rw [e50]; omega
  | ⟨1, _⟩ => show win2_5.index t (1 : Fin 2) * 1024 + 1 * k.val = k.val; rw [e51]; omega

theorem blk2_6 (c : Dev nD) (t : Fin cfg2.N) (o : Fin 37) :
    iblk2 V c 6 t (ix2 0 o) = V c main_v18 (ix2 0 o) := by
  obtain ⟨e00, e01, e70, e71, e10, e11, e12, e20, e21, e22, e30, e31, e40, e41, e50, e51, e60, e61⟩ := idx2 t
  show V c main_v18 (((cfg2.win 6).blk t).view.emb (ix2 0 o)) = _
  refine congrArg _ ?_
  funext a; apply Fin.ext
  match a with
  | ⟨0, _⟩ => show win2_6.index t (0 : Fin 2) * 1 + 1 * 0 = 0; rw [e60]
  | ⟨1, _⟩ => show win2_6.index t (1 : Fin 2) * 37 + 1 * o.val = o.val; rw [e61]; omega

/-- The class scores of a row depend on the block of hidden pre-activations only through that row. -/
theorem out_congr {R R' : Nat} (zb : Fin R → Fin 1024 → EReal) (zb' : Fin R' → Fin 1024 → EReal)
    (ps pss : Fin 20 → Fin 1024 → EReal) (g2 be2 : Fin 1024 → EReal) (w2 : Fin 37 → Fin 1024 → EReal) (b2 : Fin 37 → EReal)
    (r : Fin R) (r' : Fin R') (h : ∀ k, zb r k = zb' r' k) (o : Fin 37) :
    Cert.Spec.Blk.out zb ps pss g2 be2 w2 b2 r o = Cert.Spec.Blk.out zb' ps pss g2 be2 w2 b2 r' o := by
  unfold Cert.Spec.Blk.out Cert.Spec.Blk.h; simp only [h]

def G2_7 (c : Dev nD) : S20000x37.Idx → EReal := fun i =>
  Cert.Spec.Blk.out (R := 20000) (fun n k => V c main_v15_0 (ix2 n k)) (fun b k => V c main_v15_1 (ix3 b 0 k))
    (fun b k => V c main_v15_2 (ix3 b 0 k)) (fun k => V c main_v16 (ix2 0 k)) (fun k => V c main_v17 (ix2 0 k))
    (fun o k => V c main_v13 (ix2 o k)) (fun o => V c main_v18 (ix2 0 o)) (i 0) (i 1)

theorem flushed2_7 (hpay : ∀ (x0 : Vec Ideal S2000x1024 .bf16) (x1 x2 : Vec Ideal S20x1x1024 .f32) (x3 x4 : Vec Ideal S1x1024 .f32) (x5 : Vec Ideal S37x1024 .bf16) (x6 : Vec Ideal S1x37 .f32) (r : Fin 2000) (o : Fin 37),
      out2_7 (F := Ideal) x0 x1 x2 x3 x4 x5 x6 (ix2 r o)
        = Cert.Spec.Blk.out (fun r c => x0 (ix2 r c)) (fun b c => x1 (ix3 b 0 c)) (fun b c => x2 (ix3 b 0 c)) (fun c => x3 (ix2 0 c)) (fun c => x4 (ix2 0 c)) (fun o c => x5 (ix2 o c)) (fun o => x6 (ix2 0 o)) r o) (c : Dev nD) (t : Fin cfg2.N) :
    (dat2 V c).flushed 7 t = ((cfg2.win 7).blk t).view.read (Elt Ideal) (G2_7 V c) := by
  obtain ⟨e00, e01, e70, e71, e10, e11, e12, e20, e21, e22, e30, e31, e40, e41, e50, e51, e60, e61⟩ := idx2 t
  have ht : t.val < 10 := lt_of_lt_of_eq t.isLt N_2
  show (cfg2.win 7).cut (grid2.coords t) ((dat2 V c).after 7 t) = _
  rw [after2_7]
  funext y
  show out2_7 (iblk2 V c 0 t) (iblk2 V c 1 t) (iblk2 V c 2 t) (iblk2 V c 3 t) (iblk2 V c 4 t) (iblk2 V c 5 t) (iblk2 V c 6 t) y
    = G2_7 V c (((cfg2.win 7).blk t).view.emb y)
  obtain ⟨r, o, rfl⟩ : ∃ (r : Fin 2000) (o : Fin 37), y = ix2 r o := ⟨y 0, y 1, eq_ix2 y⟩
  have hb : t.val * 2000 + r.val < 20000 := by have := r.isLt; omega
  refine (hpay (iblk2 V c 0 t) (iblk2 V c 1 t) (iblk2 V c 2 t) (iblk2 V c 3 t) (iblk2 V c 4 t) (iblk2 V c 5 t) (iblk2 V c 6 t) r o).trans ?_
  have f1 : (fun (b : Fin 20) (k : Fin 1024) => iblk2 V c 1 t (ix3 b 0 k)) = fun b k => V c main_v15_1 (ix3 b 0 k) :=
    funext fun b => funext fun k => blk2_1 V c t b k
  have f2 : (fun (b : Fin 20) (k : Fin 1024) => iblk2 V c 2 t (ix3 b 0 k)) = fun b k => V c main_v15_2 (ix3 b 0 k) :=
    funext fun b => funext fun k => blk2_2 V c t b k
  have f3 : (fun (k : Fin 1024) => iblk2 V c 3 t (ix2 0 k)) = fun k => V c main_v16 (ix2 0 k) := funext fun k => blk2_3 V c t k
  have f4 : (fun (k : Fin 1024) => iblk2 V c 4 t (ix2 0 k)) = fun k => V c main_v17 (ix2 0 k) := funext fun k => blk2_4 V c t k
  have f5 : (fun (o : Fin 37) (k : Fin 1024) => iblk2 V c 5 t (ix2 o k)) = fun o k => V c main_v13 (ix2 o k) :=
    funext fun o => funext fun k => blk2_5 V c t o k
  have f6 : (fun (o : Fin 37) => iblk2 V c 6 t (ix2 0 o)) = fun o => V c main_v18 (ix2 0 o) := funext fun o => blk2_6 V c t o
  rw [f1, f2, f3, f4, f5, f6]
  refine (out_congr _ (fun n k => V c main_v15_0 (ix2 n k)) _ _ _ _ _ _ r ⟨t.val * 2000 + r.val, hb⟩ (fun k => blk2_0 V c t r k hb) o).trans ?_
  have hi0 : (⟨t.val * 2000 + r.val, hb⟩ : Fin 20000) = (((cfg2.win 7).blk t).view.emb (ix2 r o)) 0 :=
    Fin.ext (by show t.val * 2000 + r.val = win2_7.index t (0 : Fin 2) * 2000 + 1 * r.val; rw [e70]; omega)
  have hi1 : o = (((cfg2.win 7).blk t).view.emb (ix2 r o)) 1 :=
    Fin.ext (by show o.val = win2_7.index t (1 : Fin 2) * 37 + 1 * o.val; rw [e71]; omega)
  exact congrArg₂ _ hi0 hi1

/-- Every row of the result lies in the block of the point its index divided by 2000 names. -/
theorem cover2_7' (i : S20000x37.Idx) :
    ∃ t : Fin cfg2.N, (cfg2.win 7).flush t = true ∧ i ∈ ((cfg2.win 7).blk t).view.set := by
  have hi0 : (i 0).val < 20000 := (i 0).isLt
  have hi1 : (i 1).val < 37 := (i 1).isLt
  let t : Fin cfg2.N := ⟨(i 0).val / 2000, by show (i 0).val / 2000 < grid2.N; rw [N_2]; omega⟩
  obtain ⟨e00, e01, e70, e71, -⟩ := idx2 t
  refine ⟨t, flush2_7 t, ?_⟩
  show i ∈ ((View.whole main_v19).slice (win2_7.rect t)).set
  rw [View.set_slice_whole, Rect.mem_set_unit]
  intro a
  match a with
  | ⟨0, _⟩ => show win2_7.index t (0 : Fin 2) * 2000 ≤ (i 0).val ∧ (i 0).val < win2_7.index t (0 : Fin 2) * 2000 + 2000; rw [e70]; show (i 0).val / 2000 * 2000 ≤ (i 0).val ∧ (i 0).val < (i 0).val / 2000 * 2000 + 2000; omega
  | ⟨1, _⟩ => show win2_7.index t (1 : Fin 2) * 37 ≤ (i 1).val ∧ (i 1).val < win2_7.index t (1 : Fin 2) * 37 + 37; rw [e71]; omega

theorem final2_7 (hpay : ∀ (x0 : Vec Ideal S2000x1024 .bf16) (x1 x2 : Vec Ideal S20x1x1024 .f32) (x3 x4 : Vec Ideal S1x1024 .f32) (x5 : Vec Ideal S37x1024 .bf16) (x6 : Vec Ideal S1x37 .f32) (r : Fin 2000) (o : Fin 37),
      out2_7 (F := Ideal) x0 x1 x2 x3 x4 x5 x6 (ix2 r o)
        = Cert.Spec.Blk.out (fun r c => x0 (ix2 r c)) (fun b c => x1 (ix3 b 0 c)) (fun b c => x2 (ix3 b 0 c)) (fun c => x3 (ix2 0 c)) (fun c => x4 (ix2 0 c)) (fun o c => x5 (ix2 o c)) (fun o => x6 (ix2 0 o)) r o) (c : Dev nD) : (dat2 V c).arrAt 7 cfg2.N = G2_7 V c :=
  (dat2 V c).arrAt_eq_of_cover 7 (G2_7 V c) (fun t _ => flushed2_7 V hpay c t) (cover2_7' )

end Cert.KernelIdeal.KVal
end
-- ==== Proof.KChain.lean ====
/-
  The kernel program's buffers at each boundary between its host stretches and its three regions, read back to the
  launch memory: the box array rearranged row-major to [625, 160]; gains, biases and bias rows viewed as [1, n]
  rows; W1's three column ranges; the embedding table pushed through W1's object columns; and, through the three regions'
  whole-array forms, the result as the kernel's formula of the fourteen float argument arrays.
-/
import proofs.«144968_g33105607918058_cont_8to1_b_384_44_alg».proof.Proof.Gen.KernelIdeal.Frame
import proofs.«144968_g33105607918058_cont_8to1_b_384_44_alg».proof.Proof.BlockSpec
import Idealize.ShloMosaic.Lib.Pipeline.Value
import Idealize.ShloMosaic.Lib.ValueIdx
import Idealize.ShloMosaic.Lib.StableHlo.Run
import proofs.«144968_g33105607918058_cont_8to1_b_384_44_alg».proof.Proof.LibDense
import proofs.«144968_g33105607918058_cont_8to1_b_384_44_alg».proof.Proof.KReg0
import proofs.«144968_g33105607918058_cont_8to1_b_384_44_alg».proof.Proof.KReg1
import proofs.«144968_g33105607918058_cont_8to1_b_384_44_alg».proof.Proof.KReg2
set_option maxRecDepth 16384

noncomputable section

namespace Cert.KernelIdeal.KChain

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

variable (m : (ℓ : Loc nD τ sig) → Buf (Elt Ideal) ℓ) (ρ : Dev nD → PrngReg)

/-- A buffer no operation of a stretch writes holds after the stretch what it held before. -/
macro "not_written" : tactic => `(tactic| (refine StableHlo.after_of_forall_not_mem _ _ (List.forall_iff_forall_mem.mp (by
    simp only [hostOps0, hostOps1, hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))))

/-! ## The arguments at the first boundaries -/
theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  not_written
theorem W1_arg1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1)
  not_written
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  not_written
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  not_written
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  not_written
theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  not_written
theorem W1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  not_written
theorem W1_arg8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8)
  not_written
theorem W1_arg9 (c : Dev nD) : W1 m ρ c (Proc.devRef .tc main_arg9) = m ((c : Thread nD τ).loc main_arg9) := by
  show StableHlo.after hostOps0 (W0 m ρ c) (Proc.devRef .tc main_arg9) = W0 m ρ c (Proc.devRef .tc main_arg9)
  not_written
theorem W1_arg10 (c : Dev nD) : W1 m ρ c (Proc.devRef .tc main_arg10) = m ((c : Thread nD τ).loc main_arg10) := by
  show StableHlo.after hostOps0 (W0 m ρ c) (Proc.devRef .tc main_arg10) = W0 m ρ c (Proc.devRef .tc main_arg10)
  not_written
theorem W1_arg11 (c : Dev nD) : W1 m ρ c (Proc.devRef .tc main_arg11) = m ((c : Thread nD τ).loc main_arg11) := by
  show StableHlo.after hostOps0 (W0 m ρ c) (Proc.devRef .tc main_arg11) = W0 m ρ c (Proc.devRef .tc main_arg11)
  not_written
theorem W1_arg12 (c : Dev nD) : W1 m ρ c (Proc.devRef .tc main_arg12) = m ((c : Thread nD τ).loc main_arg12) := by
  show StableHlo.after hostOps0 (W0 m ρ c) (Proc.devRef .tc main_arg12) = W0 m ρ c (Proc.devRef .tc main_arg12)
  not_written
theorem W1_arg13 (c : Dev nD) : W1 m ρ c (Proc.devRef .tc main_arg13) = m ((c : Thread nD τ).loc main_arg13) := by
  show StableHlo.after hostOps0 (W0 m ρ c) (Proc.devRef .tc main_arg13) = W0 m ρ c (Proc.devRef .tc main_arg13)
  not_written
theorem W1_arg14 (c : Dev nD) : W1 m ρ c (Proc.devRef .tc main_arg14) = m ((c : Thread nD τ).loc main_arg14) := by
  show StableHlo.after hostOps0 (W0 m ρ c) (Proc.devRef .tc main_arg14) = W0 m ρ c (Proc.devRef .tc main_arg14)
  not_written
theorem W2_arg0 (c : Dev nD) : W2 m ρ c (Proc.devRef .tc main_arg0) = m ((c : Thread nD τ).loc main_arg0) :=
  (W2_of_ne m ρ c main_arg0 (by decide)).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg14 (c : Dev nD) : W2 m ρ c (Proc.devRef .tc main_arg14) = m ((c : Thread nD τ).loc main_arg14) :=
  (W2_of_ne m ρ c main_arg14 (by decide)).trans (W1_arg14 m ρ c)

/-! ## After the first stretch -/

theorem V1_v0 (c : Dev nD) (n : Fin 20000) (q : Fin 5) :
    Cert.KernelIdeal.KVal0.bxOf (V1 m ρ c main_v0) n q = m ((c : Thread nD τ).loc main_arg1) (ix2 n q) := by
  unfold Cert.KernelIdeal.KVal0.bxOf
  show StableHlo.after hostOps0 (W0 m ρ c) (Proc.devRef .tc main_v0) _ = _
  after_results
  refine (shapeCast_apply _ _ _ (ix2 n q) ?_).trans rfl
  show ((⟨2, ![20000, 5]⟩ : Shape).rowMajor (ix2 n q)).val
    = ((⟨2, ![625, 160]⟩ : Shape).rowMajor (ix2 (⟨(5 * n.val + q.val) / 160, by omega⟩ : Fin 625) (⟨(5 * n.val + q.val) % 160, by omega⟩ : Fin 160))).val
  rw [Shape.rowMajor_val_two, Shape.rowMajor_val_two]
  show n.val * 5 + q.val = (5 * n.val + q.val) / 160 * 160 + (5 * n.val + q.val) % 160
  omega

theorem V1_v1 (c : Dev nD) (j : Fin 128) : (V1 m ρ c main_v1 : S1x128.Idx → EReal) (ix2 0 j) = m ((c : Thread nD τ).loc main_arg8) (ix1 j) := by
  show StableHlo.after hostOps0 (W0 m ρ c) (Proc.devRef .tc main_v1) _ = _
  after_results
  refine (broadcastInDim_apply _ _ _ _ (ix1 j) fun a => ?_).trans rfl
  match a with
  | ⟨0, _⟩ => rfl

theorem V1_v2 (c : Dev nD) (k : Fin 4) : (V1 m ρ c main_v2 : S1x4.Idx → EReal) (ix2 0 k) = m ((c : Thread nD τ).loc main_arg5) (ix1 k) := by
  show StableHlo.after hostOps0 (W0 m ρ c) (Proc.devRef .tc main_v2) _ = _
  after_results
  refine (broadcastInDim_apply _ _ _ _ (ix1 k) fun a => ?_).trans rfl
  match a with
  | ⟨0, _⟩ => rfl

theorem V1_v3 (c : Dev nD) (k : Fin 4) : (V1 m ρ c main_v3 : S1x4.Idx → EReal) (ix2 0 k) = m ((c : Thread nD τ).loc main_arg6) (ix1 k) := by
  show StableHlo.after hostOps0 (W0 m ρ c) (Proc.devRef .tc main_v3) _ = _
  after_results
  refine (broadcastInDim_apply _ _ _ _ (ix1 k) fun a => ?_).trans rfl
  match a with
  | ⟨0, _⟩ => rfl

theorem V1_arg7 (c : Dev nD) : V1 m ρ c main_arg7 = m ((c : Thread nD τ).loc main_arg7) := W1_arg7 m ρ c

/-- The embedding table pushed through W1's object columns, at an entry. -/
theorem wdt_eq (l : FVec Ideal S36x200 .f32) (r : FVec Ideal S200x1024 .f32) (d : Fin 36) (k : Fin 1024) :
    Host.dotGeneral (F := Ideal) dot_S36x200_S200x1024_S36x1024_1_0_0_1_n_n none l r (ix2 d k)
      = ∑ e : Fin 200, l (ix2 d e) * r (ix2 e k) :=
  Cert.Dense.dotGeneral_eq dot_S36x200_S200x1024_S36x1024_1_0_0_1_n_n rfl rfl (fun _ _ => rfl) (fun _ _ => rfl)
    (fun _ _ => rfl) (fun _ _ => rfl) none _ l r (ix2 d k)

/-! ## The argument arrays as plain families -/

def aDist (c : Dev nD) : Fin 20000 → Fin 36 → EReal := fun n d => m ((c : Thread nD τ).loc main_arg0) (ix2 n d)
def aBoxes (c : Dev nD) : Fin 20000 → Fin 5 → EReal := fun n q => m ((c : Thread nD τ).loc main_arg1) (ix2 n q)
def aFeat (c : Dev nD) : Fin 20000 → Fin 2048 → EReal := fun n q => m ((c : Thread nD τ).loc main_arg2) (ix2 n q)
def aObjw (c : Dev nD) : Fin 36 → Fin 200 → EReal := fun d e => m ((c : Thread nD τ).loc main_arg4) (ix2 d e)
def aG4 (c : Dev nD) : Fin 4 → EReal := fun k => m ((c : Thread nD τ).loc main_arg5) (ix1 k)
def aBe4 (c : Dev nD) : Fin 4 → EReal := fun k => m ((c : Thread nD τ).loc main_arg6) (ix1 k)
def aPosW (c : Dev nD) : Fin 128 → Fin 4 → EReal := fun j k => m ((c : Thread nD τ).loc main_arg7) (ix2 j k)
def aPosb (c : Dev nD) : Fin 128 → EReal := fun j => m ((c : Thread nD τ).loc main_arg8) (ix1 j)
def aW1 (c : Dev nD) : Fin 1024 → Fin 2376 → EReal := fun k q => m ((c : Thread nD τ).loc main_arg9) (ix2 k q)
def aB1 (c : Dev nD) : Fin 1024 → EReal := fun k => m ((c : Thread nD τ).loc main_arg10) (ix1 k)
def aG2 (c : Dev nD) : Fin 1024 → EReal := fun k => m ((c : Thread nD τ).loc main_arg11) (ix1 k)
def aBe2 (c : Dev nD) : Fin 1024 → EReal := fun k => m ((c : Thread nD τ).loc main_arg12) (ix1 k)
def aW2 (c : Dev nD) : Fin 37 → Fin 1024 → EReal := fun o k => m ((c : Thread nD τ).loc main_arg13) (ix2 o k)
def aB2 (c : Dev nD) : Fin 37 → EReal := fun o => m ((c : Thread nD τ).loc main_arg14) (ix1 o)

/-! ## After the second stretch -/
theorem V3_arg0 (c : Dev nD) : V3 m ρ c main_arg0 = m ((c : Thread nD τ).loc main_arg0) := by
  show StableHlo.after hostOps1 (W2 m ρ c) (Proc.devRef .tc main_arg0) = _
  refine Eq.trans ?_ (W2_arg0 m ρ c)
  not_written
theorem V3_arg1 (c : Dev nD) : V3 m ρ c main_arg1 = m ((c : Thread nD τ).loc main_arg1) := by
  show StableHlo.after hostOps1 (W2 m ρ c) (Proc.devRef .tc main_arg1) = _
  refine Eq.trans ?_ (W2_arg1 m ρ c)
  not_written
theorem V3_arg2 (c : Dev nD) : V3 m ρ c main_arg2 = m ((c : Thread nD τ).loc main_arg2) := by
  show StableHlo.after hostOps1 (W2 m ρ c) (Proc.devRef .tc main_arg2) = _
  refine Eq.trans ?_ (W2_arg2 m ρ c)
  not_written

theorem V3_v4_0 (h5 : ∀ (x0 : Vec Ideal S625x160 .f32) (x1 : Vec Ideal S128x4 .f32) (x2 : Vec Ideal S1x128 .f32) (x3 x4 : Vec Ideal S1x4 .f32) (r : Fin 5) (j : Fin 128),
      out0_5 (F := Ideal) x0 x1 x2 x3 x4 (ix2 r j) = Cert.Spec.K.B5 (Cert.KernelIdeal.KVal0.bxOf x0) (fun k => x3 (ix2 0 k)) (fun j k => x1 (ix2 j k)) r j) (c : Dev nD) : V3 m ρ c main_v4_0 = Cert.KernelIdeal.KVal0.G0_5 (V1 m ρ) c := by
  show StableHlo.after hostOps1 (W2 m ρ c) (Proc.devRef .tc main_v4_0) = _
  refine Eq.trans (by not_written) ?_
  exact (W2_arr m ρ c 5).trans (Cert.KernelIdeal.KVal0.final0_5 (V1 m ρ) h5 c)

theorem V3_v4_1 (h6 : ∀ (x0 : Vec Ideal S625x160 .f32) (x1 : Vec Ideal S128x4 .f32) (x2 : Vec Ideal S1x128 .f32) (x3 x4 : Vec Ideal S1x4 .f32) (j : Fin 128),
      out0_6 (F := Ideal) x0 x1 x2 x3 x4 (ix2 0 j) = Cert.Spec.K.cvec (Cert.KernelIdeal.KVal0.bxOf x0) (fun k => x3 (ix2 0 k)) (fun k => x4 (ix2 0 k)) (fun j k => x1 (ix2 j k)) (fun j => x2 (ix2 0 j)) j) (c : Dev nD) : V3 m ρ c main_v4_1 = Cert.KernelIdeal.KVal0.G0_6 (V1 m ρ) c := by
  show StableHlo.after hostOps1 (W2 m ρ c) (Proc.devRef .tc main_v4_1) = _
  refine Eq.trans (by not_written) ?_
  exact (W2_arr m ρ c 6).trans (Cert.KernelIdeal.KVal0.final0_6 (V1 m ρ) h6 c)

theorem V3_v12 (c : Dev nD) (d : Fin 36) (k : Fin 1024) :
    (V3 m ρ c main_v12 : S36x1024.Idx → EReal) (ix2 d k) = Cert.Spec.K.wdt (aObjw m c) (aW1 m c) d k := by
  show StableHlo.after hostOps1 (W2 m ρ c) (Proc.devRef .tc main_v12) _ = _
  after_results
  refine (wdt_eq _ _ d k).trans ?_
  unfold Cert.Spec.K.wdt
  refine Finset.sum_congr rfl fun e _ => ?_
  rw [W2_arg4, W2_arg9]
  refine congrArg₂ (· * ·) rfl ?_
  refine (transpose_apply _ _ _ _ (ix2 k e) fun b => ?_).trans ?_
  · match b with
    | ⟨0, _⟩ => rfl
    | ⟨1, _⟩ => rfl
  refine (extractStridedSlice_apply _ _ _ _ (ix2 k (Cert.Spec.colObj e)) fun a => ?_).trans rfl
  match a with
  | ⟨0, _⟩ => show k.val = 0 + k.val; omega
  | ⟨1, _⟩ => rfl

theorem V3_v8 (c : Dev nD) (k : Fin 1024) (j : Fin 128) :
    (V3 m ρ c main_v8 : S1024x128.Idx → EReal) (ix2 k j) = aW1 m c k (Cert.Spec.colPos j) := by
  show StableHlo.after hostOps1 (W2 m ρ c) (Proc.devRef .tc main_v8) _ = _
  after_results
  rw [W2_arg9]
  show extractStridedSlice S1024x128 ![0, 2248] (m ((c : Thread nD τ).loc main_arg9)) slices_S1024x2376_S1024x128_0_2248 (ix2 k j) = _
  refine (extractStridedSlice_apply ![0, 2248] _ slices_S1024x2376_S1024x128_0_2248 (ix2 k j) (ix2 k (Cert.Spec.colPos j)) fun a => ?_).trans rfl
  match a with
  | ⟨0, _⟩ => show k.val = 0 + k.val; omega
  | ⟨1, _⟩ => rfl

theorem V3_v6 (c : Dev nD) (k : Fin 1024) (q : Fin 2048) :
    (V3 m ρ c main_v6 : S1024x2048.Idx → EReal) (ix2 k q) = aW1 m c k (Cert.Spec.colFeat q) := by
  show StableHlo.after hostOps1 (W2 m ρ c) (Proc.devRef .tc main_v6) _ = _
  after_results
  rw [W2_arg9]
  show extractStridedSlice S1024x2048 ![0, 0] (m ((c : Thread nD τ).loc main_arg9)) slices_S1024x2376_S1024x2048_0_0 (ix2 k q) = _
  refine (extractStridedSlice_apply ![0, 0] _ slices_S1024x2376_S1024x2048_0_0 (ix2 k q) (ix2 k (Cert.Spec.colFeat q)) fun a => ?_).trans rfl
  match a with
  | ⟨0, _⟩ => show k.val = 0 + k.val; omega
  | ⟨1, _⟩ => show q.val = 0 + q.val; omega

theorem V3_v14 (c : Dev nD) (k : Fin 1024) : (V3 m ρ c main_v14 : S1x1024.Idx → EReal) (ix2 0 k) = aB1 m c k := by
  show StableHlo.after hostOps1 (W2 m ρ c) (Proc.devRef .tc main_v14) _ = _
  after_results
  rw [W2_arg10]
  refine (broadcastInDim_apply _ _ _ _ (ix1 k) fun a => ?_).trans rfl
  match a with
  | ⟨0, _⟩ => rfl

/-! ## After the third stretch -/
theorem W4_arg11 (c : Dev nD) : W4 m ρ c (Proc.devRef .tc main_arg11) = m ((c : Thread nD τ).loc main_arg11) := by
  refine (W4_of_ne m ρ c main_arg11 (by decide)).trans ?_
  show StableHlo.after hostOps1 (W2 m ρ c) (Proc.devRef .tc main_arg11) = _
  refine Eq.trans ?_ (W2_arg11 m ρ c)
  not_written
theorem W4_arg12 (c : Dev nD) : W4 m ρ c (Proc.devRef .tc main_arg12) = m ((c : Thread nD τ).loc main_arg12) := by
  refine (W4_of_ne m ρ c main_arg12 (by decide)).trans ?_
  show StableHlo.after hostOps1 (W2 m ρ c) (Proc.devRef .tc main_arg12) = _
  refine Eq.trans ?_ (W2_arg12 m ρ c)
  not_written
theorem W4_arg13 (c : Dev nD) : W4 m ρ c (Proc.devRef .tc main_arg13) = m ((c : Thread nD τ).loc main_arg13) := by
  refine (W4_of_ne m ρ c main_arg13 (by decide)).trans ?_
  show StableHlo.after hostOps1 (W2 m ρ c) (Proc.devRef .tc main_arg13) = _
  refine Eq.trans ?_ (W2_arg13 m ρ c)
  not_written
theorem W4_arg14 (c : Dev nD) : W4 m ρ c (Proc.devRef .tc main_arg14) = m ((c : Thread nD τ).loc main_arg14) := by
  refine (W4_of_ne m ρ c main_arg14 (by decide)).trans ?_
  show StableHlo.after hostOps1 (W2 m ρ c) (Proc.devRef .tc main_arg14) = _
  refine Eq.trans ?_ (W2_arg14 m ρ c)
  not_written

theorem V5_v16 (c : Dev nD) (k : Fin 1024) : (V5 m ρ c main_v16 : S1x1024.Idx → EReal) (ix2 0 k) = aG2 m c k := by
  show StableHlo.after hostOps2 (W4 m ρ c) (Proc.devRef .tc main_v16) _ = _
  after_results
  rw [W4_arg11]
  refine (broadcastInDim_apply _ _ _ _ (ix1 k) fun a => ?_).trans rfl
  match a with
  | ⟨0, _⟩ => rfl

theorem V5_v17 (c : Dev nD) (k : Fin 1024) : (V5 m ρ c main_v17 : S1x1024.Idx → EReal) (ix2 0 k) = aBe2 m c k := by
  show StableHlo.after hostOps2 (W4 m ρ c) (Proc.devRef .tc main_v17) _ = _
  after_results
  rw [W4_arg12]
  refine (broadcastInDim_apply _ _ _ _ (ix1 k) fun a => ?_).trans rfl
  match a with
  | ⟨0, _⟩ => rfl

theorem V5_v18 (c : Dev nD) (o : Fin 37) : (V5 m ρ c main_v18 : S1x37.Idx → EReal) (ix2 0 o) = aB2 m c o := by
  show StableHlo.after hostOps2 (W4 m ρ c) (Proc.devRef .tc main_v18) _ = _
  after_results
  rw [W4_arg14]
  refine (broadcastInDim_apply _ _ _ _ (ix1 o) fun a => ?_).trans rfl
  match a with
  | ⟨0, _⟩ => rfl

theorem V5_v13 (c : Dev nD) (o : Fin 37) (k : Fin 1024) : (V5 m ρ c main_v13 : S37x1024.Idx → EReal) (ix2 o k) = aW2 m c o k := by
  have e1 : V5 m ρ c main_v13 = W4 m ρ c (Proc.devRef .tc main_v13) := by
    show StableHlo.after hostOps2 (W4 m ρ c) (Proc.devRef .tc main_v13) = _
    not_written
  have e2 : W4 m ρ c (Proc.devRef .tc main_v13) = W3 m ρ c (Proc.devRef .tc main_v13) := W4_of_ne m ρ c main_v13 (by decide)
  rw [e1, e2]
  show StableHlo.after hostOps1 (W2 m ρ c) (Proc.devRef .tc main_v13) _ = _
  after_results
  rw [W2_arg13]
  rfl

theorem V5_v15_0 (hz : ∀ (x0 : Vec Ideal S1000x5 .f32) (x1 : Vec Ideal S1000x36 .f32) (x2 : Vec Ideal S1000x2048 .f32) (x3 : Vec Ideal S5x128 .f32) (x4 : Vec Ideal S1x128 .f32) (x5 : Vec Ideal S36x1024 .bf16) (x6 : Vec Ideal S1024x128 .bf16) (x7 : Vec Ideal S1024x2048 .bf16) (x8 : Vec Ideal S1x1024 .f32) (r : Fin 1000) (k : Fin 1024),
      out1_9 (F := Ideal) x0 x1 x2 x3 x4 x5 x6 x7 x8 (ix2 r k)
        = Cert.Spec.Blk.z (fun r i => x0 (ix2 r i)) (fun r d => x1 (ix2 r d)) (fun r q => x2 (ix2 r q)) (fun i j => x3 (ix2 i j)) (fun j => x4 (ix2 0 j)) (fun d c => x5 (ix2 d c)) (fun c j => x6 (ix2 c j)) (fun c q => x7 (ix2 c q)) (fun c => x8 (ix2 0 c)) r k) (c : Dev nD) : V5 m ρ c main_v15_0 = Cert.KernelIdeal.KVal1.G1_9 (V3 m ρ) c := by
  show StableHlo.after hostOps2 (W4 m ρ c) (Proc.devRef .tc main_v15_0) = _
  refine Eq.trans (by not_written) ?_
  exact (W4_arr m ρ c 9).trans (Cert.KernelIdeal.KVal1.final1_9 (V3 m ρ) hz c)
theorem V5_v15_1 (hs : ∀ (x0 : Vec Ideal S1000x5 .f32) (x1 : Vec Ideal S1000x36 .f32) (x2 : Vec Ideal S1000x2048 .f32) (x3 : Vec Ideal S5x128 .f32) (x4 : Vec Ideal S1x128 .f32) (x5 : Vec Ideal S36x1024 .bf16) (x6 : Vec Ideal S1024x128 .bf16) (x7 : Vec Ideal S1024x2048 .bf16) (x8 : Vec Ideal S1x1024 .f32) (k : Fin 1024),
      out1_10 (F := Ideal) x0 x1 x2 x3 x4 x5 x6 x7 x8 (ix3 0 0 k)
        = Cert.Spec.Blk.s (fun r i => x0 (ix2 r i)) (fun r d => x1 (ix2 r d)) (fun r q => x2 (ix2 r q)) (fun i j => x3 (ix2 i j)) (fun j => x4 (ix2 0 j)) (fun d c => x5 (ix2 d c)) (fun c j => x6 (ix2 c j)) (fun c q => x7 (ix2 c q)) (fun c => x8 (ix2 0 c)) k) (c : Dev nD) : V5 m ρ c main_v15_1 = Cert.KernelIdeal.KVal1.G1_10 (V3 m ρ) c := by
  show StableHlo.after hostOps2 (W4 m ρ c) (Proc.devRef .tc main_v15_1) = _
  refine Eq.trans (by not_written) ?_
  exact (W4_arr m ρ c 10).trans (Cert.KernelIdeal.KVal1.final1_10 (V3 m ρ) hs c)
theorem V5_v15_2 (hss : ∀ (x0 : Vec Ideal S1000x5 .f32) (x1 : Vec Ideal S1000x36 .f32) (x2 : Vec Ideal S1000x2048 .f32) (x3 : Vec Ideal S5x128 .f32) (x4 : Vec Ideal S1x128 .f32) (x5 : Vec Ideal S36x1024 .bf16) (x6 : Vec Ideal S1024x128 .bf16) (x7 : Vec Ideal S1024x2048 .bf16) (x8 : Vec Ideal S1x1024 .f32) (k : Fin 1024),
      out1_11 (F := Ideal) x0 x1 x2 x3 x4 x5 x6 x7 x8 (ix3 0 0 k)
        = Cert.Spec.Blk.ss (fun r i => x0 (ix2 r i)) (fun r d => x1 (ix2 r d)) (fun r q => x2 (ix2 r q)) (fun i j => x3 (ix2 i j)) (fun j => x4 (ix2 0 j)) (fun d c => x5 (ix2 d c)) (fun c j => x6 (ix2 c j)) (fun c q => x7 (ix2 c q)) (fun c => x8 (ix2 0 c)) k) (c : Dev nD) : V5 m ρ c main_v15_2 = Cert.KernelIdeal.KVal1.G1_11 (V3 m ρ) c := by
  show StableHlo.after hostOps2 (W4 m ρ c) (Proc.devRef .tc main_v15_2) = _
  refine Eq.trans (by not_written) ?_
  exact (W4_arr m ρ c 11).trans (Cert.KernelIdeal.KVal1.final1_11 (V3 m ρ) hss c)

/-! ## The regions' inputs as the argument families -/

theorem fam_boxes (c : Dev nD) : Cert.KernelIdeal.KVal0.bxOf (V1 m ρ c main_v0) = aBoxes m c :=
  funext fun n => funext fun q => V1_v0 m ρ c n q

theorem B5_eq (h5 : ∀ (x0 : Vec Ideal S625x160 .f32) (x1 : Vec Ideal S128x4 .f32) (x2 : Vec Ideal S1x128 .f32) (x3 x4 : Vec Ideal S1x4 .f32) (r : Fin 5) (j : Fin 128),
      out0_5 (F := Ideal) x0 x1 x2 x3 x4 (ix2 r j) = Cert.Spec.K.B5 (Cert.KernelIdeal.KVal0.bxOf x0) (fun k => x3 (ix2 0 k)) (fun j k => x1 (ix2 j k)) r j) (c : Dev nD) (i : Fin 5) (j : Fin 128) :
    (V3 m ρ c main_v4_0 : S5x128.Idx → EReal) (ix2 i j) = Cert.Spec.K.B5 (aBoxes m c) (aG4 m c) (aPosW m c) i j := by
  rw [V3_v4_0 m ρ h5 c]
  unfold Cert.KernelIdeal.KVal0.G0_5
  rw [fam_boxes m ρ c, V1_arg7 m ρ c]
  have e : (fun k : Fin 4 => (V1 m ρ c main_v2 : S1x4.Idx → EReal) (ix2 0 k)) = aG4 m c := funext fun k => V1_v2 m ρ c k
  rw [e]; rfl

theorem cvec_eq (h6 : ∀ (x0 : Vec Ideal S625x160 .f32) (x1 : Vec Ideal S128x4 .f32) (x2 : Vec Ideal S1x128 .f32) (x3 x4 : Vec Ideal S1x4 .f32) (j : Fin 128),
      out0_6 (F := Ideal) x0 x1 x2 x3 x4 (ix2 0 j) = Cert.Spec.K.cvec (Cert.KernelIdeal.KVal0.bxOf x0) (fun k => x3 (ix2 0 k)) (fun k => x4 (ix2 0 k)) (fun j k => x1 (ix2 j k)) (fun j => x2 (ix2 0 j)) j) (c : Dev nD) (j : Fin 128) :
    (V3 m ρ c main_v4_1 : S1x128.Idx → EReal) (ix2 0 j) = Cert.Spec.K.cvec (aBoxes m c) (aG4 m c) (aBe4 m c) (aPosW m c) (aPosb m c) j := by
  rw [V3_v4_1 m ρ h6 c]
  unfold Cert.KernelIdeal.KVal0.G0_6
  rw [fam_boxes m ρ c, V1_arg7 m ρ c]
  have e2 : (fun k : Fin 4 => (V1 m ρ c main_v2 : S1x4.Idx → EReal) (ix2 0 k)) = aG4 m c := funext fun k => V1_v2 m ρ c k
  have e3 : (fun k : Fin 4 => (V1 m ρ c main_v3 : S1x4.Idx → EReal) (ix2 0 k)) = aBe4 m c := funext fun k => V1_v3 m ρ c k
  have e1 : (fun j : Fin 128 => (V1 m ρ c main_v1 : S1x128.Idx → EReal) (ix2 0 j)) = aPosb m c := funext fun j => V1_v1 m ρ c j
  rw [e2, e3, e1]; rfl

/-- The hidden pre-activation the middle region leaves, as the kernel's formula of the arguments. -/
theorem z_eq (h5 : ∀ (x0 : Vec Ideal S625x160 .f32) (x1 : Vec Ideal S128x4 .f32) (x2 : Vec Ideal S1x128 .f32) (x3 x4 : Vec Ideal S1x4 .f32) (r : Fin 5) (j : Fin 128),
      out0_5 (F := Ideal) x0 x1 x2 x3 x4 (ix2 r j) = Cert.Spec.K.B5 (Cert.KernelIdeal.KVal0.bxOf x0) (fun k => x3 (ix2 0 k)) (fun j k => x1 (ix2 j k)) r j) (h6 : ∀ (x0 : Vec Ideal S625x160 .f32) (x1 : Vec Ideal S128x4 .f32) (x2 : Vec Ideal S1x128 .f32) (x3 x4 : Vec Ideal S1x4 .f32) (j : Fin 128),
      out0_6 (F := Ideal) x0 x1 x2 x3 x4 (ix2 0 j) = Cert.Spec.K.cvec (Cert.KernelIdeal.KVal0.bxOf x0) (fun k => x3 (ix2 0 k)) (fun k => x4 (ix2 0 k)) (fun j k => x1 (ix2 j k)) (fun j => x2 (ix2 0 j)) j) (c : Dev nD) (i : S20000x1024.Idx) :
    Cert.KernelIdeal.KVal1.G1_9 (V3 m ρ) c i = Cert.Spec.K.z (aDist m c) (aBoxes m c) (aFeat m c) (aObjw m c) (aG4 m c) (aBe4 m c) (aPosW m c) (aPosb m c) (aW1 m c) (aB1 m c) (i 0) (i 1) := by
  unfold Cert.KernelIdeal.KVal1.G1_9
  rw [V3_arg0 m ρ c, V3_arg1 m ρ c, V3_arg2 m ρ c]
  have e3 : (fun (i : Fin 5) (j : Fin 128) => (V3 m ρ c main_v4_0 : S5x128.Idx → EReal) (ix2 i j)) = Cert.Spec.K.B5 (aBoxes m c) (aG4 m c) (aPosW m c) :=
    funext fun i => funext fun j => B5_eq m ρ h5 c i j
  have e4 : (fun (j : Fin 128) => (V3 m ρ c main_v4_1 : S1x128.Idx → EReal) (ix2 0 j)) = Cert.Spec.K.cvec (aBoxes m c) (aG4 m c) (aBe4 m c) (aPosW m c) (aPosb m c) :=
    funext fun j => cvec_eq m ρ h6 c j
  have e5 : (fun (d : Fin 36) (k : Fin 1024) => (V3 m ρ c main_v12 : S36x1024.Idx → EReal) (ix2 d k)) = Cert.Spec.K.wdt (aObjw m c) (aW1 m c) :=
    funext fun d => funext fun k => V3_v12 m ρ c d k
  have e6 : (fun (k : Fin 1024) (j : Fin 128) => (V3 m ρ c main_v8 : S1024x128.Idx → EReal) (ix2 k j)) = fun k j => aW1 m c k (Cert.Spec.colPos j) :=
    funext fun k => funext fun j => V3_v8 m ρ c k j
  have e7 : (fun (k : Fin 1024) (q : Fin 2048) => (V3 m ρ c main_v6 : S1024x2048.Idx → EReal) (ix2 k q)) = fun k q => aW1 m c k (Cert.Spec.colFeat q) :=
    funext fun k => funext fun q => V3_v6 m ρ c k q
  have e8 : (fun (k : Fin 1024) => (V3 m ρ c main_v14 : S1x1024.Idx → EReal) (ix2 0 k)) = aB1 m c := funext fun k => V3_v14 m ρ c k
  rw [e3, e4, e5, e6, e7, e8]
  rfl

/-- Block b's column sums of the hidden pre-activation, as the kernel's formula of the arguments. -/
theorem s_eq (h5 : ∀ (x0 : Vec Ideal S625x160 .f32) (x1 : Vec Ideal S128x4 .f32) (x2 : Vec Ideal S1x128 .f32) (x3 x4 : Vec Ideal S1x4 .f32) (r : Fin 5) (j : Fin 128),
      out0_5 (F := Ideal) x0 x1 x2 x3 x4 (ix2 r j) = Cert.Spec.K.B5 (Cert.KernelIdeal.KVal0.bxOf x0) (fun k => x3 (ix2 0 k)) (fun j k => x1 (ix2 j k)) r j) (h6 : ∀ (x0 : Vec Ideal S625x160 .f32) (x1 : Vec Ideal S128x4 .f32) (x2 : Vec Ideal S1x128 .f32) (x3 x4 : Vec Ideal S1x4 .f32) (j : Fin 128),
      out0_6 (F := Ideal) x0 x1 x2 x3 x4 (ix2 0 j) = Cert.Spec.K.cvec (Cert.KernelIdeal.KVal0.bxOf x0) (fun k => x3 (ix2 0 k)) (fun k => x4 (ix2 0 k)) (fun j k => x1 (ix2 j k)) (fun j => x2 (ix2 0 j)) j) (c : Dev nD) (b : Fin 20) (k : Fin 1024) :
    Cert.KernelIdeal.KVal1.G1_10 (V3 m ρ) c (ix3 b 0 k) = Cert.Spec.K.s (aDist m c) (aBoxes m c) (aFeat m c) (aObjw m c) (aG4 m c) (aBe4 m c) (aPosW m c) (aPosb m c) (aW1 m c) (aB1 m c) b k := by
  unfold Cert.KernelIdeal.KVal1.G1_10 Cert.Spec.K.s
  exact Finset.sum_congr rfl fun r _ => z_eq m ρ h5 h6 c (ix2 (Cert.Spec.rowOf b r) k)

/-- Block b's column sums of the squared hidden pre-activation, as the kernel's formula of the arguments. -/
theorem ss_eq (h5 : ∀ (x0 : Vec Ideal S625x160 .f32) (x1 : Vec Ideal S128x4 .f32) (x2 : Vec Ideal S1x128 .f32) (x3 x4 : Vec Ideal S1x4 .f32) (r : Fin 5) (j : Fin 128),
      out0_5 (F := Ideal) x0 x1 x2 x3 x4 (ix2 r j) = Cert.Spec.K.B5 (Cert.KernelIdeal.KVal0.bxOf x0) (fun k => x3 (ix2 0 k)) (fun j k => x1 (ix2 j k)) r j) (h6 : ∀ (x0 : Vec Ideal S625x160 .f32) (x1 : Vec Ideal S128x4 .f32) (x2 : Vec Ideal S1x128 .f32) (x3 x4 : Vec Ideal S1x4 .f32) (j : Fin 128),
      out0_6 (F := Ideal) x0 x1 x2 x3 x4 (ix2 0 j) = Cert.Spec.K.cvec (Cert.KernelIdeal.KVal0.bxOf x0) (fun k => x3 (ix2 0 k)) (fun k => x4 (ix2 0 k)) (fun j k => x1 (ix2 j k)) (fun j => x2 (ix2 0 j)) j) (c : Dev nD) (b : Fin 20) (k : Fin 1024) :
    Cert.KernelIdeal.KVal1.G1_11 (V3 m ρ) c (ix3 b 0 k) = Cert.Spec.K.ss (aDist m c) (aBoxes m c) (aFeat m c) (aObjw m c) (aG4 m c) (aBe4 m c) (aPosW m c) (aPosb m c) (aW1 m c) (aB1 m c) b k := by
  unfold Cert.KernelIdeal.KVal1.G1_11 Cert.Spec.K.ss
  exact Finset.sum_congr rfl fun r _ => congrArg₂ (· * ·) (z_eq m ρ h5 h6 c (ix2 (Cert.Spec.rowOf b r) k)) (z_eq m ρ h5 h6 c (ix2 (Cert.Spec.rowOf b r) k))

/-- THE KERNEL'S RESULT, entry (n, o): the kernel's formula of the fourteen float argument arrays. -/
theorem kval (h5 : ∀ (x0 : Vec Ideal S625x160 .f32) (x1 : Vec Ideal S128x4 .f32) (x2 : Vec Ideal S1x128 .f32) (x3 x4 : Vec Ideal S1x4 .f32) (r : Fin 5) (j : Fin 128),
      out0_5 (F := Ideal) x0 x1 x2 x3 x4 (ix2 r j) = Cert.Spec.K.B5 (Cert.KernelIdeal.KVal0.bxOf x0) (fun k => x3 (ix2 0 k)) (fun j k => x1 (ix2 j k)) r j) (h6 : ∀ (x0 : Vec Ideal S625x160 .f32) (x1 : Vec Ideal S128x4 .f32) (x2 : Vec Ideal S1x128 .f32) (x3 x4 : Vec Ideal S1x4 .f32) (j : Fin 128),
      out0_6 (F := Ideal) x0 x1 x2 x3 x4 (ix2 0 j) = Cert.Spec.K.cvec (Cert.KernelIdeal.KVal0.bxOf x0) (fun k => x3 (ix2 0 k)) (fun k => x4 (ix2 0 k)) (fun j k => x1 (ix2 j k)) (fun j => x2 (ix2 0 j)) j) (hz : ∀ (x0 : Vec Ideal S1000x5 .f32) (x1 : Vec Ideal S1000x36 .f32) (x2 : Vec Ideal S1000x2048 .f32) (x3 : Vec Ideal S5x128 .f32) (x4 : Vec Ideal S1x128 .f32) (x5 : Vec Ideal S36x1024 .bf16) (x6 : Vec Ideal S1024x128 .bf16) (x7 : Vec Ideal S1024x2048 .bf16) (x8 : Vec Ideal S1x1024 .f32) (r : Fin 1000) (k : Fin 1024),
      out1_9 (F := Ideal) x0 x1 x2 x3 x4 x5 x6 x7 x8 (ix2 r k)
        = Cert.Spec.Blk.z (fun r i => x0 (ix2 r i)) (fun r d => x1 (ix2 r d)) (fun r q => x2 (ix2 r q)) (fun i j => x3 (ix2 i j)) (fun j => x4 (ix2 0 j)) (fun d c => x5 (ix2 d c)) (fun c j => x6 (ix2 c j)) (fun c q => x7 (ix2 c q)) (fun c => x8 (ix2 0 c)) r k) (hs : ∀ (x0 : Vec Ideal S1000x5 .f32) (x1 : Vec Ideal S1000x36 .f32) (x2 : Vec Ideal S1000x2048 .f32) (x3 : Vec Ideal S5x128 .f32) (x4 : Vec Ideal S1x128 .f32) (x5 : Vec Ideal S36x1024 .bf16) (x6 : Vec Ideal S1024x128 .bf16) (x7 : Vec Ideal S1024x2048 .bf16) (x8 : Vec Ideal S1x1024 .f32) (k : Fin 1024),
      out1_10 (F := Ideal) x0 x1 x2 x3 x4 x5 x6 x7 x8 (ix3 0 0 k)
        = Cert.Spec.Blk.s (fun r i => x0 (ix2 r i)) (fun r d => x1 (ix2 r d)) (fun r q => x2 (ix2 r q)) (fun i j => x3 (ix2 i j)) (fun j => x4 (ix2 0 j)) (fun d c => x5 (ix2 d c)) (fun c j => x6 (ix2 c j)) (fun c q => x7 (ix2 c q)) (fun c => x8 (ix2 0 c)) k) (hss : ∀ (x0 : Vec Ideal S1000x5 .f32) (x1 : Vec Ideal S1000x36 .f32) (x2 : Vec Ideal S1000x2048 .f32) (x3 : Vec Ideal S5x128 .f32) (x4 : Vec Ideal S1x128 .f32) (x5 : Vec Ideal S36x1024 .bf16) (x6 : Vec Ideal S1024x128 .bf16) (x7 : Vec Ideal S1024x2048 .bf16) (x8 : Vec Ideal S1x1024 .f32) (k : Fin 1024),
      out1_11 (F := Ideal) x0 x1 x2 x3 x4 x5 x6 x7 x8 (ix3 0 0 k)
        = Cert.Spec.Blk.ss (fun r i => x0 (ix2 r i)) (fun r d => x1 (ix2 r d)) (fun r q => x2 (ix2 r q)) (fun i j => x3 (ix2 i j)) (fun j => x4 (ix2 0 j)) (fun d c => x5 (ix2 d c)) (fun c j => x6 (ix2 c j)) (fun c q => x7 (ix2 c q)) (fun c => x8 (ix2 0 c)) k) (hpay : ∀ (x0 : Vec Ideal S2000x1024 .bf16) (x1 x2 : Vec Ideal S20x1x1024 .f32) (x3 x4 : Vec Ideal S1x1024 .f32) (x5 : Vec Ideal S37x1024 .bf16) (x6 : Vec Ideal S1x37 .f32) (r : Fin 2000) (o : Fin 37),
      out2_7 (F := Ideal) x0 x1 x2 x3 x4 x5 x6 (ix2 r o)
        = Cert.Spec.Blk.out (fun r c => x0 (ix2 r c)) (fun b c => x1 (ix3 b 0 c)) (fun b c => x2 (ix3 b 0 c)) (fun c => x3 (ix2 0 c)) (fun c => x4 (ix2 0 c)) (fun o c => x5 (ix2 o c)) (fun o => x6 (ix2 0 o)) r o) (c : Dev nD) (n : Fin 20000) (o : Fin 37) :
    (W6 m ρ c (Proc.devRef .tc main_v19) : S20000x37.Idx → EReal) (ix2 n o)
      = Cert.Spec.K.out (aDist m c) (aBoxes m c) (aFeat m c) (aObjw m c) (aG4 m c) (aBe4 m c) (aPosW m c) (aPosb m c)
          (aW1 m c) (aB1 m c) (aG2 m c) (aBe2 m c) (aW2 m c) (aB2 m c) n o := by
  rw [show W6 m ρ c (Proc.devRef .tc main_v19) = Cert.KernelIdeal.KVal.G2_7 (V5 m ρ) c from
    (W6_arr m ρ c 7).trans (Cert.KernelIdeal.KVal.final2_7 (V5 m ρ) hpay c)]
  unfold Cert.KernelIdeal.KVal.G2_7
  have fz : (fun (n : Fin 20000) (k : Fin 1024) => (V5 m ρ c main_v15_0 : S20000x1024.Idx → EReal) (ix2 n k))
      = Cert.Spec.K.z (aDist m c) (aBoxes m c) (aFeat m c) (aObjw m c) (aG4 m c) (aBe4 m c) (aPosW m c) (aPosb m c) (aW1 m c) (aB1 m c) := funext fun n => funext fun k => by
    rw [V5_v15_0 m ρ hz c]; exact z_eq m ρ h5 h6 c (ix2 n k)
  have fs : (fun (b : Fin 20) (k : Fin 1024) => (V5 m ρ c main_v15_1 : S20x1x1024.Idx → EReal) (ix3 b 0 k))
      = Cert.Spec.K.s (aDist m c) (aBoxes m c) (aFeat m c) (aObjw m c) (aG4 m c) (aBe4 m c) (aPosW m c) (aPosb m c) (aW1 m c) (aB1 m c) := funext fun b => funext fun k => by
    rw [V5_v15_1 m ρ hs c]; exact s_eq m ρ h5 h6 c b k
  have fss : (fun (b : Fin 20) (k : Fin 1024) => (V5 m ρ c main_v15_2 : S20x1x1024.Idx → EReal) (ix3 b 0 k))
      = Cert.Spec.K.ss (aDist m c) (aBoxes m c) (aFeat m c) (aObjw m c) (aG4 m c) (aBe4 m c) (aPosW m c) (aPosb m c) (aW1 m c) (aB1 m c) := funext fun b => funext fun k => by
    rw [V5_v15_2 m ρ hss c]; exact ss_eq m ρ h5 h6 c b k
  have f16 : (fun (k : Fin 1024) => (V5 m ρ c main_v16 : S1x1024.Idx → EReal) (ix2 0 k)) = aG2 m c := funext fun k => V5_v16 m ρ c k
  have f17 : (fun (k : Fin 1024) => (V5 m ρ c main_v17 : S1x1024.Idx → EReal) (ix2 0 k)) = aBe2 m c := funext fun k => V5_v17 m ρ c k
  have f13 : (fun (o : Fin 37) (k : Fin 1024) => (V5 m ρ c main_v13 : S37x1024.Idx → EReal) (ix2 o k)) = aW2 m c := funext fun o => funext fun k => V5_v13 m ρ c o k
  have f18 : (fun (o : Fin 37) => (V5 m ρ c main_v18 : S1x37.Idx → EReal) (ix2 0 o)) = aB2 m c := funext fun o => V5_v18 m ρ c o
  rw [fz, fs, fss, f16, f17, f13, f18]
  rfl

end Cert.KernelIdeal.KChain
end
-- ==== Proof.Stage0Roll.lean ====
/-
  A rotation of the lanes of a matrix, spelt as the concatenation of two column bands: the band from column k on,
  then the first k columns.  At column j the result holds the operand's column (j + k) mod n.

  Then the doubling step of a lane fold: adding to a partial sum over the lanes j, j + 5, …, j + 5 (c − 1) its own
  rotation by 5 c gives the partial sum over twice as many lanes.
-/
import Idealize.ShloMosaic.Lib.ValueLayout
import Idealize.ShloMosaic.Lib.Pipeline.Value
import Idealize.ShloMosaic.Lib.ValueIdx

noncomputable section

open scoped BigOperators
open Idealize.ShloMosaic Idealize.ShloMosaic.ValueIdx

namespace Cert.KernelIdeal.Stage0

/-- Lane l moved k lanes further, around the 160 lanes. -/
def rot (k : Nat) (l : Fin 160) : Fin 160 := ⟨(l.val + k) % 160, Nat.mod_lt _ (by norm_num)⟩

theorem rot_val (k : Nat) (l : Fin 160) : (rot k l).val = (l.val + k) % 160 := rfl

theorem rot_rot (a b : Nat) (l : Fin 160) : rot a (rot b l) = rot (b + a) l := by
  apply Fin.ext
  simp only [rot_val]
  omega

theorem rot_zero (l : Fin 160) : rot 0 l = l := by
  apply Fin.ext
  simp only [rot_val]
  have := l.isLt
  omega

variable {α : Type}

/-- The concatenation of the columns from k on with the first k columns reads, at column j, the operand's column
    (j + k) mod n. -/
theorem roll_apply {r n m k : Nat} (hn : m + k = n) (v : (⟨2, ![r, n]⟩ : Shape).Idx → α)
    (h1 : (⟨2, ![r, n]⟩ : Shape).Slices ![0, k] ⟨2, ![r, m]⟩)
    (h2 : (⟨2, ![r, n]⟩ : Shape).Slices ![0, 0] ⟨2, ![r, k]⟩)
    (hc : Shape.Concatenates [(⟨2, ![r, m]⟩ : Shape), ⟨2, ![r, k]⟩] ⟨2, ![r, n]⟩ 1)
    (a : Fin r) (j : Fin n) (j' : Fin n) (hj' : j'.val = (j.val + k) % n) :
    concatenate ⟨2, ![r, n]⟩ 1
      [⟨⟨2, ![r, m]⟩, extractStridedSlice ⟨2, ![r, m]⟩ ![0, k] v h1⟩,
       ⟨⟨2, ![r, k]⟩, extractStridedSlice ⟨2, ![r, k]⟩ ![0, 0] v h2⟩] hc (ix2 a j) = v (ix2 a j') := by
  have hjn := j.isLt
  by_cases hlt : j.val < m
  · refine (concatenate_pair_apply_left (t := ⟨2, ![r, n]⟩) (s₁ := ⟨2, ![r, m]⟩) (s₂ := ⟨2, ![r, k]⟩) (1 : Fin 2) _ _ hc (ix2 a j) rfl (ix2 a (⟨j.val, hlt⟩ : Fin m))
      (fun b => by match b with | ⟨0, _⟩ => rfl | ⟨1, _⟩ => rfl)).trans ?_
    refine slice2_axis1_apply k v h1 a ⟨j.val, hlt⟩ j' ?_
    rw [hj', Nat.mod_eq_of_lt (by omega)]
    show j.val + k = k + j.val
    omega
  · have hge : m ≤ j.val := Nat.le_of_not_lt hlt
    refine (concatenate_pair_apply_right (t := ⟨2, ![r, n]⟩) (s₁ := ⟨2, ![r, m]⟩) (s₂ := ⟨2, ![r, k]⟩) (1 : Fin 2) _ _ hc (ix2 a j) rfl rfl (ix2 a (⟨j.val - m, by omega⟩ : Fin k))
      (fun b hb => by
        match b, hb with
        | ⟨0, _⟩, _ => rfl
        | ⟨1, _⟩, hb => exact absurd rfl hb)
      (by show j.val - m + m = j.val; omega)).trans ?_
    refine slice2_axis1_apply 0 v h2 a ⟨j.val - m, by omega⟩ j' ?_
    rw [hj']
    show (j.val + k) % n = 0 + (j.val - m)
    have e : j.val + k = n + (j.val - m) := by omega
    rw [e, Nat.add_mod_left, Nat.mod_eq_of_lt (by omega)]
    omega

/-- One doubling step of the lane fold. -/
theorem fold_step (f : Fin 160 → EReal) (c : Nat) (l : Fin 160) :
    (∑ m ∈ Finset.range c, f (rot (5 * m) l)) + (∑ m ∈ Finset.range c, f (rot (5 * m) (rot (5 * c) l)))
      = ∑ m ∈ Finset.range (c + c), f (rot (5 * m) l) := by
  rw [Finset.sum_range_add]
  refine congrArg _ (Finset.sum_congr rfl fun m _ => ?_)
  rw [rot_rot, Nat.mul_add]

/-- Five doubling steps, by 5, 10, 20, 40 and 80 lanes, leave at lane l the sum over the 32 lanes l + 5 m. -/
theorem fold5 (f g1 g2 g3 g4 g5 : Fin 160 → EReal)
    (h1 : ∀ l, g1 l = f l + f (rot 5 l)) (h2 : ∀ l, g2 l = g1 l + g1 (rot 10 l))
    (h3 : ∀ l, g3 l = g2 l + g2 (rot 20 l)) (h4 : ∀ l, g4 l = g3 l + g3 (rot 40 l))
    (h5 : ∀ l, g5 l = g4 l + g4 (rot 80 l)) (l : Fin 160) :
    g5 l = ∑ m ∈ Finset.range 32, f (rot (5 * m) l) := by
  have e1 : ∀ l, g1 l = ∑ m ∈ Finset.range 2, f (rot (5 * m) l) := fun l => by
    rw [h1, ← fold_step f 1 l]
    simp only [Finset.sum_range_one, Nat.mul_zero, Nat.mul_one, rot_zero]
  have e2 : ∀ l, g2 l = ∑ m ∈ Finset.range 4, f (rot (5 * m) l) := fun l => by
    rw [h2, e1, e1]; exact fold_step f 2 l
  have e3 : ∀ l, g3 l = ∑ m ∈ Finset.range 8, f (rot (5 * m) l) := fun l => by
    rw [h3, e2, e2]; exact fold_step f 4 l
  have e4 : ∀ l, g4 l = ∑ m ∈ Finset.range 16, f (rot (5 * m) l) := fun l => by
    rw [h4, e3, e3]; exact fold_step f 8 l
  rw [h5, e4, e4]; exact fold_step f 16 l

end Cert.KernelIdeal.Stage0

end
-- ==== Proof.Stage0Cols.lean ====
/-
  The first body's lane arithmetic, read at an index.

  The block x is 625 rows of 160 lanes; row i holds 32 boxes, five lanes each.  Rotating the lanes by two puts each
  box's high corner under its low corner, so that at EVERY lane l the body forms
      whL i l  = (x i (l + 2) − x i l) + 1        (an extent where l is a low-corner lane)
      ctrL i l = x i l + 1/2 · whL i l              (a centre there),
  takes the four column sums over the 625 rows of whL, ctrL and their squares, and starts folding the 160 lanes
  by adding to a row its own rotation by 5 and then by 10 lanes.
-/
import proofs.«144968_g33105607918058_cont_8to1_b_384_44_alg».proof.Proof.Gen.KernelIdeal.Skeleton
import proofs.«144968_g33105607918058_cont_8to1_b_384_44_alg».proof.Proof.Spec
import proofs.«144968_g33105607918058_cont_8to1_b_384_44_alg».proof.Proof.Stage0Roll
import Idealize.ShloMosaic.PureOps.Ideal.Laws

noncomputable section

open scoped BigOperators
open Cert.KernelIdeal Cert.KernelIdeal.Gen Idealize.ShloMosaic Idealize.ShloMosaic.ValueIdx
open Cert.Spec (cOne cHalf)

namespace Cert.KernelIdeal.Stage0

/-- At lane l of row i: the entry two lanes on, minus the entry, plus one. -/
def whL (x0 : Vec Ideal S625x160 .f32) (i : Fin 625) (l : Fin 160) : EReal :=
  (x0 (ix2 i (rot 2 l)) - x0 (ix2 i l)) + cOne
/-- At lane l of row i: the entry plus half of `whL`. -/
def ctrL (x0 : Vec Ideal S625x160 .f32) (i : Fin 625) (l : Fin 160) : EReal :=
  x0 (ix2 i l) + cHalf * whL x0 i l

/-- Column sums over the 625 rows. -/
def colW (x0 : Vec Ideal S625x160 .f32) (l : Fin 160) : EReal := ∑ i : Fin 625, whL x0 i l
def colC (x0 : Vec Ideal S625x160 .f32) (l : Fin 160) : EReal := ∑ i : Fin 625, ctrL x0 i l
def colW2 (x0 : Vec Ideal S625x160 .f32) (l : Fin 160) : EReal := ∑ i : Fin 625, whL x0 i l * whL x0 i l
def colC2 (x0 : Vec Ideal S625x160 .f32) (l : Fin 160) : EReal := ∑ i : Fin 625, ctrL x0 i l * ctrL x0 i l

/-- One fold step on a row of lanes: add the row rotated by k lanes. -/
def stp (k : Nat) (g : Fin 160 → EReal) (l : Fin 160) : EReal := g l + g (rot k l)

theorem pay3_apply (x0 : Vec Ideal S625x160 .f32) (i : Fin 625) (l : Fin 160) :
    k0_pay3 (F := Ideal) x0 (ix2 i l) = x0 (ix2 i l) := by
  unfold k0_pay3
  exact congrFun (shapeCast_self x0 _) _

theorem pay4_apply (x0 : Vec Ideal S625x160 .f32) (i : Fin 625) (l : Fin 160) :
    k0_pay4 (F := Ideal) x0 (ix2 i l) = whL x0 i l := by
  unfold k0_pay4 whL
  simp only [addf_apply, subf_apply, broadcast_apply]
  refine congrArg₂ (· + ·) (congrArg₂ (· - ·) ?_ (pay3_apply x0 i l)) rfl
  exact (roll_apply (m := 158) (k := 2) rfl (k0_pay3 x0) _ _ _ i l (rot 2 l) rfl).trans (pay3_apply x0 i (rot 2 l))

theorem pay5_apply (x0 : Vec Ideal S625x160 .f32) (i : Fin 625) (l : Fin 160) :
    k0_pay5 (F := Ideal) x0 (ix2 i l) = ctrL x0 i l := by
  unfold k0_pay5 ctrL
  simp only [addf_apply, mulf_apply, broadcast_apply]
  rw [pay3_apply, pay4_apply]
  rfl

/-- A sum over the rows of a 625 x 160 block, read at a lane. -/
theorem colsum_apply (src : FVec Ideal S625x160 .f32) (hφ : FKind.Formats FTy.f32)
    (hacc : (0x00000000#32 : BitVec FTy.f32.bits) = FKind.add.neutral .f32 hφ) (l : Fin 160) :
    multiReduction .add [0] S160 src 0x00000000#32 reduces_S625x160_S160 hφ hacc (ix1 l) = ∑ i : Fin 625, src (ix2 i l) := by
  refine (Ideal.multiReduction_add_single src _ reduces_S625x160_S160 hφ hacc (ix1 l)).trans ?_
  refine Finset.sum_congr rfl fun i _ => congrArg src ?_
  funext c
  apply Fin.ext
  match c with
  | ⟨0, _⟩ => rfl
  | ⟨1, _⟩ => rfl

/-- The same sum as a one-row matrix. -/
theorem csRow_apply (src : FVec Ideal S625x160 .f32) (hφ : FKind.Formats FTy.f32)
    (hacc : (0x00000000#32 : BitVec FTy.f32.bits) = FKind.add.neutral .f32 hφ) (u : Fin 1) (l : Fin 160) :
    shapeCast S1x160 (multiReduction .add [0] S160 src 0x00000000#32 reduces_S625x160_S160 hφ hacc) shapeCasts_S160_S1x160 (ix2 u l)
      = ∑ i : Fin 625, src (ix2 i l) :=
  (shapeCast_a_1a_apply _ _ u l).trans (colsum_apply src hφ hacc l)

/-- A row plus its own rotation by k lanes, read at a lane. -/
theorem rollAdd_apply {m k : Nat} (hn : m + k = 160) (v : FVec Ideal S1x160 .f32)
    (h1 : S1x160.Slices ![0, k] ⟨2, ![1, m]⟩) (h2 : S1x160.Slices ![0, 0] ⟨2, ![1, k]⟩)
    (hc : Shape.Concatenates [(⟨2, ![1, m]⟩ : Shape), ⟨2, ![1, k]⟩] S1x160 1)
    (g : Fin 160 → EReal) (hv : ∀ l, v (ix2 (0 : Fin 1) l) = g l) (l : Fin 160) :
    addf v (concatenate S1x160 1 [⟨⟨2, ![1, m]⟩, extractStridedSlice ⟨2, ![1, m]⟩ ![0, k] v h1⟩,
      ⟨⟨2, ![1, k]⟩, extractStridedSlice ⟨2, ![1, k]⟩ ![0, 0] v h2⟩] hc) (ix2 (0 : Fin 1) l) = stp k g l := by
  show v (ix2 (0 : Fin 1) l) + concatenate S1x160 1 [⟨⟨2, ![1, m]⟩, extractStridedSlice ⟨2, ![1, m]⟩ ![0, k] v h1⟩,
      ⟨⟨2, ![1, k]⟩, extractStridedSlice ⟨2, ![1, k]⟩ ![0, 0] v h2⟩] hc (ix2 (0 : Fin 1) l) = g l + g (rot k l)
  rw [roll_apply hn v h1 h2 hc 0 l (rot k l) rfl, hv, hv]

/-- The rotation alone. -/
theorem rollOnly_apply {m k : Nat} (hn : m + k = 160) (v : FVec Ideal S1x160 .f32)
    (h1 : S1x160.Slices ![0, k] ⟨2, ![1, m]⟩) (h2 : S1x160.Slices ![0, 0] ⟨2, ![1, k]⟩)
    (hc : Shape.Concatenates [(⟨2, ![1, m]⟩ : Shape), ⟨2, ![1, k]⟩] S1x160 1)
    (g : Fin 160 → EReal) (hv : ∀ l, v (ix2 (0 : Fin 1) l) = g l) (l : Fin 160) :
    concatenate S1x160 1 [⟨⟨2, ![1, m]⟩, extractStridedSlice ⟨2, ![1, m]⟩ ![0, k] v h1⟩,
      ⟨⟨2, ![1, k]⟩, extractStridedSlice ⟨2, ![1, k]⟩ ![0, 0] v h2⟩] hc (ix2 (0 : Fin 1) l) = g (rot k l) := by
  rw [roll_apply hn v h1 h2 hc 0 l (rot k l) rfl, hv]

/-- The column sums of the centres, folded by 5 and by 10 lanes. -/
theorem pay7_apply (x0 : Vec Ideal S625x160 .f32) (l : Fin 160) :
    k0_pay7 (F := Ideal) x0 (ix2 (0 : Fin 1) l) = stp 10 (stp 5 (colC x0)) l := by
  unfold k0_pay7
  refine rollAdd_apply (m := 150) (k := 10) rfl _ _ _ _ (stp 5 (colC x0)) (fun l' => ?_) l
  refine rollAdd_apply (m := 155) (k := 5) rfl _ _ _ _ (colC x0) (fun l'' => ?_) l'
  refine (csRow_apply _ _ _ 0 l'').trans ?_
  exact Finset.sum_congr rfl fun i _ => pay5_apply x0 i l''

/-- The column sums of the extents, folded by 5 and by 10 lanes. -/
theorem pay8_apply (x0 : Vec Ideal S625x160 .f32) (l : Fin 160) :
    k0_pay8 (F := Ideal) x0 (ix2 (0 : Fin 1) l) = stp 10 (stp 5 (colW x0)) l := by
  unfold k0_pay8
  refine rollAdd_apply (m := 150) (k := 10) rfl _ _ _ _ (stp 5 (colW x0)) (fun l' => ?_) l
  refine rollAdd_apply (m := 155) (k := 5) rfl _ _ _ _ (colW x0) (fun l'' => ?_) l'
  refine (csRow_apply _ _ _ 0 l'').trans ?_
  exact Finset.sum_congr rfl fun i _ => pay4_apply x0 i l''

/-- The column sums of the squared centres, folded by 5 and by 10 lanes. -/
theorem pay9_apply (x0 : Vec Ideal S625x160 .f32) (l : Fin 160) :
    k0_pay9 (F := Ideal) x0 (ix2 (0 : Fin 1) l) = stp 10 (stp 5 (colC2 x0)) l := by
  unfold k0_pay9
  refine rollAdd_apply (m := 150) (k := 10) rfl _ _ _ _ (stp 5 (colC2 x0)) (fun l' => ?_) l
  refine rollAdd_apply (m := 155) (k := 5) rfl _ _ _ _ (colC2 x0) (fun l'' => ?_) l'
  refine (csRow_apply _ _ _ 0 l'').trans ?_
  refine Finset.sum_congr rfl fun i _ => ?_
  show k0_pay5 (F := Ideal) x0 (ix2 i l'') * k0_pay5 (F := Ideal) x0 (ix2 i l'') = _
  rw [pay5_apply]

/-- The column sums of the squared extents, folded by 5 lanes. -/
theorem pay6_apply (x0 : Vec Ideal S625x160 .f32) (l : Fin 160) :
    k0_pay6 (F := Ideal) x0 (ix2 (0 : Fin 1) l) = stp 5 (colW2 x0) l := by
  unfold k0_pay6
  refine rollAdd_apply (m := 155) (k := 5) rfl _ _ _ _ (colW2 x0) (fun l'' => ?_) l
  refine (csRow_apply _ _ _ 0 l'').trans ?_
  refine Finset.sum_congr rfl fun i _ => ?_
  show k0_pay4 (F := Ideal) x0 (ix2 i l'') * k0_pay4 (F := Ideal) x0 (ix2 i l'') = _
  rw [pay4_apply]

/-- That row rotated by 10 lanes. -/
theorem pay10_apply (x0 : Vec Ideal S625x160 .f32) (l : Fin 160) :
    k0_pay10 (F := Ideal) x0 (ix2 (0 : Fin 1) l) = stp 5 (colW2 x0) (rot 10 l) := by
  unfold k0_pay10
  exact rollOnly_apply (m := 150) (k := 10) rfl _ _ _ _ (stp 5 (colW2 x0)) (fun l' => pay6_apply x0 l') l

end Cert.KernelIdeal.Stage0

end
-- ==== Proof.Stage0Fold.lean ====
/-
  The rest of the lane fold.  Three more steps, by 20, 40 and 80 lanes, complete the fold: lane l of a folded row
  is the sum over the 32 lanes l + 5 m of the column sum it started from.  Lanes 1 and 2 of two folded rows are
  then laid side by side as a row of four: the two centre sums, then the two extent sums.
-/
import proofs.«144968_g33105607918058_cont_8to1_b_384_44_alg».proof.Proof.Stage0Cols

noncomputable section

open scoped BigOperators
open Cert.KernelIdeal Cert.KernelIdeal.Gen Idealize.ShloMosaic Idealize.ShloMosaic.ValueIdx
open Cert.Spec (cN)

namespace Cert.KernelIdeal.Stage0

/-- The sum over the 32 lanes l, l + 5, …, l + 155 (around the 160). -/
def lane32 (f : Fin 160 → EReal) (l : Fin 160) : EReal := ∑ m ∈ Finset.range 32, f (rot (5 * m) l)

/-- Five fold steps are the sum over 32 lanes. -/
theorem stp_fold (f : Fin 160 → EReal) (l : Fin 160) :
    stp 80 (stp 40 (stp 20 (stp 10 (stp 5 f)))) l = lane32 f l :=
  fold5 f (stp 5 f) (stp 10 (stp 5 f)) (stp 20 (stp 10 (stp 5 f))) (stp 40 (stp 20 (stp 10 (stp 5 f))))
    (stp 80 (stp 40 (stp 20 (stp 10 (stp 5 f))))) (fun _ => rfl) (fun _ => rfl) (fun _ => rfl) (fun _ => rfl)
    (fun _ => rfl) l

/-- Lanes 1, 2 of P, then lanes 1, 2 of Q. -/
def pick2 (P Q : Fin 160 → EReal) (k : Fin 4) : EReal :=
  if h : k.val < 2 then P ⟨k.val + 1, by omega⟩ else Q ⟨k.val - 2 + 1, by omega⟩

/-- Lanes 1, 2 of one row beside lanes 1, 2 of another. -/
theorem cat22_apply (p q : FVec Ideal S1x160 .f32) (h1 h2 : S1x160.Slices ![0, 1] S1x2)
    (hc : Shape.Concatenates [S1x2, S1x2] S1x4 1) (Pf Qf : Fin 160 → EReal)
    (hp : ∀ l, p (ix2 (0 : Fin 1) l) = Pf l) (hq : ∀ l, q (ix2 (0 : Fin 1) l) = Qf l) (k : Fin 4) :
    concatenate S1x4 1 [⟨S1x2, extractStridedSlice S1x2 ![0, 1] p h1⟩, ⟨S1x2, extractStridedSlice S1x2 ![0, 1] q h2⟩] hc
      (ix2 (0 : Fin 1) k) = pick2 Pf Qf k := by
  unfold pick2
  by_cases hlt : k.val < 2
  · rw [dif_pos hlt]
    refine (concatenate_pair_apply_left (t := S1x4) (s₁ := S1x2) (s₂ := S1x2) (1 : Fin 2) _ _ hc (ix2 (0 : Fin 1) k) rfl
      (ix2 (0 : Fin 1) (⟨k.val, hlt⟩ : Fin 2)) (fun b => by match b with | ⟨0, _⟩ => rfl | ⟨1, _⟩ => rfl)).trans ?_
    refine (slice2_axis1_apply 1 p h1 (0 : Fin 1) (⟨k.val, hlt⟩ : Fin 2) (⟨k.val + 1, by omega⟩ : Fin 160) ?_).trans (hp _)
    show k.val + 1 = 1 + k.val
    omega
  · rw [dif_neg hlt]
    have hk := k.isLt
    refine (concatenate_pair_apply_right (t := S1x4) (s₁ := S1x2) (s₂ := S1x2) (1 : Fin 2) _ _ hc (ix2 (0 : Fin 1) k) rfl rfl
      (ix2 (0 : Fin 1) (⟨k.val - 2, by omega⟩ : Fin 2))
      (fun b hb => by
        match b, hb with
        | ⟨0, _⟩, _ => rfl
        | ⟨1, _⟩, hb => exact absurd rfl hb)
      (by show k.val - 2 + 2 = k.val; omega)).trans ?_
    refine (slice2_axis1_apply 1 q h2 (0 : Fin 1) (⟨k.val - 2, by omega⟩ : Fin 2) (⟨k.val - 2 + 1, by omega⟩ : Fin 160) ?_).trans (hq _)
    show k.val - 2 + 1 = 1 + (k.val - 2)
    omega

/-- The means row: from two rows already folded by 5 and 10 lanes, the last three fold steps, lanes 1, 2 of each,
    divided by the number of boxes. -/
theorem pay11_apply (v40 v44 : FVec Ideal S1x160 .f32) (a b : Fin 160 → EReal)
    (ha : ∀ l, v40 (ix2 (0 : Fin 1) l) = a l) (hb : ∀ l, v44 (ix2 (0 : Fin 1) l) = b l) (k : Fin 4) :
    k0_pay11 (F := Ideal) v40 v44 (ix2 (0 : Fin 1) k)
      = Ideal.div (pick2 (stp 80 (stp 40 (stp 20 a))) (stp 80 (stp 40 (stp 20 b))) k) cN := by
  unfold k0_pay11
  simp only [divf_apply, broadcast_apply]
  refine congrArg₂ Ideal.div ?_ rfl
  refine cat22_apply _ _ _ _ _ _ _ (fun l => ?_) (fun l => ?_) k
  · refine rollAdd_apply (m := 80) (k := 80) rfl _ _ _ _ (stp 40 (stp 20 a)) (fun l' => ?_) l
    refine rollAdd_apply (m := 120) (k := 40) rfl _ _ _ _ (stp 20 a) (fun l'' => ?_) l'
    exact rollAdd_apply (m := 140) (k := 20) rfl _ _ _ _ a ha l''
  · refine rollAdd_apply (m := 80) (k := 80) rfl _ _ _ _ (stp 40 (stp 20 b)) (fun l' => ?_) l
    refine rollAdd_apply (m := 120) (k := 40) rfl _ _ _ _ (stp 20 b) (fun l'' => ?_) l'
    exact rollAdd_apply (m := 140) (k := 20) rfl _ _ _ _ b hb l''

/-- The sums-of-squares row: the squared extents' row gets its second fold step here (its rotation by 10 lanes
    arrives as a separate row), then both rows the last three steps; lanes 1, 2 of each. -/
theorem pay12_apply (v36 v48 v51 : FVec Ideal S1x160 .f32) (a c d : Fin 160 → EReal)
    (ha : ∀ l, v48 (ix2 (0 : Fin 1) l) = a l) (hc : ∀ l, v36 (ix2 (0 : Fin 1) l) = c l)
    (hd : ∀ l, v51 (ix2 (0 : Fin 1) l) = d l) (k : Fin 4) :
    k0_pay12 (F := Ideal) v36 v48 v51 (ix2 (0 : Fin 1) k)
      = pick2 (stp 80 (stp 40 (stp 20 a))) (stp 80 (stp 40 (stp 20 (fun l => c l + d l)))) k := by
  unfold k0_pay12
  refine cat22_apply _ _ _ _ _ _ _ (fun l => ?_) (fun l => ?_) k
  · refine rollAdd_apply (m := 80) (k := 80) rfl _ _ _ _ (stp 40 (stp 20 a)) (fun l' => ?_) l
    refine rollAdd_apply (m := 120) (k := 40) rfl _ _ _ _ (stp 20 a) (fun l'' => ?_) l'
    exact rollAdd_apply (m := 140) (k := 20) rfl _ _ _ _ a ha l''
  · refine rollAdd_apply (m := 80) (k := 80) rfl _ _ _ _ (stp 40 (stp 20 (fun l => c l + d l))) (fun l' => ?_) l
    refine rollAdd_apply (m := 120) (k := 40) rfl _ _ _ _ (stp 20 (fun l => c l + d l)) (fun l'' => ?_) l'
    refine rollAdd_apply (m := 140) (k := 20) rfl _ _ _ _ (fun l => c l + d l) (fun l''' => ?_) l''
    show v36 (ix2 (0 : Fin 1) l''') + v51 (ix2 (0 : Fin 1) l''') = c l''' + d l'''
    rw [hc, hd]

/-- The means row of the block: the 32-lane sums of the centre and extent column sums at lanes 1, 2, over 20000. -/
theorem mean_row (x0 : Vec Ideal S625x160 .f32) (k : Fin 4) :
    k0_pay11 (F := Ideal) (k0_pay7 x0) (k0_pay8 x0) (ix2 (0 : Fin 1) k)
      = Ideal.div (pick2 (lane32 (colC x0)) (lane32 (colW x0)) k) cN := by
  rw [pay11_apply _ _ _ _ (pay7_apply x0) (pay8_apply x0) k]
  refine congrArg₂ Ideal.div ?_ rfl
  unfold pick2
  split
  · exact stp_fold (colC x0) _
  · exact stp_fold (colW x0) _

/-- The sums-of-squares row of the block. -/
theorem sq_row (x0 : Vec Ideal S625x160 .f32) (k : Fin 4) :
    k0_pay12 (F := Ideal) (k0_pay6 x0) (k0_pay9 x0) (k0_pay10 x0) (ix2 (0 : Fin 1) k)
      = pick2 (lane32 (colC2 x0)) (lane32 (colW2 x0)) k := by
  rw [pay12_apply _ _ _ _ _ _ (pay9_apply x0) (pay6_apply x0) (pay10_apply x0) k]
  unfold pick2
  split
  · exact stp_fold (colC2 x0) _
  · exact stp_fold (colW2 x0) _

end Cert.KernelIdeal.Stage0

end
-- ==== Proof.LibBlockSum.lean ====
/- General lemmas on finite sums cut into blocks, in any additive commutative monoid (no cancellation and no finiteness
   of the values is used, so they hold of the extended reals): a sum over `Fin (K * B)` is the sum over `K` blocks of
   the sums over each block's `B` entries (`sum_blocks`); the left-nested accumulation that starts from `z` and adds
   one block's partial sum after another ends at `z` plus the whole sum (`accum`, `accum_eq`, `accum_blocks`); and both
   at 8 blocks of 256 with the literal 2048 (`sum_2048`, `accum_2048`). -/
import Mathlib.Algebra.BigOperators.Fin

namespace Cert.BlockSum

/-- Entry `r` of block `k`, among `K` blocks of `B` entries each: position `k * B + r`. -/
def blk (K B : ℕ) (k : Fin K) (r : Fin B) : Fin (K * B) :=
  ⟨k.val * B + r.val,
    calc k.val * B + r.val < k.val * B + B := Nat.add_lt_add_left r.isLt _
      _ = (k.val + 1) * B := (Nat.succ_mul _ _).symm
      _ ≤ K * B := Nat.mul_le_mul_right _ k.isLt⟩

theorem blk_val (K B : ℕ) (k : Fin K) (r : Fin B) : (blk K B k r).val = k.val * B + r.val := rfl

/-- A sum over `K * B` positions is the sum over the `K` blocks of each block's sum over its `B` entries. -/
theorem sum_blocks {M : Type*} [AddCommMonoid M] (K B : ℕ) (f : Fin (K * B) → M) :
    ∑ n : Fin (K * B), f n = ∑ k : Fin K, ∑ r : Fin B, f (blk K B k r) := by
  rw [← finProdFinEquiv.sum_comp f, Fintype.sum_prod_type]
  refine Finset.sum_congr rfl fun k _ => Finset.sum_congr rfl fun r _ => congrArg f (Fin.ext ?_)
  show r.val + B * k.val = k.val * B + r.val
  rw [Nat.mul_comm, Nat.add_comm]

/-- The left-nested accumulation: start from `z`, and at step `k` add `p k` on the right. -/
def accum {M : Type*} [AddCommMonoid M] (z : M) (p : ℕ → M) : ℕ → M
  | 0 => z
  | k + 1 => accum z p k + p k

/-- After `K` steps the accumulation holds its start plus the sum of the first `K` terms. -/
theorem accum_eq {M : Type*} [AddCommMonoid M] (z : M) (p : ℕ → M) (K : ℕ) :
    accum z p K = z + ∑ k : Fin K, p k.val := by
  induction K with
  | zero => simp [accum]
  | succ K ih =>
    rw [accum, ih, Fin.sum_univ_castSucc, add_assoc]
    rfl

/-- Accumulating from zero, block after block, each block's partial sum gives the whole sum. -/
theorem accum_blocks {M : Type*} [AddCommMonoid M] (K B : ℕ) (f : Fin (K * B) → M) :
    accum 0 (fun k => if h : k < K then ∑ r : Fin B, f (blk K B ⟨k, h⟩ r) else 0) K = ∑ n : Fin (K * B), f n := by
  rw [accum_eq, zero_add, sum_blocks]
  exact Finset.sum_congr rfl fun k _ => by rw [dif_pos k.isLt]

/-- A sum over 2048 positions as 8 blocks of 256, with the literal extent. -/
theorem sum_2048 {M : Type*} [AddCommMonoid M] (f : Fin 2048 → M) :
    ∑ n : Fin 2048, f n
      = ∑ k : Fin 8, ∑ r : Fin 256, f ⟨k.val * 256 + r.val, by have := k.isLt; have := r.isLt; omega⟩ :=
  sum_blocks 8 256 f

/-- The accumulation over 8 blocks of 256 from zero is the sum over the 2048 positions. -/
theorem accum_2048 {M : Type*} [AddCommMonoid M] (f : Fin 2048 → M) :
    accum 0 (fun k => if h : k < 8 then ∑ r : Fin 256, f ⟨k * 256 + r.val, by have := r.isLt; omega⟩ else 0) 8
      = ∑ n : Fin 2048, f n :=
  accum_blocks 8 256 f

end Cert.BlockSum
-- ==== Proof.Stage0Sum.lean ====
/-
  From lanes to boxes.  The block's row i holds the boxes 32 i, …, 32 i + 31, box 32 i + g on lanes 5 g … 5 g + 4;
  so the sum over the 625 rows and over the 32 lanes 5 g + 1 + q of the lane quantities is the sum over the 20000
  boxes of the box quantities: the centre and the extent along coordinate q.
-/
import proofs.«144968_g33105607918058_cont_8to1_b_384_44_alg».proof.Proof.Stage0Fold
import proofs.«144968_g33105607918058_cont_8to1_b_384_44_alg».proof.Proof.LibBlockSum

noncomputable section

open scoped BigOperators
open Cert.KernelIdeal Cert.KernelIdeal.Gen Idealize.ShloMosaic Idealize.ShloMosaic.ValueIdx
open Cert.Spec (cOne cHalf cN wh ctr cs lo hi)

namespace Cert.KernelIdeal.Stage0

/-- Box n, column q of the [20000, 5] array that the [625, 160] block x0 is the row-major reshape of. -/
def bxOf (x0 : Vec Ideal S625x160 .f32) : Fin 20000 → Fin 5 → EReal := fun n q =>
  x0 (ix2 ⟨(5 * n.val + q.val) / 160, by have := n.isLt; have := q.isLt; omega⟩
    ⟨(5 * n.val + q.val) % 160, by omega⟩)

/-- Box 32 i + r, column c sits in row i at lane 5 r + c. -/
theorem bxOf_blk (x0 : Vec Ideal S625x160 .f32) (i : Fin 625) (r : Fin 32) (c : Fin 5) (n : Fin 20000)
    (hn : n.val = i.val * 32 + r.val) (L : Fin 160) (hL : L.val = 5 * r.val + c.val) :
    bxOf x0 n c = x0 (ix2 i L) := by
  have hr := r.isLt
  have hc := c.isLt
  unfold bxOf
  refine congrArg x0 (congrArg₂ (ix2 (n0 := 625) (n1 := 160)) (Fin.ext ?_) (Fin.ext ?_))
  · show (5 * n.val + c.val) / 160 = i.val
    omega
  · show (5 * n.val + c.val) % 160 = L.val
    omega

/-- A 32-lane sum of a column sum is a sum over the 20000 boxes. -/
theorem lane32_sum (G : Fin 625 → Fin 160 → EReal) (H : Fin 20000 → EReal) (L0 : Fin 160)
    (hGH : ∀ (i : Fin 625) (r : Fin 32) (n : Fin 20000), n.val = i.val * 32 + r.val → G i (rot (5 * r.val) L0) = H n) :
    lane32 (fun l => ∑ i : Fin 625, G i l) L0 = ∑ n : Fin 20000, H n := by
  unfold lane32
  rw [Finset.sum_range (fun m => ∑ i : Fin 625, G i (rot (5 * m) L0)), Finset.sum_comm]
  refine Eq.symm ((Cert.BlockSum.sum_blocks 625 32 H).trans ?_)
  exact Finset.sum_congr rfl fun i _ => Finset.sum_congr rfl fun r _ => (hGH i r _ rfl).symm

/-- The lane extent at a low-corner lane is the box's extent. -/
theorem whL_box (x0 : Vec Ideal S625x160 .f32) (q : Fin 2) (i : Fin 625) (r : Fin 32) (n : Fin 20000)
    (hn : n.val = i.val * 32 + r.val) :
    whL x0 i (rot (5 * r.val) ⟨q.val + 1, by omega⟩) = wh (bxOf x0) n q := by
  have hr := r.isLt
  have hq := q.isLt
  unfold whL Cert.Spec.wh
  rw [bxOf_blk x0 i r (hi q) n hn (rot 2 (rot (5 * r.val) ⟨q.val + 1, by omega⟩))
        (by simp only [rot_val]; show _ = 5 * r.val + (q.val + 3); omega),
      bxOf_blk x0 i r (lo q) n hn (rot (5 * r.val) ⟨q.val + 1, by omega⟩)
        (by simp only [rot_val]; show _ = 5 * r.val + (q.val + 1); omega)]

/-- The lane centre at a low-corner lane is the box's centre. -/
theorem ctrL_box (x0 : Vec Ideal S625x160 .f32) (q : Fin 2) (i : Fin 625) (r : Fin 32) (n : Fin 20000)
    (hn : n.val = i.val * 32 + r.val) :
    ctrL x0 i (rot (5 * r.val) ⟨q.val + 1, by omega⟩) = ctr (bxOf x0) n q := by
  have hr := r.isLt
  have hq := q.isLt
  unfold ctrL Cert.Spec.ctr
  rw [whL_box x0 q i r n hn,
      bxOf_blk x0 i r (lo q) n hn (rot (5 * r.val) ⟨q.val + 1, by omega⟩)
        (by simp only [rot_val]; show _ = 5 * r.val + (q.val + 1); omega)]

/-- The 32-lane sums at lane q + 1, as sums over the boxes. -/
theorem laneC (x0 : Vec Ideal S625x160 .f32) (q : Fin 2) :
    lane32 (colC x0) ⟨q.val + 1, by omega⟩ = ∑ n : Fin 20000, ctr (bxOf x0) n q :=
  lane32_sum (ctrL x0) (fun n => ctr (bxOf x0) n q) ⟨q.val + 1, by omega⟩ (fun i r n hn => ctrL_box x0 q i r n hn)

theorem laneW (x0 : Vec Ideal S625x160 .f32) (q : Fin 2) :
    lane32 (colW x0) ⟨q.val + 1, by omega⟩ = ∑ n : Fin 20000, wh (bxOf x0) n q :=
  lane32_sum (whL x0) (fun n => wh (bxOf x0) n q) ⟨q.val + 1, by omega⟩ (fun i r n hn => whL_box x0 q i r n hn)

theorem laneC2 (x0 : Vec Ideal S625x160 .f32) (q : Fin 2) :
    lane32 (colC2 x0) ⟨q.val + 1, by omega⟩ = ∑ n : Fin 20000, ctr (bxOf x0) n q * ctr (bxOf x0) n q :=
  lane32_sum (fun i l => ctrL x0 i l * ctrL x0 i l) (fun n => ctr (bxOf x0) n q * ctr (bxOf x0) n q) ⟨q.val + 1, by omega⟩
    (fun i r n hn => congrArg₂ (· * ·) (ctrL_box x0 q i r n hn) (ctrL_box x0 q i r n hn))

theorem laneW2 (x0 : Vec Ideal S625x160 .f32) (q : Fin 2) :
    lane32 (colW2 x0) ⟨q.val + 1, by omega⟩ = ∑ n : Fin 20000, wh (bxOf x0) n q * wh (bxOf x0) n q :=
  lane32_sum (fun i l => whL x0 i l * whL x0 i l) (fun n => wh (bxOf x0) n q * wh (bxOf x0) n q) ⟨q.val + 1, by omega⟩
    (fun i r n hn => congrArg₂ (· * ·) (whL_box x0 q i r n hn) (whL_box x0 q i r n hn))

/-- The four lane sums are the sums over the boxes of the four centre-size features. -/
theorem sum_row (x0 : Vec Ideal S625x160 .f32) (k : Fin 4) :
    pick2 (lane32 (colC x0)) (lane32 (colW x0)) k = ∑ n : Fin 20000, cs (bxOf x0) n k := by
  have hk := k.isLt
  unfold pick2
  by_cases h : k.val < 2
  · rw [dif_pos h]
    refine (laneC x0 ⟨k.val, h⟩).trans (Finset.sum_congr rfl fun n _ => ?_)
    unfold Cert.Spec.cs
    rw [dif_pos h]
  · rw [dif_neg h]
    have h2 : k.val - 2 < 2 := by omega
    refine (laneW x0 ⟨k.val - 2, h2⟩).trans (Finset.sum_congr rfl fun n _ => ?_)
    unfold Cert.Spec.cs
    rw [dif_neg h]

/-- The four lane sums of squares are the sums over the boxes of the squared features. -/
theorem sq_sum_row (x0 : Vec Ideal S625x160 .f32) (k : Fin 4) :
    pick2 (lane32 (colC2 x0)) (lane32 (colW2 x0)) k = ∑ n : Fin 20000, cs (bxOf x0) n k * cs (bxOf x0) n k := by
  have hk := k.isLt
  unfold pick2
  by_cases h : k.val < 2
  · rw [dif_pos h]
    refine (laneC2 x0 ⟨k.val, h⟩).trans (Finset.sum_congr rfl fun n _ => ?_)
    unfold Cert.Spec.cs
    rw [dif_pos h]
  · rw [dif_neg h]
    have h2 : k.val - 2 < 2 := by omega
    refine (laneW2 x0 ⟨k.val - 2, h2⟩).trans (Finset.sum_congr rfl fun n _ => ?_)
    unfold Cert.Spec.cs
    rw [dif_neg h]

end Cert.KernelIdeal.Stage0

end
-- ==== Proof.Stage0Tail.lean ====
/-
  The end of the first body: from the row of four means M, the row of four sums of squares S and the divisor row N
  (the number of boxes), with the gain g, the offset be, the position layer's weight W [128, 4] and bias b,
      scale k  = g k · rsqrt ((S k / N − M k · M k) + eps)
      shift k  = be k − M k · scale k
      A k j    = W j k · scale k                      (the weight with the scale folded in, transposed)
      beff j   = b j + Σ_k W j k · shift k
  and from A and beff the five rows of the 5 x 128 matrix and the bias row.  Each is read here at an index, the
  three rows M, S, N being any rows whose entries are the means, the sums of squares and the number of boxes.
-/
import proofs.«144968_g33105607918058_cont_8to1_b_384_44_alg».proof.Proof.Gen.KernelIdeal.Skeleton
import proofs.«144968_g33105607918058_cont_8to1_b_384_44_alg».proof.Proof.Spec
import Idealize.ShloMosaic.Lib.ValueLayout
import Idealize.ShloMosaic.Lib.Pipeline.Value
import Idealize.ShloMosaic.Lib.ValueIdx
import Idealize.ShloMosaic.PureOps.Ideal.Laws

noncomputable section

open scoped BigOperators
open Cert.KernelIdeal Cert.KernelIdeal.Gen Idealize.ShloMosaic Idealize.ShloMosaic.ValueIdx
open Cert.Spec (cOne cHalf cN cEps cs mu4)

namespace Cert.KernelIdeal.Stage0

/-- A row of four broadcast down 128 rows. -/
theorem bcastRows_apply (v : FVec Ideal S1x4 .f32) (h : S1x4.Broadcasts S128x4) (j : Fin 128) (k : Fin 4) :
    broadcastTo S128x4 v h (ix2 j k) = v (ix2 (0 : Fin 1) k) :=
  broadcastTo_apply v h (ix2 j k) (ix2 (0 : Fin 1) k)
    (fun a => by match a with | ⟨0, _⟩ => rfl | ⟨1, _⟩ => rfl)

/-- A sum along the four columns of a 128 x 4 matrix, read at a row. -/
theorem rowsum_apply (src : FVec Ideal S128x4 .f32) (hφ : FKind.Formats FTy.f32)
    (hacc : (0x00000000#32 : BitVec FTy.f32.bits) = FKind.add.neutral .f32 hφ) (j : Fin 128) :
    multiReduction .add [1] S128 src 0x00000000#32 reduces_S128x4_S128 hφ hacc (ix1 j) = ∑ k : Fin 4, src (ix2 j k) := by
  refine (Ideal.multiReduction_add_single src _ reduces_S128x4_S128 hφ hacc (ix1 j)).trans ?_
  refine Finset.sum_congr rfl fun k _ => congrArg src ?_
  funext c
  apply Fin.ext
  match c with
  | ⟨0, _⟩ => rfl
  | ⟨1, _⟩ => rfl

/-- Row r of a 4 x 128 matrix, cut out as a one-row matrix. -/
theorem row4_apply (o : Nat) (v : FVec Ideal S4x128 .f32) (h : S4x128.Slices ![o, 0] S1x128) (r : Fin 4) (hr : r.val = o)
    (j : Fin 128) : extractStridedSlice S1x128 ![o, 0] v h (ix2 (0 : Fin 1) j) = v (ix2 r j) :=
  slice2_axis0_apply o v h (0 : Fin 1) j r (by rw [hr]; rfl)

section
variable (boxes : Fin 20000 → Fin 5 → EReal)
variable (v105 v108 v109 : FVec Ideal S1x4 .f32)
variable (hM : ∀ k, v105 (ix2 (0 : Fin 1) k) = mu4 boxes k)
variable (hS : ∀ k, v108 (ix2 (0 : Fin 1) k) = ∑ n : Fin 20000, cs boxes n k * cs boxes n k)
variable (hN : ∀ k, v109 (ix2 (0 : Fin 1) k) = cN)
include hM hS hN

/-- The scale row. -/
theorem pay14_spec (v113 : Vec Ideal S1x4 .f32) (k : Fin 4) :
    k0_pay14 (F := Ideal) v105 v108 v109 v113 (ix2 (0 : Fin 1) k)
      = Cert.Spec.K.scale4 boxes (fun k => v113 (ix2 (0 : Fin 1) k)) k := by
  unfold k0_pay14 Cert.Spec.K.scale4 Cert.Spec.K.var4 Cert.Spec.K.ex2
  simp only [shapeCast_self]
  show v113 (ix2 (0 : Fin 1) k) * Ideal.rsqrt ((Ideal.div (v108 (ix2 (0 : Fin 1) k)) (v109 (ix2 (0 : Fin 1) k))
    - v105 (ix2 (0 : Fin 1) k) * v105 (ix2 (0 : Fin 1) k)) + cEps) = _
  rw [hM, hS, hN]

/-- The folded weight, transposed. -/
theorem pay15_spec (v113 : Vec Ideal S1x4 .f32) (v123 : Vec Ideal S128x4 .f32) (k : Fin 4) (j : Fin 128) :
    k0_pay15 (F := Ideal) v105 v108 v109 v113 v123 (ix2 k j)
      = Cert.Spec.K.a4t boxes (fun k => v113 (ix2 (0 : Fin 1) k)) (fun j k => v123 (ix2 j k)) k j := by
  unfold k0_pay15 Cert.Spec.K.a4t
  refine (transpose_ix2_apply _ _ k j).trans ?_
  show v123 (ix2 j k) * broadcastTo S128x4 (k0_pay14 (F := Ideal) v105 v108 v109 v113) _ (ix2 j k) = _
  rw [bcastRows_apply, pay14_spec boxes v105 v108 v109 hM hS hN v113 k]

/-- The folded bias. -/
theorem pay16_spec (v113 v119 : Vec Ideal S1x4 .f32) (v127 : Vec Ideal S1x128 .f32) (v129 : Vec Ideal S128x4 .f32)
    (j : Fin 128) :
    k0_pay16 (F := Ideal) v105 v108 v109 v113 v119 v127 v129 (ix2 (0 : Fin 1) j)
      = Cert.Spec.K.beff boxes (fun k => v113 (ix2 (0 : Fin 1) k)) (fun k => v119 (ix2 (0 : Fin 1) k))
          (fun j k => v129 (ix2 j k)) (fun j => v127 (ix2 (0 : Fin 1) j)) j := by
  unfold k0_pay16 Cert.Spec.K.beff Cert.Spec.K.shift4
  simp only [shapeCast_self, addf_apply]
  refine congrArg₂ (· + ·) rfl ?_
  refine (shapeCast_a_1a_apply _ _ (0 : Fin 1) j).trans ?_
  refine (rowsum_apply _ _ _ j).trans ?_
  refine Finset.sum_congr rfl fun k _ => ?_
  show v129 (ix2 j k) * broadcastTo S128x4 (subf v119 (mulf v105 (k0_pay14 (F := Ideal) v105 v108 v109 v113))) _ (ix2 j k) = _
  rw [bcastRows_apply]
  show v129 (ix2 j k) * (v119 (ix2 (0 : Fin 1) k) - v105 (ix2 (0 : Fin 1) k) * k0_pay14 (F := Ideal) v105 v108 v109 v113 (ix2 (0 : Fin 1) k)) = _
  rw [pay14_spec boxes v105 v108 v109 hM hS hN v113 k, hM]

end

/-! The rows of the 5 x 128 matrix and the bias row, from ANY 4 x 128 matrix A and any row beff. -/

theorem pay17_apply (j : Fin 128) : k0_pay17 (F := Ideal) (ix2 (0 : Fin 1) j) = 0 := by
  unfold k0_pay17
  exact Ideal.ofBits_zero_f32

theorem pay22_apply (j : Fin 128) : k0_pay22 (F := Ideal) (ix2 (0 : Fin 1) j) = cHalf := rfl

section
variable (v105 v108 v109 : FVec Ideal S1x4 .f32) (v113 : Vec Ideal S1x4 .f32) (v123 : Vec Ideal S128x4 .f32)

theorem pay18_apply (j : Fin 128) :
    k0_pay18 (F := Ideal) v105 v108 v109 v113 v123 (ix2 (0 : Fin 1) j)
      = cHalf * k0_pay15 (F := Ideal) v105 v108 v109 v113 v123 (ix2 (0 : Fin 4) j)
        - k0_pay15 (F := Ideal) v105 v108 v109 v113 v123 (ix2 (2 : Fin 4) j) := by
  unfold k0_pay18
  simp only [subf_apply, mulf_apply, broadcast_apply]
  rw [row4_apply 0 _ _ 0 rfl j, row4_apply 2 _ _ 2 rfl j]
  rfl

theorem pay19_apply (j : Fin 128) :
    k0_pay19 (F := Ideal) v105 v108 v109 v113 v123 (ix2 (0 : Fin 1) j)
      = cHalf * k0_pay15 (F := Ideal) v105 v108 v109 v113 v123 (ix2 (1 : Fin 4) j)
        - k0_pay15 (F := Ideal) v105 v108 v109 v113 v123 (ix2 (3 : Fin 4) j) := by
  unfold k0_pay19
  simp only [subf_apply, mulf_apply, broadcast_apply]
  rw [row4_apply 1 _ _ 1 rfl j, row4_apply 3 _ _ 3 rfl j]
  rfl

theorem pay20_apply (j : Fin 128) :
    k0_pay20 (F := Ideal) v105 v108 v109 v113 v123 (ix2 (0 : Fin 1) j)
      = cHalf * k0_pay15 (F := Ideal) v105 v108 v109 v113 v123 (ix2 (0 : Fin 4) j)
        + k0_pay15 (F := Ideal) v105 v108 v109 v113 v123 (ix2 (2 : Fin 4) j) := by
  unfold k0_pay20
  simp only [addf_apply, mulf_apply, broadcast_apply]
  rw [row4_apply 0 _ _ 0 rfl j, row4_apply 2 _ _ 2 rfl j]
  rfl

theorem pay21_apply (j : Fin 128) :
    k0_pay21 (F := Ideal) v105 v108 v109 v113 v123 (ix2 (0 : Fin 1) j)
      = k0_pay15 (F := Ideal) v105 v108 v109 v113 v123 (ix2 (1 : Fin 4) j) := by
  unfold k0_pay21
  exact row4_apply 1 _ _ 1 rfl j

end

/-- The five rows stacked: row r of the 5 x 128 matrix. -/
theorem pay1_apply (v126 : FVec Ideal S4x128 .f32) (v135 v140 v145 v150 v151 v152 : FVec Ideal S1x128 .f32)
    (r : Fin 5) (j : Fin 128) :
    k0_pay1 (F := Ideal) v126 v135 v140 v145 v150 v151 v152 (ix2 r j)
      = if r.val = 0 then v135 (ix2 (0 : Fin 1) j)
        else if r.val = 1 then v140 (ix2 (0 : Fin 1) j)
        else if r.val = 2 then v145 (ix2 (0 : Fin 1) j)
        else if r.val = 3 then v150 (ix2 (0 : Fin 1) j)
        else v152 (ix2 (0 : Fin 1) j) * v151 (ix2 (0 : Fin 1) j) + v126 (ix2 (3 : Fin 4) j) := by
  unfold k0_pay1
  have hb : ∀ (b : Fin 2) (rr : Fin 5), b.cast (rfl : (2 : Nat) = 2) ≠ (0 : Fin 2) →
      ((ix2 (0 : Fin 1) j : S1x128.Idx) b).val = ((ix2 rr j : S5x128.Idx) (b.cast rfl)).val := fun b rr hb => by
    match b, hb with
    | ⟨0, _⟩, hb => exact absurd rfl hb
    | ⟨1, _⟩, _ => rfl
  match r with
  | ⟨0, h0⟩ =>
    exact concatenate_apply_piece (t := S5x128) (0 : Fin 2) _ _ (ix2 ⟨0, h0⟩ j) 0 (by show (0 : Nat) < 5; decide) S1x128 v135 rfl rfl 0 rfl
      (ix2 (0 : Fin 1) j) (fun b hb' => hb b ⟨0, h0⟩ hb') rfl
  | ⟨1, h1⟩ =>
    exact concatenate_apply_piece (t := S5x128) (0 : Fin 2) _ _ (ix2 ⟨1, h1⟩ j) 1 (by show (1 : Nat) < 5; decide) S1x128 v140 rfl rfl 1 rfl
      (ix2 (0 : Fin 1) j) (fun b hb' => hb b ⟨1, h1⟩ hb') rfl
  | ⟨2, h2⟩ =>
    exact concatenate_apply_piece (t := S5x128) (0 : Fin 2) _ _ (ix2 ⟨2, h2⟩ j) 2 (by show (2 : Nat) < 5; decide) S1x128 v145 rfl rfl 2 rfl
      (ix2 (0 : Fin 1) j) (fun b hb' => hb b ⟨2, h2⟩ hb') rfl
  | ⟨3, h3⟩ =>
    exact concatenate_apply_piece (t := S5x128) (0 : Fin 2) _ _ (ix2 ⟨3, h3⟩ j) 3 (by show (3 : Nat) < 5; decide) S1x128 v150 rfl rfl 3 rfl
      (ix2 (0 : Fin 1) j) (fun b hb' => hb b ⟨3, h3⟩ hb') rfl
  | ⟨4, h4⟩ =>
    refine (concatenate_apply_piece (t := S5x128) (0 : Fin 2) _ _ (ix2 ⟨4, h4⟩ j) 4 (by show (4 : Nat) < 5; decide) S1x128 _ rfl rfl 4 rfl
      (ix2 (0 : Fin 1) j) (fun b hb' => hb b ⟨4, h4⟩ hb') rfl).trans ?_
    show v152 (ix2 (0 : Fin 1) j) * v151 (ix2 (0 : Fin 1) j) + extractStridedSlice S1x128 ![3, 0] v126 _ (ix2 (0 : Fin 1) j) = _
    rw [row4_apply 3 _ _ 3 rfl j]
    rfl

/-- The bias row. -/
theorem pay2_apply (v126 : FVec Ideal S4x128 .f32) (v134 : FVec Ideal S1x128 .f32) (j : Fin 128) :
    k0_pay2 (F := Ideal) v126 v134 (ix2 (0 : Fin 1) j)
      = (((v134 (ix2 (0 : Fin 1) j) + cHalf * v126 (ix2 (0 : Fin 4) j)) + cHalf * v126 (ix2 (1 : Fin 4) j))
          + v126 (ix2 (2 : Fin 4) j)) + v126 (ix2 (3 : Fin 4) j) := by
  unfold k0_pay2
  simp only [addf_apply, mulf_apply, broadcast_apply]
  rw [row4_apply 0 _ _ 0 rfl j, row4_apply 1 _ _ 1 rfl j, row4_apply 2 _ _ 2 rfl j, row4_apply 3 _ _ 3 rfl j]
  rfl

end Cert.KernelIdeal.Stage0

end
-- ==== Proof.Stage0Out.lean ====
/-
  What the first body leaves in its two output buffers, read at an index: the 5 x 128 matrix that takes a raw box
  row (image id, x1, y1, x2, y2) to the linear part of the normalised position pre-activation, and the bias row that
  goes with it — both as functions of the box array the block is the row-major reshape of, the normalisation's gain
  and offset, and the position layer's weight and bias.

  The body's single whole-buffer store leaves its payload; the payload is the composition of the pieces read in the
  earlier modules: the lane arithmetic and column sums, the lane fold, the passage from lanes to boxes, and the
  scale, shift, folded weight and folded bias.
-/
import proofs.«144968_g33105607918058_cont_8to1_b_384_44_alg».proof.Proof.Gen.KernelIdeal.Frame
import proofs.«144968_g33105607918058_cont_8to1_b_384_44_alg».proof.Proof.Stage0Sum
import proofs.«144968_g33105607918058_cont_8to1_b_384_44_alg».proof.Proof.Stage0Tail

noncomputable section

open scoped BigOperators
open Cert.KernelIdeal Cert.KernelIdeal.Gen Idealize.ShloMosaic Idealize.ShloMosaic.ValueIdx
open Cert.Spec (cOne cHalf cN cEps cs mu4)

namespace Cert.KernelIdeal.Stage0

/-- The zero offsets of a whole-buffer access of a matrix. -/
theorem hz : (![0, 0] : Fin 2 → Nat) = fun _ => 0 := funext fun a => by fin_cases a <;> rfl

/-- The means row holds the four feature means over the 20000 boxes. -/
theorem means_eq (x0 : Vec Ideal S625x160 .f32) (k : Fin 4) :
    k0_pay11 (F := Ideal) (k0_pay7 x0) (k0_pay8 x0) (ix2 (0 : Fin 1) k) = mu4 (bxOf x0) k :=
  (mean_row x0 k).trans (congrArg₂ Ideal.div (sum_row x0 k) rfl)

/-- The sums-of-squares row holds the four sums of squared features over the 20000 boxes. -/
theorem squares_eq (x0 : Vec Ideal S625x160 .f32) (k : Fin 4) :
    k0_pay12 (F := Ideal) (k0_pay6 x0) (k0_pay9 x0) (k0_pay10 x0) (ix2 (0 : Fin 1) k)
      = ∑ n : Fin 20000, cs (bxOf x0) n k * cs (bxOf x0) n k :=
  (sq_row x0 k).trans (sq_sum_row x0 k)

/-- The divisor row holds the number of boxes. -/
theorem count_eq (k : Fin 4) : k0_pay13 (F := Ideal) (ix2 (0 : Fin 1) k) = cN := rfl

theorem out0_5_apply (x0 : Vec Ideal S625x160 .f32) (x1 : Vec Ideal S128x4 .f32) (x2 : Vec Ideal S1x128 .f32)
    (x3 x4 : Vec Ideal S1x4 .f32) (r : Fin 5) (j : Fin 128) :
    Gen.out0_5 (F := Ideal) x0 x1 x2 x3 x4 (ix2 r j)
      = Cert.Spec.K.B5 (bxOf x0) (fun k => x3 (ix2 0 k)) (fun j k => x1 (ix2 j k)) r j := by
  unfold out0_5
  rw [View.canon_unit_zero hz]
  simp only [View.ld_unit_zero (S := S625x160) hz, View.ld_unit_zero (S := S1x4) hz, View.ld_unit_zero (S := S128x4) hz]
  rw [pay1_apply]
  unfold Cert.Spec.K.B5
  rw [pay17_apply, pay18_apply, pay19_apply, pay20_apply, pay21_apply, pay22_apply]
  rw [pay15_spec (bxOf x0) _ _ _ (means_eq x0) (squares_eq x0) count_eq x3 x1 0 j,
      pay15_spec (bxOf x0) _ _ _ (means_eq x0) (squares_eq x0) count_eq x3 x1 1 j,
      pay15_spec (bxOf x0) _ _ _ (means_eq x0) (squares_eq x0) count_eq x3 x1 2 j,
      pay15_spec (bxOf x0) _ _ _ (means_eq x0) (squares_eq x0) count_eq x3 x1 3 j]

theorem out0_6_apply (x0 : Vec Ideal S625x160 .f32) (x1 : Vec Ideal S128x4 .f32) (x2 : Vec Ideal S1x128 .f32)
    (x3 x4 : Vec Ideal S1x4 .f32) (j : Fin 128) :
    Gen.out0_6 (F := Ideal) x0 x1 x2 x3 x4 (ix2 0 j)
      = Cert.Spec.K.cvec (bxOf x0) (fun k => x3 (ix2 0 k)) (fun k => x4 (ix2 0 k)) (fun j k => x1 (ix2 j k))
          (fun j => x2 (ix2 0 j)) j := by
  unfold out0_6
  rw [View.canon_unit_zero hz]
  simp only [View.ld_unit_zero (S := S625x160) hz, View.ld_unit_zero (S := S1x4) hz, View.ld_unit_zero (S := S128x4) hz,
    View.ld_unit_zero (S := S1x128) hz]
  rw [pay2_apply]
  unfold Cert.Spec.K.cvec
  rw [pay16_spec (bxOf x0) _ _ _ (means_eq x0) (squares_eq x0) count_eq x3 x4 x2 x1 j,
      pay15_spec (bxOf x0) _ _ _ (means_eq x0) (squares_eq x0) count_eq x3 x1 0 j,
      pay15_spec (bxOf x0) _ _ _ (means_eq x0) (squares_eq x0) count_eq x3 x1 1 j,
      pay15_spec (bxOf x0) _ _ _ (means_eq x0) (squares_eq x0) count_eq x3 x1 2 j,
      pay15_spec (bxOf x0) _ _ _ (means_eq x0) (squares_eq x0) count_eq x3 x1 3 j]

end Cert.KernelIdeal.Stage0

end
-- ==== Proof.Stage1Products.lean ====
/-
  Products and column sums read at an entry, at the ideal values.

  A matrix product into a zero accumulator, contracted over one axis, is at entry (a, b) the sum over the
  contracted coordinate of the products of the two operands' entries: for an M x K by K x N product the
  operands are read at (a, c) and (c, b); for an M x K by N x K product (the right operand contracted on its
  last axis) at (a, c) and (b, c). A sum over the rows of an R x C array is at column c the sum over r of
  the entries (r, c); a sum over the leading axis of a B x 1 x C array is at (0, c) the sum over b of the
  entries (b, 0, c).
-/
import Idealize.ShloMosaic.PureOps.Ideal
import Idealize.ShloMosaic.PureOps.Ideal.Laws
import Idealize.ShloMosaic.Lib.ValueIdx
import Idealize.ShloMosaic.Lib.ValueLayout

noncomputable section

open scoped BigOperators
open Idealize.ShloMosaic Idealize.ShloMosaic.ValueIdx

namespace Cert.KernelIdeal.Stage12

/-- An M x K by K x N product into the zero accumulator, at entry (a, b): the sum over c of A (a, c) * B (c, b). -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- An M x K by N x K product (the right operand contracted on its last axis) into the zero accumulator, at
    entry (a, b): the sum over c of A (a, c) * B (b, c). -/
theorem matmul_transposedRhs_zero_apply {M K N : Nat} {φ₁ φ₂ : FTy} (prec : Option ContractPrecision)
    (A : FVec Ideal ⟨2, ![M, K]⟩ φ₁) (B : FVec Ideal ⟨2, ![N, K]⟩ φ₂) (a : Fin M) (b : Fin N) :
    matmul (DotDims.transposedRhs M K N) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply, ← Equiv.sum_comp (contrEquiv1 (DotDims.transposedRhs M K N) K rfl rfl).symm]
  refine Finset.sum_congr rfl fun c _ => ?_
  have c2 := contrEquiv1_symm_val (DotDims.transposedRhs M K N) K rfl rfl c
  have l2 : (DotDims.transposedRhs M K N).lhsIdx (ix2 a b) ((contrEquiv1 _ K rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs M K N).rhsIdx (ix2 a b) ((contrEquiv1 _ K rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The sum over the rows of an R x C array, at column c: the sum over r of the entries (r, c). -/
theorem sum_rows_apply {R C : Nat} {φ : FTy} (src : FVec Ideal ⟨2, ![R, C]⟩ φ) (acc : BitVec φ.bits)
    (h : (⟨2, ![R, C]⟩ : Shape).Reduces [0] ⟨1, ![C]⟩) (hφ : FKind.Formats φ) (hacc : acc = FKind.add.neutral φ hφ)
    (c : Fin C) :
    multiReduction .add [0] ⟨1, ![C]⟩ src acc h hφ hacc (ix1 c) = ∑ r : Fin R, src (ix2 r c) := by
  refine (Ideal.multiReduction_add_single src acc h hφ hacc (ix1 c)).trans ?_
  refine Finset.sum_congr rfl fun r _ => congrArg src ?_
  funext ax; apply Fin.ext
  match ax with
  | ⟨0, _⟩ => rfl
  | ⟨1, _⟩ => rfl

/-- The sum over the leading axis of a B x 1 x C array, at (u, c): the sum over b of the entries (b, 0, c). -/
theorem sum_lead_apply {B C : Nat} {φ : FTy} (src : FVec Ideal ⟨3, ![B, 1, C]⟩ φ) (acc : BitVec φ.bits)
    (h : (⟨3, ![B, 1, C]⟩ : Shape).Reduces [0] ⟨2, ![1, C]⟩) (hφ : FKind.Formats φ) (hacc : acc = FKind.add.neutral φ hφ)
    (u : Fin 1) (c : Fin C) :
    multiReduction .add [0] ⟨2, ![1, C]⟩ src acc h hφ hacc (ix2 u c) = ∑ b : Fin B, src (ix3 b u c) := by
  refine (Ideal.multiReduction_add_single src acc h hφ hacc (ix2 u c)).trans ?_
  refine Finset.sum_congr rfl fun b _ => congrArg src ?_
  funext ax; apply Fin.ext
  match ax with
  | ⟨0, _⟩ => rfl
  | ⟨1, _⟩ => rfl
  | ⟨2, _⟩ => rfl

end Cert.KernelIdeal.Stage12

end
-- ==== Proof.Stage1Hidden.lean ====
/-
  The hidden pre-activation one block of 1000 rows computes, read at row r and column c.

  The body forms the position embedding of each row from its raw box row (a 1000 x 5 by 5 x 128 product, a bias
  row added to every row, then the maximum with zero), and adds three products: the visual features against
  the feature columns of the first layer's weight (1000 x 2048 by 1024 x 2048, contracted over the 2048), the
  class distribution against the 36 x 1024 matrix (1000 x 36 by 36 x 1024), and the position embedding against
  the position columns of the weight (1000 x 128 by 1024 x 128, contracted over the 128); then the bias row.
  Each product starts from a zero accumulator, so at an entry it is the plain sum over the contracted
  coordinate; a change of float format is the identity on extended reals; a cast to the same shape is the identity.
-/
import proofs.«144968_g33105607918058_cont_8to1_b_384_44_alg».proof.Proof.Gen.KernelIdeal.Skeleton
import proofs.«144968_g33105607918058_cont_8to1_b_384_44_alg».proof.Proof.BlockSpec
import proofs.«144968_g33105607918058_cont_8to1_b_384_44_alg».proof.Proof.Stage1Products

noncomputable section

open scoped BigOperators
open Cert.KernelIdeal Cert.KernelIdeal.Gen Idealize.ShloMosaic Idealize.ShloMosaic.ValueIdx

namespace Cert.KernelIdeal.Stage12

/-- The box product at entry (r, j): the sum over the five box coordinates. -/
theorem dot_box_apply (A : FVec Ideal S1000x5 .f32) (B : FVec Ideal S5x128 .f32) (r : Fin 1000) (j : Fin 128) :
    matmul dot_S1000x5_S5x128_S1000x128_1_0_0_1_n_n none A B (constant (F := Ideal) S1000x128 .f32 0x00000000#32) (ix2 r j)
      = ∑ i : Fin 5, A (ix2 r i) * B (ix2 i j) :=
  matmul_plain_zero_apply none A B r j

/-- The feature product at entry (r, c): the sum over the 2048 features, the weight read at (c, q). -/
theorem dot_feat_apply (A : FVec Ideal S1000x2048 .bf16) (B : FVec Ideal S1024x2048 .bf16) (r : Fin 1000) (c : Fin 1024) :
    matmul dot_S1000x2048_S1024x2048_S1000x1024_1_1_0_0_n_n none A B (constant (F := Ideal) S1000x1024 .f32 0x00000000#32) (ix2 r c)
      = ∑ q : Fin 2048, A (ix2 r q) * B (ix2 c q) :=
  matmul_transposedRhs_zero_apply none A B r c

/-- The distribution product at entry (r, c): the sum over the 36 classes. -/
theorem dot_dist_apply (A : FVec Ideal S1000x36 .bf16) (B : FVec Ideal S36x1024 .bf16) (r : Fin 1000) (c : Fin 1024) :
    matmul dot_S1000x36_S36x1024_S1000x1024_1_0_0_1_n_n none A B (constant (F := Ideal) S1000x1024 .f32 0x00000000#32) (ix2 r c)
      = ∑ d : Fin 36, A (ix2 r d) * B (ix2 d c) :=
  matmul_plain_zero_apply none A B r c

/-- The position product at entry (r, c): the sum over the 128 embedding coordinates, the weight read at (c, j). -/
theorem dot_pos_apply (A : FVec Ideal S1000x128 .bf16) (B : FVec Ideal S1024x128 .bf16) (r : Fin 1000) (c : Fin 1024) :
    matmul dot_S1000x128_S1024x128_S1000x1024_1_1_0_0_n_n none A B (constant (F := Ideal) S1000x1024 .f32 0x00000000#32) (ix2 r c)
      = ∑ j : Fin 128, A (ix2 r j) * B (ix2 c j) :=
  matmul_transposedRhs_zero_apply none A B r c

/-- The hidden pre-activation at (r, c) is the block formula `Blk.z` of the loaded data. -/
theorem k1_pay3_apply (v0 : Vec Ideal S1000x5 .f32) (v1 : Vec Ideal S5x128 .f32) (v4 : Vec Ideal S1x128 .f32)
    (v10 : Vec Ideal S1000x2048 .f32) (v12 : Vec Ideal S1024x2048 .bf16) (v15 : Vec Ideal S1000x36 .f32)
    (v17 : Vec Ideal S36x1024 .bf16) (v22 : Vec Ideal S1024x128 .bf16) (v26 : Vec Ideal S1x1024 .f32)
    (r : Fin 1000) (c : Fin 1024) :
    k1_pay3 (F := Ideal) v0 v1 v4 v10 v12 v15 v17 v22 v26 (ix2 r c)
      = Cert.Spec.Blk.z (fun r i => v0 (ix2 r i)) (fun r d => v15 (ix2 r d)) (fun r q => v10 (ix2 r q))
          (fun i j => v1 (ix2 i j)) (fun j => v4 (ix2 0 j)) (fun d c => v17 (ix2 d c)) (fun c j => v22 (ix2 c j))
          (fun c q => v12 (ix2 c q)) (fun c => v26 (ix2 0 c)) r c := by
  unfold k1_pay3 Cert.Spec.Blk.z Cert.Spec.Blk.pe
  simp only [addf_apply, dot_feat_apply, dot_dist_apply, dot_pos_apply, dot_box_apply, truncf_apply, shapeCast_self,
    maximumf_apply, broadcast_apply, broadcastTo_1b_ab_apply, Ideal.ofBits_def, Ideal.ofBits_zero_f32]

/-- The column sums of a 1000 x 1024 array, stored as a 1 x 1 x 1024 block, at (0, 0, c): the sum over the rows. -/
theorem k1_pay1_apply (v29 : FVec Ideal S1000x1024 .f32) (c : Fin 1024) :
    k1_pay1 (F := Ideal) v29 (ix3 0 0 c) = ∑ r : Fin 1000, v29 (ix2 r c) := by
  unfold k1_pay1
  refine (shapeCast_ab_1ab_apply _ _ (0 : Fin 1) (0 : Fin 1) c).trans ?_
  refine (shapeCast_a_1a_apply _ _ (0 : Fin 1) c).trans ?_
  exact sum_rows_apply v29 _ _ _ _ c

/-- The column sums of the squares, at (0, 0, c): the sum over the rows of the squared entries. -/
theorem k1_pay2_apply (v29 : FVec Ideal S1000x1024 .f32) (c : Fin 1024) :
    k1_pay2 (F := Ideal) v29 (ix3 0 0 c) = ∑ r : Fin 1000, v29 (ix2 r c) * v29 (ix2 r c) := by
  unfold k1_pay2
  refine (shapeCast_ab_1ab_apply _ _ (0 : Fin 1) (0 : Fin 1) c).trans ?_
  refine (shapeCast_a_1a_apply _ _ (0 : Fin 1) c).trans ?_
  exact sum_rows_apply (mulf v29 v29) _ _ _ _ c

end Cert.KernelIdeal.Stage12

end
-- ==== Proof.Stage1Out.lean ====
/-
  What one block of 1000 rows leaves in its three output buffers, read at an entry.

  Each output buffer is written by one store that covers it, and every input buffer is loaded whole, so an
  output at an entry is the stored value at that entry, computed from the input buffers themselves: the
  hidden pre-activation (stored after a change of float format, the identity on extended reals), its column
  sums over the block's rows, and the column sums of its squares.
-/
import proofs.«144968_g33105607918058_cont_8to1_b_384_44_alg».proof.Proof.Gen.KernelIdeal.Frame
import proofs.«144968_g33105607918058_cont_8to1_b_384_44_alg».proof.Proof.Stage1Hidden

noncomputable section

open scoped BigOperators
open Cert.KernelIdeal Cert.KernelIdeal.Gen Idealize.ShloMosaic Idealize.ShloMosaic.ValueIdx

namespace Cert.KernelIdeal.Stage12

/-- The whole-buffer rectangle of a rank-2 buffer starts at the origin. -/
theorem zero2 : (![0, 0] : Fin 2 → Nat) = fun _ => 0 := funext fun a => by fin_cases a <;> rfl
/-- The whole-buffer rectangle of a rank-3 buffer starts at the origin. -/
theorem zero3 : (![0, 0, 0] : Fin 3 → Nat) = fun _ => 0 := funext fun a => by fin_cases a <;> rfl

/-- The first output of a block at (r, c): the hidden pre-activation of row r, column c. -/
theorem out1_9_apply (x0 : Vec Ideal S1000x5 .f32) (x1 : Vec Ideal S1000x36 .f32) (x2 : Vec Ideal S1000x2048 .f32)
    (x3 : Vec Ideal S5x128 .f32) (x4 : Vec Ideal S1x128 .f32) (x5 : Vec Ideal S36x1024 .bf16) (x6 : Vec Ideal S1024x128 .bf16)
    (x7 : Vec Ideal S1024x2048 .bf16) (x8 : Vec Ideal S1x1024 .f32) (r : Fin 1000) (c : Fin 1024) :
    Gen.out1_9 (F := Ideal) x0 x1 x2 x3 x4 x5 x6 x7 x8 (ix2 r c)
      = Cert.Spec.Blk.z (fun r i => x0 (ix2 r i)) (fun r d => x1 (ix2 r d)) (fun r q => x2 (ix2 r q))
          (fun i j => x3 (ix2 i j)) (fun j => x4 (ix2 0 j)) (fun d c => x5 (ix2 d c)) (fun c j => x6 (ix2 c j))
          (fun c q => x7 (ix2 c q)) (fun c => x8 (ix2 0 c)) r c := by
  unfold Gen.out1_9
  rw [View.canon_unit_zero zero2]
  simp only [View.ld_unit_zero (S := S1000x5) zero2, View.ld_unit_zero (S := S5x128) zero2,
    View.ld_unit_zero (S := S1x128) zero2, View.ld_unit_zero (S := S1000x2048) zero2,
    View.ld_unit_zero (S := S1024x2048) zero2, View.ld_unit_zero (S := S1000x36) zero2,
    View.ld_unit_zero (S := S36x1024) zero2, View.ld_unit_zero (S := S1024x128) zero2,
    View.ld_unit_zero (S := S1x1024) zero2]
  unfold k1_pay4
  exact (truncf_apply (ψ := .bf16) (k1_pay3 (F := Ideal) x0 x3 x4 x2 x7 x1 x5 x6 x8) bitsLt_bf16_f32 (ix2 r c)).trans
    (k1_pay3_apply x0 x3 x4 x2 x7 x1 x5 x6 x8 r c)

/-- The second output of a block at (0, 0, c): the sum of column c of the hidden pre-activation over the block's rows. -/
theorem out1_10_apply (x0 : Vec Ideal S1000x5 .f32) (x1 : Vec Ideal S1000x36 .f32) (x2 : Vec Ideal S1000x2048 .f32)
    (x3 : Vec Ideal S5x128 .f32) (x4 : Vec Ideal S1x128 .f32) (x5 : Vec Ideal S36x1024 .bf16) (x6 : Vec Ideal S1024x128 .bf16)
    (x7 : Vec Ideal S1024x2048 .bf16) (x8 : Vec Ideal S1x1024 .f32) (c : Fin 1024) :
    Gen.out1_10 (F := Ideal) x0 x1 x2 x3 x4 x5 x6 x7 x8 (ix3 0 0 c)
      = Cert.Spec.Blk.s (fun r i => x0 (ix2 r i)) (fun r d => x1 (ix2 r d)) (fun r q => x2 (ix2 r q))
          (fun i j => x3 (ix2 i j)) (fun j => x4 (ix2 0 j)) (fun d c => x5 (ix2 d c)) (fun c j => x6 (ix2 c j))
          (fun c q => x7 (ix2 c q)) (fun c => x8 (ix2 0 c)) c := by
  unfold Gen.out1_10
  rw [View.canon_unit_zero zero3]
  simp only [View.ld_unit_zero (S := S1000x5) zero2, View.ld_unit_zero (S := S5x128) zero2,
    View.ld_unit_zero (S := S1x128) zero2, View.ld_unit_zero (S := S1000x2048) zero2,
    View.ld_unit_zero (S := S1024x2048) zero2, View.ld_unit_zero (S := S1000x36) zero2,
    View.ld_unit_zero (S := S36x1024) zero2, View.ld_unit_zero (S := S1024x128) zero2,
    View.ld_unit_zero (S := S1x1024) zero2]
  refine (k1_pay1_apply _ c).trans ?_
  unfold Cert.Spec.Blk.s
  exact Finset.sum_congr rfl fun r _ => k1_pay3_apply x0 x3 x4 x2 x7 x1 x5 x6 x8 r c

/-- The third output of a block at (0, 0, c): the sum of the squares of column c over the block's rows. -/
theorem out1_11_apply (x0 : Vec Ideal S1000x5 .f32) (x1 : Vec Ideal S1000x36 .f32) (x2 : Vec Ideal S1000x2048 .f32)
    (x3 : Vec Ideal S5x128 .f32) (x4 : Vec Ideal S1x128 .f32) (x5 : Vec Ideal S36x1024 .bf16) (x6 : Vec Ideal S1024x128 .bf16)
    (x7 : Vec Ideal S1024x2048 .bf16) (x8 : Vec Ideal S1x1024 .f32) (c : Fin 1024) :
    Gen.out1_11 (F := Ideal) x0 x1 x2 x3 x4 x5 x6 x7 x8 (ix3 0 0 c)
      = Cert.Spec.Blk.ss (fun r i => x0 (ix2 r i)) (fun r d => x1 (ix2 r d)) (fun r q => x2 (ix2 r q))
          (fun i j => x3 (ix2 i j)) (fun j => x4 (ix2 0 j)) (fun d c => x5 (ix2 d c)) (fun c j => x6 (ix2 c j))
          (fun c q => x7 (ix2 c q)) (fun c => x8 (ix2 0 c)) c := by
  unfold Gen.out1_11
  rw [View.canon_unit_zero zero3]
  simp only [View.ld_unit_zero (S := S1000x5) zero2, View.ld_unit_zero (S := S5x128) zero2,
    View.ld_unit_zero (S := S1x128) zero2, View.ld_unit_zero (S := S1000x2048) zero2,
    View.ld_unit_zero (S := S1024x2048) zero2, View.ld_unit_zero (S := S1000x36) zero2,
    View.ld_unit_zero (S := S36x1024) zero2, View.ld_unit_zero (S := S1024x128) zero2,
    View.ld_unit_zero (S := S1x1024) zero2]
  refine (k1_pay2_apply _ c).trans ?_
  unfold Cert.Spec.Blk.ss
  exact Finset.sum_congr rfl fun r _ =>
    congrArg₂ (· * ·) (k1_pay3_apply x0 x3 x4 x2 x7 x1 x5 x6 x8 r c) (k1_pay3_apply x0 x3 x4 x2 x7 x1 x5 x6 x8 r c)

end Cert.KernelIdeal.Stage12

end
-- ==== Proof.Stage2Hidden.lean ====
/-
  What one block of 2000 rows computes, read at row r and class o.

  From the 20 partial column sums and partial column sums of squares the body forms, for each column, the mean
  and the variance (mean of squares minus squared mean), the scale (gain times reciprocal square root of
  variance plus epsilon) and the shift (offset minus mean times scale); it scales and shifts the block of the
  hidden pre-activation, takes the maximum with zero, multiplies by the last layer's weight (2000 x 1024 by
  37 x 1024, contracted over the 1024, from a zero accumulator) and adds the bias row.
-/
import proofs.«144968_g33105607918058_cont_8to1_b_384_44_alg».proof.Proof.Gen.KernelIdeal.Skeleton
import proofs.«144968_g33105607918058_cont_8to1_b_384_44_alg».proof.Proof.BlockSpec
import proofs.«144968_g33105607918058_cont_8to1_b_384_44_alg».proof.Proof.Stage1Products

noncomputable section

open scoped BigOperators
open Cert.KernelIdeal Cert.KernelIdeal.Gen Idealize.ShloMosaic Idealize.ShloMosaic.ValueIdx

namespace Cert.KernelIdeal.Stage12

/-- The last product at entry (r, o): the sum over the 1024 hidden columns, the weight read at (o, c). -/
theorem dot_out_apply (A : FVec Ideal S2000x1024 .bf16) (B : FVec Ideal S37x1024 .bf16) (r : Fin 2000) (o : Fin 37) :
    matmul dot_S2000x1024_S37x1024_S2000x37_1_1_0_0_n_n none A B (constant (F := Ideal) S2000x37 .f32 0x00000000#32) (ix2 r o)
      = ∑ c : Fin 1024, A (ix2 r c) * B (ix2 o c) :=
  matmul_transposedRhs_zero_apply none A B r o

/-- A reciprocal square root at an entry is the reciprocal square root of the entry. -/
theorem rsqrt_apply {s : Shape} {φ : FTy} (a : FVec Ideal s φ) (i : s.Idx) : rsqrt a i = Ideal.rsqrt (a i) := rfl

/-- The product before the bias, at (r, o): the sum over the columns of the hidden activation times the weight. -/
theorem k2_pay2_apply (v0 v5 : Vec Ideal S20x1x1024 .f32) (v12 v18 : Vec Ideal S1x1024 .f32)
    (v22 : Vec Ideal S2000x1024 .bf16) (v32 : Vec Ideal S37x1024 .bf16) (r : Fin 2000) (o : Fin 37) :
    k2_pay2 (F := Ideal) v0 v5 v12 v18 v22 v32 (ix2 r o)
      = ∑ c : Fin 1024, Cert.Spec.Blk.h (fun r c => v22 (ix2 r c)) (fun b c => v0 (ix3 b 0 c)) (fun b c => v5 (ix3 b 0 c))
          (fun c => v12 (ix2 0 c)) (fun c => v18 (ix2 0 c)) r c * v32 (ix2 o c) := by
  unfold k2_pay2 Cert.Spec.Blk.h Cert.Spec.Blk.shift Cert.Spec.Blk.scale Cert.Spec.Blk.var Cert.Spec.Blk.mu
  simp only [dot_out_apply, truncf_apply, extf_apply, maximumf_apply, addf_apply, mulf_apply, subf_apply, divf_apply,
    rsqrt_apply, broadcast_apply, broadcastTo_1b_ab_apply, shapeCast_self, Ideal.ofBits_def,
    Ideal.ofBits_zero_f32]
  refine Finset.sum_congr rfl fun c _ => ?_
  rw [sum_lead_apply v0 0x00000000#32 reduces_S20x1x1024_S1x1024 (Or.inl rfl) rfl 0 c,
    sum_lead_apply v5 0x00000000#32 reduces_S20x1x1024_S1x1024 (Or.inl rfl) rfl 0 c]

/-- The bias row added, at (r, o). -/
theorem k2_pay1_apply (v34 : FVec Ideal S2000x37 .f32) (v35 : Vec Ideal S1x37 .f32) (r : Fin 2000) (o : Fin 37) :
    k2_pay1 (F := Ideal) v34 v35 (ix2 r o) = v34 (ix2 r o) + v35 (ix2 0 o) := by
  unfold k2_pay1
  simp only [addf_apply, broadcastTo_1b_ab_apply, shapeCast_self]

end Cert.KernelIdeal.Stage12

end
-- ==== Proof.Stage2Out.lean ====
/-
  What one block of 2000 rows leaves in its output buffer, read at an entry.

  The output buffer is written by one store that covers it and every input buffer is loaded whole, so the
  output at (r, o) is the stored value there, computed from the input buffers themselves: the class score of
  row r for class o.
-/
import proofs.«144968_g33105607918058_cont_8to1_b_384_44_alg».proof.Proof.Gen.KernelIdeal.Frame
import proofs.«144968_g33105607918058_cont_8to1_b_384_44_alg».proof.Proof.Stage2Hidden

noncomputable section

open scoped BigOperators
open Cert.KernelIdeal Cert.KernelIdeal.Gen Idealize.ShloMosaic Idealize.ShloMosaic.ValueIdx

namespace Cert.KernelIdeal.Stage12

/-- The whole-buffer rectangle of a rank-2 buffer starts at the origin. -/
theorem origin2 : (![0, 0] : Fin 2 → Nat) = fun _ => 0 := funext fun a => by fin_cases a <;> rfl
/-- The whole-buffer rectangle of a rank-3 buffer starts at the origin. -/
theorem origin3 : (![0, 0, 0] : Fin 3 → Nat) = fun _ => 0 := funext fun a => by fin_cases a <;> rfl

/-- The output of a block at (r, o): the class score of row r for class o. -/
theorem out2_7_apply (x0 : Vec Ideal S2000x1024 .bf16) (x1 x2 : Vec Ideal S20x1x1024 .f32) (x3 x4 : Vec Ideal S1x1024 .f32)
    (x5 : Vec Ideal S37x1024 .bf16) (x6 : Vec Ideal S1x37 .f32) (r : Fin 2000) (o : Fin 37) :
    Gen.out2_7 (F := Ideal) x0 x1 x2 x3 x4 x5 x6 (ix2 r o)
      = Cert.Spec.Blk.out (fun r c => x0 (ix2 r c)) (fun b c => x1 (ix3 b 0 c)) (fun b c => x2 (ix3 b 0 c))
          (fun c => x3 (ix2 0 c)) (fun c => x4 (ix2 0 c)) (fun o c => x5 (ix2 o c)) (fun o => x6 (ix2 0 o)) r o := by
  unfold Gen.out2_7
  rw [View.canon_unit_zero origin2]
  simp only [View.ld_unit_zero (S := S20x1x1024) origin3, View.ld_unit_zero (S := S1x1024) origin2,
    View.ld_unit_zero (S := S2000x1024) origin2, View.ld_unit_zero (S := S37x1024) origin2,
    View.ld_unit_zero (S := S1x37) origin2]
  refine (k2_pay1_apply _ x6 r o).trans ?_
  unfold Cert.Spec.Blk.out
  exact congrArg (· + x6 (ix2 0 o)) (k2_pay2_apply x1 x2 x3 x4 x0 x5 r o)

end Cert.KernelIdeal.Stage12

end
-- ==== Proof.KValue.lean ====
/-
  The idealized kernel program's result, entry by entry, as the kernel's formula of the fourteen float argument
  arrays: the boundary chain with each body's payload read at an index.
-/
import proofs.«144968_g33105607918058_cont_8to1_b_384_44_alg».proof.Proof.KChain
import proofs.«144968_g33105607918058_cont_8to1_b_384_44_alg».proof.Proof.Stage0Out
import proofs.«144968_g33105607918058_cont_8to1_b_384_44_alg».proof.Proof.Stage1Out
import proofs.«144968_g33105607918058_cont_8to1_b_384_44_alg».proof.Proof.Stage2Out

set_option maxRecDepth 16384

noncomputable section

namespace Cert.KernelIdeal.KValue

open Idealize.ShloMosaic Idealize.ShloMosaic.TcCoe Idealize.ShloMosaic.ValueIdx
open Idealize.SL.Sem
open Cert.KernelIdeal Cert.KernelIdeal.Gen Cert.KernelIdeal.KChain

variable (m : (ℓ : Loc nD τ sig) → Buf (Elt Ideal) ℓ) (ρ : Dev nD → PrngReg)

/-- Entry (n, o) of the result buffer after the run is the kernel's formula of the arguments. -/
theorem result_apply (c : Dev nD) (n : Fin 20000) (o : Fin 37) :
    (W6 m ρ c (Proc.devRef .tc main_v19) : S20000x37.Idx → EReal) (ix2 n o)
      = Cert.Spec.K.out (aDist m c) (aBoxes m c) (aFeat m c) (aObjw m c) (aG4 m c) (aBe4 m c) (aPosW m c) (aPosb m c)
          (aW1 m c) (aB1 m c) (aG2 m c) (aBe2 m c) (aW2 m c) (aB2 m c) n o :=
  kval m ρ
    (fun x0 x1 x2 x3 x4 r j => Cert.KernelIdeal.Stage0.out0_5_apply x0 x1 x2 x3 x4 r j)
    (fun x0 x1 x2 x3 x4 j => Cert.KernelIdeal.Stage0.out0_6_apply x0 x1 x2 x3 x4 j)
    (fun x0 x1 x2 x3 x4 x5 x6 x7 x8 r k => Cert.KernelIdeal.Stage12.out1_9_apply x0 x1 x2 x3 x4 x5 x6 x7 x8 r k)
    (fun x0 x1 x2 x3 x4 x5 x6 x7 x8 k => Cert.KernelIdeal.Stage12.out1_10_apply x0 x1 x2 x3 x4 x5 x6 x7 x8 k)
    (fun x0 x1 x2 x3 x4 x5 x6 x7 x8 k => Cert.KernelIdeal.Stage12.out1_11_apply x0 x1 x2 x3 x4 x5 x6 x7 x8 k)
    (fun x0 x1 x2 x3 x4 x5 x6 r o => Cert.KernelIdeal.Stage12.out2_7_apply x0 x1 x2 x3 x4 x5 x6 r o)
    c n o

end Cert.KernelIdeal.KValue

end
-- ==== Proof.AlgConsts.lean ====
/-
  The four constant words of the two formulas, read once as real numbers: the row count 20000, one half, one,
  and the normalisation's epsilon, a positive real whose exact value is never used.
-/
import proofs.«144968_g33105607918058_cont_8to1_b_384_44_alg».proof.Proof.Spec

noncomputable section

open Idealize.ShloMosaic

namespace Cert.Spec

/-- The row-count word denotes the real 20000. -/
theorem cN_eq : cN = ((20000 : ℝ) : EReal) := by
  simp [Ideal.ofBits, Ideal.ieee, -EReal.coe_mul]; norm_num

/-- The word of one half. -/
theorem cHalf_eq : cHalf = ((1 / 2 : ℝ) : EReal) := by
  simp [Ideal.ofBits, Ideal.ieee, -EReal.coe_mul]; norm_num

/-- The word of one. -/
theorem cOne_eq : cOne = ((1 : ℝ) : EReal) := by
  simp [Ideal.ofBits, Ideal.ieee, -EReal.coe_mul]; norm_num

/-- The epsilon as a real number. -/
def epsR : ℝ := 10995116 * (2 : ℝ) ^ (-40 : ℤ)

theorem epsR_pos : 0 < epsR := by unfold epsR; positivity

/-- The epsilon word denotes that real. -/
theorem cEps_eq : cEps = ((epsR : ℝ) : EReal) := by
  unfold epsR
  simp [Ideal.ofBits, Ideal.ieee, -EReal.coe_mul]

end Cert.Spec

end
-- ==== Proof.LibCoeLift.lean ====
/-
  Extended-real operations on real arguments stay real: finite sums, the quotient by a nonzero real, and a running
  maximum started at -∞ over a nonempty range. With these, a chain of sums, products, exponentials, quotients and
  maxima of real inputs is read as one real number.
-/
import Idealize.ShloMosaic.PureOps.Ideal
import Idealize.ShloMosaic.PureOps.Ideal.Laws

noncomputable section

namespace Cert.Proof.CoeLift

open Idealize.ShloMosaic

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The extended quotient of two reals, the divisor nonzero, is the real quotient. -/
theorem div_coe_coe (a b : ℝ) (hb : b ≠ 0) : Ideal.div (a : EReal) (b : EReal) = ((a / b : ℝ) : EReal) := by
  rw [Ideal.div_coe hb, ← EReal.coe_mul, mul_one_div]

/-- The word of the negative infinity denotes the bottom of the extended reals. -/
theorem ofBits_neg_inf : Ideal.ofBits .f32 0xFF800000#32 = (⊥ : EReal) := by
  simp [Ideal.ofBits, Ideal.ieee]

/-- A running maximum from -∞ over a nonempty finite set of reals is a real. -/
theorem fold_max_coe_of_nonempty {ι : Type} (s : Finset ι) (hs : s.Nonempty) (f : ι → ℝ) :
    ∃ c : ℝ, s.fold max (⊥ : EReal) (fun i => ((f i : ℝ) : EReal)) = (c : EReal) := by
  induction hs using Finset.Nonempty.cons_induction with
  | singleton a => exact ⟨f a, by rw [Finset.fold_singleton, max_bot_right]⟩
  | cons a s ha hs ih =>
    obtain ⟨c, hc⟩ := ih
    exact ⟨max (f a) c, by rw [Finset.fold_cons, hc]; exact (EReal.coe_strictMono.monotone.map_max).symm⟩

/-- The same over a whole nonempty range. -/
theorem fold_max_coe {n : ℕ} (hn : 0 < n) (f : Fin n → ℝ) :
    ∃ c : ℝ, (Finset.univ : Finset (Fin n)).fold max (⊥ : EReal) (fun i => ((f i : ℝ) : EReal)) = (c : EReal) :=
  fold_max_coe_of_nonempty _ ⟨⟨0, hn⟩, Finset.mem_univ _⟩ f

end Cert.Proof.CoeLift

end
-- ==== Proof.AlgNorm.lean ====
/-
  The normalisation over the 20000 rows, once, for any real column x:
    mean x = (∑ x) / 20000,   var x = (∑ (x - mean x)²) / 20000,
    bn g be x n = (x n - mean x) / sqrt (var x + eps) * g + be.
  The extended-real spellings of these on a real column are the coercions of the real ones:
  the variance both as the mean of squared deviations and as mean of squares minus squared mean
  (the two agree for reals), the quotient by a square root and the product with a reciprocal square
  root (they agree because var x + eps > 0).
-/
import proofs.«144968_g33105607918058_cont_8to1_b_384_44_alg».proof.Proof.AlgConsts
import proofs.«144968_g33105607918058_cont_8to1_b_384_44_alg».proof.Proof.LibCoeLift

noncomputable section

open scoped BigOperators
open Idealize.ShloMosaic

namespace Cert.Alg

open Cert.Spec Cert.Proof.CoeLift

/-- The larger of two reals, taken in the extended reals, is the real maximum. -/
theorem coe_max (a b : ℝ) : max (a : EReal) (b : EReal) = ((max a b : ℝ) : EReal) :=
  (EReal.coe_strictMono.monotone.map_max).symm

/-- Column mean. -/
def mean (x : Fin 20000 → ℝ) : ℝ := (∑ n, x n) / 20000
/-- Biased column variance. -/
def var (x : Fin 20000 → ℝ) : ℝ := (∑ n, (x n - mean x) * (x n - mean x)) / 20000
/-- The normalised, scaled and shifted column. -/
def bn (g be : ℝ) (x : Fin 20000 → ℝ) (n : Fin 20000) : ℝ :=
  (x n - mean x) / Real.sqrt (var x + epsR) * g + be
/-- Gain times reciprocal standard deviation. -/
def scale (g : ℝ) (x : Fin 20000 → ℝ) : ℝ := g * (Real.sqrt (var x + epsR))⁻¹
/-- The shift that goes with `scale`. -/
def shift (g be : ℝ) (x : Fin 20000 → ℝ) : ℝ := be - mean x * scale g x

theorem var_nonneg (x : Fin 20000 → ℝ) : 0 ≤ var x :=
  div_nonneg (Finset.sum_nonneg fun _ _ => mul_self_nonneg _) (by norm_num)

theorem var_add_eps_pos (x : Fin 20000 → ℝ) : 0 < var x + epsR :=
  add_pos_of_nonneg_of_pos (var_nonneg x) epsR_pos

/-- Mean of squares minus squared mean is the mean of squared deviations. -/
theorem var_alt (x : Fin 20000 → ℝ) : (∑ n, x n * x n) / 20000 - mean x * mean x = var x := by
  unfold var
  have h1 : ∑ n, (x n - mean x) * (x n - mean x)
      = (∑ n, x n * x n) - 2 * mean x * (∑ n, x n) + 20000 * (mean x * mean x) := by
    have e : ∀ n, (x n - mean x) * (x n - mean x) = x n * x n - 2 * mean x * x n + mean x * mean x :=
      fun n => by ring
    simp only [e, Finset.sum_add_distrib, Finset.sum_sub_distrib, ← Finset.mul_sum, Finset.sum_const,
      Finset.card_univ, Fintype.card_fin, nsmul_eq_mul]
    push_cast; ring
  have hS : (∑ n, x n) = 20000 * mean x := by unfold mean; field_simp
  rw [h1, hS]; ring

/-- The normalisation as one product and one sum. -/
theorem bn_eq_scale_shift (g be : ℝ) (x : Fin 20000 → ℝ) (n : Fin 20000) :
    bn g be x n = x n * scale g x + shift g be x := by
  unfold bn shift scale; ring

/-! ## The extended-real spellings on a real column -/

theorem mean_coe (x : Fin 20000 → ℝ) : Ideal.div (∑ n, (x n : EReal)) cN = ((mean x : ℝ) : EReal) := by
  rw [coe_sum, cN_eq, div_coe_coe _ _ (by norm_num)]; rfl

theorem varR_coe (x : Fin 20000 → ℝ) :
    Ideal.div (∑ n, ((x n : EReal) - (mean x : EReal)) * ((x n : EReal) - (mean x : EReal))) cN
      = ((var x : ℝ) : EReal) := by
  simp only [← EReal.coe_sub, ← EReal.coe_mul]
  rw [coe_sum, cN_eq, div_coe_coe _ _ (by norm_num)]; rfl

theorem varK_coe (x : Fin 20000 → ℝ) :
    Ideal.div (∑ n, (x n : EReal) * (x n : EReal)) cN - (mean x : EReal) * (mean x : EReal)
      = ((var x : ℝ) : EReal) := by
  simp only [← EReal.coe_mul]
  rw [coe_sum, cN_eq, div_coe_coe _ _ (by norm_num), ← EReal.coe_sub, var_alt]

theorem sqrt_coe_pos {v : ℝ} (hv : 0 < v) : Ideal.sqrt (v : EReal) = ((Real.sqrt v : ℝ) : EReal) := by
  rw [Ideal.sqrt_coe, if_neg (not_lt.mpr hv.le)]

theorem rsqrt_coe_pos {v : ℝ} (hv : 0 < v) :
    Ideal.rsqrt (v : EReal) = (((Real.sqrt v)⁻¹ : ℝ) : EReal) := by
  rw [Ideal.rsqrt_coe, if_neg (not_lt.mpr hv.le), if_neg hv.ne']

/-- The quotient spelling of the normalisation. -/
theorem bnR_coe (g be : ℝ) (x : Fin 20000 → ℝ) (n : Fin 20000) :
    Ideal.div ((x n : EReal) - (mean x : EReal)) (Ideal.sqrt ((var x : EReal) + cEps)) * (g : EReal) + (be : EReal)
      = ((bn g be x n : ℝ) : EReal) := by
  rw [cEps_eq, ← EReal.coe_add, sqrt_coe_pos (var_add_eps_pos x), ← EReal.coe_sub,
    div_coe_coe _ _ (Real.sqrt_pos.mpr (var_add_eps_pos x)).ne', ← EReal.coe_mul, ← EReal.coe_add]
  rfl

/-- The scale of the product spelling. -/
theorem scale_coe (g : ℝ) (x : Fin 20000 → ℝ) :
    (g : EReal) * Ideal.rsqrt ((var x : EReal) + cEps) = ((scale g x : ℝ) : EReal) := by
  rw [cEps_eq, ← EReal.coe_add, rsqrt_coe_pos (var_add_eps_pos x), ← EReal.coe_mul]
  rfl

/-- The shift of the product spelling. -/
theorem shift_coe (g be : ℝ) (x : Fin 20000 → ℝ) :
    (be : EReal) - (mean x : EReal) * (scale g x : EReal) = ((shift g be x : ℝ) : EReal) := by
  rw [← EReal.coe_mul, ← EReal.coe_sub]
  rfl

/-- The product spelling of the normalisation. -/
theorem bnK_coe (g be : ℝ) (x : Fin 20000 → ℝ) (n : Fin 20000) :
    (x n : EReal) * (scale g x : EReal) + (shift g be x : EReal) = ((bn g be x n : ℝ) : EReal) := by
  rw [← EReal.coe_mul, ← EReal.coe_add, bn_eq_scale_shift]

end Cert.Alg

end
-- ==== Proof.AlgPos.lean ====
/-
  The box branch. On real boxes the centre-size features are real; the reference's position embedding
  (normalise the four features over the rows, a 4 → 128 affine layer, relu) and the kernel's (a 5 x 128 matrix and
  a bias row on the raw box row, relu) are the coercion of one and the same real number: the normalisation is
  x * scale + shift, centre = (p1 + p2 + 1) / 2 and extent = p2 - p1 + 1 are linear in the raw coordinates, and the
  4-term and 5-term sums are compared term by term.
-/
import proofs.«144968_g33105607918058_cont_8to1_b_384_44_alg».proof.Proof.AlgNorm

noncomputable section

open scoped BigOperators
open Idealize.ShloMosaic

namespace Cert.Alg

open Cert.Spec Cert.Proof.CoeLift

/-- A two-index real family read in the extended reals. -/
abbrev up2 {a b : ℕ} (x : Fin a → Fin b → ℝ) : Fin a → Fin b → EReal := fun i j => ((x i j : ℝ) : EReal)
/-- A one-index real family read in the extended reals. -/
abbrev up1 {a : ℕ} (x : Fin a → ℝ) : Fin a → EReal := fun i => ((x i : ℝ) : EReal)

section
variable (boxes : Fin 20000 → Fin 5 → ℝ) (g4 be4 : Fin 4 → ℝ) (posW : Fin 128 → Fin 4 → ℝ) (posb : Fin 128 → ℝ)

/-- Extent k of box n. -/
def whR (n : Fin 20000) (k : Fin 2) : ℝ := (boxes n (hi k) - boxes n (lo k)) + 1
/-- Centre coordinate k of box n. -/
def ctrR (n : Fin 20000) (k : Fin 2) : ℝ := boxes n (lo k) + 1 / 2 * whR boxes n k
/-- The four centre-size features of box n. -/
def csR (n : Fin 20000) (k : Fin 4) : ℝ :=
  if h : k.val < 2 then ctrR boxes n ⟨k.val, h⟩ else whR boxes n ⟨k.val - 2, by omega⟩

theorem wh_coe (n : Fin 20000) (k : Fin 2) : wh (up2 boxes) n k = ((whR boxes n k : ℝ) : EReal) := by
  unfold wh whR; rw [cOne_eq, ← EReal.coe_sub, ← EReal.coe_add]

theorem ctr_coe (n : Fin 20000) (k : Fin 2) : ctr (up2 boxes) n k = ((ctrR boxes n k : ℝ) : EReal) := by
  unfold ctr ctrR; rw [wh_coe, cHalf_eq, ← EReal.coe_mul, ← EReal.coe_add]

theorem cs_coe (n : Fin 20000) (k : Fin 4) : cs (up2 boxes) n k = ((csR boxes n k : ℝ) : EReal) := by
  unfold cs csR
  split_ifs
  · exact ctr_coe boxes n _
  · exact wh_coe boxes n _

theorem csR_0 (n : Fin 20000) : csR boxes n 0 = boxes n 1 + 1 / 2 * (boxes n 3 - boxes n 1 + 1) := rfl
theorem csR_1 (n : Fin 20000) : csR boxes n 1 = boxes n 2 + 1 / 2 * (boxes n 4 - boxes n 2 + 1) := rfl
theorem csR_2 (n : Fin 20000) : csR boxes n 2 = boxes n 3 - boxes n 1 + 1 := rfl
theorem csR_3 (n : Fin 20000) : csR boxes n 3 = boxes n 4 - boxes n 2 + 1 := rfl

/-- Column k of the features. -/
abbrev col (k : Fin 4) : Fin 20000 → ℝ := fun n => csR boxes n k

theorem mu4_coe (k : Fin 4) : mu4 (up2 boxes) k = ((mean (col boxes k) : ℝ) : EReal) := by
  unfold mu4; simp only [cs_coe]; exact mean_coe _

theorem R_var4_coe (k : Fin 4) : R.var4 (up2 boxes) k = ((var (col boxes k) : ℝ) : EReal) := by
  unfold R.var4; simp only [cs_coe, mu4_coe]; exact varR_coe _

theorem R_bn4_coe (n : Fin 20000) (k : Fin 4) :
    R.bn4 (up2 boxes) (up1 g4) (up1 be4) n k = ((bn (g4 k) (be4 k) (col boxes k) n : ℝ) : EReal) := by
  unfold R.bn4; rw [cs_coe, mu4_coe, R_var4_coe]; exact bnR_coe _ _ _ _

/-- The position embedding as a real number. -/
def posR (n : Fin 20000) (j : Fin 128) : ℝ :=
  max ((∑ k : Fin 4, bn (g4 k) (be4 k) (col boxes k) n * posW j k) + posb j) 0

theorem R_pos_coe (n : Fin 20000) (j : Fin 128) :
    R.pos (up2 boxes) (up1 g4) (up1 be4) (up2 posW) (up1 posb) n j
      = ((posR boxes g4 be4 posW posb n j : ℝ) : EReal) := by
  unfold R.pos posR
  simp only [R_bn4_coe, up2, up1, ← EReal.coe_mul]
  rw [coe_sum, ← EReal.coe_add]
  exact coe_max _ 0

theorem K_var4_coe (k : Fin 4) : K.var4 (up2 boxes) k = ((var (col boxes k) : ℝ) : EReal) := by
  unfold K.var4 K.ex2; simp only [cs_coe, mu4_coe]; exact varK_coe _

theorem K_scale4_coe (k : Fin 4) :
    K.scale4 (up2 boxes) (up1 g4) k = ((scale (g4 k) (col boxes k) : ℝ) : EReal) := by
  unfold K.scale4; rw [K_var4_coe]; exact scale_coe _ _

theorem K_shift4_coe (k : Fin 4) :
    K.shift4 (up2 boxes) (up1 g4) (up1 be4) k = ((shift (g4 k) (be4 k) (col boxes k) : ℝ) : EReal) := by
  unfold K.shift4; rw [K_scale4_coe, mu4_coe]; exact shift_coe _ _ _

theorem K_a4t_coe (k : Fin 4) (j : Fin 128) :
    K.a4t (up2 boxes) (up1 g4) (up2 posW) k j = ((posW j k * scale (g4 k) (col boxes k) : ℝ) : EReal) := by
  unfold K.a4t; rw [K_scale4_coe, ← EReal.coe_mul]

theorem K_beff_coe (j : Fin 128) :
    K.beff (up2 boxes) (up1 g4) (up1 be4) (up2 posW) (up1 posb) j
      = ((posb j + ∑ k : Fin 4, posW j k * shift (g4 k) (be4 k) (col boxes k) : ℝ) : EReal) := by
  unfold K.beff
  simp only [K_shift4_coe, up2, up1, ← EReal.coe_mul]
  rw [coe_sum, ← EReal.coe_add]

end

end Cert.Alg

end
-- ==== Proof.AlgPe.lean ====
/-
  The kernel's position embedding from the raw box row is the reference's: with the normalisation written as
  x * scale + shift, the 5 x 128 matrix and the bias row collect, coordinate by coordinate, exactly the terms of
  the 4-term sum over the centre-size features.
-/
import proofs.«144968_g33105607918058_cont_8to1_b_384_44_alg».proof.Proof.AlgPos

noncomputable section

open scoped BigOperators
open Idealize.ShloMosaic

namespace Cert.Alg

open Cert.Spec Cert.Proof.CoeLift

section
variable (boxes : Fin 20000 → Fin 5 → ℝ) (g4 be4 : Fin 4 → ℝ) (posW : Fin 128 → Fin 4 → ℝ) (posb : Fin 128 → ℝ)

theorem K_B5_0 (j : Fin 128) : K.B5 (up2 boxes) (up1 g4) (up2 posW) 0 j = 0 := rfl
theorem K_B5_1 (j : Fin 128) : K.B5 (up2 boxes) (up1 g4) (up2 posW) 1 j
    = cHalf * K.a4t (up2 boxes) (up1 g4) (up2 posW) 0 j - K.a4t (up2 boxes) (up1 g4) (up2 posW) 2 j := rfl
theorem K_B5_2 (j : Fin 128) : K.B5 (up2 boxes) (up1 g4) (up2 posW) 2 j
    = cHalf * K.a4t (up2 boxes) (up1 g4) (up2 posW) 1 j - K.a4t (up2 boxes) (up1 g4) (up2 posW) 3 j := rfl
theorem K_B5_3 (j : Fin 128) : K.B5 (up2 boxes) (up1 g4) (up2 posW) 3 j
    = cHalf * K.a4t (up2 boxes) (up1 g4) (up2 posW) 0 j + K.a4t (up2 boxes) (up1 g4) (up2 posW) 2 j := rfl
theorem K_B5_4 (j : Fin 128) : K.B5 (up2 boxes) (up1 g4) (up2 posW) 4 j
    = cHalf * K.a4t (up2 boxes) (up1 g4) (up2 posW) 1 j + K.a4t (up2 boxes) (up1 g4) (up2 posW) 3 j := rfl

/-- The real identity behind the fold: the raw-row form of the pre-activation is the feature form. -/
theorem fold_real (b1 b2 b3 b4 p0 p1 p2 p3 s0 s1 s2 s3 t0 t1 t2 t3 pb : ℝ) :
    (b1 * (1 / 2 * (p0 * s0) - p2 * s2) + b2 * (1 / 2 * (p1 * s1) - p3 * s3)
        + b3 * (1 / 2 * (p0 * s0) + p2 * s2) + b4 * (1 / 2 * (p1 * s1) + p3 * s3))
      + (((((pb + (p0 * t0 + p1 * t1 + p2 * t2 + p3 * t3)) + 1 / 2 * (p0 * s0)) + 1 / 2 * (p1 * s1)) + p2 * s2) + p3 * s3)
    = (((b1 + 1 / 2 * (b3 - b1 + 1)) * s0 + t0) * p0 + ((b2 + 1 / 2 * (b4 - b2 + 1)) * s1 + t1) * p1
        + ((b3 - b1 + 1) * s2 + t2) * p2 + ((b4 - b2 + 1) * s3 + t3) * p3) + pb := by
  ring

theorem K_pe_coe (n : Fin 20000) (j : Fin 128) :
    K.pe (up2 boxes) (up1 g4) (up1 be4) (up2 posW) (up1 posb) n j
      = ((posR boxes g4 be4 posW posb n j : ℝ) : EReal) := by
  unfold K.pe K.cvec
  rw [Fin.sum_univ_five, K_B5_0, K_B5_1, K_B5_2, K_B5_3, K_B5_4]
  simp only [K_a4t_coe, K_beff_coe, cHalf_eq, up2, up1, mul_zero, zero_add, ← EReal.coe_mul, ← EReal.coe_sub,
    ← EReal.coe_add]
  rw [← EReal.coe_zero, coe_max]
  unfold posR
  rw [Fin.sum_univ_four, Fin.sum_univ_four]
  simp only [bn_eq_scale_shift, col, csR_0, csR_1, csR_2, csR_3]
  congr 2
  exact fold_real _ _ _ _ _ _ _ _ _ _ _ _ _ _ _ _ _

/-- The kernel's position embedding is the reference's. -/
theorem K_pe_eq_R_pos (n : Fin 20000) (j : Fin 128) :
    K.pe (up2 boxes) (up1 g4) (up1 be4) (up2 posW) (up1 posb) n j
      = R.pos (up2 boxes) (up1 g4) (up1 be4) (up2 posW) (up1 posb) n j := by
  rw [K_pe_coe, R_pos_coe]

end

end Cert.Alg

end
-- ==== Proof.LibSplitSum.lean ====
/-
  A sum over consecutive indices splits into consecutive stretches.

  The reference contracts the concatenation of three (or two) pieces against the whole first weight (or the whole
  update weight); the kernel contracts each piece against its own block of the weight and adds. The two agree because
  a sum over `Fin 288` is the sum over its first 128 indices plus the sum over the next 128 plus the sum over the
  last 32, and a sum over `Fin 256` the sum over its two halves — in any additive commutative monoid, the extended
  reals included: only the order and grouping of the terms change.
-/
import Mathlib.Algebra.BigOperators.Fin

namespace Cert.Split

/-- `Fin (a + b)` summed as its first `a` indices and its last `b`. -/
theorem sum_two {M : Type*} [AddCommMonoid M] (a b n : ℕ) (h : a + b = n) (f : Fin n → M) :
    ∑ q : Fin n, f q
      = (∑ k : Fin a, f ⟨k.val, by omega⟩) + ∑ k : Fin b, f ⟨a + k.val, by omega⟩ := by
  subst h
  rw [Fin.sum_univ_add]
  rfl

/-- `Fin (a + b + c)` summed as three consecutive stretches, the third starting at `ab = a + b`. -/
theorem sum_three {M : Type*} [AddCommMonoid M] (a b c ab n : ℕ) (hab : a + b = ab) (h : ab + c = n) (f : Fin n → M) :
    ∑ q : Fin n, f q
      = ((∑ k : Fin a, f ⟨k.val, by omega⟩) + ∑ k : Fin b, f ⟨a + k.val, by omega⟩)
        + ∑ k : Fin c, f ⟨ab + k.val, by omega⟩ := by
  subst hab
  rw [sum_two (a + b) c n h f, sum_two a b (a + b) rfl fun q => f ⟨q.val, by omega⟩]

end Cert.Split
-- ==== Proof.AlgZ.lean ====
/-
  The hidden pre-activation. The reference's single product over the 2376 concatenated columns is the kernel's three
  products: the sum over Fin 2376 splits into the stretches of 2048, 200 and 128 columns; on the middle stretch
  ∑_e (∑_d dist·objw)·W1 = ∑_d dist·(∑_e objw·W1) for real entries; on the last stretch the two position
  embeddings agree. Every entry of z is a real number.
-/
import proofs.«144968_g33105607918058_cont_8to1_b_384_44_alg».proof.Proof.AlgPe
import proofs.«144968_g33105607918058_cont_8to1_b_384_44_alg».proof.Proof.LibSplitSum

noncomputable section

open scoped BigOperators
open Idealize.ShloMosaic

namespace Cert.Alg

open Cert.Spec Cert.Proof.CoeLift

section Cat
variable (dist : Fin 20000 → Fin 36 → EReal) (boxes : Fin 20000 → Fin 5 → EReal) (feat : Fin 20000 → Fin 2048 → EReal)
  (objw : Fin 36 → Fin 200 → EReal) (g4 be4 : Fin 4 → EReal) (posW : Fin 128 → Fin 4 → EReal) (posb : Fin 128 → EReal)
  (W1 : Fin 1024 → Fin 2376 → EReal) (b1 : Fin 1024 → EReal)

theorem cat_feat (n : Fin 20000) (q : Fin 2048) (h : q.val < 2376) :
    R.cat dist boxes feat objw g4 be4 posW posb n ⟨q.val, h⟩ = feat n q := by
  unfold R.cat; exact dif_pos q.isLt

theorem cat_obj (n : Fin 20000) (e : Fin 200) (h : 2048 + e.val < 2376) :
    R.cat dist boxes feat objw g4 be4 posW posb n ⟨2048 + e.val, h⟩ = R.obj dist objw n e := by
  unfold R.cat
  have h1 : ¬ ((⟨2048 + e.val, h⟩ : Fin 2376).val < 2048) := by show ¬ (2048 + e.val < 2048); omega
  have h2 : (⟨2048 + e.val, h⟩ : Fin 2376).val < 2248 := by
    show 2048 + e.val < 2248; have := e.isLt; omega
  rw [dif_neg h1, dif_pos h2]
  congr 1; exact Fin.ext (by show 2048 + e.val - 2048 = e.val; omega)

theorem cat_pos (n : Fin 20000) (j : Fin 128) (h : 2248 + j.val < 2376) :
    R.cat dist boxes feat objw g4 be4 posW posb n ⟨2248 + j.val, h⟩ = R.pos boxes g4 be4 posW posb n j := by
  unfold R.cat
  have h1 : ¬ ((⟨2248 + j.val, h⟩ : Fin 2376).val < 2048) := by show ¬ (2248 + j.val < 2048); omega
  have h2 : ¬ ((⟨2248 + j.val, h⟩ : Fin 2376).val < 2248) := by show ¬ (2248 + j.val < 2248); omega
  rw [dif_neg h1, dif_neg h2]
  congr 1; exact Fin.ext (by show 2248 + j.val - 2248 = j.val; omega)

/-- The reference's product over the 2376 columns, stretch by stretch. -/
theorem R_z_split (n : Fin 20000) (c : Fin 1024) :
    R.z dist boxes feat objw g4 be4 posW posb W1 b1 n c
      = (((∑ q : Fin 2048, feat n q * W1 c (colFeat q)) + (∑ e : Fin 200, R.obj dist objw n e * W1 c (colObj e)))
          + (∑ j : Fin 128, R.pos boxes g4 be4 posW posb n j * W1 c (colPos j))) + b1 c := by
  unfold R.z
  rw [Cert.Split.sum_three 2048 200 128 2248 2376 rfl rfl]
  simp only [cat_feat, cat_obj, cat_pos]

end Cat

section
variable (dist : Fin 20000 → Fin 36 → ℝ) (boxes : Fin 20000 → Fin 5 → ℝ) (feat : Fin 20000 → Fin 2048 → ℝ)
  (objw : Fin 36 → Fin 200 → ℝ) (g4 be4 : Fin 4 → ℝ) (posW : Fin 128 → Fin 4 → ℝ) (posb : Fin 128 → ℝ)
  (W1 : Fin 1024 → Fin 2376 → ℝ) (b1 : Fin 1024 → ℝ)

/-- The object embedding of real entries is real. -/
theorem R_obj_coe (n : Fin 20000) (e : Fin 200) :
    R.obj (up2 dist) (up2 objw) n e = ((∑ d : Fin 36, dist n d * objw d e : ℝ) : EReal) := by
  unfold R.obj
  simp only [up2, ← EReal.coe_mul]
  rw [coe_sum]

/-- The embedding table pushed through W1's object columns, for real entries. -/
theorem K_wdt_coe (d : Fin 36) (c : Fin 1024) :
    K.wdt (up2 objw) (up2 W1) d c = ((∑ e : Fin 200, objw d e * W1 c (colObj e) : ℝ) : EReal) := by
  unfold K.wdt
  simp only [up2, ← EReal.coe_mul]
  rw [coe_sum]

/-- The middle stretch, re-associated. -/
theorem obj_mid (n : Fin 20000) (c : Fin 1024) :
    (∑ e : Fin 200, R.obj (up2 dist) (up2 objw) n e * up2 W1 c (colObj e))
      = ∑ d : Fin 36, up2 dist n d * K.wdt (up2 objw) (up2 W1) d c := by
  simp only [R_obj_coe, K_wdt_coe, up2, ← EReal.coe_mul]
  rw [coe_sum, coe_sum, EReal.coe_eq_coe_iff]
  simp only [Finset.sum_mul, Finset.mul_sum]
  rw [Finset.sum_comm]
  exact Finset.sum_congr rfl fun d _ => Finset.sum_congr rfl fun e _ => by ring

/-- The kernel's pre-activation is the reference's. -/
theorem K_z_eq_R_z (n : Fin 20000) (c : Fin 1024) :
    K.z (up2 dist) (up2 boxes) (up2 feat) (up2 objw) (up1 g4) (up1 be4) (up2 posW) (up1 posb) (up2 W1) (up1 b1) n c
      = R.z (up2 dist) (up2 boxes) (up2 feat) (up2 objw) (up1 g4) (up1 be4) (up2 posW) (up1 posb) (up2 W1) (up1 b1) n c := by
  rw [R_z_split, obj_mid]
  unfold K.z
  simp only [K_pe_eq_R_pos]

/-- Every entry of the reference's concatenated row is real. -/
theorem R_cat_real (n : Fin 20000) (q : Fin 2376) :
    ∃ r : ℝ, R.cat (up2 dist) (up2 boxes) (up2 feat) (up2 objw) (up1 g4) (up1 be4) (up2 posW) (up1 posb) n q
      = (r : EReal) := by
  unfold R.cat
  split_ifs
  · exact ⟨_, rfl⟩
  · exact ⟨_, R_obj_coe dist objw n _⟩
  · exact ⟨_, R_pos_coe boxes g4 be4 posW posb n _⟩

/-- Every entry of the pre-activation is real. -/
theorem R_z_real : ∃ zR : Fin 20000 → Fin 1024 → ℝ, ∀ n c,
    R.z (up2 dist) (up2 boxes) (up2 feat) (up2 objw) (up1 g4) (up1 be4) (up2 posW) (up1 posb) (up2 W1) (up1 b1) n c
      = ((zR n c : ℝ) : EReal) := by
  choose catR hcat using R_cat_real dist boxes feat objw g4 be4 posW posb
  refine ⟨fun n c => (∑ q : Fin 2376, catR n q * W1 c q) + b1 c, fun n c => ?_⟩
  unfold R.z
  simp only [hcat, up2, up1, ← EReal.coe_mul]
  rw [coe_sum, ← EReal.coe_add]

end

end Cert.Alg

end
-- ==== Proof.AlgOut.lean ====
/-
  The second normalisation and the last layer. With every entry of z real and the two spellings of z equal:
  the kernel's column sums over 20 blocks of 1000 rows are the sums over the 20000 rows; its mean and variance
  (mean of squares minus squared mean) are the reference's; z * scale + shift is the reference's quotient form;
  so the hidden activations agree, and with them the class scores.
-/
import proofs.«144968_g33105607918058_cont_8to1_b_384_44_alg».proof.Proof.AlgZ
import proofs.«144968_g33105607918058_cont_8to1_b_384_44_alg».proof.Proof.LibBlockSum

noncomputable section

open scoped BigOperators
open Idealize.ShloMosaic

namespace Cert.Alg

open Cert.Spec Cert.Proof.CoeLift

/-- A sum over the 20000 rows, taken as 20 blocks of 1000 rows. -/
theorem sum_rows {M : Type*} [AddCommMonoid M] (f : Fin 20000 → M) :
    ∑ b : Fin 20, ∑ r : Fin 1000, f (rowOf b r) = ∑ n : Fin 20000, f n := by
  have h := Cert.BlockSum.sum_blocks 20 1000 (M := M) f
  refine Eq.trans ?_ h.symm
  refine Finset.sum_congr rfl fun b _ => Finset.sum_congr rfl fun r _ => congrArg f (Fin.ext ?_)
  show 1000 * b.val + r.val = b.val * 1000 + r.val
  omega

section
variable (dist : Fin 20000 → Fin 36 → ℝ) (boxes : Fin 20000 → Fin 5 → ℝ) (feat : Fin 20000 → Fin 2048 → ℝ)
  (objw : Fin 36 → Fin 200 → ℝ) (g4 be4 : Fin 4 → ℝ) (posW : Fin 128 → Fin 4 → ℝ) (posb : Fin 128 → ℝ)
  (W1 : Fin 1024 → Fin 2376 → ℝ) (b1 g2 be2 : Fin 1024 → ℝ) (W2 : Fin 37 → Fin 1024 → ℝ) (b2 : Fin 37 → ℝ)
  (zR : Fin 20000 → Fin 1024 → ℝ)

local notation "Rz" =>
  R.z (up2 dist) (up2 boxes) (up2 feat) (up2 objw) (up1 g4) (up1 be4) (up2 posW) (up1 posb) (up2 W1) (up1 b1)
local notation "Kz" =>
  K.z (up2 dist) (up2 boxes) (up2 feat) (up2 objw) (up1 g4) (up1 be4) (up2 posW) (up1 posb) (up2 W1) (up1 b1)

/-- Column c of z. -/
abbrev zcol (c : Fin 1024) : Fin 20000 → ℝ := fun n => zR n c

theorem R_mu2_coe (hz : ∀ n c, Rz n c = ((zR n c : ℝ) : EReal)) (c : Fin 1024) :
    R.mu2 (up2 dist) (up2 boxes) (up2 feat) (up2 objw) (up1 g4) (up1 be4) (up2 posW) (up1 posb) (up2 W1) (up1 b1) c
      = ((mean (zcol zR c) : ℝ) : EReal) := by
  unfold R.mu2; simp only [hz]; exact mean_coe _

theorem R_var2_coe (hz : ∀ n c, Rz n c = ((zR n c : ℝ) : EReal)) (c : Fin 1024) :
    R.var2 (up2 dist) (up2 boxes) (up2 feat) (up2 objw) (up1 g4) (up1 be4) (up2 posW) (up1 posb) (up2 W1) (up1 b1) c
      = ((var (zcol zR c) : ℝ) : EReal) := by
  unfold R.var2
  simp only [hz, R_mu2_coe dist boxes feat objw g4 be4 posW posb W1 b1 zR hz]
  exact varR_coe _

theorem R_h_coe (hz : ∀ n c, Rz n c = ((zR n c : ℝ) : EReal)) (n : Fin 20000) (c : Fin 1024) :
    R.h (up2 dist) (up2 boxes) (up2 feat) (up2 objw) (up1 g4) (up1 be4) (up2 posW) (up1 posb) (up2 W1) (up1 b1)
        (up1 g2) (up1 be2) n c
      = ((bn (g2 c) (be2 c) (zcol zR c) n : ℝ) : EReal) := by
  unfold R.h
  rw [hz, R_mu2_coe dist boxes feat objw g4 be4 posW posb W1 b1 zR hz,
    R_var2_coe dist boxes feat objw g4 be4 posW posb W1 b1 zR hz]
  exact bnR_coe (g2 c) (be2 c) (zcol zR c) n

theorem K_mu2_coe (hz : ∀ n c, Kz n c = ((zR n c : ℝ) : EReal)) (c : Fin 1024) :
    K.mu2 (up2 dist) (up2 boxes) (up2 feat) (up2 objw) (up1 g4) (up1 be4) (up2 posW) (up1 posb) (up2 W1) (up1 b1) c
      = ((mean (zcol zR c) : ℝ) : EReal) := by
  unfold K.mu2 K.s
  rw [sum_rows (fun n => Kz n c)]
  simp only [hz]; exact mean_coe _

theorem K_var2_coe (hz : ∀ n c, Kz n c = ((zR n c : ℝ) : EReal)) (c : Fin 1024) :
    K.var2 (up2 dist) (up2 boxes) (up2 feat) (up2 objw) (up1 g4) (up1 be4) (up2 posW) (up1 posb) (up2 W1) (up1 b1) c
      = ((var (zcol zR c) : ℝ) : EReal) := by
  unfold K.var2 K.ss
  rw [sum_rows (fun n => Kz n c * Kz n c), K_mu2_coe dist boxes feat objw g4 be4 posW posb W1 b1 zR hz]
  simp only [hz]; exact varK_coe _

theorem K_scale2_coe (hz : ∀ n c, Kz n c = ((zR n c : ℝ) : EReal)) (c : Fin 1024) :
    K.scale2 (up2 dist) (up2 boxes) (up2 feat) (up2 objw) (up1 g4) (up1 be4) (up2 posW) (up1 posb) (up2 W1) (up1 b1)
        (up1 g2) c
      = ((scale (g2 c) (zcol zR c) : ℝ) : EReal) := by
  unfold K.scale2
  rw [K_var2_coe dist boxes feat objw g4 be4 posW posb W1 b1 zR hz]
  exact scale_coe _ _

theorem K_shift2_coe (hz : ∀ n c, Kz n c = ((zR n c : ℝ) : EReal)) (c : Fin 1024) :
    K.shift2 (up2 dist) (up2 boxes) (up2 feat) (up2 objw) (up1 g4) (up1 be4) (up2 posW) (up1 posb) (up2 W1) (up1 b1)
        (up1 g2) (up1 be2) c
      = ((shift (g2 c) (be2 c) (zcol zR c) : ℝ) : EReal) := by
  unfold K.shift2
  rw [K_scale2_coe dist boxes feat objw g4 be4 posW posb W1 b1 g2 zR hz,
    K_mu2_coe dist boxes feat objw g4 be4 posW posb W1 b1 zR hz]
  exact shift_coe _ _ _

theorem K_h_coe (hz : ∀ n c, Kz n c = ((zR n c : ℝ) : EReal)) (n : Fin 20000) (c : Fin 1024) :
    K.h (up2 dist) (up2 boxes) (up2 feat) (up2 objw) (up1 g4) (up1 be4) (up2 posW) (up1 posb) (up2 W1) (up1 b1)
        (up1 g2) (up1 be2) n c
      = max ((bn (g2 c) (be2 c) (zcol zR c) n : ℝ) : EReal) 0 := by
  unfold K.h
  rw [hz, K_scale2_coe dist boxes feat objw g4 be4 posW posb W1 b1 g2 zR hz,
    K_shift2_coe dist boxes feat objw g4 be4 posW posb W1 b1 g2 be2 zR hz]
  exact congrArg (fun t => max t 0) (bnK_coe (g2 c) (be2 c) (zcol zR c) n)

/-- The class scores agree, for real arguments. -/
theorem out_eq (n : Fin 20000) (o : Fin 37) :
    K.out (up2 dist) (up2 boxes) (up2 feat) (up2 objw) (up1 g4) (up1 be4) (up2 posW) (up1 posb) (up2 W1) (up1 b1)
        (up1 g2) (up1 be2) (up2 W2) (up1 b2) n o
      = R.out (up2 dist) (up2 boxes) (up2 feat) (up2 objw) (up1 g4) (up1 be4) (up2 posW) (up1 posb) (up2 W1) (up1 b1)
        (up1 g2) (up1 be2) (up2 W2) (up1 b2) n o := by
  obtain ⟨zR, hzR⟩ := R_z_real dist boxes feat objw g4 be4 posW posb W1 b1
  have hzK : ∀ n c, Kz n c = ((zR n c : ℝ) : EReal) := fun n c => by
    rw [K_z_eq_R_z]; exact hzR n c
  unfold K.out R.out
  simp only [K_h_coe dist boxes feat objw g4 be4 posW posb W1 b1 g2 be2 zR hzK,
    R_h_coe dist boxes feat objw g4 be4 posW posb W1 b1 g2 be2 zR hzR]

end

end Cert.Alg

namespace Cert.Spec

open Cert.Alg

/-- The kernel's class scores are the reference's, whenever every argument entry is a real number. -/
theorem K_out_eq_R_out (dist : Fin 20000 → Fin 36 → EReal) (boxes : Fin 20000 → Fin 5 → EReal)
    (feat : Fin 20000 → Fin 2048 → EReal) (objw : Fin 36 → Fin 200 → EReal) (g4 be4 : Fin 4 → EReal)
    (posW : Fin 128 → Fin 4 → EReal) (posb : Fin 128 → EReal) (W1 : Fin 1024 → Fin 2376 → EReal)
    (b1 g2 be2 : Fin 1024 → EReal) (W2 : Fin 37 → Fin 1024 → EReal) (b2 : Fin 37 → EReal)
    (hdist : Fin2 dist) (hboxes : Fin2 boxes) (hfeat : Fin2 feat) (hobjw : Fin2 objw) (hg4 : Fin1 g4)
    (hbe4 : Fin1 be4) (hposW : Fin2 posW) (hposb : Fin1 posb) (hW1 : Fin2 W1) (hb1 : Fin1 b1) (hg2 : Fin1 g2)
    (hbe2 : Fin1 be2) (hW2 : Fin2 W2) (hb2 : Fin1 b2) (n : Fin 20000) (o : Fin 37) :
    K.out dist boxes feat objw g4 be4 posW posb W1 b1 g2 be2 W2 b2 n o
      = R.out dist boxes feat objw g4 be4 posW posb W1 b1 g2 be2 W2 b2 n o := by
  choose dist' hd using hdist
  choose boxes' hbx using hboxes
  choose feat' hf using hfeat
  choose objw' hob using hobjw
  choose g4' hg4' using hg4
  choose be4' hbe4' using hbe4
  choose posW' hpw using hposW
  choose posb' hpb using hposb
  choose W1' hw1 using hW1
  choose b1' hb1' using hb1
  choose g2' hg2' using hg2
  choose be2' hbe2' using hbe2
  choose W2' hw2 using hW2
  choose b2' hb2' using hb2
  obtain rfl : dist = up2 dist' := funext fun i => funext fun j => hd i j
  obtain rfl : boxes = up2 boxes' := funext fun i => funext fun j => hbx i j
  obtain rfl : feat = up2 feat' := funext fun i => funext fun j => hf i j
  obtain rfl : objw = up2 objw' := funext fun i => funext fun j => hob i j
  obtain rfl : g4 = up1 g4' := funext fun i => hg4' i
  obtain rfl : be4 = up1 be4' := funext fun i => hbe4' i
  obtain rfl : posW = up2 posW' := funext fun i => funext fun j => hpw i j
  obtain rfl : posb = up1 posb' := funext fun i => hpb i
  obtain rfl : W1 = up2 W1' := funext fun i => funext fun j => hw1 i j
  obtain rfl : b1 = up1 b1' := funext fun i => hb1' i
  obtain rfl : g2 = up1 g2' := funext fun i => hg2' i
  obtain rfl : be2 = up1 be2' := funext fun i => hbe2' i
  obtain rfl : W2 = up2 W2' := funext fun i => funext fun j => hw2 i j
  obtain rfl : b2 = up1 b2' := funext fun i => hb2' i
  exact out_eq dist' boxes' feat' objw' g4' be4' posW' posb' W1' b1' g2' be2' W2' b2' n o

end Cert.Spec

end
-- ==== Proof.PreFinAll.lean ====
/-
  One all-reduce of "|x| < +∞", read back. A rank-0 bit that is the reduction by `and`, from 1, of the
  entrywise comparison of |x| with the broadcast +∞ word is 1 only if every entry of x is a real number:
  each compared bit is then 1, so |x i| = max (x i) (-(x i)) < ⊤, which excludes both infinities.
-/
import Idealize.ShloMosaic.Lib.ReduceAll
import Idealize.ShloMosaic.Lib.ValueIdx
import Idealize.ShloMosaic.PureOps.Ideal.Laws

noncomputable section

open Idealize.ShloMosaic

namespace Cert.PreFin

/-- The rank-0 shape. -/
abbrev S0 : Shape := ⟨0, ![]⟩

/-- The rank-0 shape has one index. -/
instance : Subsingleton S0.Idx := ⟨fun _ _ => funext fun d => d.elim0⟩

/-- The +∞ word denotes the top of the extended reals. -/
theorem ofBits_inf : Ideal.ofBits .f32 0x7F800000#32 = (⊤ : EReal) := by
  simp [Ideal.ofBits, Ideal.ieee]

theorem ofBool_eq_one (b : Bool) : BitVec.ofBool b = 1#1 ↔ b = true := by cases b <;> decide

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The all-reduce bit of |x| < +∞ being 1 makes every entry of x a real number. -/
theorem all_real {s : Shape} {axes : List (Fin s.rank)}
    (hb : S0.BroadcastsInDim s (![] : Fin 0 → Fin s.rank)) (hr : s.ReducesTo axes S0) (hu : 0 < S0.numel)
    (x : FVec Ideal s .f32)
    (e : Host.reduce IntOp.andi
          (cmpf .olt (Host.absf x) (broadcastInDim s ![] hb (constant (F := Ideal) S0 .f32 0x7F800000#32)))
          (constantI S0 1 1#1) hr hu ValueIdx.ix0 = 1#1) :
    ∀ i, ∃ r : ℝ, x i = (r : EReal) := by
  intro i
  have h := Host.reduce_andi_all _ _ hr hu ValueIdx.ix0 e i
  have h' : Ideal.cmp .olt (max (x i) (-(x i))) (Ideal.ofBits .f32 0x7F800000#32) = 1#1 := h
  rw [ofBits_inf] at h'
  have h2 : decide (max (x i) (-(x i)) < (⊤ : EReal)) = true := (ofBool_eq_one _).1 h'
  exact real_of_abs_lt_top _ (of_decide_eq_true h2)

end Cert.PreFin

end
-- ==== Proof.PreFin.lean ====
/-
  From the precondition to "every float argument entry is a real number". The printed predicate is, for each of
  the fourteen float arrays, the all-reduce of |x| < +∞, the fourteen bits joined by `and` from the left. Read at
  the one rank-0 index and equal to 1, the conjunction splits into the fourteen bits, and each bit gives the
  finiteness of its array (the integer array takes no part).
-/
import proofs.«144968_g33105607918058_cont_8to1_b_384_44_alg».proof.Pre_finite_inputs
import proofs.«144968_g33105607918058_cont_8to1_b_384_44_alg».proof.Proof.PreFinAll

noncomputable section

open Idealize.ShloMosaic

namespace Cert.PreFin

open Cert.Pre_finite_inputs

variable [Cert.Pre_finite_inputs.Facts]

open Cert.Pre_finite_inputs.Facts

/-- The entrywise `and` of two bit vectors, read at an index. -/
theorem andi_apply {s : Shape} {w : Nat} (x y : IVec s w) (i : s.Idx) : andi x y i = IntOp.andi (x i) (y i) := rfl

theorem real_of_pre (a0 : FVec Ideal S20000x36 .f32) (a1 : FVec Ideal S20000x5 .f32) (a2 : FVec Ideal S20000x2048 .f32)
    (a3 : IVec S20000 32) (a4 : FVec Ideal S36x200 .f32) (a5 a6 : FVec Ideal S4 .f32) (a7 : FVec Ideal S128x4 .f32)
    (a8 : FVec Ideal S128 .f32) (a9 : FVec Ideal S1024x2376 .f32) (a10 a11 a12 : FVec Ideal S1024 .f32)
    (a13 : FVec Ideal S37x1024 .f32) (a14 : FVec Ideal S37 .f32)
    (h : Cert.Pre_finite_inputs.fn (F := Ideal) a0 a1 a2 a3 a4 a5 a6 a7 a8 a9 a10 a11 a12 a13 a14 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) ∧ (∀ i, ∃ r : ℝ, a11 i = (r : EReal)) ∧ (∀ i, ∃ r : ℝ, a12 i = (r : EReal)) ∧ (∀ i, ∃ r : ℝ, a13 i = (r : EReal)) ∧ (∀ i, ∃ r : ℝ, a14 i = (r : EReal)) := by
  have h0 := congrFun h ValueIdx.ix0
  dsimp only [fn, fn_part1, fn_part2, fn_part3, fn_part4] at h0
  simp only [andi_apply, IntOp.andi_eq_one] at h0
  obtain ⟨⟨⟨⟨⟨⟨⟨⟨⟨⟨⟨⟨⟨e0, e1⟩, e2⟩, e4⟩, e5⟩, e6⟩, e7⟩, e8⟩, e9⟩, e10⟩, e11⟩, e12⟩, e13⟩, e14⟩ := h0
  exact ⟨all_real _ _ _ a0 e0,
    all_real _ _ _ a1 e1,
    all_real _ _ _ a2 e2,
    all_real _ _ _ a4 e4,
    all_real _ _ _ a5 e5,
    all_real _ _ _ a6 e6,
    all_real _ _ _ a7 e7,
    all_real _ _ _ a8 e8,
    all_real _ _ _ a9 e9,
    all_real _ _ _ a10 e10,
    all_real _ _ _ a11 e11,
    all_real _ _ _ a12 e12,
    all_real _ _ _ a13 e13,
    all_real _ _ _ a14 e14⟩

end Cert.PreFin

end
-- ==== Proof.RefOps.lean ====
/-
  The reference program's straight line of host operations, in order, each outlined function's operations written at
  its call over that call's buffers; and the same line cut into nine stretches at the outlined functions: the batch
  variance of the four box features, the first relu, the batch variance of the hidden layer and the second relu each
  make a stretch of their own, and the operations of the main function between them make the other five.
-/
import proofs.«144968_g33105607918058_cont_8to1_b_384_44_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Stretch 1: the object embedding, the centre-size features of the boxes and their column means. -/
abbrev ops1 : List (HloOp τ sig (Elt F)) :=
  [ StableHlo.binary main_arg0 main_arg4 main_v0 ((fun l r => Host.dotGeneral dot_S20000x36_S36x200_S20000x200_1_0_0_1_n_n none l r) : (⟨S20000x36, .f32⟩ : BufTy).Contents (Elt F) → (⟨S36x200, .f32⟩ : BufTy).Contents (Elt F) → (⟨S20000x200, .f32⟩ : BufTy).Contents (Elt F)),
    StableHlo.unary main_arg1 main_v1 ((extractStridedSlice S20000x4 ![0, 1] · slices_S20000x5_S20000x4_0_1) : (⟨S20000x5, .f32⟩ : BufTy).Contents (Elt F) → (⟨S20000x4, .f32⟩ : BufTy).Contents (Elt F)),
    StableHlo.unary main_v1 main_v2 ((extractStridedSlice S20000x2 ![0, 2] · slices_S20000x4_S20000x2_0_2) : (⟨S20000x4, .f32⟩ : BufTy).Contents (Elt F) → (⟨S20000x2, .f32⟩ : BufTy).Contents (Elt F)),
    StableHlo.unary main_v1 main_v3 ((extractStridedSlice S20000x2 ![0, 0] · slices_S20000x4_S20000x2_0_0) : (⟨S20000x4, .f32⟩ : BufTy).Contents (Elt F) → (⟨S20000x2, .f32⟩ : BufTy).Contents (Elt F)),
    StableHlo.binary main_v2 main_v3 main_v4 (subf : (⟨S20000x2, .f32⟩ : BufTy).Contents (Elt F) → (⟨S20000x2, .f32⟩ : BufTy).Contents (Elt F) → (⟨S20000x2, .f32⟩ : BufTy).Contents (Elt F)),
    StableHlo.nullary main_cst (constant S_ .f32 0x3F800000#32),
    StableHlo.unary main_cst main_v5 (broadcastInDim S20000x2 ![] bcast_S_S20000x2 : (⟨S_, .f32⟩ : BufTy).Contents (Elt F) → (⟨S20000x2, .f32⟩ : BufTy).Contents (Elt F)),
    StableHlo.binary main_v4 main_v5 main_v6 (addf : (⟨S20000x2, .f32⟩ : BufTy).Contents (Elt F) → (⟨S20000x2, .f32⟩ : BufTy).Contents (Elt F) → (⟨S20000x2, .f32⟩ : BufTy).Contents (Elt F)),
    StableHlo.unary main_v1 main_v7 ((extractStridedSlice S20000x2 ![0, 0] · slices_S20000x4_S20000x2_0_0) : (⟨S20000x4, .f32⟩ : BufTy).Contents (Elt F) → (⟨S20000x2, .f32⟩ : BufTy).Contents (Elt F)),
    StableHlo.nullary main_cst_0 (constant S_ .f32 0x3F000000#32),
    StableHlo.unary main_cst_0 main_v8 (broadcastInDim S20000x2 ![] bcast_S_S20000x2 : (⟨S_, .f32⟩ : BufTy).Contents (Elt F) → (⟨S20000x2, .f32⟩ : BufTy).Contents (Elt F)),
    StableHlo.binary main_v8 main_v6 main_v9 (mulf : (⟨S20000x2, .f32⟩ : BufTy).Contents (Elt F) → (⟨S20000x2, .f32⟩ : BufTy).Contents (Elt F) → (⟨S20000x2, .f32⟩ : BufTy).Contents (Elt F)),
    StableHlo.binary main_v7 main_v9 main_v10 (addf : (⟨S20000x2, .f32⟩ : BufTy).Contents (Elt F) → (⟨S20000x2, .f32⟩ : BufTy).Contents (Elt F) → (⟨S20000x2, .f32⟩ : BufTy).Contents (Elt F)),
    StableHlo.binary main_v10 main_v6 main_v11 ((fun a b => concatenate S20000x4 1 [⟨S20000x2, a⟩, ⟨S20000x2, b⟩] concatenates_S20000x2_S20000x2_S20000x4_d1) : (⟨S20000x2, .f32⟩ : BufTy).Contents (Elt F) → (⟨S20000x2, .f32⟩ : BufTy).Contents (Elt F) → (⟨S20000x4, .f32⟩ : BufTy).Contents (Elt F)),
    StableHlo.nullary main_cst_1 (constant S_ .f32 0x00000000#32),
    StableHlo.binary main_v11 main_cst_1 main_v12 ((fun x v => Host.reduceAdd x v reducesTo_S20000x4_S4_d0 h_S_) : (⟨S20000x4, .f32⟩ : BufTy).Contents (Elt F) → (⟨S_, .f32⟩ : BufTy).Contents (Elt F) → (⟨S4, .f32⟩ : BufTy).Contents (Elt F)),
    StableHlo.nullary main_cst_2 (constant S_ .f32 0x469C4000#32),
    StableHlo.unary main_cst_2 main_v13 (broadcastInDim S4 ![] bcast_S_S4 : (⟨S_, .f32⟩ : BufTy).Contents (Elt F) → (⟨S4, .f32⟩ : BufTy).Contents (Elt F)),
    StableHlo.binary main_v12 main_v13 main_v14 (Host.divf : (⟨S4, .f32⟩ : BufTy).Contents (Elt F) → (⟨S4, .f32⟩ : BufTy).Contents (Elt F) → (⟨S4, .f32⟩ : BufTy).Contents (Elt F)),
    StableHlo.nullary main_c (constantI S_ 32 0#32) ]

/-- Stretch 2: the batch variance of the four features. -/
abbrev ops2 : List (HloOp τ sig (Elt F)) :=
  [ StableHlo.TRef.nullary main_call0.cst (constant S_ .f32 0x00000000#32),
    StableHlo.TRef.binary (.of main_v11) main_call0.cst main_call0.v0 (fun x v => Host.reduceAdd x v reducesTo_S20000x4_S4_d0 h_S_),
    StableHlo.TRef.unary main_call0.v0 main_call0.v1 (broadcastInDim S1x4 ![1] bcast_S4_S1x4_1),
    StableHlo.TRef.nullary main_call0.cst_0 (constant S_ .f32 0x469C4000#32),
    StableHlo.TRef.unary main_call0.cst_0 main_call0.v2 (broadcastInDim S1x4 ![] bcast_S_S1x4),
    StableHlo.TRef.binary main_call0.v1 main_call0.v2 main_call0.v3 Host.divf,
    StableHlo.TRef.unary main_call0.v3 main_call0.v4 (broadcastInDim S20000x4 ![0, 1] bcast_S1x4_S20000x4_0_1),
    StableHlo.TRef.binary (.of main_v11) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x469C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S20000x4_S4_d0 h_S_),
    StableHlo.TRef.unary main_call0.v8 main_call0.v10 (broadcastInDim S4 ![] bcast_S_S4),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4 ![] bcast_S_S4),
    StableHlo.TRef.ternary main_call0.v12 main_call0.v11 main_call0.call0.v1 main_call0.call0.v2 (fun p a b => select (broadcastInDim S4 ![] bcast_S_S4 p) a b) ]

/-- Stretch 3: the normalised features and the position layer's pre-activation. -/
abbrev ops3 : List (HloOp τ sig (Elt F)) :=
  [ StableHlo.unary main_v14 main_v16 (broadcastInDim S1x4 ![1] bcast_S4_S1x4_1 : (⟨S4, .f32⟩ : BufTy).Contents (Elt F) → (⟨S1x4, .f32⟩ : BufTy).Contents (Elt F)),
    StableHlo.unary main_v16 main_v17 (broadcastInDim S20000x4 ![0, 1] bcast_S1x4_S20000x4_0_1 : (⟨S1x4, .f32⟩ : BufTy).Contents (Elt F) → (⟨S20000x4, .f32⟩ : BufTy).Contents (Elt F)),
    StableHlo.binary main_v11 main_v17 main_v18 (subf : (⟨S20000x4, .f32⟩ : BufTy).Contents (Elt F) → (⟨S20000x4, .f32⟩ : BufTy).Contents (Elt F) → (⟨S20000x4, .f32⟩ : BufTy).Contents (Elt F)),
    StableHlo.nullary main_cst_3 (constant S_ .f32 0x3727C5AC#32),
    StableHlo.unary main_cst_3 main_v19 (broadcastInDim S4 ![] bcast_S_S4 : (⟨S_, .f32⟩ : BufTy).Contents (Elt F) → (⟨S4, .f32⟩ : BufTy).Contents (Elt F)),
    StableHlo.binary main_v15 main_v19 main_v20 (addf : (⟨S4, .f32⟩ : BufTy).Contents (Elt F) → (⟨S4, .f32⟩ : BufTy).Contents (Elt F) → (⟨S4, .f32⟩ : BufTy).Contents (Elt F)),
    StableHlo.unary main_v20 main_v21 (Host.sqrt : (⟨S4, .f32⟩ : BufTy).Contents (Elt F) → (⟨S4, .f32⟩ : BufTy).Contents (Elt F)),
    StableHlo.unary main_v21 main_v22 (broadcastInDim S1x4 ![1] bcast_S4_S1x4_1 : (⟨S4, .f32⟩ : BufTy).Contents (Elt F) → (⟨S1x4, .f32⟩ : BufTy).Contents (Elt F)),
    StableHlo.unary main_v22 main_v23 (broadcastInDim S20000x4 ![0, 1] bcast_S1x4_S20000x4_0_1 : (⟨S1x4, .f32⟩ : BufTy).Contents (Elt F) → (⟨S20000x4, .f32⟩ : BufTy).Contents (Elt F)),
    StableHlo.binary main_v18 main_v23 main_v24 (Host.divf : (⟨S20000x4, .f32⟩ : BufTy).Contents (Elt F) → (⟨S20000x4, .f32⟩ : BufTy).Contents (Elt F) → (⟨S20000x4, .f32⟩ : BufTy).Contents (Elt F)),
    StableHlo.unary main_arg5 main_v25 (broadcastInDim S1x4 ![1] bcast_S4_S1x4_1 : (⟨S4, .f32⟩ : BufTy).Contents (Elt F) → (⟨S1x4, .f32⟩ : BufTy).Contents (Elt F)),
    StableHlo.unary main_v25 main_v26 (broadcastInDim S20000x4 ![0, 1] bcast_S1x4_S20000x4_0_1 : (⟨S1x4, .f32⟩ : BufTy).Contents (Elt F) → (⟨S20000x4, .f32⟩ : BufTy).Contents (Elt F)),
    StableHlo.binary main_v24 main_v26 main_v27 (mulf : (⟨S20000x4, .f32⟩ : BufTy).Contents (Elt F) → (⟨S20000x4, .f32⟩ : BufTy).Contents (Elt F) → (⟨S20000x4, .f32⟩ : BufTy).Contents (Elt F)),
    StableHlo.unary main_arg6 main_v28 (broadcastInDim S1x4 ![1] bcast_S4_S1x4_1 : (⟨S4, .f32⟩ : BufTy).Contents (Elt F) → (⟨S1x4, .f32⟩ : BufTy).Contents (Elt F)),
    StableHlo.unary main_v28 main_v29 (broadcastInDim S20000x4 ![0, 1] bcast_S1x4_S20000x4_0_1 : (⟨S1x4, .f32⟩ : BufTy).Contents (Elt F) → (⟨S20000x4, .f32⟩ : BufTy).Contents (Elt F)),
    StableHlo.binary main_v27 main_v29 main_v30 (addf : (⟨S20000x4, .f32⟩ : BufTy).Contents (Elt F) → (⟨S20000x4, .f32⟩ : BufTy).Contents (Elt F) → (⟨S20000x4, .f32⟩ : BufTy).Contents (Elt F)),
    StableHlo.unary main_arg7 main_v31 ((transpose S4x128 [1, 0] · transposes_S128x4_S4x128_1_0) : (⟨S128x4, .f32⟩ : BufTy).Contents (Elt F) → (⟨S4x128, .f32⟩ : BufTy).Contents (Elt F)),
    StableHlo.binary main_v30 main_v31 main_v32 ((fun l r => Host.dotGeneral dot_S20000x4_S4x128_S20000x128_1_0_0_1_n_n none l r) : (⟨S20000x4, .f32⟩ : BufTy).Contents (Elt F) → (⟨S4x128, .f32⟩ : BufTy).Contents (Elt F) → (⟨S20000x128, .f32⟩ : BufTy).Contents (Elt F)),
    StableHlo.unary main_arg8 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S20000x128 ![0, 1] bcast_S1x128_S20000x128_0_1 : (⟨S1x128, .f32⟩ : BufTy).Contents (Elt F) → (⟨S20000x128, .f32⟩ : BufTy).Contents (Elt F)),
    StableHlo.binary main_v32 main_v34 main_v35 (addf : (⟨S20000x128, .f32⟩ : BufTy).Contents (Elt F) → (⟨S20000x128, .f32⟩ : BufTy).Contents (Elt F) → (⟨S20000x128, .f32⟩ : BufTy).Contents (Elt F)) ]

/-- Stretch 4: the first relu. -/
abbrev ops4 : List (HloOp τ sig (Elt F)) :=
  [ StableHlo.TRef.nullary main_call1.cst (constant S_ .f32 0x00000000#32),
    StableHlo.TRef.unary main_call1.cst main_call1.v0 (broadcastInDim S20000x128 ![] bcast_S_S20000x128),
    StableHlo.TRef.binary (.of main_v35) main_call1.v0 main_call1.v1 maximumf ]

/-- Stretch 5: the concatenated features, the hidden pre-activation and its column means. -/
abbrev ops5 : List (HloOp τ sig (Elt F)) :=
  [ StableHlo.nary ![main_arg2, main_v0, main_v36] main_v37 (fun u => concatenate S20000x2376 1 [⟨S20000x2048, u 0⟩, ⟨S20000x200, u 1⟩, ⟨S20000x128, u 2⟩] concatenates_S20000x2048_S20000x200_S20000x128_S20000x2376_d1),
    StableHlo.unary main_arg9 main_v38 ((transpose S2376x1024 [1, 0] · transposes_S1024x2376_S2376x1024_1_0) : (⟨S1024x2376, .f32⟩ : BufTy).Contents (Elt F) → (⟨S2376x1024, .f32⟩ : BufTy).Contents (Elt F)),
    StableHlo.binary main_v37 main_v38 main_v39 ((fun l r => Host.dotGeneral dot_S20000x2376_S2376x1024_S20000x1024_1_0_0_1_n_n none l r) : (⟨S20000x2376, .f32⟩ : BufTy).Contents (Elt F) → (⟨S2376x1024, .f32⟩ : BufTy).Contents (Elt F) → (⟨S20000x1024, .f32⟩ : BufTy).Contents (Elt F)),
    StableHlo.unary main_arg10 main_v40 (broadcastInDim S1x1024 ![1] bcast_S1024_S1x1024_1 : (⟨S1024, .f32⟩ : BufTy).Contents (Elt F) → (⟨S1x1024, .f32⟩ : BufTy).Contents (Elt F)),
    StableHlo.unary main_v40 main_v41 (broadcastInDim S20000x1024 ![0, 1] bcast_S1x1024_S20000x1024_0_1 : (⟨S1x1024, .f32⟩ : BufTy).Contents (Elt F) → (⟨S20000x1024, .f32⟩ : BufTy).Contents (Elt F)),
    StableHlo.binary main_v39 main_v41 main_v42 (addf : (⟨S20000x1024, .f32⟩ : BufTy).Contents (Elt F) → (⟨S20000x1024, .f32⟩ : BufTy).Contents (Elt F) → (⟨S20000x1024, .f32⟩ : BufTy).Contents (Elt F)),
    StableHlo.nullary main_cst_4 (constant S_ .f32 0x00000000#32),
    StableHlo.binary main_v42 main_cst_4 main_v43 ((fun x v => Host.reduceAdd x v reducesTo_S20000x1024_S1024_d0 h_S_) : (⟨S20000x1024, .f32⟩ : BufTy).Contents (Elt F) → (⟨S_, .f32⟩ : BufTy).Contents (Elt F) → (⟨S1024, .f32⟩ : BufTy).Contents (Elt F)),
    StableHlo.nullary main_cst_5 (constant S_ .f32 0x469C4000#32),
    StableHlo.unary main_cst_5 main_v44 (broadcastInDim S1024 ![] bcast_S_S1024 : (⟨S_, .f32⟩ : BufTy).Contents (Elt F) → (⟨S1024, .f32⟩ : BufTy).Contents (Elt F)),
    StableHlo.binary main_v43 main_v44 main_v45 (Host.divf : (⟨S1024, .f32⟩ : BufTy).Contents (Elt F) → (⟨S1024, .f32⟩ : BufTy).Contents (Elt F) → (⟨S1024, .f32⟩ : BufTy).Contents (Elt F)),
    StableHlo.nullary main_c_6 (constantI S_ 32 0#32) ]

/-- Stretch 6: the batch variance of the hidden pre-activation. -/
abbrev ops6 : List (HloOp τ sig (Elt F)) :=
  [ StableHlo.TRef.nullary main_call2.cst (constant S_ .f32 0x00000000#32),
    StableHlo.TRef.binary (.of main_v42) main_call2.cst main_call2.v0 (fun x v => Host.reduceAdd x v reducesTo_S20000x1024_S1024_d0 h_S_),
    StableHlo.TRef.unary main_call2.v0 main_call2.v1 (broadcastInDim S1x1024 ![1] bcast_S1024_S1x1024_1),
    StableHlo.TRef.nullary main_call2.cst_0 (constant S_ .f32 0x469C4000#32),
    StableHlo.TRef.unary main_call2.cst_0 main_call2.v2 (broadcastInDim S1x1024 ![] bcast_S_S1x1024),
    StableHlo.TRef.binary main_call2.v1 main_call2.v2 main_call2.v3 Host.divf,
    StableHlo.TRef.unary main_call2.v3 main_call2.v4 (broadcastInDim S20000x1024 ![0, 1] bcast_S1x1024_S20000x1024_0_1),
    StableHlo.TRef.binary (.of main_v42) main_call2.v4 main_call2.v5 subf,
    StableHlo.TRef.binary main_call2.v5 main_call2.v5 main_call2.v6 mulf,
    StableHlo.TRef.unary (.of main_c_6) main_call2.v7 (sitofp .f32),
    StableHlo.TRef.nullary main_call2.cst_1 (constant S_ .f32 0x469C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S20000x1024_S1024_d0 h_S_),
    StableHlo.TRef.unary main_call2.v8 main_call2.v10 (broadcastInDim S1024 ![] bcast_S_S1024),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1024 ![] bcast_S_S1024),
    StableHlo.TRef.ternary main_call2.v12 main_call2.v11 main_call2.call0.v1 main_call2.call0.v2 (fun p a b => select (broadcastInDim S1024 ![] bcast_S_S1024 p) a b) ]

/-- Stretch 7: the normalised hidden layer. -/
abbrev ops7 : List (HloOp τ sig (Elt F)) :=
  [ StableHlo.unary main_v45 main_v47 (broadcastInDim S1x1024 ![1] bcast_S1024_S1x1024_1 : (⟨S1024, .f32⟩ : BufTy).Contents (Elt F) → (⟨S1x1024, .f32⟩ : BufTy).Contents (Elt F)),
    StableHlo.unary main_v47 main_v48 (broadcastInDim S20000x1024 ![0, 1] bcast_S1x1024_S20000x1024_0_1 : (⟨S1x1024, .f32⟩ : BufTy).Contents (Elt F) → (⟨S20000x1024, .f32⟩ : BufTy).Contents (Elt F)),
    StableHlo.binary main_v42 main_v48 main_v49 (subf : (⟨S20000x1024, .f32⟩ : BufTy).Contents (Elt F) → (⟨S20000x1024, .f32⟩ : BufTy).Contents (Elt F) → (⟨S20000x1024, .f32⟩ : BufTy).Contents (Elt F)),
    StableHlo.nullary main_cst_7 (constant S_ .f32 0x3727C5AC#32),
    StableHlo.unary main_cst_7 main_v50 (broadcastInDim S1024 ![] bcast_S_S1024 : (⟨S_, .f32⟩ : BufTy).Contents (Elt F) → (⟨S1024, .f32⟩ : BufTy).Contents (Elt F)),
    StableHlo.binary main_v46 main_v50 main_v51 (addf : (⟨S1024, .f32⟩ : BufTy).Contents (Elt F) → (⟨S1024, .f32⟩ : BufTy).Contents (Elt F) → (⟨S1024, .f32⟩ : BufTy).Contents (Elt F)),
    StableHlo.unary main_v51 main_v52 (Host.sqrt : (⟨S1024, .f32⟩ : BufTy).Contents (Elt F) → (⟨S1024, .f32⟩ : BufTy).Contents (Elt F)),
    StableHlo.unary main_v52 main_v53 (broadcastInDim S1x1024 ![1] bcast_S1024_S1x1024_1 : (⟨S1024, .f32⟩ : BufTy).Contents (Elt F) → (⟨S1x1024, .f32⟩ : BufTy).Contents (Elt F)),
    StableHlo.unary main_v53 main_v54 (broadcastInDim S20000x1024 ![0, 1] bcast_S1x1024_S20000x1024_0_1 : (⟨S1x1024, .f32⟩ : BufTy).Contents (Elt F) → (⟨S20000x1024, .f32⟩ : BufTy).Contents (Elt F)),
    StableHlo.binary main_v49 main_v54 main_v55 (Host.divf : (⟨S20000x1024, .f32⟩ : BufTy).Contents (Elt F) → (⟨S20000x1024, .f32⟩ : BufTy).Contents (Elt F) → (⟨S20000x1024, .f32⟩ : BufTy).Contents (Elt F)),
    StableHlo.unary main_arg11 main_v56 (broadcastInDim S1x1024 ![1] bcast_S1024_S1x1024_1 : (⟨S1024, .f32⟩ : BufTy).Contents (Elt F) → (⟨S1x1024, .f32⟩ : BufTy).Contents (Elt F)),
    StableHlo.unary main_v56 main_v57 (broadcastInDim S20000x1024 ![0, 1] bcast_S1x1024_S20000x1024_0_1 : (⟨S1x1024, .f32⟩ : BufTy).Contents (Elt F) → (⟨S20000x1024, .f32⟩ : BufTy).Contents (Elt F)),
    StableHlo.binary main_v55 main_v57 main_v58 (mulf : (⟨S20000x1024, .f32⟩ : BufTy).Contents (Elt F) → (⟨S20000x1024, .f32⟩ : BufTy).Contents (Elt F) → (⟨S20000x1024, .f32⟩ : BufTy).Contents (Elt F)),
    StableHlo.unary main_arg12 main_v59 (broadcastInDim S1x1024 ![1] bcast_S1024_S1x1024_1 : (⟨S1024, .f32⟩ : BufTy).Contents (Elt F) → (⟨S1x1024, .f32⟩ : BufTy).Contents (Elt F)),
    StableHlo.unary main_v59 main_v60 (broadcastInDim S20000x1024 ![0, 1] bcast_S1x1024_S20000x1024_0_1 : (⟨S1x1024, .f32⟩ : BufTy).Contents (Elt F) → (⟨S20000x1024, .f32⟩ : BufTy).Contents (Elt F)),
    StableHlo.binary main_v58 main_v60 main_v61 (addf : (⟨S20000x1024, .f32⟩ : BufTy).Contents (Elt F) → (⟨S20000x1024, .f32⟩ : BufTy).Contents (Elt F) → (⟨S20000x1024, .f32⟩ : BufTy).Contents (Elt F)) ]

/-- Stretch 8: the second relu. -/
abbrev ops8 : List (HloOp τ sig (Elt F)) :=
  [ StableHlo.TRef.nullary main_call3.cst (constant S_ .f32 0x00000000#32),
    StableHlo.TRef.unary main_call3.cst main_call3.v0 (broadcastInDim S20000x1024 ![] bcast_S_S20000x1024),
    StableHlo.TRef.binary (.of main_v61) main_call3.v0 main_call3.v1 maximumf ]

/-- Stretch 9: the class scores. -/
abbrev ops9 : List (HloOp τ sig (Elt F)) :=
  [ StableHlo.unary main_arg13 main_v63 ((transpose S1024x37 [1, 0] · transposes_S37x1024_S1024x37_1_0) : (⟨S37x1024, .f32⟩ : BufTy).Contents (Elt F) → (⟨S1024x37, .f32⟩ : BufTy).Contents (Elt F)),
    StableHlo.binary main_v62 main_v63 main_v64 ((fun l r => Host.dotGeneral dot_S20000x1024_S1024x37_S20000x37_1_0_0_1_n_n none l r) : (⟨S20000x1024, .f32⟩ : BufTy).Contents (Elt F) → (⟨S1024x37, .f32⟩ : BufTy).Contents (Elt F) → (⟨S20000x37, .f32⟩ : BufTy).Contents (Elt F)),
    StableHlo.unary main_arg14 main_v65 (broadcastInDim S1x37 ![1] bcast_S37_S1x37_1 : (⟨S37, .f32⟩ : BufTy).Contents (Elt F) → (⟨S1x37, .f32⟩ : BufTy).Contents (Elt F)),
    StableHlo.unary main_v65 main_v66 (broadcastInDim S20000x37 ![0, 1] bcast_S1x37_S20000x37_0_1 : (⟨S1x37, .f32⟩ : BufTy).Contents (Elt F) → (⟨S20000x37, .f32⟩ : BufTy).Contents (Elt F)),
    StableHlo.binary main_v64 main_v66 main_v67 (addf : (⟨S20000x37, .f32⟩ : BufTy).Contents (Elt F) → (⟨S20000x37, .f32⟩ : BufTy).Contents (Elt F) → (⟨S20000x37, .f32⟩ : BufTy).Contents (Elt F)) ]

/-- The whole line: 124 operations. -/
abbrev ops : List (HloOp τ sig (Elt F)) :=
  [ StableHlo.binary main_arg0 main_arg4 main_v0 ((fun l r => Host.dotGeneral dot_S20000x36_S36x200_S20000x200_1_0_0_1_n_n none l r) : (⟨S20000x36, .f32⟩ : BufTy).Contents (Elt F) → (⟨S36x200, .f32⟩ : BufTy).Contents (Elt F) → (⟨S20000x200, .f32⟩ : BufTy).Contents (Elt F)),
    StableHlo.unary main_arg1 main_v1 ((extractStridedSlice S20000x4 ![0, 1] · slices_S20000x5_S20000x4_0_1) : (⟨S20000x5, .f32⟩ : BufTy).Contents (Elt F) → (⟨S20000x4, .f32⟩ : BufTy).Contents (Elt F)),
    StableHlo.unary main_v1 main_v2 ((extractStridedSlice S20000x2 ![0, 2] · slices_S20000x4_S20000x2_0_2) : (⟨S20000x4, .f32⟩ : BufTy).Contents (Elt F) → (⟨S20000x2, .f32⟩ : BufTy).Contents (Elt F)),
    StableHlo.unary main_v1 main_v3 ((extractStridedSlice S20000x2 ![0, 0] · slices_S20000x4_S20000x2_0_0) : (⟨S20000x4, .f32⟩ : BufTy).Contents (Elt F) → (⟨S20000x2, .f32⟩ : BufTy).Contents (Elt F)),
    StableHlo.binary main_v2 main_v3 main_v4 (subf : (⟨S20000x2, .f32⟩ : BufTy).Contents (Elt F) → (⟨S20000x2, .f32⟩ : BufTy).Contents (Elt F) → (⟨S20000x2, .f32⟩ : BufTy).Contents (Elt F)),
    StableHlo.nullary main_cst (constant S_ .f32 0x3F800000#32),
    StableHlo.unary main_cst main_v5 (broadcastInDim S20000x2 ![] bcast_S_S20000x2 : (⟨S_, .f32⟩ : BufTy).Contents (Elt F) → (⟨S20000x2, .f32⟩ : BufTy).Contents (Elt F)),
    StableHlo.binary main_v4 main_v5 main_v6 (addf : (⟨S20000x2, .f32⟩ : BufTy).Contents (Elt F) → (⟨S20000x2, .f32⟩ : BufTy).Contents (Elt F) → (⟨S20000x2, .f32⟩ : BufTy).Contents (Elt F)),
    StableHlo.unary main_v1 main_v7 ((extractStridedSlice S20000x2 ![0, 0] · slices_S20000x4_S20000x2_0_0) : (⟨S20000x4, .f32⟩ : BufTy).Contents (Elt F) → (⟨S20000x2, .f32⟩ : BufTy).Contents (Elt F)),
    StableHlo.nullary main_cst_0 (constant S_ .f32 0x3F000000#32),
    StableHlo.unary main_cst_0 main_v8 (broadcastInDim S20000x2 ![] bcast_S_S20000x2 : (⟨S_, .f32⟩ : BufTy).Contents (Elt F) → (⟨S20000x2, .f32⟩ : BufTy).Contents (Elt F)),
    StableHlo.binary main_v8 main_v6 main_v9 (mulf : (⟨S20000x2, .f32⟩ : BufTy).Contents (Elt F) → (⟨S20000x2, .f32⟩ : BufTy).Contents (Elt F) → (⟨S20000x2, .f32⟩ : BufTy).Contents (Elt F)),
    StableHlo.binary main_v7 main_v9 main_v10 (addf : (⟨S20000x2, .f32⟩ : BufTy).Contents (Elt F) → (⟨S20000x2, .f32⟩ : BufTy).Contents (Elt F) → (⟨S20000x2, .f32⟩ : BufTy).Contents (Elt F)),
    StableHlo.binary main_v10 main_v6 main_v11 ((fun a b => concatenate S20000x4 1 [⟨S20000x2, a⟩, ⟨S20000x2, b⟩] concatenates_S20000x2_S20000x2_S20000x4_d1) : (⟨S20000x2, .f32⟩ : BufTy).Contents (Elt F) → (⟨S20000x2, .f32⟩ : BufTy).Contents (Elt F) → (⟨S20000x4, .f32⟩ : BufTy).Contents (Elt F)),
    StableHlo.nullary main_cst_1 (constant S_ .f32 0x00000000#32),
    StableHlo.binary main_v11 main_cst_1 main_v12 ((fun x v => Host.reduceAdd x v reducesTo_S20000x4_S4_d0 h_S_) : (⟨S20000x4, .f32⟩ : BufTy).Contents (Elt F) → (⟨S_, .f32⟩ : BufTy).Contents (Elt F) → (⟨S4, .f32⟩ : BufTy).Contents (Elt F)),
    StableHlo.nullary main_cst_2 (constant S_ .f32 0x469C4000#32),
    StableHlo.unary main_cst_2 main_v13 (broadcastInDim S4 ![] bcast_S_S4 : (⟨S_, .f32⟩ : BufTy).Contents (Elt F) → (⟨S4, .f32⟩ : BufTy).Contents (Elt F)),
    StableHlo.binary main_v12 main_v13 main_v14 (Host.divf : (⟨S4, .f32⟩ : BufTy).Contents (Elt F) → (⟨S4, .f32⟩ : BufTy).Contents (Elt F) → (⟨S4, .f32⟩ : BufTy).Contents (Elt F)),
    StableHlo.nullary main_c (constantI S_ 32 0#32),
    StableHlo.TRef.nullary main_call0.cst (constant S_ .f32 0x00000000#32),
    StableHlo.TRef.binary (.of main_v11) main_call0.cst main_call0.v0 (fun x v => Host.reduceAdd x v reducesTo_S20000x4_S4_d0 h_S_),
    StableHlo.TRef.unary main_call0.v0 main_call0.v1 (broadcastInDim S1x4 ![1] bcast_S4_S1x4_1),
    StableHlo.TRef.nullary main_call0.cst_0 (constant S_ .f32 0x469C4000#32),
    StableHlo.TRef.unary main_call0.cst_0 main_call0.v2 (broadcastInDim S1x4 ![] bcast_S_S1x4),
    StableHlo.TRef.binary main_call0.v1 main_call0.v2 main_call0.v3 Host.divf,
    StableHlo.TRef.unary main_call0.v3 main_call0.v4 (broadcastInDim S20000x4 ![0, 1] bcast_S1x4_S20000x4_0_1),
    StableHlo.TRef.binary (.of main_v11) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x469C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S20000x4_S4_d0 h_S_),
    StableHlo.TRef.unary main_call0.v8 main_call0.v10 (broadcastInDim S4 ![] bcast_S_S4),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4 ![] bcast_S_S4),
    StableHlo.TRef.ternary main_call0.v12 main_call0.v11 main_call0.call0.v1 main_call0.call0.v2 (fun p a b => select (broadcastInDim S4 ![] bcast_S_S4 p) a b),
    StableHlo.unary main_v14 main_v16 (broadcastInDim S1x4 ![1] bcast_S4_S1x4_1 : (⟨S4, .f32⟩ : BufTy).Contents (Elt F) → (⟨S1x4, .f32⟩ : BufTy).Contents (Elt F)),
    StableHlo.unary main_v16 main_v17 (broadcastInDim S20000x4 ![0, 1] bcast_S1x4_S20000x4_0_1 : (⟨S1x4, .f32⟩ : BufTy).Contents (Elt F) → (⟨S20000x4, .f32⟩ : BufTy).Contents (Elt F)),
    StableHlo.binary main_v11 main_v17 main_v18 (subf : (⟨S20000x4, .f32⟩ : BufTy).Contents (Elt F) → (⟨S20000x4, .f32⟩ : BufTy).Contents (Elt F) → (⟨S20000x4, .f32⟩ : BufTy).Contents (Elt F)),
    StableHlo.nullary main_cst_3 (constant S_ .f32 0x3727C5AC#32),
    StableHlo.unary main_cst_3 main_v19 (broadcastInDim S4 ![] bcast_S_S4 : (⟨S_, .f32⟩ : BufTy).Contents (Elt F) → (⟨S4, .f32⟩ : BufTy).Contents (Elt F)),
    StableHlo.binary main_v15 main_v19 main_v20 (addf : (⟨S4, .f32⟩ : BufTy).Contents (Elt F) → (⟨S4, .f32⟩ : BufTy).Contents (Elt F) → (⟨S4, .f32⟩ : BufTy).Contents (Elt F)),
    StableHlo.unary main_v20 main_v21 (Host.sqrt : (⟨S4, .f32⟩ : BufTy).Contents (Elt F) → (⟨S4, .f32⟩ : BufTy).Contents (Elt F)),
    StableHlo.unary main_v21 main_v22 (broadcastInDim S1x4 ![1] bcast_S4_S1x4_1 : (⟨S4, .f32⟩ : BufTy).Contents (Elt F) → (⟨S1x4, .f32⟩ : BufTy).Contents (Elt F)),
    StableHlo.unary main_v22 main_v23 (broadcastInDim S20000x4 ![0, 1] bcast_S1x4_S20000x4_0_1 : (⟨S1x4, .f32⟩ : BufTy).Contents (Elt F) → (⟨S20000x4, .f32⟩ : BufTy).Contents (Elt F)),
    StableHlo.binary main_v18 main_v23 main_v24 (Host.divf : (⟨S20000x4, .f32⟩ : BufTy).Contents (Elt F) → (⟨S20000x4, .f32⟩ : BufTy).Contents (Elt F) → (⟨S20000x4, .f32⟩ : BufTy).Contents (Elt F)),
    StableHlo.unary main_arg5 main_v25 (broadcastInDim S1x4 ![1] bcast_S4_S1x4_1 : (⟨S4, .f32⟩ : BufTy).Contents (Elt F) → (⟨S1x4, .f32⟩ : BufTy).Contents (Elt F)),
    StableHlo.unary main_v25 main_v26 (broadcastInDim S20000x4 ![0, 1] bcast_S1x4_S20000x4_0_1 : (⟨S1x4, .f32⟩ : BufTy).Contents (Elt F) → (⟨S20000x4, .f32⟩ : BufTy).Contents (Elt F)),
    StableHlo.binary main_v24 main_v26 main_v27 (mulf : (⟨S20000x4, .f32⟩ : BufTy).Contents (Elt F) → (⟨S20000x4, .f32⟩ : BufTy).Contents (Elt F) → (⟨S20000x4, .f32⟩ : BufTy).Contents (Elt F)),
    StableHlo.unary main_arg6 main_v28 (broadcastInDim S1x4 ![1] bcast_S4_S1x4_1 : (⟨S4, .f32⟩ : BufTy).Contents (Elt F) → (⟨S1x4, .f32⟩ : BufTy).Contents (Elt F)),
    StableHlo.unary main_v28 main_v29 (broadcastInDim S20000x4 ![0, 1] bcast_S1x4_S20000x4_0_1 : (⟨S1x4, .f32⟩ : BufTy).Contents (Elt F) → (⟨S20000x4, .f32⟩ : BufTy).Contents (Elt F)),
    StableHlo.binary main_v27 main_v29 main_v30 (addf : (⟨S20000x4, .f32⟩ : BufTy).Contents (Elt F) → (⟨S20000x4, .f32⟩ : BufTy).Contents (Elt F) → (⟨S20000x4, .f32⟩ : BufTy).Contents (Elt F)),
    StableHlo.unary main_arg7 main_v31 ((transpose S4x128 [1, 0] · transposes_S128x4_S4x128_1_0) : (⟨S128x4, .f32⟩ : BufTy).Contents (Elt F) → (⟨S4x128, .f32⟩ : BufTy).Contents (Elt F)),
    StableHlo.binary main_v30 main_v31 main_v32 ((fun l r => Host.dotGeneral dot_S20000x4_S4x128_S20000x128_1_0_0_1_n_n none l r) : (⟨S20000x4, .f32⟩ : BufTy).Contents (Elt F) → (⟨S4x128, .f32⟩ : BufTy).Contents (Elt F) → (⟨S20000x128, .f32⟩ : BufTy).Contents (Elt F)),
    StableHlo.unary main_arg8 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S20000x128 ![0, 1] bcast_S1x128_S20000x128_0_1 : (⟨S1x128, .f32⟩ : BufTy).Contents (Elt F) → (⟨S20000x128, .f32⟩ : BufTy).Contents (Elt F)),
    StableHlo.binary main_v32 main_v34 main_v35 (addf : (⟨S20000x128, .f32⟩ : BufTy).Contents (Elt F) → (⟨S20000x128, .f32⟩ : BufTy).Contents (Elt F) → (⟨S20000x128, .f32⟩ : BufTy).Contents (Elt F)),
    StableHlo.TRef.nullary main_call1.cst (constant S_ .f32 0x00000000#32),
    StableHlo.TRef.unary main_call1.cst main_call1.v0 (broadcastInDim S20000x128 ![] bcast_S_S20000x128),
    StableHlo.TRef.binary (.of main_v35) main_call1.v0 main_call1.v1 maximumf,
    StableHlo.nary ![main_arg2, main_v0, main_v36] main_v37 (fun u => concatenate S20000x2376 1 [⟨S20000x2048, u 0⟩, ⟨S20000x200, u 1⟩, ⟨S20000x128, u 2⟩] concatenates_S20000x2048_S20000x200_S20000x128_S20000x2376_d1),
    StableHlo.unary main_arg9 main_v38 ((transpose S2376x1024 [1, 0] · transposes_S1024x2376_S2376x1024_1_0) : (⟨S1024x2376, .f32⟩ : BufTy).Contents (Elt F) → (⟨S2376x1024, .f32⟩ : BufTy).Contents (Elt F)),
    StableHlo.binary main_v37 main_v38 main_v39 ((fun l r => Host.dotGeneral dot_S20000x2376_S2376x1024_S20000x1024_1_0_0_1_n_n none l r) : (⟨S20000x2376, .f32⟩ : BufTy).Contents (Elt F) → (⟨S2376x1024, .f32⟩ : BufTy).Contents (Elt F) → (⟨S20000x1024, .f32⟩ : BufTy).Contents (Elt F)),
    StableHlo.unary main_arg10 main_v40 (broadcastInDim S1x1024 ![1] bcast_S1024_S1x1024_1 : (⟨S1024, .f32⟩ : BufTy).Contents (Elt F) → (⟨S1x1024, .f32⟩ : BufTy).Contents (Elt F)),
    StableHlo.unary main_v40 main_v41 (broadcastInDim S20000x1024 ![0, 1] bcast_S1x1024_S20000x1024_0_1 : (⟨S1x1024, .f32⟩ : BufTy).Contents (Elt F) → (⟨S20000x1024, .f32⟩ : BufTy).Contents (Elt F)),
    StableHlo.binary main_v39 main_v41 main_v42 (addf : (⟨S20000x1024, .f32⟩ : BufTy).Contents (Elt F) → (⟨S20000x1024, .f32⟩ : BufTy).Contents (Elt F) → (⟨S20000x1024, .f32⟩ : BufTy).Contents (Elt F)),
    StableHlo.nullary main_cst_4 (constant S_ .f32 0x00000000#32),
    StableHlo.binary main_v42 main_cst_4 main_v43 ((fun x v => Host.reduceAdd x v reducesTo_S20000x1024_S1024_d0 h_S_) : (⟨S20000x1024, .f32⟩ : BufTy).Contents (Elt F) → (⟨S_, .f32⟩ : BufTy).Contents (Elt F) → (⟨S1024, .f32⟩ : BufTy).Contents (Elt F)),
    StableHlo.nullary main_cst_5 (constant S_ .f32 0x469C4000#32),
    StableHlo.unary main_cst_5 main_v44 (broadcastInDim S1024 ![] bcast_S_S1024 : (⟨S_, .f32⟩ : BufTy).Contents (Elt F) → (⟨S1024, .f32⟩ : BufTy).Contents (Elt F)),
    StableHlo.binary main_v43 main_v44 main_v45 (Host.divf : (⟨S1024, .f32⟩ : BufTy).Contents (Elt F) → (⟨S1024, .f32⟩ : BufTy).Contents (Elt F) → (⟨S1024, .f32⟩ : BufTy).Contents (Elt F)),
    StableHlo.nullary main_c_6 (constantI S_ 32 0#32),
    StableHlo.TRef.nullary main_call2.cst (constant S_ .f32 0x00000000#32),
    StableHlo.TRef.binary (.of main_v42) main_call2.cst main_call2.v0 (fun x v => Host.reduceAdd x v reducesTo_S20000x1024_S1024_d0 h_S_),
    StableHlo.TRef.unary main_call2.v0 main_call2.v1 (broadcastInDim S1x1024 ![1] bcast_S1024_S1x1024_1),
    StableHlo.TRef.nullary main_call2.cst_0 (constant S_ .f32 0x469C4000#32),
    StableHlo.TRef.unary main_call2.cst_0 main_call2.v2 (broadcastInDim S1x1024 ![] bcast_S_S1x1024),
    StableHlo.TRef.binary main_call2.v1 main_call2.v2 main_call2.v3 Host.divf,
    StableHlo.TRef.unary main_call2.v3 main_call2.v4 (broadcastInDim S20000x1024 ![0, 1] bcast_S1x1024_S20000x1024_0_1),
    StableHlo.TRef.binary (.of main_v42) main_call2.v4 main_call2.v5 subf,
    StableHlo.TRef.binary main_call2.v5 main_call2.v5 main_call2.v6 mulf,
    StableHlo.TRef.unary (.of main_c_6) main_call2.v7 (sitofp .f32),
    StableHlo.TRef.nullary main_call2.cst_1 (constant S_ .f32 0x469C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S20000x1024_S1024_d0 h_S_),
    StableHlo.TRef.unary main_call2.v8 main_call2.v10 (broadcastInDim S1024 ![] bcast_S_S1024),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1024 ![] bcast_S_S1024),
    StableHlo.TRef.ternary main_call2.v12 main_call2.v11 main_call2.call0.v1 main_call2.call0.v2 (fun p a b => select (broadcastInDim S1024 ![] bcast_S_S1024 p) a b),
    StableHlo.unary main_v45 main_v47 (broadcastInDim S1x1024 ![1] bcast_S1024_S1x1024_1 : (⟨S1024, .f32⟩ : BufTy).Contents (Elt F) → (⟨S1x1024, .f32⟩ : BufTy).Contents (Elt F)),
    StableHlo.unary main_v47 main_v48 (broadcastInDim S20000x1024 ![0, 1] bcast_S1x1024_S20000x1024_0_1 : (⟨S1x1024, .f32⟩ : BufTy).Contents (Elt F) → (⟨S20000x1024, .f32⟩ : BufTy).Contents (Elt F)),
    StableHlo.binary main_v42 main_v48 main_v49 (subf : (⟨S20000x1024, .f32⟩ : BufTy).Contents (Elt F) → (⟨S20000x1024, .f32⟩ : BufTy).Contents (Elt F) → (⟨S20000x1024, .f32⟩ : BufTy).Contents (Elt F)),
    StableHlo.nullary main_cst_7 (constant S_ .f32 0x3727C5AC#32),
    StableHlo.unary main_cst_7 main_v50 (broadcastInDim S1024 ![] bcast_S_S1024 : (⟨S_, .f32⟩ : BufTy).Contents (Elt F) → (⟨S1024, .f32⟩ : BufTy).Contents (Elt F)),
    StableHlo.binary main_v46 main_v50 main_v51 (addf : (⟨S1024, .f32⟩ : BufTy).Contents (Elt F) → (⟨S1024, .f32⟩ : BufTy).Contents (Elt F) → (⟨S1024, .f32⟩ : BufTy).Contents (Elt F)),
    StableHlo.unary main_v51 main_v52 (Host.sqrt : (⟨S1024, .f32⟩ : BufTy).Contents (Elt F) → (⟨S1024, .f32⟩ : BufTy).Contents (Elt F)),
    StableHlo.unary main_v52 main_v53 (broadcastInDim S1x1024 ![1] bcast_S1024_S1x1024_1 : (⟨S1024, .f32⟩ : BufTy).Contents (Elt F) → (⟨S1x1024, .f32⟩ : BufTy).Contents (Elt F)),
    StableHlo.unary main_v53 main_v54 (broadcastInDim S20000x1024 ![0, 1] bcast_S1x1024_S20000x1024_0_1 : (⟨S1x1024, .f32⟩ : BufTy).Contents (Elt F) → (⟨S20000x1024, .f32⟩ : BufTy).Contents (Elt F)),
    StableHlo.binary main_v49 main_v54 main_v55 (Host.divf : (⟨S20000x1024, .f32⟩ : BufTy).Contents (Elt F) → (⟨S20000x1024, .f32⟩ : BufTy).Contents (Elt F) → (⟨S20000x1024, .f32⟩ : BufTy).Contents (Elt F)),
    StableHlo.unary main_arg11 main_v56 (broadcastInDim S1x1024 ![1] bcast_S1024_S1x1024_1 : (⟨S1024, .f32⟩ : BufTy).Contents (Elt F) → (⟨S1x1024, .f32⟩ : BufTy).Contents (Elt F)),
    StableHlo.unary main_v56 main_v57 (broadcastInDim S20000x1024 ![0, 1] bcast_S1x1024_S20000x1024_0_1 : (⟨S1x1024, .f32⟩ : BufTy).Contents (Elt F) → (⟨S20000x1024, .f32⟩ : BufTy).Contents (Elt F)),
    StableHlo.binary main_v55 main_v57 main_v58 (mulf : (⟨S20000x1024, .f32⟩ : BufTy).Contents (Elt F) → (⟨S20000x1024, .f32⟩ : BufTy).Contents (Elt F) → (⟨S20000x1024, .f32⟩ : BufTy).Contents (Elt F)),
    StableHlo.unary main_arg12 main_v59 (broadcastInDim S1x1024 ![1] bcast_S1024_S1x1024_1 : (⟨S1024, .f32⟩ : BufTy).Contents (Elt F) → (⟨S1x1024, .f32⟩ : BufTy).Contents (Elt F)),
    StableHlo.unary main_v59 main_v60 (broadcastInDim S20000x1024 ![0, 1] bcast_S1x1024_S20000x1024_0_1 : (⟨S1x1024, .f32⟩ : BufTy).Contents (Elt F) → (⟨S20000x1024, .f32⟩ : BufTy).Contents (Elt F)),
    StableHlo.binary main_v58 main_v60 main_v61 (addf : (⟨S20000x1024, .f32⟩ : BufTy).Contents (Elt F) → (⟨S20000x1024, .f32⟩ : BufTy).Contents (Elt F) → (⟨S20000x1024, .f32⟩ : BufTy).Contents (Elt F)),
    StableHlo.TRef.nullary main_call3.cst (constant S_ .f32 0x00000000#32),
    StableHlo.TRef.unary main_call3.cst main_call3.v0 (broadcastInDim S20000x1024 ![] bcast_S_S20000x1024),
    StableHlo.TRef.binary (.of main_v61) main_call3.v0 main_call3.v1 maximumf,
    StableHlo.unary main_arg13 main_v63 ((transpose S1024x37 [1, 0] · transposes_S37x1024_S1024x37_1_0) : (⟨S37x1024, .f32⟩ : BufTy).Contents (Elt F) → (⟨S1024x37, .f32⟩ : BufTy).Contents (Elt F)),
    StableHlo.binary main_v62 main_v63 main_v64 ((fun l r => Host.dotGeneral dot_S20000x1024_S1024x37_S20000x37_1_0_0_1_n_n none l r) : (⟨S20000x1024, .f32⟩ : BufTy).Contents (Elt F) → (⟨S1024x37, .f32⟩ : BufTy).Contents (Elt F) → (⟨S20000x37, .f32⟩ : BufTy).Contents (Elt F)),
    StableHlo.unary main_arg14 main_v65 (broadcastInDim S1x37 ![1] bcast_S37_S1x37_1 : (⟨S37, .f32⟩ : BufTy).Contents (Elt F) → (⟨S1x37, .f32⟩ : BufTy).Contents (Elt F)),
    StableHlo.unary main_v65 main_v66 (broadcastInDim S20000x37 ![0, 1] bcast_S1x37_S20000x37_0_1 : (⟨S1x37, .f32⟩ : BufTy).Contents (Elt F) → (⟨S20000x37, .f32⟩ : BufTy).Contents (Elt F)),
    StableHlo.binary main_v64 main_v66 main_v67 (addf : (⟨S20000x37, .f32⟩ : BufTy).Contents (Elt F) → (⟨S20000x37, .f32⟩ : BufTy).Contents (Elt F) → (⟨S20000x37, .f32⟩ : BufTy).Contents (Elt F)) ]

/-- The line is its nine stretches one after the other. -/
theorem ops_split : (ops : List (HloOp τ sig (Elt F))) = ops1 ++ (ops2 ++ (ops3 ++ (ops4 ++ (ops5 ++ (ops6 ++ (ops7 ++ (ops8 ++ ops9))))))) := rfl

set_option maxRecDepth 16384 in
/-- The main function is that straight line: the outlined functions unfold at their calls, the two halves of the main
    function run one after the other, and sequencing re-associates. -/
theorem main_eq (c : Dev nD) : main (F := F) c = seq ops := by
  simp only [main, main_part0, main_part1, fn_var.body, fn_where.body, fn_relu.body, fn_var_0.body, fn_where_1.body,
    fn_relu_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨binary_bufs_sub .., unary_bufs_sub .., unary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

end Cert.ReferenceIdeal.RefValue

end
-- ==== Proof.RefStages.lean ====
/-
  The reference's value in stages. Each stage is one piece of the formula as the program's operations spell it, a
  function of the earlier stages and of the argument arrays: the object embedding, the boxes' centre-size features,
  their batch statistics, the position embedding, the concatenated features, the hidden layer with its batch
  statistics, the class scores. `res_*` chains the stages from a device's buffer contents at launch.
-/
import proofs.«144968_g33105607918058_cont_8to1_b_384_44_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The object embedding: the class distribution times the embedding table. -/
def st_v0 (a0 : (⟨S20000x36, .f32⟩ : BufTy).Contents (Elt F)) (a4 : (⟨S36x200, .f32⟩ : BufTy).Contents (Elt F)) :
    (⟨S20000x200, .f32⟩ : BufTy).Contents (Elt F) :=
  Host.dotGeneral (F := F) dot_S20000x36_S36x200_S20000x200_1_0_0_1_n_n none a0 a4

/-- Width and height of each box: high corner minus low corner plus one. -/
def st_v6 (a1 : (⟨S20000x5, .f32⟩ : BufTy).Contents (Elt F)) :
    (⟨S20000x2, .f32⟩ : BufTy).Contents (Elt F) :=
  addf (subf (extractStridedSlice S20000x2 ![0, 2] (extractStridedSlice S20000x4 ![0, 1] a1 slices_S20000x5_S20000x4_0_1) slices_S20000x4_S20000x2_0_2) (extractStridedSlice S20000x2 ![0, 0] (extractStridedSlice S20000x4 ![0, 1] a1 slices_S20000x5_S20000x4_0_1) slices_S20000x4_S20000x2_0_0)) (broadcastInDim S20000x2 ![] bcast_S_S20000x2 (constant (F := F) S_ .f32 0x3F800000#32))

/-- The centre-size features: centre (low corner plus half the extent) beside the extent. -/
def st_v11 (a1 : (⟨S20000x5, .f32⟩ : BufTy).Contents (Elt F)) (v6 : (⟨S20000x2, .f32⟩ : BufTy).Contents (Elt F)) :
    (⟨S20000x4, .f32⟩ : BufTy).Contents (Elt F) :=
  concatenate S20000x4 1 [⟨S20000x2, (addf (extractStridedSlice S20000x2 ![0, 0] (extractStridedSlice S20000x4 ![0, 1] a1 slices_S20000x5_S20000x4_0_1) slices_S20000x4_S20000x2_0_0) (mulf (broadcastInDim S20000x2 ![] bcast_S_S20000x2 (constant (F := F) S_ .f32 0x3F000000#32)) v6))⟩, ⟨S20000x2, v6⟩] concatenates_S20000x2_S20000x2_S20000x4_d1

/-- The column means of the four features: the column sums over the 20000. -/
def st_v14 (v11 : (⟨S20000x4, .f32⟩ : BufTy).Contents (Elt F)) :
    (⟨S4, .f32⟩ : BufTy).Contents (Elt F) :=
  Host.divf (F := F) (Host.reduceAdd (F := F) v11 (constant (F := F) S_ .f32 0x00000000#32) reducesTo_S20000x4_S4_d0 h_S_) (broadcastInDim S4 ![] bcast_S_S4 (constant (F := F) S_ .f32 0x469C4000#32))

/-- The integer zero handed to the variance as its degrees-of-freedom correction. -/
def st_c0  :
    (⟨S_, .i32⟩ : BufTy).Contents (Elt F) :=
  constantI S_ 32 0#32

/-- The features' deviations from their column means (means kept as a row and spread down the rows). -/
def st_k0v5 (v11 : (⟨S20000x4, .f32⟩ : BufTy).Contents (Elt F)) :
    (⟨S20000x4, .f32⟩ : BufTy).Contents (Elt F) :=
  subf v11 (broadcastInDim S20000x4 ![0, 1] bcast_S1x4_S20000x4_0_1 (Host.divf (F := F) (broadcastInDim S1x4 ![1] bcast_S4_S1x4_1 (Host.reduceAdd (F := F) v11 (constant (F := F) S_ .f32 0x00000000#32) reducesTo_S20000x4_S4_d0 h_S_)) (broadcastInDim S1x4 ![] bcast_S_S1x4 (constant (F := F) S_ .f32 0x469C4000#32))))

/-- The variance's divisor: 20000 minus the correction as a float. -/
def st_k0v8 (c0 : (⟨S_, .i32⟩ : BufTy).Contents (Elt F)) :
    (⟨S_, .f32⟩ : BufTy).Contents (Elt F) :=
  subf (constant (F := F) S_ .f32 0x469C4000#32) (sitofp (F := F) .f32 c0)

/-- The four features' batch variance: the column sums of the squared deviations over the divisor, where the divisor is positive, else the not-a-number word. -/
def st_v15 (k0v8 : (⟨S_, .f32⟩ : BufTy).Contents (Elt F)) (k0v5 : (⟨S20000x4, .f32⟩ : BufTy).Contents (Elt F)) :
    (⟨S4, .f32⟩ : BufTy).Contents (Elt F) :=
  select (broadcastInDim S4 ![] bcast_S_S4 (cmpf .ogt k0v8 (constant (F := F) S_ .f32 0x00000000#32))) (Host.divf (F := F) (Host.reduceAdd (F := F) (mulf k0v5 k0v5) (constant (F := F) S_ .f32 0x00000000#32) reducesTo_S20000x4_S4_d0 h_S_) (broadcastInDim S4 ![] bcast_S_S4 k0v8)) (broadcastInDim S4 ![] bcast_S_S4 (id (constant (F := F) S_ .f32 0x7FC00000#32)))

/-- The four standard deviations: square root of variance plus epsilon. -/
def st_v21 (v15 : (⟨S4, .f32⟩ : BufTy).Contents (Elt F)) :
    (⟨S4, .f32⟩ : BufTy).Contents (Elt F) :=
  Host.sqrt (F := F) (addf v15 (broadcastInDim S4 ![] bcast_S_S4 (constant (F := F) S_ .f32 0x3727C5AC#32)))

/-- The normalised features, scaled and shifted. -/
def st_v30 (v11 : (⟨S20000x4, .f32⟩ : BufTy).Contents (Elt F)) (v14 : (⟨S4, .f32⟩ : BufTy).Contents (Elt F)) (v21 : (⟨S4, .f32⟩ : BufTy).Contents (Elt F)) (a5 : (⟨S4, .f32⟩ : BufTy).Contents (Elt F)) (a6 : (⟨S4, .f32⟩ : BufTy).Contents (Elt F)) :
    (⟨S20000x4, .f32⟩ : BufTy).Contents (Elt F) :=
  addf (mulf (Host.divf (F := F) (subf v11 (broadcastInDim S20000x4 ![0, 1] bcast_S1x4_S20000x4_0_1 (broadcastInDim S1x4 ![1] bcast_S4_S1x4_1 v14))) (broadcastInDim S20000x4 ![0, 1] bcast_S1x4_S20000x4_0_1 (broadcastInDim S1x4 ![1] bcast_S4_S1x4_1 v21))) (broadcastInDim S20000x4 ![0, 1] bcast_S1x4_S20000x4_0_1 (broadcastInDim S1x4 ![1] bcast_S4_S1x4_1 a5))) (broadcastInDim S20000x4 ![0, 1] bcast_S1x4_S20000x4_0_1 (broadcastInDim S1x4 ![1] bcast_S4_S1x4_1 a6))

/-- The position layer's pre-activation: the normalised features times the transposed weight, plus the bias row. -/
def st_v35 (v30 : (⟨S20000x4, .f32⟩ : BufTy).Contents (Elt F)) (a7 : (⟨S128x4, .f32⟩ : BufTy).Contents (Elt F)) (a8 : (⟨S128, .f32⟩ : BufTy).Contents (Elt F)) :
    (⟨S20000x128, .f32⟩ : BufTy).Contents (Elt F) :=
  addf (Host.dotGeneral (F := F) dot_S20000x4_S4x128_S20000x128_1_0_0_1_n_n none v30 (transpose S4x128 [1, 0] a7 transposes_S128x4_S4x128_1_0)) (broadcastInDim S20000x128 ![0, 1] bcast_S1x128_S20000x128_0_1 (broadcastInDim S1x128 ![1] bcast_S128_S1x128_1 a8))

/-- The position embedding: the pre-activation against zero. -/
def st_v36 (v35 : (⟨S20000x128, .f32⟩ : BufTy).Contents (Elt F)) :
    (⟨S20000x128, .f32⟩ : BufTy).Contents (Elt F) :=
  maximumf v35 (broadcastInDim S20000x128 ![] bcast_S_S20000x128 (constant (F := F) S_ .f32 0x00000000#32))

/-- The concatenated features: visual, object, position, side by side. -/
def st_v37 (a2 : (⟨S20000x2048, .f32⟩ : BufTy).Contents (Elt F)) (v0 : (⟨S20000x200, .f32⟩ : BufTy).Contents (Elt F)) (v36 : (⟨S20000x128, .f32⟩ : BufTy).Contents (Elt F)) :
    (⟨S20000x2376, .f32⟩ : BufTy).Contents (Elt F) :=
  concatenate S20000x2376 1 [⟨S20000x2048, a2⟩, ⟨S20000x200, v0⟩, ⟨S20000x128, v36⟩] concatenates_S20000x2048_S20000x200_S20000x128_S20000x2376_d1

/-- The hidden pre-activation: the concatenated features times the transposed weight, plus the bias row. -/
def st_v42 (v37 : (⟨S20000x2376, .f32⟩ : BufTy).Contents (Elt F)) (a9 : (⟨S1024x2376, .f32⟩ : BufTy).Contents (Elt F)) (a10 : (⟨S1024, .f32⟩ : BufTy).Contents (Elt F)) :
    (⟨S20000x1024, .f32⟩ : BufTy).Contents (Elt F) :=
  addf (Host.dotGeneral (F := F) dot_S20000x2376_S2376x1024_S20000x1024_1_0_0_1_n_n none v37 (transpose S2376x1024 [1, 0] a9 transposes_S1024x2376_S2376x1024_1_0)) (broadcastInDim S20000x1024 ![0, 1] bcast_S1x1024_S20000x1024_0_1 (broadcastInDim S1x1024 ![1] bcast_S1024_S1x1024_1 a10))

/-- The column means of the hidden pre-activation. -/
def st_v45 (v42 : (⟨S20000x1024, .f32⟩ : BufTy).Contents (Elt F)) :
    (⟨S1024, .f32⟩ : BufTy).Contents (Elt F) :=
  Host.divf (F := F) (Host.reduceAdd (F := F) v42 (constant (F := F) S_ .f32 0x00000000#32) reducesTo_S20000x1024_S1024_d0 h_S_) (broadcastInDim S1024 ![] bcast_S_S1024 (constant (F := F) S_ .f32 0x469C4000#32))

/-- The integer zero handed to the second variance. -/
def st_c6  :
    (⟨S_, .i32⟩ : BufTy).Contents (Elt F) :=
  constantI S_ 32 0#32

/-- The hidden pre-activation's deviations from its column means. -/
def st_k2v5 (v42 : (⟨S20000x1024, .f32⟩ : BufTy).Contents (Elt F)) :
    (⟨S20000x1024, .f32⟩ : BufTy).Contents (Elt F) :=
  subf v42 (broadcastInDim S20000x1024 ![0, 1] bcast_S1x1024_S20000x1024_0_1 (Host.divf (F := F) (broadcastInDim S1x1024 ![1] bcast_S1024_S1x1024_1 (Host.reduceAdd (F := F) v42 (constant (F := F) S_ .f32 0x00000000#32) reducesTo_S20000x1024_S1024_d0 h_S_)) (broadcastInDim S1x1024 ![] bcast_S_S1x1024 (constant (F := F) S_ .f32 0x469C4000#32))))

/-- The second variance's divisor. -/
def st_k2v8 (c6 : (⟨S_, .i32⟩ : BufTy).Contents (Elt F)) :
    (⟨S_, .f32⟩ : BufTy).Contents (Elt F) :=
  subf (constant (F := F) S_ .f32 0x469C4000#32) (sitofp (F := F) .f32 c6)

/-- The hidden pre-activation's batch variance. -/
def st_v46 (k2v8 : (⟨S_, .f32⟩ : BufTy).Contents (Elt F)) (k2v5 : (⟨S20000x1024, .f32⟩ : BufTy).Contents (Elt F)) :
    (⟨S1024, .f32⟩ : BufTy).Contents (Elt F) :=
  select (broadcastInDim S1024 ![] bcast_S_S1024 (cmpf .ogt k2v8 (constant (F := F) S_ .f32 0x00000000#32))) (Host.divf (F := F) (Host.reduceAdd (F := F) (mulf k2v5 k2v5) (constant (F := F) S_ .f32 0x00000000#32) reducesTo_S20000x1024_S1024_d0 h_S_) (broadcastInDim S1024 ![] bcast_S_S1024 k2v8)) (broadcastInDim S1024 ![] bcast_S_S1024 (id (constant (F := F) S_ .f32 0x7FC00000#32)))

/-- The hidden layer's standard deviations. -/
def st_v52 (v46 : (⟨S1024, .f32⟩ : BufTy).Contents (Elt F)) :
    (⟨S1024, .f32⟩ : BufTy).Contents (Elt F) :=
  Host.sqrt (F := F) (addf v46 (broadcastInDim S1024 ![] bcast_S_S1024 (constant (F := F) S_ .f32 0x3727C5AC#32)))

/-- The hidden layer normalised, scaled and shifted. -/
def st_v61 (v42 : (⟨S20000x1024, .f32⟩ : BufTy).Contents (Elt F)) (v45 : (⟨S1024, .f32⟩ : BufTy).Contents (Elt F)) (v52 : (⟨S1024, .f32⟩ : BufTy).Contents (Elt F)) (a11 : (⟨S1024, .f32⟩ : BufTy).Contents (Elt F)) (a12 : (⟨S1024, .f32⟩ : BufTy).Contents (Elt F)) :
    (⟨S20000x1024, .f32⟩ : BufTy).Contents (Elt F) :=
  addf (mulf (Host.divf (F := F) (subf v42 (broadcastInDim S20000x1024 ![0, 1] bcast_S1x1024_S20000x1024_0_1 (broadcastInDim S1x1024 ![1] bcast_S1024_S1x1024_1 v45))) (broadcastInDim S20000x1024 ![0, 1] bcast_S1x1024_S20000x1024_0_1 (broadcastInDim S1x1024 ![1] bcast_S1024_S1x1024_1 v52))) (broadcastInDim S20000x1024 ![0, 1] bcast_S1x1024_S20000x1024_0_1 (broadcastInDim S1x1024 ![1] bcast_S1024_S1x1024_1 a11))) (broadcastInDim S20000x1024 ![0, 1] bcast_S1x1024_S20000x1024_0_1 (broadcastInDim S1x1024 ![1] bcast_S1024_S1x1024_1 a12))

/-- The hidden activation: the normalised layer against zero. -/
def st_v62 (v61 : (⟨S20000x1024, .f32⟩ : BufTy).Contents (Elt F)) :
    (⟨S20000x1024, .f32⟩ : BufTy).Contents (Elt F) :=
  maximumf v61 (broadcastInDim S20000x1024 ![] bcast_S_S20000x1024 (constant (F := F) S_ .f32 0x00000000#32))

/-- The class scores: the hidden activation times the transposed weight, plus the bias row. -/
def st_v67 (v62 : (⟨S20000x1024, .f32⟩ : BufTy).Contents (Elt F)) (a13 : (⟨S37x1024, .f32⟩ : BufTy).Contents (Elt F)) (a14 : (⟨S37, .f32⟩ : BufTy).Contents (Elt F)) :
    (⟨S20000x37, .f32⟩ : BufTy).Contents (Elt F) :=
  addf (Host.dotGeneral (F := F) dot_S20000x1024_S1024x37_S20000x37_1_0_0_1_n_n none v62 (transpose S1024x37 [1, 0] a13 transposes_S37x1024_S1024x37_1_0)) (broadcastInDim S20000x37 ![0, 1] bcast_S1x37_S20000x37_0_1 (broadcastInDim S1x37 ![1] bcast_S37_S1x37_1 a14))

/-! ## The stages chained from the contents at launch -/

/-- Stage `st_v0` of the launch contents. -/
def res_v0 (V0 : Valuation τ sig (Elt F)) : (⟨S20000x200, .f32⟩ : BufTy).Contents (Elt F) :=
  st_v0 (V0 (Proc.devRef .tc main_arg0)) (V0 (Proc.devRef .tc main_arg4))

/-- Stage `st_v6` of the launch contents. -/
def res_v6 (V0 : Valuation τ sig (Elt F)) : (⟨S20000x2, .f32⟩ : BufTy).Contents (Elt F) :=
  st_v6 (V0 (Proc.devRef .tc main_arg1))

/-- Stage `st_v11` of the launch contents. -/
def res_v11 (V0 : Valuation τ sig (Elt F)) : (⟨S20000x4, .f32⟩ : BufTy).Contents (Elt F) :=
  st_v11 (V0 (Proc.devRef .tc main_arg1)) (res_v6 V0)

/-- Stage `st_v14` of the launch contents. -/
def res_v14 (V0 : Valuation τ sig (Elt F)) : (⟨S4, .f32⟩ : BufTy).Contents (Elt F) :=
  st_v14 (res_v11 V0)

/-- Stage `st_c0` of the launch contents. -/
def res_c0 (V0 : Valuation τ sig (Elt F)) : (⟨S_, .i32⟩ : BufTy).Contents (Elt F) :=
  st_c0

/-- Stage `st_k0v5` of the launch contents. -/
def res_k0v5 (V0 : Valuation τ sig (Elt F)) : (⟨S20000x4, .f32⟩ : BufTy).Contents (Elt F) :=
  st_k0v5 (res_v11 V0)

/-- Stage `st_k0v8` of the launch contents. -/
def res_k0v8 (V0 : Valuation τ sig (Elt F)) : (⟨S_, .f32⟩ : BufTy).Contents (Elt F) :=
  st_k0v8 (res_c0 V0)

/-- Stage `st_v15` of the launch contents. -/
def res_v15 (V0 : Valuation τ sig (Elt F)) : (⟨S4, .f32⟩ : BufTy).Contents (Elt F) :=
  st_v15 (res_k0v8 V0) (res_k0v5 V0)

/-- Stage `st_v21` of the launch contents. -/
def res_v21 (V0 : Valuation τ sig (Elt F)) : (⟨S4, .f32⟩ : BufTy).Contents (Elt F) :=
  st_v21 (res_v15 V0)

/-- Stage `st_v30` of the launch contents. -/
def res_v30 (V0 : Valuation τ sig (Elt F)) : (⟨S20000x4, .f32⟩ : BufTy).Contents (Elt F) :=
  st_v30 (res_v11 V0) (res_v14 V0) (res_v21 V0) (V0 (Proc.devRef .tc main_arg5)) (V0 (Proc.devRef .tc main_arg6))

/-- Stage `st_v35` of the launch contents. -/
def res_v35 (V0 : Valuation τ sig (Elt F)) : (⟨S20000x128, .f32⟩ : BufTy).Contents (Elt F) :=
  st_v35 (res_v30 V0) (V0 (Proc.devRef .tc main_arg7)) (V0 (Proc.devRef .tc main_arg8))

/-- Stage `st_v36` of the launch contents. -/
def res_v36 (V0 : Valuation τ sig (Elt F)) : (⟨S20000x128, .f32⟩ : BufTy).Contents (Elt F) :=
  st_v36 (res_v35 V0)

/-- Stage `st_v37` of the launch contents. -/
def res_v37 (V0 : Valuation τ sig (Elt F)) : (⟨S20000x2376, .f32⟩ : BufTy).Contents (Elt F) :=
  st_v37 (V0 (Proc.devRef .tc main_arg2)) (res_v0 V0) (res_v36 V0)

/-- Stage `st_v42` of the launch contents. -/
def res_v42 (V0 : Valuation τ sig (Elt F)) : (⟨S20000x1024, .f32⟩ : BufTy).Contents (Elt F) :=
  st_v42 (res_v37 V0) (V0 (Proc.devRef .tc main_arg9)) (V0 (Proc.devRef .tc main_arg10))

/-- Stage `st_v45` of the launch contents. -/
def res_v45 (V0 : Valuation τ sig (Elt F)) : (⟨S1024, .f32⟩ : BufTy).Contents (Elt F) :=
  st_v45 (res_v42 V0)

/-- Stage `st_c6` of the launch contents. -/
def res_c6 (V0 : Valuation τ sig (Elt F)) : (⟨S_, .i32⟩ : BufTy).Contents (Elt F) :=
  st_c6

/-- Stage `st_k2v5` of the launch contents. -/
def res_k2v5 (V0 : Valuation τ sig (Elt F)) : (⟨S20000x1024, .f32⟩ : BufTy).Contents (Elt F) :=
  st_k2v5 (res_v42 V0)

/-- Stage `st_k2v8` of the launch contents. -/
def res_k2v8 (V0 : Valuation τ sig (Elt F)) : (⟨S_, .f32⟩ : BufTy).Contents (Elt F) :=
  st_k2v8 (res_c6 V0)

/-- Stage `st_v46` of the launch contents. -/
def res_v46 (V0 : Valuation τ sig (Elt F)) : (⟨S1024, .f32⟩ : BufTy).Contents (Elt F) :=
  st_v46 (res_k2v8 V0) (res_k2v5 V0)

/-- Stage `st_v52` of the launch contents. -/
def res_v52 (V0 : Valuation τ sig (Elt F)) : (⟨S1024, .f32⟩ : BufTy).Contents (Elt F) :=
  st_v52 (res_v46 V0)

/-- Stage `st_v61` of the launch contents. -/
def res_v61 (V0 : Valuation τ sig (Elt F)) : (⟨S20000x1024, .f32⟩ : BufTy).Contents (Elt F) :=
  st_v61 (res_v42 V0) (res_v45 V0) (res_v52 V0) (V0 (Proc.devRef .tc main_arg11)) (V0 (Proc.devRef .tc main_arg12))

/-- Stage `st_v62` of the launch contents. -/
def res_v62 (V0 : Valuation τ sig (Elt F)) : (⟨S20000x1024, .f32⟩ : BufTy).Contents (Elt F) :=
  st_v62 (res_v61 V0)

/-- Stage `st_v67` of the launch contents. -/
def res_v67 (V0 : Valuation τ sig (Elt F)) : (⟨S20000x37, .f32⟩ : BufTy).Contents (Elt F) :=
  st_v67 (res_v62 V0) (V0 (Proc.devRef .tc main_arg13)) (V0 (Proc.devRef .tc main_arg14))

end Cert.ReferenceIdeal.RefValue

end
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.LibResultsInside.lean ====
/-
  Reading a line of host operations back where the one-pass reader stops.

  The library's one-pass reader of a line of host operations (`after_results_simp`) rewrites every operation's result
  at its own buffer and at every other buffer — except where a value stands INSIDE a `concatenate`'s list of pieces, and
  it leaves the transports of an outlined function's typed references in place. Closing what is left by `rfl` makes the
  unifier evaluate: the chain of `HloOp.result`s under a `concatenate`, or, with a transport (a `cast`) at the head of
  one side, the other side down to the elementwise definitions of a gather or a scatter — which does not end.

  `results_inside` is the library's result lemmas applied by `rw`, repeated: `rw` abstracts occurrences wherever they
  stand, a `concatenate`'s pieces included. The recipe that read a 117-operation line against staged definitions:

    after_results_simp; results_inside          -- the composed term over the starting contents
    dsimp only [‹the stages this stretch computes›]; first | done | rfl

  with the line CUT at each outlined function (a stretch of `TRef.…` operations), each stretch read from an arbitrary
  contents `W` under hypotheses `W (devRef b) = ‹stage›` for the buffers it reads. In such a stretch: cancel
  written-then-read pairs (`TRef.ofBuf_toBuf`), remove each remaining transport by a lemma about that buffer stated over
  a VARIABLE value and proved by `rfl` — there `rfl` can only do the one reduction of the cast —

    theorem ofBuf_b (h1 : b.ty = (⟨S, e⟩ : BufTy)) (h2 : b.space ≠ .host) (h3 : b.isScoped = false)
        (v : b.ty.Contents Val) : (TRef.of (T := ⟨S, e⟩) b h1 h2 h3).ofBuf v = v := rfl

  used by `rw`, and only then rewrite the hypotheses and unfold the stages. (`simp` or `dsimp` with `cast_eq` over the
  whole term exhausts memory.)
-/
import Idealize.ShloMosaic.Lib.StableHlo.Run

namespace Idealize.ShloMosaic.StableHlo

/-- The library's result lemmas by `rw`, repeated: they also rewrite an operation's result where it stands inside a
    `concatenate`'s list of pieces, which the one-pass form leaves alone. Does nothing where nothing is left. -/
macro "results_inside" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.RefStretch1.lean ====
/-
  Stretch 1 of the reference's line (the object embedding, the centre-size features of the boxes and their column means), read from an arbitrary valuation: what its operations leave at
  the buffers later stretches read, as the stages of the buffers it reads.
-/
import proofs.«144968_g33105607918058_cont_8to1_b_384_44_alg».proof.Proof.RefOps
import proofs.«144968_g33105607918058_cont_8to1_b_384_44_alg».proof.Proof.RefStages
import proofs.«144968_g33105607918058_cont_8to1_b_384_44_alg».proof.Proof.LibResultsInside

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
theorem st1_v0 (W : Valuation τ sig (Elt F)) :
    after ops1 W (Proc.devRef .tc main_v0) = st_v0 (W (Proc.devRef .tc main_arg0)) (W (Proc.devRef .tc main_arg4)) := by
  after_results_simp
  results_inside
  dsimp only [st_v0]
  first | done | rfl

set_option maxHeartbeats 2000000 in
theorem st1_v11 (W : Valuation τ sig (Elt F)) :
    after ops1 W (Proc.devRef .tc main_v11) = st_v11 (W (Proc.devRef .tc main_arg1)) (st_v6 (W (Proc.devRef .tc main_arg1))) := by
  after_results_simp
  results_inside
  dsimp only [st_v11, st_v6]
  first | done | rfl

set_option maxHeartbeats 2000000 in
theorem st1_v14 (W : Valuation τ sig (Elt F)) :
    after ops1 W (Proc.devRef .tc main_v14) = st_v14 (st_v11 (W (Proc.devRef .tc main_arg1)) (st_v6 (W (Proc.devRef .tc main_arg1)))) := by
  after_results_simp
  results_inside
  dsimp only [st_v14, st_v11, st_v6]
  first | done | rfl

set_option maxHeartbeats 2000000 in
theorem st1_c0 (W : Valuation τ sig (Elt F)) :
    after ops1 W (Proc.devRef .tc main_c) = st_c0 := by
  after_results_simp
  results_inside
  dsimp only [st_c0]
  first | done | rfl

end Cert.ReferenceIdeal.RefValue

end
-- ==== Proof.LibTypedRef.lean ====
/-
  Typed references of a module-local function's operations. An operation of an outlined function reads and writes its
  buffers through typed references: a result is transported to its buffer's type when written and back to the value's
  type when the next operation reads it. The two transports cancel, so a line of such operations composes to the
  plain composition of their functions.
-/
import Idealize.ShloMosaic.Lib.StableHlo

namespace Idealize.ShloMosaic.StableHlo.TRef

variable {sig : RefSig} {Val : EltTy → Type} {T : BufTy}

/-- Written to the buffer and read back: the value. -/
theorem ofBuf_toBuf (x : TRef sig T) (v : T.Contents Val) : x.ofBuf (x.toBuf v) = v := by
  obtain ⟨r, ty_eq, h1, h2⟩ := x
  subst ty_eq
  rfl

/-- Read from the buffer and written back: the contents. -/
theorem toBuf_ofBuf (x : TRef sig T) (v : x.ref.ty.Contents Val) : x.toBuf (x.ofBuf v) = v := by
  obtain ⟨r, ty_eq, h1, h2⟩ := x
  subst ty_eq
  rfl

end Idealize.ShloMosaic.StableHlo.TRef
-- ==== Proof.RefStretch2.lean ====
/-
  Stretch 2 of the reference's line (the batch variance of the four features), read from an arbitrary valuation: what its operations leave at
  the buffers later stretches read, as the stages of the buffers it reads.
-/
import proofs.«144968_g33105607918058_cont_8to1_b_384_44_alg».proof.Proof.RefOps
import proofs.«144968_g33105607918058_cont_8to1_b_384_44_alg».proof.Proof.RefStages
import proofs.«144968_g33105607918058_cont_8to1_b_384_44_alg».proof.Proof.LibTypedRef
import proofs.«144968_g33105607918058_cont_8to1_b_384_44_alg».proof.Proof.LibResultsInside

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Reading buffer `main_v11` at its value's type is the identity. -/
theorem ofBuf_v11 {Val : EltTy → Type} (h1 : (main_v11 : Ref sig .tc).ty = (⟨S20000x4, .f32⟩ : BufTy)) (h2 : (main_v11 : Ref sig .tc).space ≠ .host)
    (h3 : (main_v11 : Ref sig .tc).isScoped = false) (v : (main_v11 : Ref sig .tc).ty.Contents Val) :
    (TRef.of (T := ⟨S20000x4, .f32⟩) main_v11 h1 h2 h3).ofBuf v = v := rfl

/-- Reading buffer `main_c` at its value's type is the identity. -/
theorem ofBuf_c0 {Val : EltTy → Type} (h1 : (main_c : Ref sig .tc).ty = (⟨S_, .i32⟩ : BufTy)) (h2 : (main_c : Ref sig .tc).space ≠ .host)
    (h3 : (main_c : Ref sig .tc).isScoped = false) (v : (main_c : Ref sig .tc).ty.Contents Val) :
    (TRef.of (T := ⟨S_, .i32⟩) main_c h1 h2 h3).ofBuf v = v := rfl

/-- Writing buffer `main_v15` from its value's type is the identity. -/
theorem toBuf_v15 {Val : EltTy → Type} (h1 : (main_v15 : Ref sig .tc).ty = (⟨S4, .f32⟩ : BufTy)) (h2 : (main_v15 : Ref sig .tc).space ≠ .host)
    (h3 : (main_v15 : Ref sig .tc).isScoped = false) (v : (⟨S4, .f32⟩ : BufTy).Contents Val) :
    (TRef.of (T := ⟨S4, .f32⟩) main_v15 h1 h2 h3).toBuf v = v := rfl

set_option maxHeartbeats 2000000 in
theorem st2_v15 (W : Valuation τ sig (Elt F)) :
    after ops2 W (Proc.devRef .tc main_v15) = st_v15 (st_k0v8 (W (Proc.devRef .tc main_c))) (st_k0v5 (W (Proc.devRef .tc main_v11))) := by
  after_results_simp
  results_inside
  simp only [TRef.ofBuf_toBuf]
  rw [ofBuf_v11, ofBuf_c0, toBuf_v15]
  dsimp only [st_v15, st_k0v8, st_k0v5]
  first | done | rfl

end Cert.ReferenceIdeal.RefValue

end
-- ==== Proof.RefStretch3.lean ====
/-
  Stretch 3 of the reference's line (the normalised features and the position layer's pre-activation), read from an arbitrary valuation: what its operations leave at
  the buffers later stretches read, as the stages of the buffers it reads.
-/
import proofs.«144968_g33105607918058_cont_8to1_b_384_44_alg».proof.Proof.RefOps
import proofs.«144968_g33105607918058_cont_8to1_b_384_44_alg».proof.Proof.RefStages
import proofs.«144968_g33105607918058_cont_8to1_b_384_44_alg».proof.Proof.LibResultsInside

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
theorem st3_v35 (W : Valuation τ sig (Elt F)) :
    after ops3 W (Proc.devRef .tc main_v35) = st_v35 (st_v30 (W (Proc.devRef .tc main_v11)) (W (Proc.devRef .tc main_v14)) (st_v21 (W (Proc.devRef .tc main_v15))) (W (Proc.devRef .tc main_arg5)) (W (Proc.devRef .tc main_arg6))) (W (Proc.devRef .tc main_arg7)) (W (Proc.devRef .tc main_arg8)) := by
  after_results_simp
  results_inside
  dsimp only [st_v35, st_v30, st_v21]
  first | done | rfl

end Cert.ReferenceIdeal.RefValue

end
-- ==== Proof.RefStretch4.lean ====
/-
  Stretch 4 of the reference's line (the first relu), read from an arbitrary valuation: what its operations leave at
  the buffers later stretches read, as the stages of the buffers it reads.
-/
import proofs.«144968_g33105607918058_cont_8to1_b_384_44_alg».proof.Proof.RefOps
import proofs.«144968_g33105607918058_cont_8to1_b_384_44_alg».proof.Proof.RefStages
import proofs.«144968_g33105607918058_cont_8to1_b_384_44_alg».proof.Proof.LibTypedRef
import proofs.«144968_g33105607918058_cont_8to1_b_384_44_alg».proof.Proof.LibResultsInside

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Reading buffer `main_v35` at its value's type is the identity. -/
theorem ofBuf_v35 {Val : EltTy → Type} (h1 : (main_v35 : Ref sig .tc).ty = (⟨S20000x128, .f32⟩ : BufTy)) (h2 : (main_v35 : Ref sig .tc).space ≠ .host)
    (h3 : (main_v35 : Ref sig .tc).isScoped = false) (v : (main_v35 : Ref sig .tc).ty.Contents Val) :
    (TRef.of (T := ⟨S20000x128, .f32⟩) main_v35 h1 h2 h3).ofBuf v = v := rfl

/-- Writing buffer `main_v36` from its value's type is the identity. -/
theorem toBuf_v36 {Val : EltTy → Type} (h1 : (main_v36 : Ref sig .tc).ty = (⟨S20000x128, .f32⟩ : BufTy)) (h2 : (main_v36 : Ref sig .tc).space ≠ .host)
    (h3 : (main_v36 : Ref sig .tc).isScoped = false) (v : (⟨S20000x128, .f32⟩ : BufTy).Contents Val) :
    (TRef.of (T := ⟨S20000x128, .f32⟩) main_v36 h1 h2 h3).toBuf v = v := rfl

set_option maxHeartbeats 2000000 in
theorem st4_v36 (W : Valuation τ sig (Elt F)) :
    after ops4 W (Proc.devRef .tc main_v36) = st_v36 (W (Proc.devRef .tc main_v35)) := by
  after_results_simp
  results_inside
  simp only [TRef.ofBuf_toBuf]
  rw [ofBuf_v35, toBuf_v36]
  dsimp only [st_v36]
  first | done | rfl

end Cert.ReferenceIdeal.RefValue

end
-- ==== Proof.RefStretch5.lean ====
/-
  Stretch 5 of the reference's line (the concatenated features, the hidden pre-activation and its column means), read from an arbitrary valuation: what its operations leave at
  the buffers later stretches read, as the stages of the buffers it reads.
-/
import proofs.«144968_g33105607918058_cont_8to1_b_384_44_alg».proof.Proof.RefOps
import proofs.«144968_g33105607918058_cont_8to1_b_384_44_alg».proof.Proof.RefStages
import proofs.«144968_g33105607918058_cont_8to1_b_384_44_alg».proof.Proof.LibResultsInside

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
theorem st5_v42 (W : Valuation τ sig (Elt F)) :
    after ops5 W (Proc.devRef .tc main_v42) = st_v42 (st_v37 (W (Proc.devRef .tc main_arg2)) (W (Proc.devRef .tc main_v0)) (W (Proc.devRef .tc main_v36))) (W (Proc.devRef .tc main_arg9)) (W (Proc.devRef .tc main_arg10)) := by
  after_results_simp
  results_inside
  dsimp only [st_v42, st_v37]
  first | done | rfl

set_option maxHeartbeats 2000000 in
theorem st5_v45 (W : Valuation τ sig (Elt F)) :
    after ops5 W (Proc.devRef .tc main_v45) = st_v45 (st_v42 (st_v37 (W (Proc.devRef .tc main_arg2)) (W (Proc.devRef .tc main_v0)) (W (Proc.devRef .tc main_v36))) (W (Proc.devRef .tc main_arg9)) (W (Proc.devRef .tc main_arg10))) := by
  after_results_simp
  results_inside
  dsimp only [st_v45, st_v42, st_v37]
  first | done | rfl

set_option maxHeartbeats 2000000 in
theorem st5_c6 (W : Valuation τ sig (Elt F)) :
    after ops5 W (Proc.devRef .tc main_c_6) = st_c6 := by
  after_results_simp
  results_inside
  dsimp only [st_c6]
  first | done | rfl

end Cert.ReferenceIdeal.RefValue

end
-- ==== Proof.RefStretch6.lean ====
/-
  Stretch 6 of the reference's line (the batch variance of the hidden pre-activation), read from an arbitrary valuation: what its operations leave at
  the buffers later stretches read, as the stages of the buffers it reads.
-/
import proofs.«144968_g33105607918058_cont_8to1_b_384_44_alg».proof.Proof.RefOps
import proofs.«144968_g33105607918058_cont_8to1_b_384_44_alg».proof.Proof.RefStages
import proofs.«144968_g33105607918058_cont_8to1_b_384_44_alg».proof.Proof.LibTypedRef
import proofs.«144968_g33105607918058_cont_8to1_b_384_44_alg».proof.Proof.LibResultsInside

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Reading buffer `main_v42` at its value's type is the identity. -/
theorem ofBuf_v42 {Val : EltTy → Type} (h1 : (main_v42 : Ref sig .tc).ty = (⟨S20000x1024, .f32⟩ : BufTy)) (h2 : (main_v42 : Ref sig .tc).space ≠ .host)
    (h3 : (main_v42 : Ref sig .tc).isScoped = false) (v : (main_v42 : Ref sig .tc).ty.Contents Val) :
    (TRef.of (T := ⟨S20000x1024, .f32⟩) main_v42 h1 h2 h3).ofBuf v = v := rfl

/-- Reading buffer `main_c_6` at its value's type is the identity. -/
theorem ofBuf_c6 {Val : EltTy → Type} (h1 : (main_c_6 : Ref sig .tc).ty = (⟨S_, .i32⟩ : BufTy)) (h2 : (main_c_6 : Ref sig .tc).space ≠ .host)
    (h3 : (main_c_6 : Ref sig .tc).isScoped = false) (v : (main_c_6 : Ref sig .tc).ty.Contents Val) :
    (TRef.of (T := ⟨S_, .i32⟩) main_c_6 h1 h2 h3).ofBuf v = v := rfl

/-- Writing buffer `main_v46` from its value's type is the identity. -/
theorem toBuf_v46 {Val : EltTy → Type} (h1 : (main_v46 : Ref sig .tc).ty = (⟨S1024, .f32⟩ : BufTy)) (h2 : (main_v46 : Ref sig .tc).space ≠ .host)
    (h3 : (main_v46 : Ref sig .tc).isScoped = false) (v : (⟨S1024, .f32⟩ : BufTy).Contents Val) :
    (TRef.of (T := ⟨S1024, .f32⟩) main_v46 h1 h2 h3).toBuf v = v := rfl

set_option maxHeartbeats 2000000 in
theorem st6_v46 (W : Valuation τ sig (Elt F)) :
    after ops6 W (Proc.devRef .tc main_v46) = st_v46 (st_k2v8 (W (Proc.devRef .tc main_c_6))) (st_k2v5 (W (Proc.devRef .tc main_v42))) := by
  after_results_simp
  results_inside
  simp only [TRef.ofBuf_toBuf]
  rw [ofBuf_v42, ofBuf_c6, toBuf_v46]
  dsimp only [st_v46, st_k2v8, st_k2v5]
  first | done | rfl

end Cert.ReferenceIdeal.RefValue

end
-- ==== Proof.RefStretch7.lean ====
/-
  Stretch 7 of the reference's line (the normalised hidden layer), read from an arbitrary valuation: what its operations leave at
  the buffers later stretches read, as the stages of the buffers it reads.
-/
import proofs.«144968_g33105607918058_cont_8to1_b_384_44_alg».proof.Proof.RefOps
import proofs.«144968_g33105607918058_cont_8to1_b_384_44_alg».proof.Proof.RefStages
import proofs.«144968_g33105607918058_cont_8to1_b_384_44_alg».proof.Proof.LibResultsInside

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
theorem st7_v61 (W : Valuation τ sig (Elt F)) :
    after ops7 W (Proc.devRef .tc main_v61) = st_v61 (W (Proc.devRef .tc main_v42)) (W (Proc.devRef .tc main_v45)) (st_v52 (W (Proc.devRef .tc main_v46))) (W (Proc.devRef .tc main_arg11)) (W (Proc.devRef .tc main_arg12)) := by
  after_results_simp
  results_inside
  dsimp only [st_v61, st_v52]
  first | done | rfl

end Cert.ReferenceIdeal.RefValue

end
-- ==== Proof.RefStretch8.lean ====
/-
  Stretch 8 of the reference's line (the second relu), read from an arbitrary valuation: what its operations leave at
  the buffers later stretches read, as the stages of the buffers it reads.
-/
import proofs.«144968_g33105607918058_cont_8to1_b_384_44_alg».proof.Proof.RefOps
import proofs.«144968_g33105607918058_cont_8to1_b_384_44_alg».proof.Proof.RefStages
import proofs.«144968_g33105607918058_cont_8to1_b_384_44_alg».proof.Proof.LibTypedRef
import proofs.«144968_g33105607918058_cont_8to1_b_384_44_alg».proof.Proof.LibResultsInside

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Reading buffer `main_v61` at its value's type is the identity. -/
theorem ofBuf_v61 {Val : EltTy → Type} (h1 : (main_v61 : Ref sig .tc).ty = (⟨S20000x1024, .f32⟩ : BufTy)) (h2 : (main_v61 : Ref sig .tc).space ≠ .host)
    (h3 : (main_v61 : Ref sig .tc).isScoped = false) (v : (main_v61 : Ref sig .tc).ty.Contents Val) :
    (TRef.of (T := ⟨S20000x1024, .f32⟩) main_v61 h1 h2 h3).ofBuf v = v := rfl

/-- Writing buffer `main_v62` from its value's type is the identity. -/
theorem toBuf_v62 {Val : EltTy → Type} (h1 : (main_v62 : Ref sig .tc).ty = (⟨S20000x1024, .f32⟩ : BufTy)) (h2 : (main_v62 : Ref sig .tc).space ≠ .host)
    (h3 : (main_v62 : Ref sig .tc).isScoped = false) (v : (⟨S20000x1024, .f32⟩ : BufTy).Contents Val) :
    (TRef.of (T := ⟨S20000x1024, .f32⟩) main_v62 h1 h2 h3).toBuf v = v := rfl

set_option maxHeartbeats 2000000 in
theorem st8_v62 (W : Valuation τ sig (Elt F)) :
    after ops8 W (Proc.devRef .tc main_v62) = st_v62 (W (Proc.devRef .tc main_v61)) := by
  after_results_simp
  results_inside
  simp only [TRef.ofBuf_toBuf]
  rw [ofBuf_v61, toBuf_v62]
  dsimp only [st_v62]
  first | done | rfl

end Cert.ReferenceIdeal.RefValue

end
-- ==== Proof.RefStretch9.lean ====
/-
  Stretch 9 of the reference's line (the class scores), read from an arbitrary valuation: what its operations leave at
  the buffers later stretches read, as the stages of the buffers it reads.
-/
import proofs.«144968_g33105607918058_cont_8to1_b_384_44_alg».proof.Proof.RefOps
import proofs.«144968_g33105607918058_cont_8to1_b_384_44_alg».proof.Proof.RefStages
import proofs.«144968_g33105607918058_cont_8to1_b_384_44_alg».proof.Proof.LibResultsInside

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
theorem st9_v67 (W : Valuation τ sig (Elt F)) :
    after ops9 W (Proc.devRef .tc main_v67) = st_v67 (W (Proc.devRef .tc main_v62)) (W (Proc.devRef .tc main_arg13)) (W (Proc.devRef .tc main_arg14)) := by
  after_results_simp
  results_inside
  dsimp only [st_v67]
  first | done | rfl

end Cert.ReferenceIdeal.RefValue

end
-- ==== Proof.RefChain.lean ====
/-
  The reference's line read stretch by stretch from a device's contents at launch: the valuation after each stretch, what
  it holds at the buffers later stretches read (the stages chained from the launch contents), the buffers a stretch does
  not write kept through it, and so the result buffer at the last stage and the arguments as launched.
-/
import proofs.«144968_g33105607918058_cont_8to1_b_384_44_alg».proof.Proof.RefOps
import proofs.«144968_g33105607918058_cont_8to1_b_384_44_alg».proof.Proof.RefStages
import proofs.«144968_g33105607918058_cont_8to1_b_384_44_alg».proof.Proof.LibAfterAppend
import proofs.«144968_g33105607918058_cont_8to1_b_384_44_alg».proof.Proof.RefStretch1
import proofs.«144968_g33105607918058_cont_8to1_b_384_44_alg».proof.Proof.RefStretch2
import proofs.«144968_g33105607918058_cont_8to1_b_384_44_alg».proof.Proof.RefStretch3
import proofs.«144968_g33105607918058_cont_8to1_b_384_44_alg».proof.Proof.RefStretch4
import proofs.«144968_g33105607918058_cont_8to1_b_384_44_alg».proof.Proof.RefStretch5
import proofs.«144968_g33105607918058_cont_8to1_b_384_44_alg».proof.Proof.RefStretch6
import proofs.«144968_g33105607918058_cont_8to1_b_384_44_alg».proof.Proof.RefStretch7
import proofs.«144968_g33105607918058_cont_8to1_b_384_44_alg».proof.Proof.RefStretch8
import proofs.«144968_g33105607918058_cont_8to1_b_384_44_alg».proof.Proof.RefStretch9

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers stretch 1 writes. -/
abbrev ops1_W : List (Ref sig .tc) := [main_v0, main_v1, main_v2, main_v3, main_v4, main_cst, main_v5, main_v6, main_v7, main_cst_0, main_v8, main_v9, main_v10, main_v11, main_cst_1, main_v12, main_cst_2, main_v13, main_v14, main_c]
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 1 stretch. -/
def val1 (V0 : Valuation τ sig (Elt F)) : Valuation τ sig (Elt F) := after ops1 V0
/-- A buffer stretch 1 does not write keeps its contents through it. -/
theorem val1_keep (V0 : Valuation τ sig (Elt F)) (r : Ref sig .tc) (h : r ∉ ops1_W) :
    val1 V0 (Proc.devRef .tc r) = V0 (Proc.devRef .tc r) :=
  after_of_writes_sub ops1 _ ops1_writes h
theorem val1_v11 (V0 : Valuation τ sig (Elt F)) : val1 V0 (Proc.devRef .tc main_v11) = res_v11 V0 := by
  unfold val1
  rw [st1_v11]
  rfl
theorem val1_c0 (V0 : Valuation τ sig (Elt F)) : val1 V0 (Proc.devRef .tc main_c) = res_c0 V0 := by
  unfold val1
  rw [st1_c0]
  rfl
theorem val1_v14 (V0 : Valuation τ sig (Elt F)) : val1 V0 (Proc.devRef .tc main_v14) = res_v14 V0 := by
  unfold val1
  rw [st1_v14]
  rfl
theorem val1_a5 (V0 : Valuation τ sig (Elt F)) : val1 V0 (Proc.devRef .tc main_arg5) = V0 (Proc.devRef .tc main_arg5) :=
  val1_keep V0 main_arg5 (by decide)
theorem val1_a6 (V0 : Valuation τ sig (Elt F)) : val1 V0 (Proc.devRef .tc main_arg6) = V0 (Proc.devRef .tc main_arg6) :=
  val1_keep V0 main_arg6 (by decide)
theorem val1_a7 (V0 : Valuation τ sig (Elt F)) : val1 V0 (Proc.devRef .tc main_arg7) = V0 (Proc.devRef .tc main_arg7) :=
  val1_keep V0 main_arg7 (by decide)
theorem val1_a8 (V0 : Valuation τ sig (Elt F)) : val1 V0 (Proc.devRef .tc main_arg8) = V0 (Proc.devRef .tc main_arg8) :=
  val1_keep V0 main_arg8 (by decide)
theorem val1_a2 (V0 : Valuation τ sig (Elt F)) : val1 V0 (Proc.devRef .tc main_arg2) = V0 (Proc.devRef .tc main_arg2) :=
  val1_keep V0 main_arg2 (by decide)
theorem val1_v0 (V0 : Valuation τ sig (Elt F)) : val1 V0 (Proc.devRef .tc main_v0) = res_v0 V0 := by
  unfold val1
  rw [st1_v0]
  rfl
theorem val1_a9 (V0 : Valuation τ sig (Elt F)) : val1 V0 (Proc.devRef .tc main_arg9) = V0 (Proc.devRef .tc main_arg9) :=
  val1_keep V0 main_arg9 (by decide)
theorem val1_a10 (V0 : Valuation τ sig (Elt F)) : val1 V0 (Proc.devRef .tc main_arg10) = V0 (Proc.devRef .tc main_arg10) :=
  val1_keep V0 main_arg10 (by decide)
theorem val1_a11 (V0 : Valuation τ sig (Elt F)) : val1 V0 (Proc.devRef .tc main_arg11) = V0 (Proc.devRef .tc main_arg11) :=
  val1_keep V0 main_arg11 (by decide)
theorem val1_a12 (V0 : Valuation τ sig (Elt F)) : val1 V0 (Proc.devRef .tc main_arg12) = V0 (Proc.devRef .tc main_arg12) :=
  val1_keep V0 main_arg12 (by decide)
theorem val1_a13 (V0 : Valuation τ sig (Elt F)) : val1 V0 (Proc.devRef .tc main_arg13) = V0 (Proc.devRef .tc main_arg13) :=
  val1_keep V0 main_arg13 (by decide)
theorem val1_a14 (V0 : Valuation τ sig (Elt F)) : val1 V0 (Proc.devRef .tc main_arg14) = V0 (Proc.devRef .tc main_arg14) :=
  val1_keep V0 main_arg14 (by decide)

/-- The buffers stretch 2 writes. -/
abbrev ops2_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v15]
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 2 stretches. -/
def val2 (V0 : Valuation τ sig (Elt F)) : Valuation τ sig (Elt F) := after ops2 (val1 V0)
/-- A buffer stretch 2 does not write keeps its contents through it. -/
theorem val2_keep (V0 : Valuation τ sig (Elt F)) (r : Ref sig .tc) (h : r ∉ ops2_W) :
    val2 V0 (Proc.devRef .tc r) = val1 V0 (Proc.devRef .tc r) :=
  after_of_writes_sub ops2 _ ops2_writes h
theorem val2_v14 (V0 : Valuation τ sig (Elt F)) : val2 V0 (Proc.devRef .tc main_v14) = res_v14 V0 :=
  (val2_keep V0 main_v14 (by decide)).trans (val1_v14 V0)
theorem val2_v11 (V0 : Valuation τ sig (Elt F)) : val2 V0 (Proc.devRef .tc main_v11) = res_v11 V0 :=
  (val2_keep V0 main_v11 (by decide)).trans (val1_v11 V0)
theorem val2_v15 (V0 : Valuation τ sig (Elt F)) : val2 V0 (Proc.devRef .tc main_v15) = res_v15 V0 := by
  unfold val2
  rw [st2_v15]
  rw [val1_c0 V0, val1_v11 V0]
  rfl
theorem val2_a5 (V0 : Valuation τ sig (Elt F)) : val2 V0 (Proc.devRef .tc main_arg5) = V0 (Proc.devRef .tc main_arg5) :=
  (val2_keep V0 main_arg5 (by decide)).trans (val1_a5 V0)
theorem val2_a6 (V0 : Valuation τ sig (Elt F)) : val2 V0 (Proc.devRef .tc main_arg6) = V0 (Proc.devRef .tc main_arg6) :=
  (val2_keep V0 main_arg6 (by decide)).trans (val1_a6 V0)
theorem val2_a7 (V0 : Valuation τ sig (Elt F)) : val2 V0 (Proc.devRef .tc main_arg7) = V0 (Proc.devRef .tc main_arg7) :=
  (val2_keep V0 main_arg7 (by decide)).trans (val1_a7 V0)
theorem val2_a8 (V0 : Valuation τ sig (Elt F)) : val2 V0 (Proc.devRef .tc main_arg8) = V0 (Proc.devRef .tc main_arg8) :=
  (val2_keep V0 main_arg8 (by decide)).trans (val1_a8 V0)
theorem val2_a2 (V0 : Valuation τ sig (Elt F)) : val2 V0 (Proc.devRef .tc main_arg2) = V0 (Proc.devRef .tc main_arg2) :=
  (val2_keep V0 main_arg2 (by decide)).trans (val1_a2 V0)
theorem val2_v0 (V0 : Valuation τ sig (Elt F)) : val2 V0 (Proc.devRef .tc main_v0) = res_v0 V0 :=
  (val2_keep V0 main_v0 (by decide)).trans (val1_v0 V0)
theorem val2_a9 (V0 : Valuation τ sig (Elt F)) : val2 V0 (Proc.devRef .tc main_arg9) = V0 (Proc.devRef .tc main_arg9) :=
  (val2_keep V0 main_arg9 (by decide)).trans (val1_a9 V0)
theorem val2_a10 (V0 : Valuation τ sig (Elt F)) : val2 V0 (Proc.devRef .tc main_arg10) = V0 (Proc.devRef .tc main_arg10) :=
  (val2_keep V0 main_arg10 (by decide)).trans (val1_a10 V0)
theorem val2_a11 (V0 : Valuation τ sig (Elt F)) : val2 V0 (Proc.devRef .tc main_arg11) = V0 (Proc.devRef .tc main_arg11) :=
  (val2_keep V0 main_arg11 (by decide)).trans (val1_a11 V0)
theorem val2_a12 (V0 : Valuation τ sig (Elt F)) : val2 V0 (Proc.devRef .tc main_arg12) = V0 (Proc.devRef .tc main_arg12) :=
  (val2_keep V0 main_arg12 (by decide)).trans (val1_a12 V0)
theorem val2_a13 (V0 : Valuation τ sig (Elt F)) : val2 V0 (Proc.devRef .tc main_arg13) = V0 (Proc.devRef .tc main_arg13) :=
  (val2_keep V0 main_arg13 (by decide)).trans (val1_a13 V0)
theorem val2_a14 (V0 : Valuation τ sig (Elt F)) : val2 V0 (Proc.devRef .tc main_arg14) = V0 (Proc.devRef .tc main_arg14) :=
  (val2_keep V0 main_arg14 (by decide)).trans (val1_a14 V0)

/-- The buffers stretch 3 writes. -/
abbrev ops3_W : List (Ref sig .tc) := [main_v16, main_v17, main_v18, main_cst_3, main_v19, main_v20, main_v21, main_v22, main_v23, main_v24, main_v25, main_v26, main_v27, main_v28, main_v29, main_v30, main_v31, main_v32, main_v33, main_v34, main_v35]
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 3 stretches. -/
def val3 (V0 : Valuation τ sig (Elt F)) : Valuation τ sig (Elt F) := after ops3 (val2 V0)
/-- A buffer stretch 3 does not write keeps its contents through it. -/
theorem val3_keep (V0 : Valuation τ sig (Elt F)) (r : Ref sig .tc) (h : r ∉ ops3_W) :
    val3 V0 (Proc.devRef .tc r) = val2 V0 (Proc.devRef .tc r) :=
  after_of_writes_sub ops3 _ ops3_writes h
theorem val3_v35 (V0 : Valuation τ sig (Elt F)) : val3 V0 (Proc.devRef .tc main_v35) = res_v35 V0 := by
  unfold val3
  rw [st3_v35]
  rw [val2_v11 V0, val2_v14 V0, val2_v15 V0, val2_a5 V0, val2_a6 V0, val2_a7 V0, val2_a8 V0]
  rfl
theorem val3_a2 (V0 : Valuation τ sig (Elt F)) : val3 V0 (Proc.devRef .tc main_arg2) = V0 (Proc.devRef .tc main_arg2) :=
  (val3_keep V0 main_arg2 (by decide)).trans (val2_a2 V0)
theorem val3_v0 (V0 : Valuation τ sig (Elt F)) : val3 V0 (Proc.devRef .tc main_v0) = res_v0 V0 :=
  (val3_keep V0 main_v0 (by decide)).trans (val2_v0 V0)
theorem val3_a9 (V0 : Valuation τ sig (Elt F)) : val3 V0 (Proc.devRef .tc main_arg9) = V0 (Proc.devRef .tc main_arg9) :=
  (val3_keep V0 main_arg9 (by decide)).trans (val2_a9 V0)
theorem val3_a10 (V0 : Valuation τ sig (Elt F)) : val3 V0 (Proc.devRef .tc main_arg10) = V0 (Proc.devRef .tc main_arg10) :=
  (val3_keep V0 main_arg10 (by decide)).trans (val2_a10 V0)
theorem val3_a11 (V0 : Valuation τ sig (Elt F)) : val3 V0 (Proc.devRef .tc main_arg11) = V0 (Proc.devRef .tc main_arg11) :=
  (val3_keep V0 main_arg11 (by decide)).trans (val2_a11 V0)
theorem val3_a12 (V0 : Valuation τ sig (Elt F)) : val3 V0 (Proc.devRef .tc main_arg12) = V0 (Proc.devRef .tc main_arg12) :=
  (val3_keep V0 main_arg12 (by decide)).trans (val2_a12 V0)
theorem val3_a13 (V0 : Valuation τ sig (Elt F)) : val3 V0 (Proc.devRef .tc main_arg13) = V0 (Proc.devRef .tc main_arg13) :=
  (val3_keep V0 main_arg13 (by decide)).trans (val2_a13 V0)
theorem val3_a14 (V0 : Valuation τ sig (Elt F)) : val3 V0 (Proc.devRef .tc main_arg14) = V0 (Proc.devRef .tc main_arg14) :=
  (val3_keep V0 main_arg14 (by decide)).trans (val2_a14 V0)

/-- The buffers stretch 4 writes. -/
abbrev ops4_W : List (Ref sig .tc) := [main_call1_cst, main_call1_v0, main_v36]
theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 4 stretches. -/
def val4 (V0 : Valuation τ sig (Elt F)) : Valuation τ sig (Elt F) := after ops4 (val3 V0)
/-- A buffer stretch 4 does not write keeps its contents through it. -/
theorem val4_keep (V0 : Valuation τ sig (Elt F)) (r : Ref sig .tc) (h : r ∉ ops4_W) :
    val4 V0 (Proc.devRef .tc r) = val3 V0 (Proc.devRef .tc r) :=
  after_of_writes_sub ops4 _ ops4_writes h
theorem val4_a2 (V0 : Valuation τ sig (Elt F)) : val4 V0 (Proc.devRef .tc main_arg2) = V0 (Proc.devRef .tc main_arg2) :=
  (val4_keep V0 main_arg2 (by decide)).trans (val3_a2 V0)
theorem val4_v0 (V0 : Valuation τ sig (Elt F)) : val4 V0 (Proc.devRef .tc main_v0) = res_v0 V0 :=
  (val4_keep V0 main_v0 (by decide)).trans (val3_v0 V0)
theorem val4_v36 (V0 : Valuation τ sig (Elt F)) : val4 V0 (Proc.devRef .tc main_v36) = res_v36 V0 := by
  unfold val4
  rw [st4_v36]
  rw [val3_v35 V0]
  rfl
theorem val4_a9 (V0 : Valuation τ sig (Elt F)) : val4 V0 (Proc.devRef .tc main_arg9) = V0 (Proc.devRef .tc main_arg9) :=
  (val4_keep V0 main_arg9 (by decide)).trans (val3_a9 V0)
theorem val4_a10 (V0 : Valuation τ sig (Elt F)) : val4 V0 (Proc.devRef .tc main_arg10) = V0 (Proc.devRef .tc main_arg10) :=
  (val4_keep V0 main_arg10 (by decide)).trans (val3_a10 V0)
theorem val4_a11 (V0 : Valuation τ sig (Elt F)) : val4 V0 (Proc.devRef .tc main_arg11) = V0 (Proc.devRef .tc main_arg11) :=
  (val4_keep V0 main_arg11 (by decide)).trans (val3_a11 V0)
theorem val4_a12 (V0 : Valuation τ sig (Elt F)) : val4 V0 (Proc.devRef .tc main_arg12) = V0 (Proc.devRef .tc main_arg12) :=
  (val4_keep V0 main_arg12 (by decide)).trans (val3_a12 V0)
theorem val4_a13 (V0 : Valuation τ sig (Elt F)) : val4 V0 (Proc.devRef .tc main_arg13) = V0 (Proc.devRef .tc main_arg13) :=
  (val4_keep V0 main_arg13 (by decide)).trans (val3_a13 V0)
theorem val4_a14 (V0 : Valuation τ sig (Elt F)) : val4 V0 (Proc.devRef .tc main_arg14) = V0 (Proc.devRef .tc main_arg14) :=
  (val4_keep V0 main_arg14 (by decide)).trans (val3_a14 V0)

/-- The buffers stretch 5 writes. -/
abbrev ops5_W : List (Ref sig .tc) := [main_v37, main_v38, main_v39, main_v40, main_v41, main_v42, main_cst_4, main_v43, main_cst_5, main_v44, main_v45, main_c_6]
theorem ops5_writes : (ops5 : List (HloOp τ sig (Elt F))).Forall fun op => op.writes ⊆ (ops5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 5 stretches. -/
def val5 (V0 : Valuation τ sig (Elt F)) : Valuation τ sig (Elt F) := after ops5 (val4 V0)
/-- A buffer stretch 5 does not write keeps its contents through it. -/
theorem val5_keep (V0 : Valuation τ sig (Elt F)) (r : Ref sig .tc) (h : r ∉ ops5_W) :
    val5 V0 (Proc.devRef .tc r) = val4 V0 (Proc.devRef .tc r) :=
  after_of_writes_sub ops5 _ ops5_writes h
theorem val5_v42 (V0 : Valuation τ sig (Elt F)) : val5 V0 (Proc.devRef .tc main_v42) = res_v42 V0 := by
  unfold val5
  rw [st5_v42]
  rw [val4_a2 V0, val4_v0 V0, val4_v36 V0, val4_a9 V0, val4_a10 V0]
  rfl
theorem val5_c6 (V0 : Valuation τ sig (Elt F)) : val5 V0 (Proc.devRef .tc main_c_6) = res_c6 V0 := by
  unfold val5
  rw [st5_c6]
  rfl
theorem val5_v45 (V0 : Valuation τ sig (Elt F)) : val5 V0 (Proc.devRef .tc main_v45) = res_v45 V0 := by
  unfold val5
  rw [st5_v45]
  rw [val4_a2 V0, val4_v0 V0, val4_v36 V0, val4_a9 V0, val4_a10 V0]
  rfl
theorem val5_a11 (V0 : Valuation τ sig (Elt F)) : val5 V0 (Proc.devRef .tc main_arg11) = V0 (Proc.devRef .tc main_arg11) :=
  (val5_keep V0 main_arg11 (by decide)).trans (val4_a11 V0)
theorem val5_a12 (V0 : Valuation τ sig (Elt F)) : val5 V0 (Proc.devRef .tc main_arg12) = V0 (Proc.devRef .tc main_arg12) :=
  (val5_keep V0 main_arg12 (by decide)).trans (val4_a12 V0)
theorem val5_a13 (V0 : Valuation τ sig (Elt F)) : val5 V0 (Proc.devRef .tc main_arg13) = V0 (Proc.devRef .tc main_arg13) :=
  (val5_keep V0 main_arg13 (by decide)).trans (val4_a13 V0)
theorem val5_a14 (V0 : Valuation τ sig (Elt F)) : val5 V0 (Proc.devRef .tc main_arg14) = V0 (Proc.devRef .tc main_arg14) :=
  (val5_keep V0 main_arg14 (by decide)).trans (val4_a14 V0)

/-- The buffers stretch 6 writes. -/
abbrev ops6_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v46]
theorem ops6_writes : (ops6 : List (HloOp τ sig (Elt F))).Forall fun op => op.writes ⊆ (ops6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 6 stretches. -/
def val6 (V0 : Valuation τ sig (Elt F)) : Valuation τ sig (Elt F) := after ops6 (val5 V0)
/-- A buffer stretch 6 does not write keeps its contents through it. -/
theorem val6_keep (V0 : Valuation τ sig (Elt F)) (r : Ref sig .tc) (h : r ∉ ops6_W) :
    val6 V0 (Proc.devRef .tc r) = val5 V0 (Proc.devRef .tc r) :=
  after_of_writes_sub ops6 _ ops6_writes h
theorem val6_v45 (V0 : Valuation τ sig (Elt F)) : val6 V0 (Proc.devRef .tc main_v45) = res_v45 V0 :=
  (val6_keep V0 main_v45 (by decide)).trans (val5_v45 V0)
theorem val6_v42 (V0 : Valuation τ sig (Elt F)) : val6 V0 (Proc.devRef .tc main_v42) = res_v42 V0 :=
  (val6_keep V0 main_v42 (by decide)).trans (val5_v42 V0)
theorem val6_v46 (V0 : Valuation τ sig (Elt F)) : val6 V0 (Proc.devRef .tc main_v46) = res_v46 V0 := by
  unfold val6
  rw [st6_v46]
  rw [val5_c6 V0, val5_v42 V0]
  rfl
theorem val6_a11 (V0 : Valuation τ sig (Elt F)) : val6 V0 (Proc.devRef .tc main_arg11) = V0 (Proc.devRef .tc main_arg11) :=
  (val6_keep V0 main_arg11 (by decide)).trans (val5_a11 V0)
theorem val6_a12 (V0 : Valuation τ sig (Elt F)) : val6 V0 (Proc.devRef .tc main_arg12) = V0 (Proc.devRef .tc main_arg12) :=
  (val6_keep V0 main_arg12 (by decide)).trans (val5_a12 V0)
theorem val6_a13 (V0 : Valuation τ sig (Elt F)) : val6 V0 (Proc.devRef .tc main_arg13) = V0 (Proc.devRef .tc main_arg13) :=
  (val6_keep V0 main_arg13 (by decide)).trans (val5_a13 V0)
theorem val6_a14 (V0 : Valuation τ sig (Elt F)) : val6 V0 (Proc.devRef .tc main_arg14) = V0 (Proc.devRef .tc main_arg14) :=
  (val6_keep V0 main_arg14 (by decide)).trans (val5_a14 V0)

/-- The buffers stretch 7 writes. -/
abbrev ops7_W : List (Ref sig .tc) := [main_v47, main_v48, main_v49, main_cst_7, main_v50, main_v51, main_v52, main_v53, main_v54, main_v55, main_v56, main_v57, main_v58, main_v59, main_v60, main_v61]
theorem ops7_writes : (ops7 : List (HloOp τ sig (Elt F))).Forall fun op => op.writes ⊆ (ops7_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 7 stretches. -/
def val7 (V0 : Valuation τ sig (Elt F)) : Valuation τ sig (Elt F) := after ops7 (val6 V0)
/-- A buffer stretch 7 does not write keeps its contents through it. -/
theorem val7_keep (V0 : Valuation τ sig (Elt F)) (r : Ref sig .tc) (h : r ∉ ops7_W) :
    val7 V0 (Proc.devRef .tc r) = val6 V0 (Proc.devRef .tc r) :=
  after_of_writes_sub ops7 _ ops7_writes h
theorem val7_v61 (V0 : Valuation τ sig (Elt F)) : val7 V0 (Proc.devRef .tc main_v61) = res_v61 V0 := by
  unfold val7
  rw [st7_v61]
  rw [val6_v42 V0, val6_v45 V0, val6_v46 V0, val6_a11 V0, val6_a12 V0]
  rfl
theorem val7_a13 (V0 : Valuation τ sig (Elt F)) : val7 V0 (Proc.devRef .tc main_arg13) = V0 (Proc.devRef .tc main_arg13) :=
  (val7_keep V0 main_arg13 (by decide)).trans (val6_a13 V0)
theorem val7_a14 (V0 : Valuation τ sig (Elt F)) : val7 V0 (Proc.devRef .tc main_arg14) = V0 (Proc.devRef .tc main_arg14) :=
  (val7_keep V0 main_arg14 (by decide)).trans (val6_a14 V0)

/-- The buffers stretch 8 writes. -/
abbrev ops8_W : List (Ref sig .tc) := [main_call3_cst, main_call3_v0, main_v62]
theorem ops8_writes : (ops8 : List (HloOp τ sig (Elt F))).Forall fun op => op.writes ⊆ (ops8_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 8 stretches. -/
def val8 (V0 : Valuation τ sig (Elt F)) : Valuation τ sig (Elt F) := after ops8 (val7 V0)
/-- A buffer stretch 8 does not write keeps its contents through it. -/
theorem val8_keep (V0 : Valuation τ sig (Elt F)) (r : Ref sig .tc) (h : r ∉ ops8_W) :
    val8 V0 (Proc.devRef .tc r) = val7 V0 (Proc.devRef .tc r) :=
  after_of_writes_sub ops8 _ ops8_writes h
theorem val8_a13 (V0 : Valuation τ sig (Elt F)) : val8 V0 (Proc.devRef .tc main_arg13) = V0 (Proc.devRef .tc main_arg13) :=
  (val8_keep V0 main_arg13 (by decide)).trans (val7_a13 V0)
theorem val8_v62 (V0 : Valuation τ sig (Elt F)) : val8 V0 (Proc.devRef .tc main_v62) = res_v62 V0 := by
  unfold val8
  rw [st8_v62]
  rw [val7_v61 V0]
  rfl
theorem val8_a14 (V0 : Valuation τ sig (Elt F)) : val8 V0 (Proc.devRef .tc main_arg14) = V0 (Proc.devRef .tc main_arg14) :=
  (val8_keep V0 main_arg14 (by decide)).trans (val7_a14 V0)

/-- The buffers stretch 9 writes. -/
abbrev ops9_W : List (Ref sig .tc) := [main_v63, main_v64, main_v65, main_v66, main_v67]
theorem ops9_writes : (ops9 : List (HloOp τ sig (Elt F))).Forall fun op => op.writes ⊆ (ops9_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 9 stretches. -/
def val9 (V0 : Valuation τ sig (Elt F)) : Valuation τ sig (Elt F) := after ops9 (val8 V0)
/-- A buffer stretch 9 does not write keeps its contents through it. -/
theorem val9_keep (V0 : Valuation τ sig (Elt F)) (r : Ref sig .tc) (h : r ∉ ops9_W) :
    val9 V0 (Proc.devRef .tc r) = val8 V0 (Proc.devRef .tc r) :=
  after_of_writes_sub ops9 _ ops9_writes h
theorem val9_v67 (V0 : Valuation τ sig (Elt F)) : val9 V0 (Proc.devRef .tc main_v67) = res_v67 V0 := by
  unfold val9
  rw [st9_v67]
  rw [val8_v62 V0, val8_a13 V0, val8_a14 V0]
  rfl

/-- The whole line is the nine stretches in order. -/
theorem after_ops (V0 : Valuation τ sig (Elt F)) : after ops V0 = val9 V0 := by
  rw [ops_split]
  simp only [after_append]
  rfl

/-- The result buffer after the line: the last stage. -/
theorem v67_eq (V0 : Valuation τ sig (Elt F)) : after ops V0 (Proc.devRef .tc main_v67) = res_v67 V0 := by
  rw [after_ops]
  exact val9_v67 V0

/-- A buffer no stretch writes keeps its launch contents through the line. -/
theorem kept (V0 : Valuation τ sig (Elt F)) (r : Ref sig .tc) (h1 : r ∉ ops1_W) (h2 : r ∉ ops2_W) (h3 : r ∉ ops3_W) (h4 : r ∉ ops4_W)
    (h5 : r ∉ ops5_W) (h6 : r ∉ ops6_W) (h7 : r ∉ ops7_W) (h8 : r ∉ ops8_W) (h9 : r ∉ ops9_W) :
    after ops V0 (Proc.devRef .tc r) = V0 (Proc.devRef .tc r) := by
  rw [after_ops]
  exact (val9_keep V0 r h9).trans ((val8_keep V0 r h8).trans ((val7_keep V0 r h7).trans ((val6_keep V0 r h6).trans
    ((val5_keep V0 r h5).trans ((val4_keep V0 r h4).trans ((val3_keep V0 r h3).trans ((val2_keep V0 r h2).trans (val1_keep V0 r h1))))))))

end Cert.ReferenceIdeal.RefValue

end
-- ==== Proof.RefRun.lean ====
/-
  The reference program's run: every weakly fair execution of its main function terminates, the result buffer ends at
  the last stage of the launch contents (`refVal`) and the fifteen argument arrays end as launched. The argument
  arrays are also named here as plain families of extended reals over literal index types.
-/
import proofs.«144968_g33105607918058_cont_8to1_b_384_44_alg».proof.Proof.RefChain
import Idealize.ShloMosaic.Lib.ValueIdx

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

/-- The argument array of the class distributions, entry by entry. -/
def aDist : Fin 20000 → Fin 36 → EReal := fun i j =>
  (m ((c.tc : Thread nD τ).loc main_arg0) : S20000x36.Idx → EReal) (ix2 i j)

/-- The argument array of the box rows, entry by entry. -/
def aBoxes : Fin 20000 → Fin 5 → EReal := fun i j =>
  (m ((c.tc : Thread nD τ).loc main_arg1) : S20000x5.Idx → EReal) (ix2 i j)

/-- The argument array of the visual features, entry by entry. -/
def aFeat : Fin 20000 → Fin 2048 → EReal := fun i j =>
  (m ((c.tc : Thread nD τ).loc main_arg2) : S20000x2048.Idx → EReal) (ix2 i j)

/-- The argument array of the object embedding table, entry by entry. -/
def aObjw : Fin 36 → Fin 200 → EReal := fun i j =>
  (m ((c.tc : Thread nD τ).loc main_arg4) : S36x200.Idx → EReal) (ix2 i j)

/-- The argument array of the first normalisation's gain, entry by entry. -/
def aG4 : Fin 4 → EReal := fun i =>
  (m ((c.tc : Thread nD τ).loc main_arg5) : S4.Idx → EReal) (ix1 i)

/-- The argument array of the first normalisation's bias, entry by entry. -/
def aBe4 : Fin 4 → EReal := fun i =>
  (m ((c.tc : Thread nD τ).loc main_arg6) : S4.Idx → EReal) (ix1 i)

/-- The argument array of the position layer's weight, entry by entry. -/
def aPosW : Fin 128 → Fin 4 → EReal := fun i j =>
  (m ((c.tc : Thread nD τ).loc main_arg7) : S128x4.Idx → EReal) (ix2 i j)

/-- The argument array of the position layer's bias, entry by entry. -/
def aPosb : Fin 128 → EReal := fun i =>
  (m ((c.tc : Thread nD τ).loc main_arg8) : S128.Idx → EReal) (ix1 i)

/-- The argument array of the hidden layer's weight, entry by entry. -/
def aW1 : Fin 1024 → Fin 2376 → EReal := fun i j =>
  (m ((c.tc : Thread nD τ).loc main_arg9) : S1024x2376.Idx → EReal) (ix2 i j)

/-- The argument array of the hidden layer's bias, entry by entry. -/
def aB1 : Fin 1024 → EReal := fun i =>
  (m ((c.tc : Thread nD τ).loc main_arg10) : S1024.Idx → EReal) (ix1 i)

/-- The argument array of the second normalisation's gain, entry by entry. -/
def aG2 : Fin 1024 → EReal := fun i =>
  (m ((c.tc : Thread nD τ).loc main_arg11) : S1024.Idx → EReal) (ix1 i)

/-- The argument array of the second normalisation's bias, entry by entry. -/
def aBe2 : Fin 1024 → EReal := fun i =>
  (m ((c.tc : Thread nD τ).loc main_arg12) : S1024.Idx → EReal) (ix1 i)

/-- The argument array of the output layer's weight, entry by entry. -/
def aW2 : Fin 37 → Fin 1024 → EReal := fun i j =>
  (m ((c.tc : Thread nD τ).loc main_arg13) : S37x1024.Idx → EReal) (ix2 i j)

/-- The argument array of the output layer's bias, entry by entry. -/
def aB2 : Fin 37 → EReal := fun i =>
  (m ((c.tc : Thread nD τ).loc main_arg14) : S37.Idx → EReal) (ix1 i)

/-- The reference's result on device `c`: the last stage of that device's contents at launch. -/
def refVal : Buf (Elt Ideal) ((c.tc : Thread nD τ).loc main_v67) :=
  res_v67 (F := Ideal) (launchContents m c)

/-- Every weakly fair execution of the reference's main function terminates without a fault; the result buffer ends at
    `refVal` and every argument array as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v67) = refVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_v67).trans (v67_eq _),
      (h c main_arg0).trans (kept _ main_arg0 (by decide) (by decide) (by decide) (by decide) (by decide) (by decide) (by decide) (by decide) (by decide)),
      (h c main_arg1).trans (kept _ main_arg1 (by decide) (by decide) (by decide) (by decide) (by decide) (by decide) (by decide) (by decide) (by decide)),
      (h c main_arg2).trans (kept _ main_arg2 (by decide) (by decide) (by decide) (by decide) (by decide) (by decide) (by decide) (by decide) (by decide)),
      (h c main_arg3).trans (kept _ main_arg3 (by decide) (by decide) (by decide) (by decide) (by decide) (by decide) (by decide) (by decide) (by decide)),
      (h c main_arg4).trans (kept _ main_arg4 (by decide) (by decide) (by decide) (by decide) (by decide) (by decide) (by decide) (by decide) (by decide)),
      (h c main_arg5).trans (kept _ main_arg5 (by decide) (by decide) (by decide) (by decide) (by decide) (by decide) (by decide) (by decide) (by decide)),
      (h c main_arg6).trans (kept _ main_arg6 (by decide) (by decide) (by decide) (by decide) (by decide) (by decide) (by decide) (by decide) (by decide)),
      (h c main_arg7).trans (kept _ main_arg7 (by decide) (by decide) (by decide) (by decide) (by decide) (by decide) (by decide) (by decide) (by decide)),
      (h c main_arg8).trans (kept _ main_arg8 (by decide) (by decide) (by decide) (by decide) (by decide) (by decide) (by decide) (by decide) (by decide)),
      (h c main_arg9).trans (kept _ main_arg9 (by decide) (by decide) (by decide) (by decide) (by decide) (by decide) (by decide) (by decide) (by decide)),
      (h c main_arg10).trans (kept _ main_arg10 (by decide) (by decide) (by decide) (by decide) (by decide) (by decide) (by decide) (by decide) (by decide)),
      (h c main_arg11).trans (kept _ main_arg11 (by decide) (by decide) (by decide) (by decide) (by decide) (by decide) (by decide) (by decide) (by decide)),
      (h c main_arg12).trans (kept _ main_arg12 (by decide) (by decide) (by decide) (by decide) (by decide) (by decide) (by decide) (by decide) (by decide)),
      (h c main_arg13).trans (kept _ main_arg13 (by decide) (by decide) (by decide) (by decide) (by decide) (by decide) (by decide) (by decide) (by decide)),
      (h c main_arg14).trans (kept _ main_arg14 (by decide) (by decide) (by decide) (by decide) (by decide) (by decide) (by decide) (by decide) (by decide))⟩)
    (run_seq scopedRefs_eq scopedSems_eq defs main (fun _ => ops) main_eq (fun _ => ops_sub) m ρ)

/-- The same run with the result dropped: the argument arrays end as launched. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run m ρ)

end Cert.ReferenceIdeal.RefValue

end
-- ==== Proof.LibColRow.lean ====
/-
  A vector viewed as a one-column or a one-row matrix, spelt two ways.

  A kernel's wrapper reshapes an `[a]` vector to an `[a, 1]` column (or a `[b]` vector to a `[1, b]` row) before it
  hands it to a kernel; a jnp reference that writes `v[:, None]` or adds a bias row broadcasts the vector in
  dimensions, along axis 0 (or axis 1). Both are the same array: entry `(p, 0)` of the column is `v p`, entry `(0, q)`
  of the row is `v q`. Also here: a column broadcast in dimensions along every row's entries, and a row along every
  row, read at an index written by coordinates (the host's companions of the kernel-side broadcasts of a column and of
  a row).
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` vector broadcast in dimensions along axis 0 of `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A `[b]` vector broadcast in dimensions along axis 1 of `[1, b]` reads, at `(u, q)`, the vector at `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- The column of a vector: the cast to `[a, 1]` is the broadcast in dimensions along axis 0. -/
theorem shapeCast_col_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext i
  obtain ⟨p, u, rfl⟩ : ∃ (p : Fin a) (u : Fin 1), i = ix2 p u := ⟨i 0, i 1, eq_ix2 i⟩
  rw [broadcastInDim_a_a1_apply]
  refine shapeCast_apply x hc _ _ ?_
  have hu : u.val = 0 := by omega
  rw [Shape.rowMajor_val_two, Shape.rowMajor_val_one]
  show p.val = p.val * 1 + u.val
  rw [hu, Nat.mul_one, Nat.add_zero]

/-- The row of a vector: the cast to `[1, b]` is the broadcast in dimensions along axis 1. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext i
  obtain ⟨u, q, rfl⟩ : ∃ (u : Fin 1) (q : Fin b), i = ix2 u q := ⟨i 0, i 1, eq_ix2 i⟩
  rw [broadcastInDim_b_1b_apply, shapeCast_a_1a_apply]

/-- An `[a, 1]` column broadcast in dimensions to `[a, b]` reads, at `(p, q)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast in dimensions to `[a, b]` reads, at `(p, q)`, the row's entry of column `q`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

end Idealize.ShloMosaic.ValueIdx
-- ==== Proof.RefReadLib.lean ====
/-
  What the reference's operations read at an entry, at the exact instance and at this program's literal shapes: a column
  sum is the sum down the column (the zero word denotes zero), a vector spread as a row down every row reads the vector
  at the column, each of the four matrix products is the sum over its one contracted axis, and the variance's divisor
  — the word for 20000 less the integer zero converted — is that word, which is positive.
-/
import proofs.«144968_g33105607918058_cont_8to1_b_384_44_alg».proof.Proof.Gen.ReferenceIdeal
import proofs.«144968_g33105607918058_cont_8to1_b_384_44_alg».proof.Proof.LibColRow
import proofs.«144968_g33105607918058_cont_8to1_b_384_44_alg».proof.Proof.LibDense
import Idealize.ShloMosaic.Lib.IdealHost
import Idealize.ShloMosaic.Lib.KernelVsHost
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The word 0x469C4000 denotes the real 20000. -/
theorem ofBits_20000 : Ideal.ofBits .f32 0x469C4000#32 = ((20000 : ℝ) : EReal) := by
  simp [Ideal.ofBits, Ideal.ieee, -EReal.coe_mul]; norm_num

/-- The variance's divisor: 20000 less the integer zero converted to a float is 20000. -/
theorem count_eq (c0 : IVec S_ 32) (hc : c0 = constantI S_ 32 0#32) :
    subf (constant (F := Ideal) S_ .f32 0x469C4000#32) (sitofp (F := Ideal) .f32 c0) ix0 = Ideal.ofBits .f32 0x469C4000#32 := by
  subst hc
  rw [subf_apply, constant_apply, sitofp_apply]
  show Ideal.ofBits .f32 0x469C4000#32 - (Scalar.sitofp .f32 (0#32 : BitVec 32) : Ideal .f32) = _
  rw [sitofp_zero, sub_zero]

/-- 20000 is above zero: the comparison that guards the variance's quotient is true. -/
theorem count_pos : Ideal.cmp .ogt (Ideal.ofBits .f32 0x469C4000#32) (Ideal.ofBits .f32 0x00000000#32) = 1#1 := by
  rw [ofBits_20000, Ideal.ofBits_zero_f32]
  show BitVec.ofBool (decide ((0 : EReal) < ((20000 : ℝ) : EReal))) = 1#1
  rw [decide_eq_true (by exact_mod_cast (by norm_num : (0 : ℝ) < 20000))]
  rfl

/-- A vector spread as a one-row matrix and that row spread down every row reads, at (p, q), the vector at q. -/
theorem rowcast_apply {α : Type} {a b : ℕ} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1])
    (p : Fin a) (q : Fin b) :
    broadcastInDim ⟨2, ![a, b]⟩ ![0, 1] h2 (broadcastInDim ⟨2, ![1, b]⟩ ![1] h1 x) (ix2 p q) = x (ix1 q) := by
  rw [broadcastInDim_1b_ab_apply, broadcastInDim_b_1b_apply]

/-- The column sums of a 20000-row array from the zero word: entry k is the sum of column k. -/
theorem sum4 (x : FVec Ideal S20000x4 .f32) (k : Fin 4) :
    Host.reduceAdd (F := Ideal) x (constant (F := Ideal) S_ .f32 0x00000000#32) reducesTo_S20000x4_S4_d0 h_S_ (ix1 k)
      = ∑ n : Fin 20000, x (ix2 n k) := by
  rw [hostReduceAdd_apply, Ideal.hostReduceAdd_single reducesTo_S20000x4_S4_d0 (by decide), constant_apply,
    Ideal.ofBits_zero_f32, zero_add]
  refine Finset.sum_congr rfl fun n _ => ?_
  exact congrArg x (funext fun a => Fin.ext (by match a with | ⟨0, _⟩ => rfl | ⟨1, _⟩ => rfl))

/-- The column sums of a 20000-row array from the zero word: entry k is the sum of column k. -/
theorem sum1024 (x : FVec Ideal S20000x1024 .f32) (k : Fin 1024) :
    Host.reduceAdd (F := Ideal) x (constant (F := Ideal) S_ .f32 0x00000000#32) reducesTo_S20000x1024_S1024_d0 h_S_ (ix1 k)
      = ∑ n : Fin 20000, x (ix2 n k) := by
  rw [hostReduceAdd_apply, Ideal.hostReduceAdd_single reducesTo_S20000x1024_S1024_d0 (by decide), constant_apply,
    Ideal.ofBits_zero_f32, zero_add]
  refine Finset.sum_congr rfl fun n _ => ?_
  exact congrArg x (funext fun a => Fin.ext (by match a with | ⟨0, _⟩ => rfl | ⟨1, _⟩ => rfl))

/-- The class distributions times the embedding table, entry by entry. -/
theorem dot_obj (l : FVec Ideal S20000x36 .f32) (r : FVec Ideal S36x200 .f32) (n : Fin 20000) (j : Fin 200) :
    Host.dotGeneral (F := Ideal) dot_S20000x36_S36x200_S20000x200_1_0_0_1_n_n none l r (ix2 n j) = ∑ k : Fin 36, l (ix2 n k) * r (ix2 k j) :=
  Cert.Dense.dotGeneral_eq dot_S20000x36_S36x200_S20000x200_1_0_0_1_n_n rfl rfl
    (fun i q => by
      unfold DotDims.lhsIdx
      rw [dif_neg (show ¬(0 : Fin S20000x36.rank) ∈ dot_S20000x36_S36x200_S20000x200_1_0_0_1_n_n.lhsBatch by decide),
        dif_pos (show (0 : Fin S20000x36.rank) ∈ dot_S20000x36_S36x200_S20000x200_1_0_0_1_n_n.lhsNonContracting by decide)]
      rfl)
    (fun i q => dot_S20000x36_S36x200_S20000x200_1_0_0_1_n_n.lhsIdx_val_of_single rfl i q)
    (fun i q => dot_S20000x36_S36x200_S20000x200_1_0_0_1_n_n.rhsIdx_val_of_single rfl i q)
    (fun i q => by
      unfold DotDims.rhsIdx
      rw [dif_neg (show ¬(1 : Fin S36x200.rank) ∈ dot_S20000x36_S36x200_S20000x200_1_0_0_1_n_n.rhsBatch by decide),
        dif_pos (show (1 : Fin S36x200.rank) ∈ dot_S20000x36_S36x200_S20000x200_1_0_0_1_n_n.rhsNonContracting by decide)]
      rfl)
    none .single l r (ix2 n j)

/-- The normalised features times the transposed position weight, entry by entry. -/
theorem dot_pos (l : FVec Ideal S20000x4 .f32) (r : FVec Ideal S4x128 .f32) (n : Fin 20000) (j : Fin 128) :
    Host.dotGeneral (F := Ideal) dot_S20000x4_S4x128_S20000x128_1_0_0_1_n_n none l r (ix2 n j) = ∑ k : Fin 4, l (ix2 n k) * r (ix2 k j) :=
  Cert.Dense.dotGeneral_eq dot_S20000x4_S4x128_S20000x128_1_0_0_1_n_n rfl rfl
    (fun i q => by
      unfold DotDims.lhsIdx
      rw [dif_neg (show ¬(0 : Fin S20000x4.rank) ∈ dot_S20000x4_S4x128_S20000x128_1_0_0_1_n_n.lhsBatch by decide),
        dif_pos (show (0 : Fin S20000x4.rank) ∈ dot_S20000x4_S4x128_S20000x128_1_0_0_1_n_n.lhsNonContracting by decide)]
      rfl)
    (fun i q => dot_S20000x4_S4x128_S20000x128_1_0_0_1_n_n.lhsIdx_val_of_single rfl i q)
    (fun i q => dot_S20000x4_S4x128_S20000x128_1_0_0_1_n_n.rhsIdx_val_of_single rfl i q)
    (fun i q => by
      unfold DotDims.rhsIdx
      rw [dif_neg (show ¬(1 : Fin S4x128.rank) ∈ dot_S20000x4_S4x128_S20000x128_1_0_0_1_n_n.rhsBatch by decide),
        dif_pos (show (1 : Fin S4x128.rank) ∈ dot_S20000x4_S4x128_S20000x128_1_0_0_1_n_n.rhsNonContracting by decide)]
      rfl)
    none .single l r (ix2 n j)

/-- The concatenated features times the transposed hidden weight, entry by entry. -/
theorem dot_z (l : FVec Ideal S20000x2376 .f32) (r : FVec Ideal S2376x1024 .f32) (n : Fin 20000) (j : Fin 1024) :
    Host.dotGeneral (F := Ideal) dot_S20000x2376_S2376x1024_S20000x1024_1_0_0_1_n_n none l r (ix2 n j) = ∑ k : Fin 2376, l (ix2 n k) * r (ix2 k j) :=
  Cert.Dense.dotGeneral_eq dot_S20000x2376_S2376x1024_S20000x1024_1_0_0_1_n_n rfl rfl
    (fun i q => by
      unfold DotDims.lhsIdx
      rw [dif_neg (show ¬(0 : Fin S20000x2376.rank) ∈ dot_S20000x2376_S2376x1024_S20000x1024_1_0_0_1_n_n.lhsBatch by decide),
        dif_pos (show (0 : Fin S20000x2376.rank) ∈ dot_S20000x2376_S2376x1024_S20000x1024_1_0_0_1_n_n.lhsNonContracting by decide)]
      rfl)
    (fun i q => dot_S20000x2376_S2376x1024_S20000x1024_1_0_0_1_n_n.lhsIdx_val_of_single rfl i q)
    (fun i q => dot_S20000x2376_S2376x1024_S20000x1024_1_0_0_1_n_n.rhsIdx_val_of_single rfl i q)
    (fun i q => by
      unfold DotDims.rhsIdx
      rw [dif_neg (show ¬(1 : Fin S2376x1024.rank) ∈ dot_S20000x2376_S2376x1024_S20000x1024_1_0_0_1_n_n.rhsBatch by decide),
        dif_pos (show (1 : Fin S2376x1024.rank) ∈ dot_S20000x2376_S2376x1024_S20000x1024_1_0_0_1_n_n.rhsNonContracting by decide)]
      rfl)
    none .single l r (ix2 n j)

/-- The hidden activation times the transposed output weight, entry by entry. -/
theorem dot_out (l : FVec Ideal S20000x1024 .f32) (r : FVec Ideal S1024x37 .f32) (n : Fin 20000) (j : Fin 37) :
    Host.dotGeneral (F := Ideal) dot_S20000x1024_S1024x37_S20000x37_1_0_0_1_n_n none l r (ix2 n j) = ∑ k : Fin 1024, l (ix2 n k) * r (ix2 k j) :=
  Cert.Dense.dotGeneral_eq dot_S20000x1024_S1024x37_S20000x37_1_0_0_1_n_n rfl rfl
    (fun i q => by
      unfold DotDims.lhsIdx
      rw [dif_neg (show ¬(0 : Fin S20000x1024.rank) ∈ dot_S20000x1024_S1024x37_S20000x37_1_0_0_1_n_n.lhsBatch by decide),
        dif_pos (show (0 : Fin S20000x1024.rank) ∈ dot_S20000x1024_S1024x37_S20000x37_1_0_0_1_n_n.lhsNonContracting by decide)]
      rfl)
    (fun i q => dot_S20000x1024_S1024x37_S20000x37_1_0_0_1_n_n.lhsIdx_val_of_single rfl i q)
    (fun i q => dot_S20000x1024_S1024x37_S20000x37_1_0_0_1_n_n.rhsIdx_val_of_single rfl i q)
    (fun i q => by
      unfold DotDims.rhsIdx
      rw [dif_neg (show ¬(1 : Fin S1024x37.rank) ∈ dot_S20000x1024_S1024x37_S20000x37_1_0_0_1_n_n.rhsBatch by decide),
        dif_pos (show (1 : Fin S1024x37.rank) ∈ dot_S20000x1024_S1024x37_S20000x37_1_0_0_1_n_n.rhsNonContracting by decide)]
      rfl)
    none .single l r (ix2 n j)

end Cert.ReferenceIdeal.RefValue

end
-- ==== Proof.RefRead1.lean ====
/-
  The reference's first stages read at an entry: the object embedding as a sum over the 36 classes, the boxes' extents
  and centre-size features from the box rows, and the batch normalisation of the four features (column means, deviations,
  variance, standard deviation, scale and shift).
-/
import proofs.«144968_g33105607918058_cont_8to1_b_384_44_alg».proof.Proof.RefStages
import proofs.«144968_g33105607918058_cont_8to1_b_384_44_alg».proof.Proof.RefReadLib

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The object embedding at (n, e): the sum over the classes d of the distribution at (n, d) times the table at (d, e). -/
theorem v0_apply (a0 : FVec Ideal S20000x36 .f32) (a4 : FVec Ideal S36x200 .f32) (n : Fin 20000) (e : Fin 200) :
    st_v0 (F := Ideal) a0 a4 (ix2 n e) = ∑ d : Fin 36, a0 (ix2 n d) * a4 (ix2 d e) := by
  unfold st_v0
  exact dot_obj a0 a4 n e

/-- The extent k of box n: column 3 + k of its row less column 1 + k, plus the word for one. -/
theorem v6_apply (a1 : FVec Ideal S20000x5 .f32) (n : Fin 20000) (k : Fin 2) :
    st_v6 (F := Ideal) a1 (ix2 n k) = (a1 (ix2 n (⟨k.val + 3, by omega⟩ : Fin 5)) - a1 (ix2 n (⟨k.val + 1, by omega⟩ : Fin 5)))
      + Ideal.ofBits .f32 0x3F800000#32 := by
  unfold st_v6
  rw [addf_apply, subf_apply, broadcastInDim_scalar_apply, constant_apply]
  rw [extractStridedSlice_apply ![0, 2] _ slices_S20000x4_S20000x2_0_2 (ix2 n k) (ix2 n (⟨k.val + 2, by omega⟩ : Fin 4))
        (fun a => by match a with | ⟨0, _⟩ => exact (Nat.zero_add _).symm | ⟨1, _⟩ => exact Nat.add_comm _ _),
    extractStridedSlice_apply ![0, 1] a1 slices_S20000x5_S20000x4_0_1 (ix2 n (⟨k.val + 2, by omega⟩ : Fin 4)) (ix2 n (⟨k.val + 3, by omega⟩ : Fin 5))
        (fun a => by match a with | ⟨0, _⟩ => exact (Nat.zero_add _).symm | ⟨1, _⟩ => show k.val + 3 = 1 + (k.val + 2); omega),
    extractStridedSlice_apply ![0, 0] _ slices_S20000x4_S20000x2_0_0 (ix2 n k) (ix2 n (⟨k.val, by omega⟩ : Fin 4))
        (fun a => by match a with | ⟨0, _⟩ => exact (Nat.zero_add _).symm | ⟨1, _⟩ => exact (Nat.zero_add _).symm),
    extractStridedSlice_apply ![0, 1] a1 slices_S20000x5_S20000x4_0_1 (ix2 n (⟨k.val, by omega⟩ : Fin 4)) (ix2 n (⟨k.val + 1, by omega⟩ : Fin 5))
        (fun a => by match a with | ⟨0, _⟩ => exact (Nat.zero_add _).symm | ⟨1, _⟩ => exact Nat.add_comm _ _)]

/-- The first two centre-size features: the low corner's coordinate plus one half of the extent. -/
theorem v11_apply_lo (a1 : FVec Ideal S20000x5 .f32) (v6 : FVec Ideal S20000x2 .f32) (n : Fin 20000) (k : Fin 4) (h : k.val < 2) :
    st_v11 (F := Ideal) a1 v6 (ix2 n k)
      = a1 (ix2 n (⟨k.val + 1, by omega⟩ : Fin 5)) + Ideal.ofBits .f32 0x3F000000#32 * v6 (ix2 n (⟨k.val, h⟩ : Fin 2)) := by
  unfold st_v11
  rw [concatenate_pair_apply_left _ _ _ concatenates_S20000x2_S20000x2_S20000x4_d1 (ix2 n k) rfl (ix2 n (⟨k.val, h⟩ : Fin 2))
        (fun b => by match b with | ⟨0, _⟩ => rfl | ⟨1, _⟩ => rfl)]
  rw [addf_apply, mulf_apply, broadcastInDim_scalar_apply, constant_apply]
  rw [extractStridedSlice_apply ![0, 0] _ slices_S20000x4_S20000x2_0_0 (ix2 n (⟨k.val, h⟩ : Fin 2)) (ix2 n (⟨k.val, by omega⟩ : Fin 4))
        (fun a => by match a with | ⟨0, _⟩ => exact (Nat.zero_add _).symm | ⟨1, _⟩ => exact (Nat.zero_add _).symm),
    extractStridedSlice_apply ![0, 1] a1 slices_S20000x5_S20000x4_0_1 (ix2 n (⟨k.val, by omega⟩ : Fin 4)) (ix2 n (⟨k.val + 1, by omega⟩ : Fin 5))
        (fun a => by match a with | ⟨0, _⟩ => exact (Nat.zero_add _).symm | ⟨1, _⟩ => exact Nat.add_comm _ _)]

/-- The last two centre-size features: the extents. -/
theorem v11_apply_hi (a1 : FVec Ideal S20000x5 .f32) (v6 : FVec Ideal S20000x2 .f32) (n : Fin 20000) (k : Fin 4) (h : ¬k.val < 2) :
    st_v11 (F := Ideal) a1 v6 (ix2 n k) = v6 (ix2 n (⟨k.val - 2, by omega⟩ : Fin 2)) := by
  unfold st_v11
  exact concatenate_pair_apply_right _ _ _ concatenates_S20000x2_S20000x2_S20000x4_d1 (ix2 n k) rfl rfl
    (ix2 n (⟨k.val - 2, by omega⟩ : Fin 2))
    (fun b hb => by match b with | ⟨0, _⟩ => rfl | ⟨1, _⟩ => exact absurd rfl hb)
    (by show k.val - 2 + 2 = k.val; omega)

/-- The column means: the column sums over the word for 20000. -/
theorem v14_apply (x : FVec Ideal S20000x4 .f32) (k : Fin 4) :
    st_v14 (F := Ideal) x (ix1 k) = Ideal.div (∑ n : Fin 20000, x (ix2 n k)) (Ideal.ofBits .f32 0x469C4000#32) := by
  unfold st_v14
  rw [hostDivf_apply, sum4, broadcastInDim_scalar_apply, constant_apply]

/-- The variance's divisor is the word for 20000. -/
theorem k0v8_apply (c0 : IVec S_ 32) (hc : c0 = constantI S_ 32 0#32) :
    st_k0v8 (F := Ideal) c0 ix0 = Ideal.ofBits .f32 0x469C4000#32 := by
  unfold st_k0v8
  exact count_eq c0 hc

/-- The deviations: each entry less its column's mean. -/
theorem k0v5_apply (x : FVec Ideal S20000x4 .f32) (n : Fin 20000) (k : Fin 4) :
    st_k0v5 (F := Ideal) x (ix2 n k)
      = x (ix2 n k) - Ideal.div (∑ n' : Fin 20000, x (ix2 n' k)) (Ideal.ofBits .f32 0x469C4000#32) := by
  unfold st_k0v5
  rw [subf_apply, broadcastInDim_1b_ab_apply, hostDivf_apply, broadcastInDim_b_1b_apply, sum4, broadcastInDim_scalar_apply,
    constant_apply]

/-- The batch variance: the divisor is positive, so the guarded quotient is the quotient — the column sums of the squared
    deviations over 20000. -/
theorem v15_apply (cnt : FVec Ideal S_ .f32) (dev : FVec Ideal S20000x4 .f32) (hc : cnt ix0 = Ideal.ofBits .f32 0x469C4000#32) (k : Fin 4) :
    st_v15 (F := Ideal) cnt dev (ix1 k)
      = Ideal.div (∑ n : Fin 20000, dev (ix2 n k) * dev (ix2 n k)) (Ideal.ofBits .f32 0x469C4000#32) := by
  unfold st_v15
  rw [select_apply, broadcastInDim_scalar_apply bcast_S_S4 (cmpf .ogt cnt _), cmpf_apply, constant_apply, hc, Ideal.cmpf_def, count_pos,
    select_one, hostDivf_apply, sum4, broadcastInDim_scalar_apply bcast_S_S4 cnt, hc]
  simp only [mulf_apply]

/-- The standard deviations: square root of variance plus epsilon. -/
theorem v21_apply (v : FVec Ideal S4 .f32) (k : Fin 4) :
    st_v21 (F := Ideal) v (ix1 k) = Ideal.sqrt (v (ix1 k) + Ideal.ofBits .f32 0x3727C5AC#32) := by
  unfold st_v21
  show FloatOps.hostUnary .sqrt (addf v _ (ix1 k)) = _
  rw [Ideal.hostUnary_sqrt_def, addf_apply, broadcastInDim_scalar_apply, constant_apply]

/-- The normalisation: deviation from the mean over the standard deviation, times the gain, plus the bias. -/
theorem v30_apply (x : FVec Ideal S20000x4 .f32) (mu sd g b : FVec Ideal S4 .f32) (n : Fin 20000) (k : Fin 4) :
    st_v30 (F := Ideal) x mu sd g b (ix2 n k)
      = Ideal.div (x (ix2 n k) - mu (ix1 k)) (sd (ix1 k)) * g (ix1 k) + b (ix1 k) := by
  unfold st_v30
  rw [addf_apply, mulf_apply, hostDivf_apply, subf_apply, rowcast_apply, rowcast_apply, rowcast_apply, rowcast_apply]

end Cert.ReferenceIdeal.RefValue

end
-- ==== Proof.RefRead2.lean ====
/-
  The reference's middle stages read at an entry: the position layer (four products and the bias), its relu, the
  concatenated features by the three ranges of the column, and the hidden layer's pre-activation as one sum over the 2376
  columns plus the bias.
-/
import proofs.«144968_g33105607918058_cont_8to1_b_384_44_alg».proof.Proof.RefStages
import proofs.«144968_g33105607918058_cont_8to1_b_384_44_alg».proof.Proof.RefReadLib

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The position layer's pre-activation at (n, j): the four normalised features of box n against row j of the weight, plus the bias at j. -/
theorem v35_apply (x : FVec Ideal S20000x4 .f32) (w : FVec Ideal S128x4 .f32) (b : FVec Ideal S128 .f32) (n : Fin 20000) (j : Fin 128) :
    st_v35 (F := Ideal) x w b (ix2 n j) = (∑ k : Fin 4, x (ix2 n k) * w (ix2 j k)) + b (ix1 j) := by
  unfold st_v35
  rw [addf_apply, dot_pos, rowcast_apply]
  refine congrArg (· + _) (Finset.sum_congr rfl fun k _ => ?_)
  rw [transpose_ix2_apply]

/-- The relu: each entry against zero (the zero word denotes zero). -/
theorem v36_apply (x : FVec Ideal S20000x128 .f32) (i : S20000x128.Idx) : st_v36 (F := Ideal) x i = max (x i) 0 := by
  unfold st_v36
  rw [maximumf_apply, broadcastInDim_scalar_apply, constant_apply, Ideal.ofBits_zero_f32]

/-- Columns below 2048 are the visual features. -/
theorem v37_apply_feat (a2 : FVec Ideal S20000x2048 .f32) (v0 : FVec Ideal S20000x200 .f32) (v36 : FVec Ideal S20000x128 .f32)
    (n : Fin 20000) (q : Fin 2376) (h : q.val < 2048) :
    st_v37 (F := Ideal) a2 v0 v36 (ix2 n q) = a2 (ix2 n (⟨q.val - 0, by omega⟩ : Fin 2048)) := by
  unfold st_v37
  exact concatenate_apply_piece (1 : Fin S20000x2376.rank)
    ([⟨S20000x2048, a2⟩, ⟨S20000x200, v0⟩, ⟨S20000x128, v36⟩] : List ((s : Shape) × (s.Idx → EReal))) concatenates_S20000x2048_S20000x200_S20000x128_S20000x2376_d1 (ix2 n q) 0 (by show 0 < 3; omega) S20000x2048 a2 rfl rfl 0 rfl
    (ix2 n (⟨q.val - 0, by omega⟩ : Fin 2048))
    (fun b hb => by match b with | ⟨0, _⟩ => rfl | ⟨1, _⟩ => exact absurd rfl hb)
    (by show 0 + (q.val - 0) = q.val; omega)

/-- Columns from 2048 below 2248 are the object embedding. -/
theorem v37_apply_obj (a2 : FVec Ideal S20000x2048 .f32) (v0 : FVec Ideal S20000x200 .f32) (v36 : FVec Ideal S20000x128 .f32)
    (n : Fin 20000) (q : Fin 2376) (h : ¬q.val < 2048) (h' : q.val < 2248) :
    st_v37 (F := Ideal) a2 v0 v36 (ix2 n q) = v0 (ix2 n (⟨q.val - 2048, by omega⟩ : Fin 200)) := by
  unfold st_v37
  exact concatenate_apply_piece (1 : Fin S20000x2376.rank)
    ([⟨S20000x2048, a2⟩, ⟨S20000x200, v0⟩, ⟨S20000x128, v36⟩] : List ((s : Shape) × (s.Idx → EReal))) concatenates_S20000x2048_S20000x200_S20000x128_S20000x2376_d1 (ix2 n q) 1 (by show 1 < 3; omega) S20000x200 v0 rfl rfl 2048 rfl
    (ix2 n (⟨q.val - 2048, by omega⟩ : Fin 200))
    (fun b hb => by match b with | ⟨0, _⟩ => rfl | ⟨1, _⟩ => exact absurd rfl hb)
    (by show 2048 + (q.val - 2048) = q.val; omega)

/-- Columns from 2248 on are the position embedding. -/
theorem v37_apply_pos (a2 : FVec Ideal S20000x2048 .f32) (v0 : FVec Ideal S20000x200 .f32) (v36 : FVec Ideal S20000x128 .f32)
    (n : Fin 20000) (q : Fin 2376) (h : ¬q.val < 2048) (h' : ¬q.val < 2248) :
    st_v37 (F := Ideal) a2 v0 v36 (ix2 n q) = v36 (ix2 n (⟨q.val - 2248, by omega⟩ : Fin 128)) := by
  unfold st_v37
  exact concatenate_apply_piece (1 : Fin S20000x2376.rank)
    ([⟨S20000x2048, a2⟩, ⟨S20000x200, v0⟩, ⟨S20000x128, v36⟩] : List ((s : Shape) × (s.Idx → EReal))) concatenates_S20000x2048_S20000x200_S20000x128_S20000x2376_d1 (ix2 n q) 2 (by show 2 < 3; omega) S20000x128 v36 rfl rfl 2248 rfl
    (ix2 n (⟨q.val - 2248, by omega⟩ : Fin 128))
    (fun b hb => by match b with | ⟨0, _⟩ => rfl | ⟨1, _⟩ => exact absurd rfl hb)
    (by show 2248 + (q.val - 2248) = q.val; omega)

/-- The hidden pre-activation at (n, c): the 2376 concatenated features of box n against row c of the weight, plus the bias at c. -/
theorem v42_apply (x : FVec Ideal S20000x2376 .f32) (w : FVec Ideal S1024x2376 .f32) (b : FVec Ideal S1024 .f32) (n : Fin 20000) (j : Fin 1024) :
    st_v42 (F := Ideal) x w b (ix2 n j) = (∑ k : Fin 2376, x (ix2 n k) * w (ix2 j k)) + b (ix1 j) := by
  unfold st_v42
  rw [addf_apply, dot_z, rowcast_apply]
  refine congrArg (· + _) (Finset.sum_congr rfl fun k _ => ?_)
  rw [transpose_ix2_apply]

end Cert.ReferenceIdeal.RefValue

end
-- ==== Proof.RefRead3.lean ====
/-
  The reference's last stages read at an entry: the batch normalisation of the hidden pre-activation's 1024 columns, its
  relu, and the class scores as a sum over the 1024 hidden units plus the bias.
-/
import proofs.«144968_g33105607918058_cont_8to1_b_384_44_alg».proof.Proof.RefStages
import proofs.«144968_g33105607918058_cont_8to1_b_384_44_alg».proof.Proof.RefReadLib

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The column means: the column sums over the word for 20000. -/
theorem v45_apply (x : FVec Ideal S20000x1024 .f32) (k : Fin 1024) :
    st_v45 (F := Ideal) x (ix1 k) = Ideal.div (∑ n : Fin 20000, x (ix2 n k)) (Ideal.ofBits .f32 0x469C4000#32) := by
  unfold st_v45
  rw [hostDivf_apply, sum1024, broadcastInDim_scalar_apply, constant_apply]

/-- The variance's divisor is the word for 20000. -/
theorem k2v8_apply (c0 : IVec S_ 32) (hc : c0 = constantI S_ 32 0#32) :
    st_k2v8 (F := Ideal) c0 ix0 = Ideal.ofBits .f32 0x469C4000#32 := by
  unfold st_k2v8
  exact count_eq c0 hc

/-- The deviations: each entry less its column's mean. -/
theorem k2v5_apply (x : FVec Ideal S20000x1024 .f32) (n : Fin 20000) (k : Fin 1024) :
    st_k2v5 (F := Ideal) x (ix2 n k)
      = x (ix2 n k) - Ideal.div (∑ n' : Fin 20000, x (ix2 n' k)) (Ideal.ofBits .f32 0x469C4000#32) := by
  unfold st_k2v5
  rw [subf_apply, broadcastInDim_1b_ab_apply, hostDivf_apply, broadcastInDim_b_1b_apply, sum1024, broadcastInDim_scalar_apply,
    constant_apply]

/-- The batch variance: the divisor is positive, so the guarded quotient is the quotient — the column sums of the squared
    deviations over 20000. -/
theorem v46_apply (cnt : FVec Ideal S_ .f32) (dev : FVec Ideal S20000x1024 .f32) (hc : cnt ix0 = Ideal.ofBits .f32 0x469C4000#32) (k : Fin 1024) :
    st_v46 (F := Ideal) cnt dev (ix1 k)
      = Ideal.div (∑ n : Fin 20000, dev (ix2 n k) * dev (ix2 n k)) (Ideal.ofBits .f32 0x469C4000#32) := by
  unfold st_v46
  rw [select_apply, broadcastInDim_scalar_apply bcast_S_S1024 (cmpf .ogt cnt _), cmpf_apply, constant_apply, hc, Ideal.cmpf_def, count_pos,
    select_one, hostDivf_apply, sum1024, broadcastInDim_scalar_apply bcast_S_S1024 cnt, hc]
  simp only [mulf_apply]

/-- The standard deviations: square root of variance plus epsilon. -/
theorem v52_apply (v : FVec Ideal S1024 .f32) (k : Fin 1024) :
    st_v52 (F := Ideal) v (ix1 k) = Ideal.sqrt (v (ix1 k) + Ideal.ofBits .f32 0x3727C5AC#32) := by
  unfold st_v52
  show FloatOps.hostUnary .sqrt (addf v _ (ix1 k)) = _
  rw [Ideal.hostUnary_sqrt_def, addf_apply, broadcastInDim_scalar_apply, constant_apply]

/-- The normalisation: deviation from the mean over the standard deviation, times the gain, plus the bias. -/
theorem v61_apply (x : FVec Ideal S20000x1024 .f32) (mu sd g b : FVec Ideal S1024 .f32) (n : Fin 20000) (k : Fin 1024) :
    st_v61 (F := Ideal) x mu sd g b (ix2 n k)
      = Ideal.div (x (ix2 n k) - mu (ix1 k)) (sd (ix1 k)) * g (ix1 k) + b (ix1 k) := by
  unfold st_v61
  rw [addf_apply, mulf_apply, hostDivf_apply, subf_apply, rowcast_apply, rowcast_apply, rowcast_apply, rowcast_apply]

/-- The relu: each entry against zero (the zero word denotes zero). -/
theorem v62_apply (x : FVec Ideal S20000x1024 .f32) (i : S20000x1024.Idx) : st_v62 (F := Ideal) x i = max (x i) 0 := by
  unfold st_v62
  rw [maximumf_apply, broadcastInDim_scalar_apply, constant_apply, Ideal.ofBits_zero_f32]

/-- The class score at (n, o): the 1024 hidden activations of box n against row o of the weight, plus the bias at o. -/
theorem v67_apply (x : FVec Ideal S20000x1024 .f32) (w : FVec Ideal S37x1024 .f32) (b : FVec Ideal S37 .f32) (n : Fin 20000) (j : Fin 37) :
    st_v67 (F := Ideal) x w b (ix2 n j) = (∑ k : Fin 1024, x (ix2 n k) * w (ix2 j k)) + b (ix1 j) := by
  unfold st_v67
  rw [addf_apply, dot_out, rowcast_apply]
  refine congrArg (· + _) (Finset.sum_congr rfl fun k _ => ?_)
  rw [transpose_ix2_apply]

end Cert.ReferenceIdeal.RefValue

end
-- ==== Proof.RefApply.lean ====
/-
  The reference's value is the reference's formula. Each stage of the run, chained from a device's contents at launch
  and read at an entry, is the corresponding function of `Cert.Spec.R` of the argument arrays taken as plain families:
  the centre-size features and their batch statistics, the position and object embeddings, the concatenated features,
  the hidden layer and its batch statistics, and the class scores.
-/
import proofs.«144968_g33105607918058_cont_8to1_b_384_44_alg».proof.Proof.RefRun
import proofs.«144968_g33105607918058_cont_8to1_b_384_44_alg».proof.Proof.RefRead1
import proofs.«144968_g33105607918058_cont_8to1_b_384_44_alg».proof.Proof.RefRead2
import proofs.«144968_g33105607918058_cont_8to1_b_384_44_alg».proof.Proof.RefRead3
import proofs.«144968_g33105607918058_cont_8to1_b_384_44_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

open Cert.Spec

section
variable (V0 : Valuation τ sig (Elt Ideal))

/-- Argument array `main_arg0` of the contents `V0` as a plain family. -/
abbrev fDist : Fin 20000 → Fin 36 → EReal := fun i j =>
  (V0 (Proc.devRef .tc main_arg0) : S20000x36.Idx → EReal) (ix2 i j)

/-- Argument array `main_arg1` of the contents `V0` as a plain family. -/
abbrev fBoxes : Fin 20000 → Fin 5 → EReal := fun i j =>
  (V0 (Proc.devRef .tc main_arg1) : S20000x5.Idx → EReal) (ix2 i j)

/-- Argument array `main_arg2` of the contents `V0` as a plain family. -/
abbrev fFeat : Fin 20000 → Fin 2048 → EReal := fun i j =>
  (V0 (Proc.devRef .tc main_arg2) : S20000x2048.Idx → EReal) (ix2 i j)

/-- Argument array `main_arg4` of the contents `V0` as a plain family. -/
abbrev fObjw : Fin 36 → Fin 200 → EReal := fun i j =>
  (V0 (Proc.devRef .tc main_arg4) : S36x200.Idx → EReal) (ix2 i j)

/-- Argument array `main_arg5` of the contents `V0` as a plain family. -/
abbrev fG4 : Fin 4 → EReal := fun i =>
  (V0 (Proc.devRef .tc main_arg5) : S4.Idx → EReal) (ix1 i)

/-- Argument array `main_arg6` of the contents `V0` as a plain family. -/
abbrev fBe4 : Fin 4 → EReal := fun i =>
  (V0 (Proc.devRef .tc main_arg6) : S4.Idx → EReal) (ix1 i)

/-- Argument array `main_arg7` of the contents `V0` as a plain family. -/
abbrev fPosW : Fin 128 → Fin 4 → EReal := fun i j =>
  (V0 (Proc.devRef .tc main_arg7) : S128x4.Idx → EReal) (ix2 i j)

/-- Argument array `main_arg8` of the contents `V0` as a plain family. -/
abbrev fPosb : Fin 128 → EReal := fun i =>
  (V0 (Proc.devRef .tc main_arg8) : S128.Idx → EReal) (ix1 i)

/-- Argument array `main_arg9` of the contents `V0` as a plain family. -/
abbrev fW1 : Fin 1024 → Fin 2376 → EReal := fun i j =>
  (V0 (Proc.devRef .tc main_arg9) : S1024x2376.Idx → EReal) (ix2 i j)

/-- Argument array `main_arg10` of the contents `V0` as a plain family. -/
abbrev fB1 : Fin 1024 → EReal := fun i =>
  (V0 (Proc.devRef .tc main_arg10) : S1024.Idx → EReal) (ix1 i)

/-- Argument array `main_arg11` of the contents `V0` as a plain family. -/
abbrev fG2 : Fin 1024 → EReal := fun i =>
  (V0 (Proc.devRef .tc main_arg11) : S1024.Idx → EReal) (ix1 i)

/-- Argument array `main_arg12` of the contents `V0` as a plain family. -/
abbrev fBe2 : Fin 1024 → EReal := fun i =>
  (V0 (Proc.devRef .tc main_arg12) : S1024.Idx → EReal) (ix1 i)

/-- Argument array `main_arg13` of the contents `V0` as a plain family. -/
abbrev fW2 : Fin 37 → Fin 1024 → EReal := fun i j =>
  (V0 (Proc.devRef .tc main_arg13) : S37x1024.Idx → EReal) (ix2 i j)

/-- Argument array `main_arg14` of the contents `V0` as a plain family. -/
abbrev fB2 : Fin 37 → EReal := fun i =>
  (V0 (Proc.devRef .tc main_arg14) : S37.Idx → EReal) (ix1 i)

theorem res_v6_apply (n : Fin 20000) (k : Fin 2) : res_v6 V0 (ix2 n k) = wh (fBoxes V0) n k := by
  unfold res_v6
  rw [v6_apply]
  rfl

theorem res_v11_apply (n : Fin 20000) (k : Fin 4) : res_v11 V0 (ix2 n k) = cs (fBoxes V0) n k := by
  unfold res_v11 cs
  by_cases h : k.val < 2
  · rw [dif_pos h, v11_apply_lo _ _ _ _ h, res_v6_apply]
    rfl
  · rw [dif_neg h, v11_apply_hi _ _ _ _ h, res_v6_apply]

theorem res_v14_apply (k : Fin 4) : res_v14 V0 (ix1 k) = mu4 (fBoxes V0) k := by
  unfold res_v14 mu4
  rw [v14_apply]
  simp only [res_v11_apply]

theorem res_k0v5_apply (n : Fin 20000) (k : Fin 4) :
    res_k0v5 V0 (ix2 n k) = cs (fBoxes V0) n k - mu4 (fBoxes V0) k := by
  unfold res_k0v5 mu4
  rw [k0v5_apply]
  simp only [res_v11_apply]

theorem res_v15_apply (k : Fin 4) : res_v15 V0 (ix1 k) = R.var4 (fBoxes V0) k := by
  unfold res_v15 R.var4
  rw [v15_apply (res_k0v8 V0) (res_k0v5 V0) (k0v8_apply (res_c0 V0) rfl)]
  simp only [res_k0v5_apply]

theorem res_v21_apply (k : Fin 4) : res_v21 V0 (ix1 k) = Ideal.sqrt (R.var4 (fBoxes V0) k + cEps) := by
  unfold res_v21
  rw [v21_apply, res_v15_apply]

theorem res_v30_apply (n : Fin 20000) (k : Fin 4) : res_v30 V0 (ix2 n k) = R.bn4 (fBoxes V0) (fG4 V0) (fBe4 V0) n k := by
  unfold res_v30 R.bn4
  rw [v30_apply, res_v11_apply, res_v14_apply, res_v21_apply]

theorem res_v36_apply (n : Fin 20000) (j : Fin 128) : res_v36 V0 (ix2 n j) = R.pos (fBoxes V0) (fG4 V0) (fBe4 V0) (fPosW V0) (fPosb V0) n j := by
  unfold res_v36 res_v35 R.pos
  rw [v36_apply, v35_apply]
  simp only [res_v30_apply]

theorem res_v0_apply (n : Fin 20000) (e : Fin 200) : res_v0 V0 (ix2 n e) = R.obj (fDist V0) (fObjw V0) n e := by
  unfold res_v0 R.obj
  rw [v0_apply]

theorem res_v37_apply (n : Fin 20000) (q : Fin 2376) : res_v37 V0 (ix2 n q) = R.cat (fDist V0) (fBoxes V0) (fFeat V0) (fObjw V0) (fG4 V0) (fBe4 V0) (fPosW V0) (fPosb V0) n q := by
  unfold res_v37 R.cat
  by_cases h : q.val < 2048
  · rw [dif_pos h, v37_apply_feat _ _ _ _ _ h]
    rfl
  · by_cases h' : q.val < 2248
    · rw [dif_neg h, dif_pos h', v37_apply_obj _ _ _ _ _ h h', res_v0_apply]
    · rw [dif_neg h, dif_neg h', v37_apply_pos _ _ _ _ _ h h', res_v36_apply]

theorem res_v42_apply (n : Fin 20000) (c : Fin 1024) : res_v42 V0 (ix2 n c) = R.z (fDist V0) (fBoxes V0) (fFeat V0) (fObjw V0) (fG4 V0) (fBe4 V0) (fPosW V0) (fPosb V0) (fW1 V0) (fB1 V0) n c := by
  unfold res_v42 R.z
  rw [v42_apply]
  simp only [res_v37_apply]

theorem res_v45_apply (c : Fin 1024) : res_v45 V0 (ix1 c) = R.mu2 (fDist V0) (fBoxes V0) (fFeat V0) (fObjw V0) (fG4 V0) (fBe4 V0) (fPosW V0) (fPosb V0) (fW1 V0) (fB1 V0) c := by
  unfold res_v45 R.mu2
  rw [v45_apply]
  simp only [res_v42_apply]

theorem res_k2v5_apply (n : Fin 20000) (c : Fin 1024) :
    res_k2v5 V0 (ix2 n c) = R.z (fDist V0) (fBoxes V0) (fFeat V0) (fObjw V0) (fG4 V0) (fBe4 V0) (fPosW V0) (fPosb V0) (fW1 V0) (fB1 V0) n c - R.mu2 (fDist V0) (fBoxes V0) (fFeat V0) (fObjw V0) (fG4 V0) (fBe4 V0) (fPosW V0) (fPosb V0) (fW1 V0) (fB1 V0) c := by
  unfold res_k2v5 R.mu2
  rw [k2v5_apply]
  simp only [res_v42_apply]

theorem res_v46_apply (c : Fin 1024) : res_v46 V0 (ix1 c) = R.var2 (fDist V0) (fBoxes V0) (fFeat V0) (fObjw V0) (fG4 V0) (fBe4 V0) (fPosW V0) (fPosb V0) (fW1 V0) (fB1 V0) c := by
  unfold res_v46 R.var2
  rw [v46_apply (res_k2v8 V0) (res_k2v5 V0) (k2v8_apply (res_c6 V0) rfl)]
  simp only [res_k2v5_apply]

theorem res_v52_apply (c : Fin 1024) : res_v52 V0 (ix1 c) = Ideal.sqrt (R.var2 (fDist V0) (fBoxes V0) (fFeat V0) (fObjw V0) (fG4 V0) (fBe4 V0) (fPosW V0) (fPosb V0) (fW1 V0) (fB1 V0) c + cEps) := by
  unfold res_v52
  rw [v52_apply, res_v46_apply]

theorem res_v61_apply (n : Fin 20000) (c : Fin 1024) : res_v61 V0 (ix2 n c) = R.h (fDist V0) (fBoxes V0) (fFeat V0) (fObjw V0) (fG4 V0) (fBe4 V0) (fPosW V0) (fPosb V0) (fW1 V0) (fB1 V0) (fG2 V0) (fBe2 V0) n c := by
  unfold res_v61 R.h
  rw [v61_apply, res_v42_apply, res_v45_apply, res_v52_apply]

theorem res_v67_apply (n : Fin 20000) (o : Fin 37) : res_v67 V0 (ix2 n o) = R.out (fDist V0) (fBoxes V0) (fFeat V0) (fObjw V0) (fG4 V0) (fBe4 V0) (fPosW V0) (fPosb V0) (fW1 V0) (fB1 V0) (fG2 V0) (fBe2 V0) (fW2 V0) (fB2 V0) n o := by
  unfold res_v67 res_v62 R.out
  rw [v67_apply]
  simp only [v62_apply, res_v61_apply]

end

/-- The reference's result at entry (n, o) is the reference's formula of the argument arrays. -/
theorem refVal_apply (m : (ℓ : Loc nD τ sig) → Buf (Elt Ideal) ℓ) (c : Dev nD) (n : Fin 20000) (o : Fin 37) :
    refVal m c (ix2 n o) = Cert.Spec.R.out (aDist m c) (aBoxes m c) (aFeat m c) (aObjw m c) (aG4 m c) (aBe4 m c) (aPosW m c)
      (aPosb m c) (aW1 m c) (aB1 m c) (aG2 m c) (aBe2 m c) (aW2 m c) (aB2 m c) n o :=
  res_v67_apply (launchContents m c) n o

end Cert.ReferenceIdeal.RefValue

end
-- ==== Proof.lean ====
/-
  An object classifier's training forward path on 20000 boxes — centre-size features of the boxes, a batch
  normalisation over the rows, a 4 → 128 position layer with relu, a 2376 → 1024 hidden layer on the concatenated
  visual, object and position features, a second batch normalisation with relu, and a 1024 → 37 output layer —
  computed by three kernels in sequence against one plain array program.

  The kernel side: the first kernel folds the boxes' statistics, the centre-size map and the first normalisation
  into a 5 x 128 matrix and a bias row acting on the raw box rows; the second forms the hidden pre-activation in blocks of
  1000 rows as three products plus a bias, with per-block column sums and sums of squares; the third recovers the mean and
  the variance (mean of squares minus squared mean) from the twenty partial sums, scales, shifts, applies relu and
  the last layer in blocks of 2000 rows. Its run, with the result buffer named, is the launch over its six segments; each
  region's output arrays are whole-array functions of the arrays the region finds (the blocks tile the arrays); read back
  through the host stretches, entry (n, o) of the result is the kernel's formula `Spec.K.out` of the argument arrays.

  The reference side: its straight line of host operations, the outlined variance and relu functions written out at
  their calls, run stretch by stretch; entry (n, o) of its result is the reference's formula `Spec.R.out`.

  The two formulas agree on real arguments: variance as mean of squared deviations equals mean of squares minus squared
  mean; x · rsqrt v = x / sqrt v for v > 0; the folded matrix and bias row collect the terms of the four-feature sum;
  the 2376-term sum splits into 2048 + 200 + 128 terms, the middle part re-associated; the sum over 20000 rows is the sum
  of twenty block sums. Each of these laws fails at infinities, and the precondition — every float input finite — is what
  makes every entry a real number. The integer label array passes through unchanged. No operation was rewritten by
  the idealization, so the preservation claim has nothing to state.
-/
import proofs.«144968_g33105607918058_cont_8to1_b_384_44_alg».proof.Defs
import proofs.«144968_g33105607918058_cont_8to1_b_384_44_alg».proof.Proof.Gen.Kernel
import proofs.«144968_g33105607918058_cont_8to1_b_384_44_alg».proof.Proof.Gen.Kernel.Frame
import proofs.«144968_g33105607918058_cont_8to1_b_384_44_alg».proof.Proof.Gen.KernelIdeal
import proofs.«144968_g33105607918058_cont_8to1_b_384_44_alg».proof.Proof.Gen.KernelIdeal.Frame
import proofs.«144968_g33105607918058_cont_8to1_b_384_44_alg».proof.Proof.Gen.ReferenceIdeal
import proofs.«144968_g33105607918058_cont_8to1_b_384_44_alg».proof.Proof.Gen.Pre_finite_inputs
import proofs.«144968_g33105607918058_cont_8to1_b_384_44_alg».proof.Proof.KRun
import proofs.«144968_g33105607918058_cont_8to1_b_384_44_alg».proof.Proof.KValue
import proofs.«144968_g33105607918058_cont_8to1_b_384_44_alg».proof.Proof.AlgOut
import proofs.«144968_g33105607918058_cont_8to1_b_384_44_alg».proof.Proof.PreFin
import proofs.«144968_g33105607918058_cont_8to1_b_384_44_alg».proof.Proof.RefRun
import proofs.«144968_g33105607918058_cont_8to1_b_384_44_alg».proof.Proof.RefApply
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- Every entry of the fourteen float argument arrays is a real number, from the precondition on one device. -/
theorem families_real [Cert.Pre_finite_inputs.Facts]
    (m : (ℓ : Loc Cert.KernelIdeal.nD Cert.KernelIdeal.τ Cert.KernelIdeal.sig) → Buf (Elt Ideal) ℓ) (c : Dev Cert.KernelIdeal.nD)
    (h : Cert.Pre_finite_inputs.fn (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) = fun _ => 1#1) :
    Cert.Spec.Fin2 (Cert.KernelIdeal.KChain.aDist m c) ∧ Cert.Spec.Fin2 (Cert.KernelIdeal.KChain.aBoxes m c) ∧ Cert.Spec.Fin2 (Cert.KernelIdeal.KChain.aFeat m c)
    ∧ Cert.Spec.Fin2 (Cert.KernelIdeal.KChain.aObjw m c) ∧ Cert.Spec.Fin1 (Cert.KernelIdeal.KChain.aG4 m c) ∧ Cert.Spec.Fin1 (Cert.KernelIdeal.KChain.aBe4 m c)
    ∧ Cert.Spec.Fin2 (Cert.KernelIdeal.KChain.aPosW m c) ∧ Cert.Spec.Fin1 (Cert.KernelIdeal.KChain.aPosb m c) ∧ Cert.Spec.Fin2 (Cert.KernelIdeal.KChain.aW1 m c)
    ∧ Cert.Spec.Fin1 (Cert.KernelIdeal.KChain.aB1 m c) ∧ Cert.Spec.Fin1 (Cert.KernelIdeal.KChain.aG2 m c) ∧ Cert.Spec.Fin1 (Cert.KernelIdeal.KChain.aBe2 m c)
    ∧ Cert.Spec.Fin2 (Cert.KernelIdeal.KChain.aW2 m c) ∧ Cert.Spec.Fin1 (Cert.KernelIdeal.KChain.aB2 m c) := by
  obtain ⟨h0, h1, h2, h4, h5, h6, h7, h8, h9, h10, h11, h12, h13, h14⟩ := Cert.PreFin.real_of_pre _ _ _ _ _ _ _ _ _ _ _ _ _ _ _ h
  exact ⟨fun i j => h0 (ix2 i j), fun i j => h1 (ix2 i j), fun i j => h2 (ix2 i j), fun i j => h4 (ix2 i j), fun i => h5 (ix1 i), fun i => h6 (ix1 i),
    fun i j => h7 (ix2 i j), fun i => h8 (ix1 i), fun i j => h9 (ix2 i j), fun i => h10 (ix1 i), fun i => h11 (ix1 i), fun i => h12 (ix1 i),
    fun i j => h13 (ix2 i j), fun i => h14 (ix1 i)⟩

theorem claim : Cert.Claim := by
  refine ⟨Cert.Kernel.Gen.facts, Cert.KernelIdeal.Gen.facts, Cert.ReferenceIdeal.Gen.facts, Cert.Pre_finite_inputs.Gen.facts, ?_, ?_, ?_, trivial, ?_⟩
  · exact fun m ρ _ => Cert.Kernel.Gen.frame m ρ
  · exact fun m ρ _ => Cert.KernelIdeal.Gen.frame m ρ
  · exact fun m ρ _ => Cert.ReferenceIdeal.RefValue.frame m ρ
  · intro m ρ m' ρ' hpre hagree
    refine ⟨fun c => Cert.KernelIdeal.Gen.W6 m ρ c (Proc.devRef .tc Cert.KernelIdeal.main_v19),
      fun c => m ((c.tc : Thread Cert.KernelIdeal.nD Cert.KernelIdeal.τ).loc Cert.KernelIdeal.main_arg3), ?_, ?_⟩
    · exact (θ_run _ _ _).mono (fun r h c => ⟨(h c).1, (h c).2.2.2.2.1, (h c).2⟩) (Cert.KernelIdeal.KRun.run (F := Ideal) m ρ)
    · refine (θ_run _ _ _).mono (fun r h c => ⟨(h c).1.trans ?_, (h c).2.2.2.2.1.trans (hagree c).2.2.2.1, (h c).2⟩)
        (Cert.ReferenceIdeal.RefValue.run m' ρ')
      show (Cert.ReferenceIdeal.RefValue.refVal m' c : Cert.ReferenceIdeal.S20000x37.Idx → EReal)
        = (Cert.KernelIdeal.Gen.W6 m ρ c (Proc.devRef .tc Cert.KernelIdeal.main_v19) : Cert.KernelIdeal.S20000x37.Idx → EReal)
      funext i
      obtain ⟨n, o, rfl⟩ : ∃ (n : Fin 20000) (o : Fin 37), i = ix2 n o := ⟨i 0, i 1, eq_ix2 i⟩
      obtain ⟨f0, f1, f2, f4, f5, f6, f7, f8, f9, f10, f11, f12, f13, f14⟩ := families_real m c (hpre c)
      obtain ⟨g0, g1, g2, g3, g4, g5, g6, g7, g8, g9, g10, g11, g12, g13, g14⟩ := hagree c
      have e0 : Cert.ReferenceIdeal.RefValue.aDist m' c = Cert.KernelIdeal.KChain.aDist m c := funext fun a => funext fun b => congrFun g0 (ix2 a b)
      have e1 : Cert.ReferenceIdeal.RefValue.aBoxes m' c = Cert.KernelIdeal.KChain.aBoxes m c := funext fun a => funext fun b => congrFun g1 (ix2 a b)
      have e2 : Cert.ReferenceIdeal.RefValue.aFeat m' c = Cert.KernelIdeal.KChain.aFeat m c := funext fun a => funext fun b => congrFun g2 (ix2 a b)
      have e4 : Cert.ReferenceIdeal.RefValue.aObjw m' c = Cert.KernelIdeal.KChain.aObjw m c := funext fun a => funext fun b => congrFun g4 (ix2 a b)
      have e5 : Cert.ReferenceIdeal.RefValue.aG4 m' c = Cert.KernelIdeal.KChain.aG4 m c := funext fun a => congrFun g5 (ix1 a)
      have e6 : Cert.ReferenceIdeal.RefValue.aBe4 m' c = Cert.KernelIdeal.KChain.aBe4 m c := funext fun a => congrFun g6 (ix1 a)
      have e7 : Cert.ReferenceIdeal.RefValue.aPosW m' c = Cert.KernelIdeal.KChain.aPosW m c := funext fun a => funext fun b => congrFun g7 (ix2 a b)
      have e8 : Cert.ReferenceIdeal.RefValue.aPosb m' c = Cert.KernelIdeal.KChain.aPosb m c := funext fun a => congrFun g8 (ix1 a)
      have e9 : Cert.ReferenceIdeal.RefValue.aW1 m' c = Cert.KernelIdeal.KChain.aW1 m c := funext fun a => funext fun b => congrFun g9 (ix2 a b)
      have e10 : Cert.ReferenceIdeal.RefValue.aB1 m' c = Cert.KernelIdeal.KChain.aB1 m c := funext fun a => congrFun g10 (ix1 a)
      have e11 : Cert.ReferenceIdeal.RefValue.aG2 m' c = Cert.KernelIdeal.KChain.aG2 m c := funext fun a => congrFun g11 (ix1 a)
      have e12 : Cert.ReferenceIdeal.RefValue.aBe2 m' c = Cert.KernelIdeal.KChain.aBe2 m c := funext fun a => congrFun g12 (ix1 a)
      have e13 : Cert.ReferenceIdeal.RefValue.aW2 m' c = Cert.KernelIdeal.KChain.aW2 m c := funext fun a => funext fun b => congrFun g13 (ix2 a b)
      have e14 : Cert.ReferenceIdeal.RefValue.aB2 m' c = Cert.KernelIdeal.KChain.aB2 m c := funext fun a => congrFun g14 (ix1 a)
      refine (Cert.ReferenceIdeal.RefValue.refVal_apply m' c n o).trans ?_
      rw [e0, e1, e2, e4, e5, e6, e7, e8, e9, e10, e11, e12, e13, e14]
      refine Eq.trans ?_ (Cert.KernelIdeal.KValue.result_apply m ρ c n o).symm
      exact (Cert.Spec.K_out_eq_R_out _ _ _ _ _ _ _ _ _ _ _ _ _ _ f0 f1 f2 f4 f5 f6 f7 f8 f9 f10 f11 f12 f13 f14 n o).symm

end Cert.Proof

end
